-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x1 : Shape := ⟨2, ![1600000, 1]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S32 .f32) (main_arg12 : FVec F S32x10 .f32) (main_arg13 : FVec F S10 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x10 .f32 := Host.absf main_arg12
  let main_cst_22 : FVec F S_ .f32 := constant S_ .f32 0x7F800000#32
  let main_v60 : FVec F S32x10 .f32 := broadcastInDim S32x10 ![] bcast_S_S32x10 main_cst_22
  let main_v61 : IVec S32x10 1 := cmpf .olt main_v59 main_v60
  let main_c_23 : IVec S_ 1 := constantI S_ 1 1#1
  let main_v62 : IVec S_ 1 := (fun x v => Host.reduce IntOp.andi x v reducesTo_S32x10_S_d0_1 h_S_) main_v61 main_c_23
  let main_v63 : IVec S_ 1 := andi main_v58 main_v62
  let main_v64 : FVec F S10 .f32 := Host.absf main_arg13
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg7 : FVec F S4x128 .f32) (main_arg8 : FVec F S128x64 .f32) (main_arg9 : FVec F S64 .f32) (main_arg10 : FVec F S64x32 .f32) (main_arg11 : FVec F S32 .f32) (main_arg12 : FVec F S32x10 .f32) (main_arg13 : FVec F S10 .f32) (main_v33 : IVec S_ 1) : IVec S_ 1 :=
  let main_v34 : FVec F S4x128 .f32 := Host.absf main_arg7
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg10
  let main_cst_18 : FVec F S_ .f32 := constant S_ .f32 0x7F800000#32
  let main_v50 : FVec F S64x32 .f32 := broadcastInDim S64x32 ![] bcast_S_S64x32 main_cst_18
  fn_part3 (F := F) main_arg11 main_arg12 main_arg13 main_v48 main_v49 main_v50

def fn_part1 {F : FTy → Type} [FloatOps F] (main_arg4 : FVec F S4x128x128 .f32) (main_arg5 : FVec F S4x128 .f32) (main_arg6 : FVec F S4x128 .f32) (main_arg7 : FVec F S4x128 .f32) (main_arg8 : FVec F S128x64 .f32) (main_arg9 : FVec F S64 .f32) (main_arg10 : FVec F S64x32 .f32) (main_arg11 : FVec F S32 .f32) (main_arg12 : FVec F S32x10 .f32) (main_arg13 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg6
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x128 .f32) (main_arg1 : FVec F S1600000x1 .f32) (main_arg2 : FVec F S128x128 .f32) (main_arg3 : FVec F S128 .f32) (main_arg4 : FVec F S4x128x128 .f32) (main_arg5 : FVec F S4x128 .f32) (main_arg6 : FVec F S4x128 .f32) (main_arg7 : FVec F S4x128 .f32) (main_arg8 : FVec F S128x64 .f32) (main_arg9 : FVec F S64 .f32) (main_arg10 : FVec F S64x32 .f32) (main_arg11 : FVec F S32 .f32) (main_arg12 : FVec F S32x10 .f32) (main_arg13 : FVec F S10 .f32) (main_arg14 : IVec S1600000 32) (main_arg15 : IVec S1600000 32) (main_arg16 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x1 .f32 := Host.absf main_arg1
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x128 : Shape := ⟨2, ![100000, 128]⟩
abbrev S1600000x1 : Shape := ⟨2, ![1600000, 1]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1600000 : Shape := ⟨1, ![1600000]⟩
abbrev S100000 : Shape := ⟨1, ![100000]⟩
abbrev S_ : Shape := ⟨0, ![]⟩
abbrev S100000x1 : Shape := ⟨2, ![100000, 1]⟩
abbrev S1x128 : Shape := ⟨2, ![1, 128]⟩
abbrev S2000x128 : Shape := ⟨2, ![2000, 128]⟩
abbrev S2000x1 : Shape := ⟨2, ![2000, 1]⟩
abbrev S1600000x128 : Shape := ⟨2, ![1600000, 128]⟩
abbrev S1x128x128 : Shape := ⟨3, ![1, 128, 128]⟩
abbrev S50x1x128 : Shape := ⟨3, ![50, 1, 128]⟩
abbrev S1x1x128 : Shape := ⟨3, ![1, 1, 128]⟩
abbrev S128x1 : Shape := ⟨2, ![128, 1]⟩
abbrev S1x64 : Shape := ⟨2, ![1, 64]⟩
abbrev S1x32 : Shape := ⟨2, ![1, 32]⟩
abbrev S1x10 : Shape := ⟨2, ![1, 10]⟩
abbrev S128x10 : Shape := ⟨2, ![128, 10]⟩
abbrev S128x32 : Shape := ⟨2, ![128, 32]⟩

abbrev nBuf : Space → Nat
  | .hbm => 243
  | .vmem => 122
  | .smem => 0
  | _ => 0

abbrev hbmTy0_0 (i : Nat) : BufTy := match i % 128 with
  | 0 => ⟨S100000x128, .f32⟩
  | 1 => ⟨S1600000x1, .f32⟩
  | 2 => ⟨S128x128, .f32⟩
  | 3 => ⟨S128, .f32⟩
  | 4 => ⟨S4x128x128, .f32⟩
  | 5 => ⟨S4x128, .f32⟩
  | 6 => ⟨S4x128, .f32⟩
  | 7 => ⟨S4x128, .f32⟩
  | 8 => ⟨S128x64, .f32⟩
  | 9 => ⟨S64, .f32⟩
  | 10 => ⟨S64x32, .f32⟩
  | 11 => ⟨S32, .f32⟩
  | 12 => ⟨S32x10, .f32⟩
  | 13 => ⟨S10, .f32⟩
  | 14 => ⟨S1600000, .i32⟩
  | 15 => ⟨S1600000, .i32⟩
  | 16 => ⟨S100000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S_, .f32⟩
  | 25 => ⟨S100000, .f32⟩
  | 26 => ⟨S100000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S_, .f32⟩
  | 33 => ⟨S100000, .f32⟩
  | 34 => ⟨S100000, .f32⟩
  | 35 => ⟨S100000, .f32⟩
  | 36 => ⟨S100000x1, .f32⟩
  | 37 => ⟨S100000, .f32⟩
  | 38 => ⟨S100000x1, .f32⟩
  | 39 => ⟨S1x128, .f32⟩
  | 40 => ⟨S100000x128, .f32⟩
  | 41 => ⟨S100000x128, .bf16⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .bf16⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S1x128x128, .f32⟩
  | 57 => ⟨S128x128, .f32⟩
  | 58 => ⟨S1x128, .f32⟩
  | 59 => ⟨S128, .f32⟩
  | 60 => ⟨S1x128, .f32⟩
  | 61 => ⟨S100000x128, .f32⟩
  | 62 => ⟨S50x1x128, .f32⟩
  | 63 => ⟨S50x1x128, .f32⟩
  | 64 => ⟨S_, .f32⟩
  | 65 => ⟨S1x128, .f32⟩
  | 66 => ⟨S_, .f32⟩
  | 67 => ⟨S1x128, .f32⟩
  | 68 => ⟨S_, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S128, .f32⟩
  | 81 => ⟨S1x128, .f32⟩
  | 82 => ⟨S1x128, .f32⟩
  | 83 => ⟨S128, .f32⟩
  | 84 => ⟨S1x128, .f32⟩
  | 85 => ⟨S100000x128, .f32⟩
  | 86 => ⟨S100000x128, .bf16⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x128, .bf16⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S1x128x128, .f32⟩
  | 102 => ⟨S128x128, .f32⟩
  | 103 => ⟨S1x128, .f32⟩
  | 104 => ⟨S128, .f32⟩
  | 105 => ⟨S1x128, .f32⟩
  | 106 => ⟨S100000x128, .f32⟩
  | 107 => ⟨S50x1x128, .f32⟩
  | 108 => ⟨S50x1x128, .f32⟩
  | 109 => ⟨S_, .f32⟩
  | 110 => ⟨S1x128, .f32⟩
  | 111 => ⟨S_, .f32⟩
  | 112 => ⟨S1x128, .f32⟩
  | 113 => ⟨S_, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S1x128, .f32⟩
  | 125 => ⟨S128, .f32⟩
  | 126 => ⟨S1x128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S100000x128, .bf16⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x128, .bf16⟩
  | 13 => ⟨S1600000x128, .f32⟩
  | 14 => ⟨S_, .f32⟩
  | 15 => ⟨S100000x128, .f32⟩
  | 16 => ⟨S1600000x1, .i32⟩
  | 17 => ⟨S100000x128, .f32⟩
  | 18 => ⟨S1x128x128, .f32⟩
  | 19 => ⟨S128x128, .f32⟩
  | 20 => ⟨S1x128, .f32⟩
  | 21 => ⟨S128, .f32⟩
  | 22 => ⟨S1x128, .f32⟩
  | 23 => ⟨S100000x128, .f32⟩
  | 24 => ⟨S50x1x128, .f32⟩
  | 25 => ⟨S50x1x128, .f32⟩
  | 26 => ⟨S_, .f32⟩
  | 27 => ⟨S1x128, .f32⟩
  | 28 => ⟨S_, .f32⟩
  | 29 => ⟨S1x128, .f32⟩
  | 30 => ⟨S_, .f32⟩
  | 31 => ⟨S1x128, .f32⟩
  | 32 => ⟨S1x128, .f32⟩
  | 33 => ⟨S_, .f32⟩
  | 34 => ⟨S1x128, .f32⟩
  | 35 => ⟨S1x128, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S128, .f32⟩
  | 43 => ⟨S1x128, .f32⟩
  | 44 => ⟨S1x128, .f32⟩
  | 45 => ⟨S128, .f32⟩
  | 46 => ⟨S1x128, .f32⟩
  | 47 => ⟨S100000x128, .f32⟩
  | 48 => ⟨S100000x128, .bf16⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .bf16⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S1x128x128, .f32⟩
  | 64 => ⟨S128x128, .f32⟩
  | 65 => ⟨S1x128, .f32⟩
  | 66 => ⟨S128, .f32⟩
  | 67 => ⟨S1x128, .f32⟩
  | 68 => ⟨S100000x128, .f32⟩
  | 69 => ⟨S50x1x128, .f32⟩
  | 70 => ⟨S50x1x128, .f32⟩
  | 71 => ⟨S_, .f32⟩
  | 72 => ⟨S1x128, .f32⟩
  | 73 => ⟨S_, .f32⟩
  | 74 => ⟨S1x128, .f32⟩
  | 75 => ⟨S_, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S128, .f32⟩
  | 88 => ⟨S1x128, .f32⟩
  | 89 => ⟨S1x128, .f32⟩
  | 90 => ⟨S128, .f32⟩
  | 91 => ⟨S1x128, .f32⟩
  | 92 => ⟨S100000x128, .f32⟩
  | 93 => ⟨S100000x128, .bf16⟩
  | 94 => ⟨S_, .f32⟩
  | 95 => ⟨S128x128, .f32⟩
  | 96 => ⟨S100000x1, .i32⟩
  | 97 => ⟨S128x128, .f32⟩
  | 98 => ⟨S_, .f32⟩
  | 99 => ⟨S100000, .f32⟩
  | 100 => ⟨S_, .f32⟩
  | 101 => ⟨S128, .f32⟩
  | 102 => ⟨S100000x1, .i32⟩
  | 103 => ⟨S128, .f32⟩
  | 104 => ⟨S_, .f32⟩
  | 105 => ⟨S_, .f32⟩
  | 106 => ⟨S128, .f32⟩
  | 107 => ⟨S128, .f32⟩
  | 108 => ⟨S128x1, .f32⟩
  | 109 => ⟨S128x128, .f32⟩
  | 110 => ⟨S128x128, .f32⟩
  | 111 => ⟨S1x64, .f32⟩
  | 112 => ⟨S1x32, .f32⟩
  | 113 => ⟨S1x10, .f32⟩
  | 114 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x128, .bf16⟩
  | .local _ .vmem, ⟨9, _⟩ => ⟨S2000x128, .bf16⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S2000x1, .f32⟩
  | .local _ .vmem, ⟨31, _⟩ => ⟨S2000x1, .f32⟩
  | .local _ .vmem, ⟨32, _⟩ => ⟨S2000x128, .f32⟩
  | .local _ .vmem, ⟨33, _⟩ => ⟨S2000x128, .f32⟩
  | .local _ .vmem, ⟨34, _⟩ => ⟨S2000x128, .bf16⟩
  | .local _ .vmem, ⟨35, _⟩ => ⟨S2000x128, .bf16⟩
  | .local _ .vmem, ⟨36, _⟩ => ⟨S2000x128, .f32⟩
  | .local _ .vmem, ⟨37, _⟩ => ⟨S2000x128, .f32⟩
  | .local _ .vmem, ⟨38, _⟩ => ⟨S2000x1, .f32⟩
  | .local _ .vmem, ⟨39, _⟩ => ⟨S2000x1, .f32⟩
  | .local _ .vmem, ⟨40, _⟩ => ⟨S128x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S1x1x128, .f32⟩
  | .local _ .vmem, ⟨45, _⟩ => ⟨S1x1x128, .f32⟩
  | .local _ .vmem, ⟨46, _⟩ => ⟨S1x1x128, .f32⟩
  | .local _ .vmem, ⟨47, _⟩ => ⟨S1x1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S2000x1, .f32⟩
  | .local _ .vmem, ⟨57, _⟩ => ⟨S2000x1, .f32⟩
  | .local _ .vmem, ⟨58, _⟩ => ⟨S2000x128, .f32⟩
  | .local _ .vmem, ⟨59, _⟩ => ⟨S2000x128, .f32⟩
  | .local _ .vmem, ⟨60, _⟩ => ⟨S2000x128, .bf16⟩
  | .local _ .vmem, ⟨61, _⟩ => ⟨S2000x128, .bf16⟩
  | .local _ .vmem, ⟨62, _⟩ => ⟨S2000x128, .f32⟩
  | .local _ .vmem, ⟨63, _⟩ => ⟨S2000x128, .f32⟩
  | .local _ .vmem, ⟨64, _⟩ => ⟨S2000x1, .f32⟩
  | .local _ .vmem, ⟨65, _⟩ => ⟨S2000x1, .f32⟩
  | .local _ .vmem, ⟨66, _⟩ => ⟨S128x128, .f32⟩
  | .local _ .vmem, ⟨67, _⟩ => ⟨S1x128, .f32⟩
  | .local _ .vmem, ⟨68, _⟩ => ⟨S2000x128, .f32⟩
  | .local _ .vmem, ⟨69, _⟩ => ⟨S2000x128, .f32⟩
  | .local _ .vmem, ⟨70, _⟩ => ⟨S1x1x128, .f32⟩
  | .local _ .vmem, ⟨71, _⟩ => ⟨S1x1x128, .f32⟩
  | .local _ .vmem, ⟨72, _⟩ => ⟨S1x1x128, .f32⟩
  | .local _ .vmem, ⟨73, _⟩ => ⟨S1x1x128, .f32⟩
  | .local _ .vmem, ⟨74, _⟩ => ⟨S2000x128, .f32⟩
  | .local _ .vmem, ⟨75, _⟩ => ⟨S2000x128, .f32⟩
  | .local _ .vmem, ⟨76, _⟩ => ⟨S2000x128, .f32⟩
  | .local _ .vmem, ⟨77, _⟩ => ⟨S2000x128, .f32⟩
  | .local _ .vmem, ⟨78, _⟩ => ⟨S1x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S2000x1, .f32⟩
  | .local _ .vmem, ⟨83, _⟩ => ⟨S2000x1, .f32⟩
  | .local _ .vmem, ⟨84, _⟩ => ⟨S2000x128, .f32⟩
  | .local _ .vmem, ⟨85, _⟩ => ⟨S2000x128, .f32⟩
  | .local _ .vmem, ⟨86, _⟩ => ⟨S2000x128, .bf16⟩
  | .local _ .vmem, ⟨87, _⟩ => ⟨S2000x128, .bf16⟩
  | .local _ .vmem, ⟨88, _⟩ => ⟨S2000x128, .f32⟩
  | .local _ .vmem, ⟨89, _⟩ => ⟨S2000x128, .f32⟩
  | .local _ .vmem, ⟨90, _⟩ => ⟨S2000x1, .f32⟩
  | .local _ .vmem, ⟨91, _⟩ => ⟨S2000x1, .f32⟩
  | .local _ .vmem, ⟨92, _⟩ => ⟨S128x128, .f32⟩
  | .local _ .vmem, ⟨93, _⟩ => ⟨S1x128, .f32⟩
  | .local _ .vmem, ⟨94, _⟩ => ⟨S2000x128, .f32⟩
  | .local _ .vmem, ⟨95, _⟩ => ⟨S2000x128, .f32⟩
  | .local _ .vmem, ⟨96, _⟩ => ⟨S1x1x128, .f32⟩
  | .local _ .vmem, ⟨97, _⟩ => ⟨S1x1x128, .f32⟩
  | .local _ .vmem, ⟨98, _⟩ => ⟨S1x1x128, .f32⟩
  | .local _ .vmem, ⟨99, _⟩ => ⟨S1x1x128, .f32⟩
  | .local _ .vmem, ⟨100, _⟩ => ⟨S2000x128, .f32⟩
  | .local _ .vmem, ⟨101, _⟩ => ⟨S2000x128, .f32⟩
  | .local _ .vmem, ⟨102, _⟩ => ⟨S2000x128, .f32⟩
  | .local _ .vmem, ⟨103, _⟩ => ⟨S2000x128, .f32⟩
  | .local _ .vmem, ⟨104, _⟩ => ⟨S1x128, .f32⟩
  | .local _ .vmem, ⟨105, _⟩ => ⟨S1x128, .f32⟩
  | .local _ .vmem, ⟨106, _⟩ => ⟨S1x128, .f32⟩
  | .local _ .vmem, ⟨107, _⟩ => ⟨S1x128, .f32⟩
  | .local _ .vmem, ⟨108, _⟩ => ⟨S2000x1, .f32⟩
  | .local _ .vmem, ⟨109, _⟩ => ⟨S2000x1, .f32⟩
  | .local _ .vmem, ⟨110, _⟩ => ⟨S2000x128, .f32⟩
  | .local _ .vmem, ⟨111, _⟩ => ⟨S2000x128, .f32⟩
  | .local _ .vmem, ⟨112, _⟩ => ⟨S2000x128, .bf16⟩
  | .local _ .vmem, ⟨113, _⟩ => ⟨S2000x128, .bf16⟩
  | .local _ .vmem, ⟨114, _⟩ => ⟨S128x128, .f32⟩
  | .local _ .vmem, ⟨115, _⟩ => ⟨S128x64, .f32⟩
  | .local _ .vmem, ⟨116, _⟩ => ⟨S1x64, .f32⟩
  | .local _ .vmem, ⟨117, _⟩ => ⟨S64x32, .f32⟩
  | .local _ .vmem, ⟨118, _⟩ => ⟨S1x32, .f32⟩
  | .local _ .vmem, ⟨119, _⟩ => ⟨S32x10, .f32⟩
  | .local _ .vmem, ⟨120, _⟩ => ⟨S1x10, .f32⟩
  | .local _ .vmem, ⟨121, _⟩ => ⟨S128x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | _, _ => false

abbrev semScoped : Fin 0 → Bool
  | ⟨_, h⟩ => absurd h (Nat.not_lt_zero _)

abbrev dmaSemScoped : Fin 122 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | _ => false

abbrev sig : RefSig :=
  ofTc nBuf bufTy 0 122 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v4 : Ref sig .tc := ⟨.hbm, 26, rfl⟩
abbrev main_cst_2 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14_0 : Ref sig .tc := ⟨.hbm, 40, rfl⟩
abbrev main_v14_1 : Ref sig .tc := ⟨.hbm, 41, rfl⟩
abbrev main_c : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_5 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31_0 : Ref sig .tc := ⟨.hbm, 61, rfl⟩
abbrev main_v31_1 : Ref sig .tc := ⟨.hbm, 62, rfl⟩
abbrev main_v31_2 : Ref sig .tc := ⟨.hbm, 63, rfl⟩
abbrev main_cst_6 : Ref sig .tc := ⟨.hbm, 64, rfl⟩
abbrev main_v32 : Ref sig .tc := ⟨.hbm, 65, rfl⟩
abbrev main_cst_7 : Ref sig .tc := ⟨.hbm, 66, rfl⟩
abbrev main_v33 : Ref sig .tc := ⟨.hbm, 67, rfl⟩
abbrev main_cst_8 : Ref sig .tc := ⟨.hbm, 68, rfl⟩
abbrev main_v34 : Ref sig .tc := ⟨.hbm, 69, rfl⟩
abbrev main_v35 : Ref sig .tc := ⟨.hbm, 70, rfl⟩
abbrev main_cst_9 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_10 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48_0 : Ref sig .tc := ⟨.hbm, 85, rfl⟩
abbrev main_v48_1 : Ref sig .tc := ⟨.hbm, 86, rfl⟩
abbrev main_c_11 : Ref sig .tc := ⟨.hbm, 87, rfl⟩
abbrev main_v49 : Ref sig .tc := ⟨.hbm, 88, rfl⟩
abbrev main_v50 : Ref sig .tc := ⟨.hbm, 89, rfl⟩
abbrev main_c_12 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_13 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65_0 : Ref sig .tc := ⟨.hbm, 106, rfl⟩
abbrev main_v65_1 : Ref sig .tc := ⟨.hbm, 107, rfl⟩
abbrev main_v65_2 : Ref sig .tc := ⟨.hbm, 108, rfl⟩
abbrev main_cst_14 : Ref sig .tc := ⟨.hbm, 109, rfl⟩
abbrev main_v66 : Ref sig .tc := ⟨.hbm, 110, rfl⟩
abbrev main_cst_15 : Ref sig .tc := ⟨.hbm, 111, rfl⟩
abbrev main_v67 : Ref sig .tc := ⟨.hbm, 112, rfl⟩
abbrev main_cst_16 : Ref sig .tc := ⟨.hbm, 113, rfl⟩
abbrev main_v68 : Ref sig .tc := ⟨.hbm, 114, rfl⟩
abbrev main_v69 : Ref sig .tc := ⟨.hbm, 115, rfl⟩
abbrev main_cst_17 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_18 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82_0 : Ref sig .tc := ⟨.hbm, 130, rfl⟩
abbrev main_v82_1 : Ref sig .tc := ⟨.hbm, 131, rfl⟩
abbrev main_c_19 : Ref sig .tc := ⟨.hbm, 132, rfl⟩
abbrev main_v83 : Ref sig .tc := ⟨.hbm, 133, rfl⟩
abbrev main_v84 : Ref sig .tc := ⟨.hbm, 134, rfl⟩
abbrev main_c_20 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_21 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99_0 : Ref sig .tc := ⟨.hbm, 151, rfl⟩
abbrev main_v99_1 : Ref sig .tc := ⟨.hbm, 152, rfl⟩
abbrev main_v99_2 : Ref sig .tc := ⟨.hbm, 153, rfl⟩
abbrev main_cst_22 : Ref sig .tc := ⟨.hbm, 154, rfl⟩
abbrev main_v100 : Ref sig .tc := ⟨.hbm, 155, rfl⟩
abbrev main_cst_23 : Ref sig .tc := ⟨.hbm, 156, rfl⟩
abbrev main_v101 : Ref sig .tc := ⟨.hbm, 157, rfl⟩
abbrev main_cst_24 : Ref sig .tc := ⟨.hbm, 158, rfl⟩
abbrev main_v102 : Ref sig .tc := ⟨.hbm, 159, rfl⟩
abbrev main_v103 : Ref sig .tc := ⟨.hbm, 160, rfl⟩
abbrev main_cst_25 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_26 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116_0 : Ref sig .tc := ⟨.hbm, 175, rfl⟩
abbrev main_v116_1 : Ref sig .tc := ⟨.hbm, 176, rfl⟩
abbrev main_c_27 : Ref sig .tc := ⟨.hbm, 177, rfl⟩
abbrev main_v117 : Ref sig .tc := ⟨.hbm, 178, rfl⟩
abbrev main_v118 : Ref sig .tc := ⟨.hbm, 179, rfl⟩
abbrev main_c_28 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_cst_29 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133_0 : Ref sig .tc := ⟨.hbm, 196, rfl⟩
abbrev main_v133_1 : Ref sig .tc := ⟨.hbm, 197, rfl⟩
abbrev main_v133_2 : Ref sig .tc := ⟨.hbm, 198, rfl⟩
abbrev main_cst_30 : Ref sig .tc := ⟨.hbm, 199, rfl⟩
abbrev main_v134 : Ref sig .tc := ⟨.hbm, 200, rfl⟩
abbrev main_cst_31 : Ref sig .tc := ⟨.hbm, 201, rfl⟩
abbrev main_v135 : Ref sig .tc := ⟨.hbm, 202, rfl⟩
abbrev main_cst_32 : Ref sig .tc := ⟨.hbm, 203, rfl⟩
abbrev main_v136 : Ref sig .tc := ⟨.hbm, 204, rfl⟩
abbrev main_v137 : Ref sig .tc := ⟨.hbm, 205, rfl⟩
abbrev main_cst_33 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_cst_34 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150_0 : Ref sig .tc := ⟨.hbm, 220, rfl⟩
abbrev main_v150_1 : Ref sig .tc := ⟨.hbm, 221, rfl⟩
abbrev main_cst_35 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_cst_36 : Ref sig .tc := ⟨.hbm, 226, rfl⟩
abbrev main_v154 : Ref sig .tc := ⟨.hbm, 227, rfl⟩
abbrev main_cst_37 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_cst_38 : Ref sig .tc := ⟨.hbm, 232, rfl⟩
abbrev main_call2_v0 : Ref sig .tc := ⟨.hbm, 233, rfl⟩
abbrev main_call2_v1 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg6_0 : Ref sig .tc := ⟨.vmem, 56, rfl⟩
abbrev cc4_stg6_1 : Ref sig .tc := ⟨.vmem, 57, rfl⟩
abbrev cc4_stg7_0 : Ref sig .tc := ⟨.vmem, 58, rfl⟩
abbrev cc4_stg7_1 : Ref sig .tc := ⟨.vmem, 59, rfl⟩
abbrev cc4_stg8_0 : Ref sig .tc := ⟨.vmem, 60, rfl⟩
abbrev cc4_stg8_1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_stg3_0 : Ref sig .tc := ⟨.vmem, 67, rfl⟩
abbrev cc5_stg4_0 : Ref sig .tc := ⟨.vmem, 68, rfl⟩
abbrev cc5_stg4_1 : Ref sig .tc := ⟨.vmem, 69, rfl⟩
abbrev cc5_stg5_0 : Ref sig .tc := ⟨.vmem, 70, rfl⟩
abbrev cc5_stg5_1 : Ref sig .tc := ⟨.vmem, 71, rfl⟩
abbrev cc5_stg6_0 : Ref sig .tc := ⟨.vmem, 72, rfl⟩
abbrev cc5_stg6_1 : Ref sig .tc := ⟨.vmem, 73, rfl⟩
abbrev cc6_stg0_0 : Ref sig .tc := ⟨.vmem, 74, rfl⟩
abbrev cc6_stg0_1 : Ref sig .tc := ⟨.vmem, 75, rfl⟩
abbrev cc6_stg1_0 : Ref sig .tc := ⟨.vmem, 76, rfl⟩
abbrev cc6_stg1_1 : Ref sig .tc := ⟨.vmem, 77, rfl⟩
abbrev cc6_stg2_0 : Ref sig .tc := ⟨.vmem, 78, rfl⟩
abbrev cc6_stg3_0 : Ref sig .tc := ⟨.vmem, 79, rfl⟩
abbrev cc6_stg4_0 : Ref sig .tc := ⟨.vmem, 80, rfl⟩
abbrev cc6_stg5_0 : Ref sig .tc := ⟨.vmem, 81, rfl⟩
abbrev cc6_stg6_0 : Ref sig .tc := ⟨.vmem, 82, rfl⟩
abbrev cc6_stg6_1 : Ref sig .tc := ⟨.vmem, 83, rfl⟩
abbrev cc6_stg7_0 : Ref sig .tc := ⟨.vmem, 84, rfl⟩
abbrev cc6_stg7_1 : Ref sig .tc := ⟨.vmem, 85, rfl⟩
abbrev cc6_stg8_0 : Ref sig .tc := ⟨.vmem, 86, rfl⟩
abbrev cc6_stg8_1 : Ref sig .tc := ⟨.vmem, 87, rfl⟩
abbrev cc7_stg0_0 : Ref sig .tc := ⟨.vmem, 88, rfl⟩
abbrev cc7_stg0_1 : Ref sig .tc := ⟨.vmem, 89, rfl⟩
abbrev cc7_stg1_0 : Ref sig .tc := ⟨.vmem, 90, rfl⟩
abbrev cc7_stg1_1 : Ref sig .tc := ⟨.vmem, 91, rfl⟩
abbrev cc7_stg2_0 : Ref sig .tc := ⟨.vmem, 92, rfl⟩
abbrev cc7_stg3_0 : Ref sig .tc := ⟨.vmem, 93, rfl⟩
abbrev cc7_stg4_0 : Ref sig .tc := ⟨.vmem, 94, rfl⟩
abbrev cc7_stg4_1 : Ref sig .tc := ⟨.vmem, 95, rfl⟩
abbrev cc7_stg5_0 : Ref sig .tc := ⟨.vmem, 96, rfl⟩
abbrev cc7_stg5_1 : Ref sig .tc := ⟨.vmem, 97, rfl⟩
abbrev cc7_stg6_0 : Ref sig .tc := ⟨.vmem, 98, rfl⟩
abbrev cc7_stg6_1 : Ref sig .tc := ⟨.vmem, 99, rfl⟩
abbrev cc8_stg0_0 : Ref sig .tc := ⟨.vmem, 100, rfl⟩
abbrev cc8_stg0_1 : Ref sig .tc := ⟨.vmem, 101, rfl⟩
abbrev cc8_stg1_0 : Ref sig .tc := ⟨.vmem, 102, rfl⟩
abbrev cc8_stg1_1 : Ref sig .tc := ⟨.vmem, 103, rfl⟩
abbrev cc8_stg2_0 : Ref sig .tc := ⟨.vmem, 104, rfl⟩
abbrev cc8_stg3_0 : Ref sig .tc := ⟨.vmem, 105, rfl⟩
abbrev cc8_stg4_0 : Ref sig .tc := ⟨.vmem, 106, rfl⟩
abbrev cc8_stg5_0 : Ref sig .tc := ⟨.vmem, 107, rfl⟩
abbrev cc8_stg6_0 : Ref sig .tc := ⟨.vmem, 108, rfl⟩
abbrev cc8_stg6_1 : Ref sig .tc := ⟨.vmem, 109, rfl⟩
abbrev cc8_stg7_0 : Ref sig .tc := ⟨.vmem, 110, rfl⟩
abbrev cc8_stg7_1 : Ref sig .tc := ⟨.vmem, 111, rfl⟩
abbrev cc8_stg8_0 : Ref sig .tc := ⟨.vmem, 112, rfl⟩
abbrev cc8_stg8_1 : Ref sig .tc := ⟨.vmem, 113, rfl⟩
abbrev cc9_stg0_0 : Ref sig .tc := ⟨.vmem, 114, rfl⟩
abbrev cc9_stg1_0 : Ref sig .tc := ⟨.vmem, 115, rfl⟩
abbrev cc9_stg2_0 : Ref sig .tc := ⟨.vmem, 116, rfl⟩
abbrev cc9_stg3_0 : Ref sig .tc := ⟨.vmem, 117, rfl⟩
abbrev cc9_stg4_0 : Ref sig .tc := ⟨.vmem, 118, rfl⟩
abbrev cc9_stg5_0 : Ref sig .tc := ⟨.vmem, 119, rfl⟩
abbrev cc9_stg6_0 : Ref sig .tc := ⟨.vmem, 120, rfl⟩
abbrev cc9_stg7_0 : Ref sig .tc := ⟨.vmem, 121, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem4_1 : DmaSem sig := 43
abbrev cc3_sem5_0 : DmaSem sig := 44
abbrev cc3_sem5_1 : DmaSem sig := 45
abbrev cc3_sem6_0 : DmaSem sig := 46
abbrev cc3_sem6_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem3_0 : DmaSem sig := 53
abbrev cc4_sem4_0 : DmaSem sig := 54
abbrev cc4_sem5_0 : DmaSem sig := 55
abbrev cc4_sem6_0 : DmaSem sig := 56
abbrev cc4_sem6_1 : DmaSem sig := 57
abbrev cc4_sem7_0 : DmaSem sig := 58
abbrev cc4_sem7_1 : DmaSem sig := 59
abbrev cc4_sem8_0 : DmaSem sig := 60
abbrev cc4_sem8_1 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem3_0 : DmaSem sig := 67
abbrev cc5_sem4_0 : DmaSem sig := 68
abbrev cc5_sem4_1 : DmaSem sig := 69
abbrev cc5_sem5_0 : DmaSem sig := 70
abbrev cc5_sem5_1 : DmaSem sig := 71
abbrev cc5_sem6_0 : DmaSem sig := 72
abbrev cc5_sem6_1 : DmaSem sig := 73
abbrev cc6_sem0_0 : DmaSem sig := 74
abbrev cc6_sem0_1 : DmaSem sig := 75
abbrev cc6_sem1_0 : DmaSem sig := 76
abbrev cc6_sem1_1 : DmaSem sig := 77
abbrev cc6_sem2_0 : DmaSem sig := 78
abbrev cc6_sem3_0 : DmaSem sig := 79
abbrev cc6_sem4_0 : DmaSem sig := 80
abbrev cc6_sem5_0 : DmaSem sig := 81
abbrev cc6_sem6_0 : DmaSem sig := 82
abbrev cc6_sem6_1 : DmaSem sig := 83
abbrev cc6_sem7_0 : DmaSem sig := 84
abbrev cc6_sem7_1 : DmaSem sig := 85
abbrev cc6_sem8_0 : DmaSem sig := 86
abbrev cc6_sem8_1 : DmaSem sig := 87
abbrev cc7_sem0_0 : DmaSem sig := 88
abbrev cc7_sem0_1 : DmaSem sig := 89
abbrev cc7_sem1_0 : DmaSem sig := 90
abbrev cc7_sem1_1 : DmaSem sig := 91
abbrev cc7_sem2_0 : DmaSem sig := 92
abbrev cc7_sem3_0 : DmaSem sig := 93
abbrev cc7_sem4_0 : DmaSem sig := 94
abbrev cc7_sem4_1 : DmaSem sig := 95
abbrev cc7_sem5_0 : DmaSem sig := 96
abbrev cc7_sem5_1 : DmaSem sig := 97
abbrev cc7_sem6_0 : DmaSem sig := 98
abbrev cc7_sem6_1 : DmaSem sig := 99
abbrev cc8_sem0_0 : DmaSem sig := 100
abbrev cc8_sem0_1 : DmaSem sig := 101
abbrev cc8_sem1_0 : DmaSem sig := 102
abbrev cc8_sem1_1 : DmaSem sig := 103
abbrev cc8_sem2_0 : DmaSem sig := 104
abbrev cc8_sem3_0 : DmaSem sig := 105
abbrev cc8_sem4_0 : DmaSem sig := 106
abbrev cc8_sem5_0 : DmaSem sig := 107
abbrev cc8_sem6_0 : DmaSem sig := 108
abbrev cc8_sem6_1 : DmaSem sig := 109
abbrev cc8_sem7_0 : DmaSem sig := 110
abbrev cc8_sem7_1 : DmaSem sig := 111
abbrev cc8_sem8_0 : DmaSem sig := 112
abbrev cc8_sem8_1 : DmaSem sig := 113
abbrev cc9_sem0_0 : DmaSem sig := 114
abbrev cc9_sem1_0 : DmaSem sig := 115
abbrev cc9_sem2_0 : DmaSem sig := 116
abbrev cc9_sem3_0 : DmaSem sig := 117
abbrev cc9_sem4_0 : DmaSem sig := 118
abbrev cc9_sem5_0 : DmaSem sig := 119
abbrev cc9_sem6_0 : DmaSem sig := 120
abbrev cc9_sem7_0 : DmaSem sig := 121

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x1x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S2000x128 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x1x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1x1x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x1 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S2000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S2000x128 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_6 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S1x1x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1x1x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S2000x1 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S2000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S2000x128 .bf16 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S128x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S128x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x32 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x32 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S32x10 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x10 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S128x10 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S2000x128_S2000x128 : S2000x128.ShapeCasts S2000x128
  shapeCasts_S128x128_S128x128 : S128x128.ShapeCasts S128x128
  reduces_S2000x128_S128 : S2000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S50x1x128_S1x128_d0 : S50x1x128.ReducesTo [0] S1x128
  h_S_ : 0 < S_.numel
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S64_S1x64 : S64.ShapeCasts S1x64
  shapeCasts_S32_S1x32 : S32.ShapeCasts S1x32
  shapeCasts_S10_S1x10 : S10.ShapeCasts S1x10
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x64_S128x64_1_0_0_1_n_n_wf : DotDims.WF S128x128 S128x64 S128x64 [1] [0] [0] [1] [] []
  dot_S128x64_S64x32_S128x32_1_0_0_1_n_n_wf : DotDims.WF S128x64 S64x32 S128x32 [1] [0] [0] [1] [] []
  dot_S128x32_S32x10_S128x10_1_0_0_1_n_n_wf : DotDims.WF S128x32 S32x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .bf16 = 32 ∨ (Rect.block (s := S100000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S50x1x128.size a
  hwx1_5 : ∀ i : grid1.Coords, EltTy.bits .f32 = 32 ∨ (Rect.block (s := S50x1x128) S1x1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x128.size a ≤ S50x1x128.size a
  hwx1_6 : ∀ i : grid1.Coords, EltTy.bits .f32 = 32 ∨ (Rect.block (s := S50x1x128) S1x1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x1.size a ≤ S100000x1.size a
  hwx2_6 : ∀ i : grid2.Coords, EltTy.bits .f32 = 32 ∨ (Rect.block (s := S100000x1) S2000x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S100000x128.size a
  hwx2_8 : ∀ i : grid2.Coords, EltTy.bits .bf16 = 32 ∨ (Rect.block (s := S100000x128) S2000x128.size (cc2_transform_8 i) (hinb2_8 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x128.size a ≤ S50x1x128.size a
  hwx3_5 : ∀ i : grid3.Coords, EltTy.bits .f32 = 32 ∨ (Rect.block (s := S50x1x128) S1x1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x1x128.size a ≤ S50x1x128.size a
  hwx3_6 : ∀ i : grid3.Coords, EltTy.bits .f32 = 32 ∨ (Rect.block (s := S50x1x128) S1x1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x1.size a ≤ S100000x1.size a
  hwx4_6 : ∀ i : grid4.Coords, EltTy.bits .f32 = 32 ∨ (Rect.block (s := S100000x1) S2000x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S100000x128.size a
  hwx4_7 : ∀ i : grid4.Coords, EltTy.bits .f32 = 32 ∨ (Rect.block (s := S100000x128) S2000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x128.size a ≤ S100000x128.size a
  hwx4_8 : ∀ i : grid4.Coords, EltTy.bits .bf16 = 32 ∨ (Rect.block (s := S100000x128) S2000x128.size (cc4_transform_8 i) (hinb4_8 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S100000x128.size a
  hwx5_4 : ∀ i : grid5.Coords, EltTy.bits .f32 = 32 ∨ (Rect.block (s := S100000x128) S2000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1x1x128.size a ≤ S50x1x128.size a
  hwx5_5 : ∀ i : grid5.Coords, EltTy.bits .f32 = 32 ∨ (Rect.block (s := S50x1x128) S1x1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1x1x128.size a ≤ S50x1x128.size a
  hwx5_6 : ∀ i : grid5.Coords, EltTy.bits .f32 = 32 ∨ (Rect.block (s := S50x1x128) S1x1x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S100000x128.size a
  hwx6_1 : ∀ i : grid6.Coords, EltTy.bits .f32 = 32 ∨ (Rect.block (s := S100000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x1.size a ≤ S100000x1.size a
  hwx6_6 : ∀ i : grid6.Coords, EltTy.bits .f32 = 32 ∨ (Rect.block (s := S100000x1) S2000x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x128.size a ≤ S100000x128.size a
  hwx6_7 : ∀ i : grid6.Coords, EltTy.bits .f32 = 32 ∨ (Rect.block (s := S100000x128) S2000x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S2000x128.size a ≤ S100000x128.size a
  hwx6_8 : ∀ i : grid6.Coords, EltTy.bits .bf16 = 32 ∨ (Rect.block (s := S100000x128) S2000x128.size (cc6_transform_8 i) (hinb6_8 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S100000x1.size a
  hwx7_1 : ∀ i : grid7.Coords, EltTy.bits .f32 = 32 ∨ (Rect.block (s := S100000x1) S2000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x128.size a ≤ S100000x128.size a
  hwx7_4 : ∀ i : grid7.Coords, EltTy.bits .f32 = 32 ∨ (Rect.block (s := S100000x128) S2000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1x1x128.size a ≤ S50x1x128.size a
  hwx7_5 : ∀ i : grid7.Coords, EltTy.bits .f32 = 32 ∨ (Rect.block (s := S50x1x128) S1x1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1x1x128.size a ≤ S50x1x128.size a
  hwx7_6 : ∀ i : grid7.Coords, EltTy.bits .f32 = 32 ∨ (Rect.block (s := S50x1x128) S1x1x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S100000x128.size a
  hwx8_1 : ∀ i : grid8.Coords, EltTy.bits .f32 = 32 ∨ (Rect.block (s := S100000x128) S2000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x1.size a ≤ S100000x1.size a
  hwx8_6 : ∀ i : grid8.Coords, EltTy.bits .f32 = 32 ∨ (Rect.block (s := S100000x1) S2000x1.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S2000x128.size a ≤ S100000x128.size a
  hwx8_7 : ∀ i : grid8.Coords, EltTy.bits .f32 = 32 ∨ (Rect.block (s := S100000x128) S2000x128.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S2000x128.size a ≤ S100000x128.size a
  hwx8_8 : ∀ i : grid8.Coords, EltTy.bits .bf16 = 32 ∨ (Rect.block (s := S100000x128) S2000x128.size (cc8_transform_8 i) (hinb8_8 i)).WholeWords (EltTy.packing .bf16)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S128x128.size a ≤ S128x128.size a
  hwx9_0 : ∀ i : grid9.Coords, EltTy.bits .f32 = 32 ∨ (Rect.block (s := S128x128) S128x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x64.size a ≤ S128x64.size a
  hwx9_1 : ∀ i : grid9.Coords, EltTy.bits .f32 = 32 ∨ (Rect.block (s := S128x64) S128x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x32.size a ≤ S64x32.size a
  hwx9_3 : ∀ i : grid9.Coords, EltTy.bits .f32 = 32 ∨ (Rect.block (s := S64x32) S64x32.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x32.size a ≤ S1x32.size a
  hwx9_4 : ∀ i : grid9.Coords, EltTy.bits .f32 = 32 ∨ (Rect.block (s := S1x32) S1x32.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S32x10.size a ≤ S32x10.size a
  hwx9_5 : ∀ i : grid9.Coords, EltTy.bits .f32 = 32 ∨ (Rect.block (s := S32x10) S32x10.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x10.size a ≤ S1x10.size a
  hwx9_6 : ∀ i : grid9.Coords, EltTy.bits .f32 = 32 ∨ (Rect.block (s := S1x10) S1x10.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S128x10.size a ≤ S128x10.size a
  hwx9_7 : ∀ i : grid9.Coords, EltTy.bits .f32 = 32 ∨ (Rect.block (s := S128x10) S128x10.size (cc9_transform_7 i) (hinb9_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x10_S128x10_1_0_0_1_n_n : DotDims S128x32 S32x10 S128x10 where
  lhsContracting := [1]
  rhsContracting := [0]
  lhsNonContracting := [0]
  rhsNonContracting := [1]
  lhsBatch := []
  rhsBatch := []
  wf := dot_S128x32_S32x10_S128x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31_1) S1x1x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v31_2) S1x1x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S2000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v48_0) S2000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v48_1) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65_0) S2000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v65_1) S1x1x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v65_2) S1x1x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v65_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48_0) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v10) S2000x1.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v82_0) S2000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v82_1) S2000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v93) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v95) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v98) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v99_0) S2000x128.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v99_1) S1x1x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v99_2) S1x1x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v99_0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v82_0) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v103) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v109) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v112) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v115) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v10) S2000x1.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v116_0) S2000x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v116_1) S2000x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v127) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v12) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v129) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v132) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v133_0) S2000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v133_1) S1x1x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v133_2) S1x1x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v133_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v116_0) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v137) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v143) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v146) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v149) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v10) S2000x1.size cc8_transform_6 reads8_6 false false 2 stage8_6 sem8_6
    hrank8 hreads8_6 hinb8_6 nbuf8_6 (Memref.isWhole_whole _) hwx8_6 hstage8_6

abbrev win8_7 : Pipeline.Window sig grid8 :=
  Pipeline.Window.ofSpec (Memref.whole main_v150_0) S2000x128.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_v150_1) S2000x128.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev win9_0 : Pipeline.Window sig grid9 :=
  Pipeline.Window.ofSpec (Memref.whole main_v161) S128x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg8) S128x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v162) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg10) S64x32.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v163) S1x32.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg12) S32x10.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v164) S1x10.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v165) S128x10.size cc9_transform_7 reads9_7 true true 1 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

class Facts : Prop extends Facts₀ where

variable [Facts]
-- ==== ReferenceIdeal.lean ====
abbrev S100000x128 : Shape := ⟨2, ![100000, 128]⟩
abbrev S1600000x1 : Shape := ⟨2, ![1600000, 1]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1600000 : Shape := ⟨1, ![1600000]⟩
abbrev S100000 : Shape := ⟨1, ![100000]⟩
abbrev S_ : Shape := ⟨0, ![]⟩
abbrev S1x128 : Shape := ⟨2, ![1, 128]⟩
abbrev S1x128x128 : Shape := ⟨3, ![1, 128, 128]⟩
abbrev S100000x1 : Shape := ⟨2, ![100000, 1]⟩
abbrev S1600000x128 : Shape := ⟨2, ![1600000, 128]⟩
abbrev S128x1 : Shape := ⟨2, ![128, 1]⟩
abbrev S1x64 : Shape := ⟨2, ![1, 64]⟩
abbrev S128x32 : Shape := ⟨2, ![128, 32]⟩
abbrev S1x32 : Shape := ⟨2, ![1, 32]⟩
abbrev S128x10 : Shape := ⟨2, ![128, 10]⟩
abbrev S1x10 : Shape := ⟨2, ![1, 10]⟩

abbrev nBuf : Space → Nat
  | .hbm => 336
  | .vmem => 0
  | .smem => 0
  | _ => 0

abbrev hbmTy0_0 (i : Nat) : BufTy := match i % 128 with
  | 0 => ⟨S100000x128, .f32⟩
  | 1 => ⟨S1600000x1, .f32⟩
  | 2 => ⟨S128x128, .f32⟩
  | 3 => ⟨S128, .f32⟩
  | 4 => ⟨S4x128x128, .f32⟩
  | 5 => ⟨S4x128, .f32⟩
  | 6 => ⟨S4x128, .f32⟩
  | 7 => ⟨S4x128, .f32⟩
  | 8 => ⟨S128x64, .f32⟩
  | 9 => ⟨S64, .f32⟩
  | 10 => ⟨S64x32, .f32⟩
  | 11 => ⟨S32, .f32⟩
  | 12 => ⟨S32x10, .f32⟩
  | 13 => ⟨S10, .f32⟩
  | 14 => ⟨S1600000, .i32⟩
  | 15 => ⟨S1600000, .i32⟩
  | 16 => ⟨S100000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S_, .f32⟩
  | 25 => ⟨S100000, .f32⟩
  | 26 => ⟨S100000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S_, .f32⟩
  | 33 => ⟨S100000, .f32⟩
  | 34 => ⟨S100000, .f32⟩
  | 35 => ⟨S100000, .f32⟩
  | 36 => ⟨S100000, .f32⟩
  | 37 => ⟨S100000x128, .f32⟩
  | 38 => ⟨S1x128, .f32⟩
  | 39 => ⟨S100000x128, .f32⟩
  | 40 => ⟨S100000x128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S100000x1, .f32⟩
  | 50 => ⟨S100000x128, .f32⟩
  | 51 => ⟨S100000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000x1, .f32⟩
  | 66 => ⟨S100000x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S_, .f32⟩
  | 90 => ⟨S128, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x128, .f32⟩
  | 106 => ⟨S1x128x128, .f32⟩
  | 107 => ⟨S128x128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S128, .f32⟩
  | 114 => ⟨S100000x1, .f32⟩
  | 115 => ⟨S100000x128, .f32⟩
  | 116 => ⟨S100000x128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S_, .f32⟩
  | 127 => ⟨S100000x128, .f32⟩
  | _ => ⟨S100000x128, .f32⟩

abbrev hbmTy0_1 (i : Nat) : BufTy := match i % 128 with
  | 0 => ⟨S1600000x1, .i32⟩
  | 1 => ⟨S100000x128, .f32⟩
  | 2 => ⟨S100000x1, .f32⟩
  | 3 => ⟨S100000x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S128, .f32⟩
  | 11 => ⟨S_, .f32⟩
  | 12 => ⟨S128, .f32⟩
  | 13 => ⟨S128, .f32⟩
  | 14 => ⟨S1x128, .f32⟩
  | 15 => ⟨S100000x128, .f32⟩
  | 16 => ⟨S100000x128, .f32⟩
  | 17 => ⟨S100000x128, .f32⟩
  | 18 => ⟨S_, .f32⟩
  | 19 => ⟨S128, .f32⟩
  | 20 => ⟨S_, .f32⟩
  | 21 => ⟨S128, .f32⟩
  | 22 => ⟨S128, .f32⟩
  | 23 => ⟨S1x128, .f32⟩
  | 24 => ⟨S100000x128, .f32⟩
  | 25 => ⟨S100000x128, .f32⟩
  | 26 => ⟨S_, .f32⟩
  | 27 => ⟨S128, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S100000x128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S128, .f32⟩
  | 51 => ⟨S100000x1, .f32⟩
  | 52 => ⟨S100000x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S100000x128, .f32⟩
  | 83 => ⟨S_, .f32⟩
  | 84 => ⟨S128, .f32⟩
  | 85 => ⟨S_, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S1x128x128, .f32⟩
  | 109 => ⟨S128x128, .f32⟩
  | 110 => ⟨S1x128, .f32⟩
  | 111 => ⟨S128, .f32⟩
  | 112 => ⟨S1x128, .f32⟩
  | 113 => ⟨S128, .f32⟩
  | 114 => ⟨S1x128, .f32⟩
  | 115 => ⟨S128, .f32⟩
  | 116 => ⟨S100000x1, .f32⟩
  | 117 => ⟨S100000x128, .f32⟩
  | 118 => ⟨S100000x128, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x128, .f32⟩

abbrev hbmTy0_2 (i : Nat) : BufTy := match i % 128 with
  | 0 => ⟨S_, .f32⟩
  | 1 => ⟨S100000x128, .f32⟩
  | 2 => ⟨S1600000x1, .i32⟩
  | 3 => ⟨S100000x128, .f32⟩
  | 4 => ⟨S100000x1, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S128, .f32⟩
  | 13 => ⟨S_, .f32⟩
  | 14 => ⟨S128, .f32⟩
  | 15 => ⟨S128, .f32⟩
  | 16 => ⟨S1x128, .f32⟩
  | 17 => ⟨S100000x128, .f32⟩
  | 18 => ⟨S100000x128, .f32⟩
  | 19 => ⟨S100000x128, .f32⟩
  | 20 => ⟨S_, .f32⟩
  | 21 => ⟨S128, .f32⟩
  | 22 => ⟨S_, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S_, .f32⟩
  | 29 => ⟨S128, .f32⟩
  | 30 => ⟨S128, .f32⟩
  | 31 => ⟨S128, .f32⟩
  | 32 => ⟨S1x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S100000x128, .f32⟩
  | 45 => ⟨S_, .f32⟩
  | 46 => ⟨S128x128, .f32⟩
  | 47 => ⟨S100000x1, .i32⟩
  | 48 => ⟨S128x128, .f32⟩
  | 49 => ⟨S_, .f32⟩
  | 50 => ⟨S100000, .f32⟩
  | 51 => ⟨S_, .f32⟩
  | 52 => ⟨S128, .f32⟩
  | 53 => ⟨S100000x1, .i32⟩
  | 54 => ⟨S128, .f32⟩
  | 55 => ⟨S_, .f32⟩
  | 56 => ⟨S_, .f32⟩
  | 57 => ⟨S128, .f32⟩
  | 58 => ⟨S128, .f32⟩
  | 59 => ⟨S128x1, .f32⟩
  | 60 => ⟨S128x128, .f32⟩
  | 61 => ⟨S128x128, .f32⟩
  | 62 => ⟨S128x64, .f32⟩
  | 63 => ⟨S1x64, .f32⟩
  | 64 => ⟨S128x64, .f32⟩
  | 65 => ⟨S128x64, .f32⟩
  | 66 => ⟨S_, .f32⟩
  | 67 => ⟨S128x64, .f32⟩
  | 68 => ⟨S128x64, .f32⟩
  | 69 => ⟨S128x32, .f32⟩
  | 70 => ⟨S1x32, .f32⟩
  | 71 => ⟨S128x32, .f32⟩
  | 72 => ⟨S128x32, .f32⟩
  | 73 => ⟨S_, .f32⟩
  | 74 => ⟨S128x32, .f32⟩
  | 75 => ⟨S128x32, .f32⟩
  | 76 => ⟨S128x10, .f32⟩
  | 77 => ⟨S1x10, .f32⟩
  | 78 => ⟨S128x10, .f32⟩
  | 79 => ⟨S128x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v4 : Ref sig .tc := ⟨.hbm, 26, rfl⟩
abbrev main_cst_2 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c : Ref sig .tc := ⟨.hbm, 52, rfl⟩
abbrev main_v26 : Ref sig .tc := ⟨.hbm, 53, rfl⟩
abbrev main_v27 : Ref sig .tc := ⟨.hbm, 54, rfl⟩
abbrev main_c_4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_6 : Ref sig .tc := ⟨.hbm, 72, rfl⟩
abbrev main_v43 : Ref sig .tc := ⟨.hbm, 73, rfl⟩
abbrev main_cst_7 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_8 : Ref sig .tc := ⟨.hbm, 81, rfl⟩
abbrev main_v50 : Ref sig .tc := ⟨.hbm, 82, rfl⟩
abbrev main_cst_9 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_10 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_call2_cst : Ref sig .tc := ⟨.hbm, 102, rfl⟩
abbrev main_call2_v0 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_11 : Ref sig .tc := ⟨.hbm, 117, rfl⟩
abbrev main_v81 : Ref sig .tc := ⟨.hbm, 118, rfl⟩
abbrev main_v82 : Ref sig .tc := ⟨.hbm, 119, rfl⟩
abbrev main_c_12 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_13 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_14 : Ref sig .tc := ⟨.hbm, 137, rfl⟩
abbrev main_v98 : Ref sig .tc := ⟨.hbm, 138, rfl⟩
abbrev main_cst_15 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_16 : Ref sig .tc := ⟨.hbm, 146, rfl⟩
abbrev main_v105 : Ref sig .tc := ⟨.hbm, 147, rfl⟩
abbrev main_cst_17 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_18 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_call3_cst : Ref sig .tc := ⟨.hbm, 167, rfl⟩
abbrev main_call3_v0 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_c_19 : Ref sig .tc := ⟨.hbm, 182, rfl⟩
abbrev main_v136 : Ref sig .tc := ⟨.hbm, 183, rfl⟩
abbrev main_v137 : Ref sig .tc := ⟨.hbm, 184, rfl⟩
abbrev main_c_20 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_21 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_22 : Ref sig .tc := ⟨.hbm, 202, rfl⟩
abbrev main_v153 : Ref sig .tc := ⟨.hbm, 203, rfl⟩
abbrev main_cst_23 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_cst_24 : Ref sig .tc := ⟨.hbm, 211, rfl⟩
abbrev main_v160 : Ref sig .tc := ⟨.hbm, 212, rfl⟩
abbrev main_cst_25 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_cst_26 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_call4_cst : Ref sig .tc := ⟨.hbm, 232, rfl⟩
abbrev main_call4_v0 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_c_27 : Ref sig .tc := ⟨.hbm, 247, rfl⟩
abbrev main_v191 : Ref sig .tc := ⟨.hbm, 248, rfl⟩
abbrev main_v192 : Ref sig .tc := ⟨.hbm, 249, rfl⟩
abbrev main_c_28 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_cst_29 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_cst_30 : Ref sig .tc := ⟨.hbm, 267, rfl⟩
abbrev main_v208 : Ref sig .tc := ⟨.hbm, 268, rfl⟩
abbrev main_cst_31 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_cst_32 : Ref sig .tc := ⟨.hbm, 276, rfl⟩
abbrev main_v215 : Ref sig .tc := ⟨.hbm, 277, rfl⟩
abbrev main_cst_33 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_cst_34 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_call5_cst : Ref sig .tc := ⟨.hbm, 297, rfl⟩
abbrev main_call5_v0 : Ref sig .tc := ⟨.hbm, 298, rfl⟩
abbrev main_v233 : Ref sig .tc := ⟨.hbm, 299, rfl⟩
abbrev main_v234 : Ref sig .tc := ⟨.hbm, 300, rfl⟩
abbrev main_cst_35 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_cst_36 : Ref sig .tc := ⟨.hbm, 305, rfl⟩
abbrev main_v238 : Ref sig .tc := ⟨.hbm, 306, rfl⟩
abbrev main_cst_37 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_cst_38 : Ref sig .tc := ⟨.hbm, 311, rfl⟩
abbrev main_call6_v0 : Ref sig .tc := ⟨.hbm, 312, rfl⟩
abbrev main_call6_v1 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_call7_cst : Ref sig .tc := ⟨.hbm, 322, rfl⟩
abbrev main_call7_v0 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_call8_cst : Ref sig .tc := ⟨.hbm, 329, rfl⟩
abbrev main_call8_v0 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x64_S128x64_1_0_0_1_n_n_wf : DotDims.WF S128x128 S128x64 S128x64 [1] [0] [0] [1] [] []
  dot_S128x64_S64x32_S128x32_1_0_0_1_n_n_wf : DotDims.WF S128x64 S64x32 S128x32 [1] [0] [0] [1] [] []
  dot_S128x32_S32x10_S128x10_1_0_0_1_n_n_wf : DotDims.WF S128x32 S32x10 S128x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x10_S128x10_1_0_0_1_n_n : DotDims S128x32 S32x10 S128x10 where
  lhsContracting := [1]
  rhsContracting := [0]
  lhsNonContracting := [0]
  rhsNonContracting := [1]
  lhsBatch := []
  rhsBatch := []
  wf := dot_S128x32_S32x10_S128x10_1_0_0_1_n_n_wf

class Facts : Prop extends Facts₀ where

variable [Facts]
-- ==== Proof.KRun.lean ====
/-
  The idealized kernel program's run with its RESULT named: every weakly fair execution from a memory with zero counters
  terminates without a fault, the result buffer ends at the contents the last segment boundary assigns it (the fold of
  the host stretches and the regions' write-backs from the launch memory), and the argument arrays end as launched.
  It is the frame's own run, its last thread state read at one more buffer.
-/
import proofs.«138442_j46162308497633_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result buffer at the last boundary's contents and the arguments as launched. -/
theorem run_result : θ_run defs (onTc (τ := τ) (main (F := F))) ⟨m, fun _ => 0, ρ⟩ (fun r => ∀ c : Dev nD,
      r.2.mem ((c.tc : Thread nD τ).loc main_v165) = W26 m ρ c (Proc.devRef .tc main_v165)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v165 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c),
       (h c _ (mem_uc main_arg13 (by decide))).trans (W26_main_arg13 m ρ c),
       (h c _ (mem_uc main_arg14 (by decide))).trans (W26_main_arg14 m ρ c),
       (h c _ (mem_uc main_arg15 (by decide))).trans (W26_main_arg15 m ρ c),
       (h c _ (mem_uc main_arg16 (by decide))).trans (W26_main_arg16 m ρ c)⟩)

end Cert.KernelIdeal.Gen

end
-- ==== Proof.GcnSpec.lean ====
/-
  The graph-convolution network of this certificate as plain functions on the extended reals, matrices written
  `Fin a → Fin b → EReal`.

  A node-feature matrix `x : [N, 128]` (N = 100000 nodes) goes through four layers. A layer scales the rows of `x` by the
  out-degree normaliser, aggregates them along the edges (`agg`: gather the source rows, add them into the destination
  rows), scales by the in-degree normaliser, applies an affine map, and batch-normalises the result `hn` over the nodes:
  with column mean `μ` and column variance `σ²`, the new features are `x + max 0 ((hn − μ)·rsqrt(σ² + ε)·γ + β)`.

  The two programs differ only in how they take the column statistics: one sums each column over 50 tiles of 2000 rows and
  then over the tiles, and takes the variance as `max 0 (E[hn²] − μ²)`; the other sums each column in one go and takes the
  variance as `E[(hn − μ)²]`. Where every entry of `hn` is a real number the two agree (`GcnLaws`).
-/
import Idealize.ShloMosaic.PureOps.Ideal
import Idealize.ShloMosaic.Lib.ValueIdx

noncomputable section

namespace Gcn

open Idealize.ShloMosaic Idealize.ShloMosaic.ValueIdx
open scoped BigOperators

abbrev Mat (a b : Nat) := Fin a → Fin b → EReal
abbrev Col (a : Nat) := Fin a → EReal

/-- A rank-2 array as a matrix, and back. -/
def toMat {a b : Nat} (f : (⟨2, ![a, b]⟩ : Shape).Idx → EReal) : Mat a b := fun p q => f (ix2 p q)
def ofMat {a b : Nat} (g : Mat a b) : (⟨2, ![a, b]⟩ : Shape).Idx → EReal :=
  fun i => g ⟨(i 0).val, (i 0).isLt⟩ ⟨(i 1).val, (i 1).isLt⟩

/-- The one row of a [1, b] array, and the one column of an [a, 1] array. -/
def rowOf {b : Nat} (f : (⟨2, ![1, b]⟩ : Shape).Idx → EReal) : Col b := fun q => f (ix2 0 q)
def colOf {a : Nat} (f : (⟨2, ![a, 1]⟩ : Shape).Idx → EReal) : Col a := fun p => f (ix2 p 0)
/-- A vector as a column of numbers. -/
def vecOf {a : Nat} (f : (⟨1, ![a]⟩ : Shape).Idx → EReal) : Col a := fun p => f (ix1 p)

/-- An extended real that is a real number; a matrix or a column of real numbers. -/
def IsReal (x : EReal) : Prop := ∃ r : ℝ, x = (r : EReal)
def RealM {a b : Nat} (f : Mat a b) : Prop := ∀ p q, IsReal (f p q)
def RealC {a : Nat} (s : Col a) : Prop := ∀ p, IsReal (s p)

/-- The float patterns both programs spell: 1, the batch-norm ε (the float nearest 1e-5) and the node count 100000. -/
def one : EReal := Ideal.ofBits .f32 0x3F800000#32
def eps : EReal := Ideal.ofBits .f32 0x3727C5AC#32
def nodes : EReal := Ideal.ofBits .f32 0x47C35000#32

/-- `l · w + b`, the bias added to every row. -/
def affine {n k h : Nat} (l : Mat n k) (w : Mat k h) (b : Col h) : Mat n h :=
  fun p q => (∑ j : Fin k, l p j * w j q) + b q

/-- Row `p` of `x` times `s p`. -/
def scaleRows {n h : Nat} (x : Mat n h) (s : Col n) : Mat n h := fun p q => x p q * s p

/-- The degree normaliser `rsqrt (max 1 d)`. -/
def invSqrtDeg {n : Nat} (d : Col n) : Col n := fun p => Ideal.rsqrt (max one (d p))

def relu {n h : Nat} (x : Mat n h) : Mat n h := fun p q => max (x p q) 0

/-- A column's sum taken tile by tile: 50 tiles of 2000 rows, then the tiles. -/
def tileSum (f : Mat 100000 128) : Col 128 :=
  fun q => 0 + ∑ t : Fin 50, ∑ r : Fin 2000, f ⟨2000 * t.val + r.val, by omega⟩ q

/-- A column's sum taken in one go. -/
def fullSum (f : Mat 100000 128) : Col 128 := fun q => 0 + ∑ i : Fin 100000, f i q

/-- A column sum over the node count. -/
def meanOf (s : Col 128) : Col 128 := fun q => Ideal.div (s q) nodes

def sq (f : Mat 100000 128) : Mat 100000 128 := fun p q => f p q * f p q

/-- The variance as `max (E[f²] − μ²) 0` over tile sums. -/
def varTiled (f : Mat 100000 128) : Col 128 :=
  fun q => max (meanOf (tileSum (sq f)) q - meanOf (tileSum f) q * meanOf (tileSum f) q) 0

/-- The variance as `E[(f − μ)²]` over whole-column sums. -/
def varCentred (f : Mat 100000 128) : Col 128 :=
  fun q => meanOf (fullSum (sq (fun p q => f p q - meanOf (fullSum f) q))) q

/-- Batch normalisation with given statistics, the rectifier, and the residual. -/
def bnRes (x hn : Mat 100000 128) (mu var g bt : Col 128) : Mat 100000 128 :=
  fun p q => x p q + max ((hn p q - mu q) * Ideal.rsqrt (var q + eps) * g q + bt q) 0

/-- What a layer normalises: aggregate the out-degree-scaled rows, scale by the in-degree normaliser, affine map. -/
def preNorm (agg : Mat 100000 128 → Mat 100000 128) (sOut sIn : Col 100000) (w : Mat 128 128) (b : Col 128)
    (x : Mat 100000 128) : Mat 100000 128 :=
  affine (scaleRows (agg (scaleRows x sOut)) sIn) w b

/-- A layer with the statistics taken tile by tile. -/
def layerTiled (agg : Mat 100000 128 → Mat 100000 128) (sOut sIn : Col 100000) (w : Mat 128 128) (b g bt : Col 128)
    (x : Mat 100000 128) : Mat 100000 128 :=
  bnRes x (preNorm agg sOut sIn w b x) (meanOf (tileSum (preNorm agg sOut sIn w b x))) (varTiled (preNorm agg sOut sIn w b x)) g bt

/-- A layer with the statistics taken over whole columns. -/
def layerWhole (agg : Mat 100000 128 → Mat 100000 128) (sOut sIn : Col 100000) (w : Mat 128 128) (b g bt : Col 128)
    (x : Mat 100000 128) : Mat 100000 128 :=
  bnRes x (preNorm agg sOut sIn w b x) (meanOf (fullSum (preNorm agg sOut sIn w b x))) (varCentred (preNorm agg sOut sIn w b x)) g bt

/-- The per-graph mean of the node features: pooled sums over the clamped graph sizes. -/
def graphMean (sums : Mat 128 128) (cnt : Col 128) : Mat 128 128 := fun g k => Ideal.div (sums g k) (cnt g)

/-- The read-out: three affine maps with a rectifier after the first two. -/
def mlp (hg : Mat 128 128) (w1 : Mat 128 64) (b1 : Col 64) (w2 : Mat 64 32) (b2 : Col 32) (w3 : Mat 32 10) (b3 : Col 10) :
    Mat 128 10 :=
  affine (relu (affine (relu (affine hg w1 b1)) w2 b2)) w3 b3

end Gcn

end
-- ==== Proof.KTerms.lean ====
/-
  The host-side computations of the idealized kernel program, as functions of the argument arrays, at the extended reals:
  the degree normalisers `rsqrt (max 1 deg)` from the edge lists, the edge aggregation (gather the source rows of the
  scaled features, add them into the destination rows), the per-graph pooling and graph sizes, and the per-graph mean.
  Each definition spells the program's own operations in order, so that a buffer's contents after a host stretch is one
  of these terms by unfolding.
-/
import proofs.«138442_j46162308497633_2_alg».proof.Proof.Gen.KernelIdeal
import proofs.«138442_j46162308497633_2_alg».proof.Proof.GcnSpec

noncomputable section

namespace Cert.KernelIdeal.Terms

open Idealize.ShloMosaic Idealize.ShloMosaic.TcCoe Idealize.SL.Sem Cert.KernelIdeal Cert.KernelIdeal.Gen

abbrev FArr (S : Shape) := FVec Ideal S .f32
abbrev HArr (S : Shape) := FVec Ideal S .bf16
abbrev IArr (S : Shape) := IVec S 32

def zeroS : FArr S_ := constant (F := Ideal) S_ .f32 0x00000000#32
def oneS : FArr S_ := constant (F := Ideal) S_ .f32 0x3F800000#32

/-- One per edge. -/
def onesE : FArr S1600000 := broadcastInDim S1600000 ![] bcast_S_S1600000 oneS

/-- An edge list as a one-column array of row numbers. -/
def colE (a : IArr S1600000) : IArr S1600000x1 := broadcastInDim S1600000x1 ![0] bcast_S1600000_S1600000x1_0 a

/-- The number of edges at each node of the list `a`. -/
def deg (a : IArr S1600000) : FArr S100000 :=
  Host.scatterAdd (F := Ideal) scatter_S100000_S1600000x1_S1600000_n_0_0_1 (broadcastInDim S100000 ![] bcast_S_S100000 zeroS) (colE a) onesE

/-- `max 1 deg`. -/
def clipDeg (a : IArr S1600000) : FArr S100000 :=
  maximumf (F := Ideal) (broadcastInDim S100000 ![] bcast_S_S100000 (id oneS)) (deg a)

/-- `rsqrt (max 1 deg)`, as a one-column array. -/
def invDeg (a : IArr S1600000) : FArr S100000x1 :=
  broadcastInDim S100000x1 ![0] bcast_S100000_S100000x1_0 (Host.rsqrt (F := Ideal) (clipDeg a))

/-- The source row numbers, a negative one counted from the end. -/
def srcIdx (a14 : IArr S1600000) : IArr S1600000x1 :=
  colE (select (cmpi .slt a14 (broadcastInDim S1600000 ![] bcast_S_S1600000 (constantI S_ 32 0#32)))
    (addi a14 (broadcastInDim S1600000 ![] bcast_S_S1600000 (constantI S_ 32 100000#32))) a14)

/-- The edge aggregation: row `n` of the result is the sum of the rows `hs[src e]` over the edges `e` with `dst e = n`. -/
def aggArr (hs : HArr S100000x128) (a14 a15 : IArr S1600000) : FArr S100000x128 :=
  Host.scatterAdd (F := Ideal) scatter_S100000x128_S1600000x1_S1600000x128_1_0_0_1
    (broadcastInDim S100000x128 ![] bcast_S_S100000x128 zeroS) (colE a15)
    (extf (F := Ideal) .f32 (Host.gather gather_S100000x128_S1600000x1_S1600000x128_1_0_n_n_0_1_1128 hs (srcIdx a14)) bitsLt_bf16_f32)

/-- The node features summed per graph. -/
def poolArr (x : FArr S100000x128) (a16 : IArr S100000) : FArr S128x128 :=
  Host.scatterAdd (F := Ideal) scatter_S128x128_S100000x1_S100000x128_1_0_0_1 (broadcastInDim S128x128 ![] bcast_S_S128x128 zeroS)
    (broadcastInDim S100000x1 ![0] bcast_S100000_S100000x1_0 a16) x

/-- `max 1` of the number of nodes of each graph. -/
def cntArr (a16 : IArr S100000) : FArr S128 :=
  maximumf (F := Ideal) (broadcastInDim S128 ![] bcast_S_S128 (id oneS))
    (Host.scatterAdd (F := Ideal) scatter_S128_S100000x1_S100000_n_0_0_1 (broadcastInDim S128 ![] bcast_S_S128 zeroS)
      (broadcastInDim S100000x1 ![0] bcast_S100000_S100000x1_0 a16) (broadcastInDim S100000 ![] bcast_S_S100000 oneS))

/-- The per-graph mean of the node features. -/
def hgArr (x : FArr S100000x128) (a16 : IArr S100000) : FArr S128x128 :=
  Host.divf (F := Ideal) (poolArr x a16)
    (broadcastInDim S128x128 ![0, 1] bcast_S128x1_S128x128_0_1 (broadcastInDim S128x1 ![0] bcast_S128_S128x1_0 (cntArr a16)))

/-! ## The same as matrices and columns -/

def sOut (a14 : IArr S1600000) : Gcn.Col 100000 := Gcn.colOf (invDeg a14)
def sIn (a15 : IArr S1600000) : Gcn.Col 100000 := Gcn.colOf (invDeg a15)
def agg (a14 a15 : IArr S1600000) (hs : Gcn.Mat 100000 128) : Gcn.Mat 100000 128 :=
  Gcn.toMat (aggArr (Gcn.ofMat hs) a14 a15)
def pool (a16 : IArr S100000) (x : Gcn.Mat 100000 128) : Gcn.Mat 128 128 := Gcn.toMat (poolArr (Gcn.ofMat x) a16)
def cnt (a16 : IArr S100000) : Gcn.Col 128 := Gcn.vecOf (cntArr a16)

/-- Layer `l`'s weight matrix and a row of a [4, 128] parameter array. -/
def wL (a4 : FArr S4x128x128) (l : Fin 4) : Gcn.Mat 128 128 := fun k q => a4 (ValueIdx.ix3 l k q)
def rowL (a : FArr S4x128) (l : Fin 4) : Gcn.Col 128 := fun q => a (ValueIdx.ix2 l q)

end Cert.KernelIdeal.Terms

end
-- ==== Proof.KChainBase.lean ====
/-
  Tools for following the idealized kernel program's buffers from one segment boundary to the next: through a region a
  buffer that is none of the region's arrays keeps its contents; through a host stretch a buffer holds its operation's
  value of the operands' contents, or what it held if no operation of the stretch writes it; at the launch it holds the
  launch memory's contents.
-/
import proofs.«138442_j46162308497633_2_alg».proof.Proof.Gen.KernelIdeal.Frame
import proofs.«138442_j46162308497633_2_alg».proof.Proof.KTerms

import Idealize.ShloMosaic.PureOps.Ideal
import Idealize.ShloMosaic.Lib.Pipeline.Value
import Idealize.ShloMosaic.Lib.StableHlo.Run

set_option maxRecDepth 16384

noncomputable section

namespace Cert.KernelIdeal.Chain

open Idealize.ShloMosaic Idealize.ShloMosaic.TcCoe Idealize.ShloMosaic.Tactic Idealize.ShloMosaic.StableHlo Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

/-! Through a region a buffer that is none of the region's arrays keeps its contents. -/
theorem W6_keep {b : Ref sig .tc} (hb : ∀ w, Pipeline.arrRef spec0 w ≠ b) :
    W6 m ρ c (no_index (Proc.devRef .tc b)) = W5 m ρ c (Proc.devRef .tc b) := W6_of_ne m ρ c b hb
theorem W8_keep {b : Ref sig .tc} (hb : ∀ w, Pipeline.arrRef spec1 w ≠ b) :
    W8 m ρ c (no_index (Proc.devRef .tc b)) = W7 m ρ c (Proc.devRef .tc b) := W8_of_ne m ρ c b hb
theorem W10_keep {b : Ref sig .tc} (hb : ∀ w, Pipeline.arrRef spec2 w ≠ b) :
    W10 m ρ c (no_index (Proc.devRef .tc b)) = W9 m ρ c (Proc.devRef .tc b) := W10_of_ne m ρ c b hb
theorem W12_keep {b : Ref sig .tc} (hb : ∀ w, Pipeline.arrRef spec3 w ≠ b) :
    W12 m ρ c (no_index (Proc.devRef .tc b)) = W11 m ρ c (Proc.devRef .tc b) := W12_of_ne m ρ c b hb
theorem W14_keep {b : Ref sig .tc} (hb : ∀ w, Pipeline.arrRef spec4 w ≠ b) :
    W14 m ρ c (no_index (Proc.devRef .tc b)) = W13 m ρ c (Proc.devRef .tc b) := W14_of_ne m ρ c b hb
theorem W16_keep {b : Ref sig .tc} (hb : ∀ w, Pipeline.arrRef spec5 w ≠ b) :
    W16 m ρ c (no_index (Proc.devRef .tc b)) = W15 m ρ c (Proc.devRef .tc b) := W16_of_ne m ρ c b hb
theorem W18_keep {b : Ref sig .tc} (hb : ∀ w, Pipeline.arrRef spec6 w ≠ b) :
    W18 m ρ c (no_index (Proc.devRef .tc b)) = W17 m ρ c (Proc.devRef .tc b) := W18_of_ne m ρ c b hb
theorem W20_keep {b : Ref sig .tc} (hb : ∀ w, Pipeline.arrRef spec7 w ≠ b) :
    W20 m ρ c (no_index (Proc.devRef .tc b)) = W19 m ρ c (Proc.devRef .tc b) := W20_of_ne m ρ c b hb
theorem W22_keep {b : Ref sig .tc} (hb : ∀ w, Pipeline.arrRef spec8 w ≠ b) :
    W22 m ρ c (no_index (Proc.devRef .tc b)) = W21 m ρ c (Proc.devRef .tc b) := W22_of_ne m ρ c b hb
theorem W26_keep {b : Ref sig .tc} (hb : ∀ w, Pipeline.arrRef spec9 w ≠ b) :
    W26 m ρ c (no_index (Proc.devRef .tc b)) = W25 m ρ c (Proc.devRef .tc b) := W26_of_ne m ρ c b hb

/-! A region leaves an array it only reads as it found it: the two degree normalisers go through the regions that read them. -/
theorem W6_v10 : W6 m ρ c (no_index (Proc.devRef .tc main_v10)) = W5 m ρ c (Proc.devRef .tc main_v10) :=
  (W6_arr m ρ c 3).trans (((dat0 (V5 m ρ) c).arrAt_in 3 rfl _).trans (A_eq0 (V5 m ρ) c 3))
theorem W10_v10 : W10 m ρ c (no_index (Proc.devRef .tc main_v10)) = W9 m ρ c (Proc.devRef .tc main_v10) :=
  (W10_arr m ρ c 6).trans (((dat2 (V9 m ρ) c).arrAt_in 6 rfl _).trans (A_eq2 (V9 m ρ) c 6))
theorem W14_v10 : W14 m ρ c (no_index (Proc.devRef .tc main_v10)) = W13 m ρ c (Proc.devRef .tc main_v10) :=
  (W14_arr m ρ c 6).trans (((dat4 (V13 m ρ) c).arrAt_in 6 rfl _).trans (A_eq4 (V13 m ρ) c 6))
theorem W18_v10 : W18 m ρ c (no_index (Proc.devRef .tc main_v10)) = W17 m ρ c (Proc.devRef .tc main_v10) :=
  (W18_arr m ρ c 6).trans (((dat6 (V17 m ρ) c).arrAt_in 6 rfl _).trans (A_eq6 (V17 m ρ) c 6))
theorem W8_v12 : W8 m ρ c (no_index (Proc.devRef .tc main_v12)) = W7 m ρ c (Proc.devRef .tc main_v12) :=
  (W8_arr m ρ c 1).trans (((dat1 (V7 m ρ) c).arrAt_in 1 rfl _).trans (A_eq1 (V7 m ρ) c 1))
theorem W12_v12 : W12 m ρ c (no_index (Proc.devRef .tc main_v12)) = W11 m ρ c (Proc.devRef .tc main_v12) :=
  (W12_arr m ρ c 1).trans (((dat3 (V11 m ρ) c).arrAt_in 1 rfl _).trans (A_eq3 (V11 m ρ) c 1))
theorem W16_v12 : W16 m ρ c (no_index (Proc.devRef .tc main_v12)) = W15 m ρ c (Proc.devRef .tc main_v12) :=
  (W16_arr m ρ c 1).trans (((dat5 (V15 m ρ) c).arrAt_in 1 rfl _).trans (A_eq5 (V15 m ρ) c 1))

theorem W0_eq {b : Ref sig .tc} : W0 m ρ c (no_index (Proc.devRef .tc b)) = m ((c : Thread nD τ).loc b) := rfl

/-- Walk a segment boundary's contents at one buffer back towards the launch: through a host stretch by its operations'
    results (the buffer's own operation gives its value of the operands, any other operation leaves it), through a region
    when the buffer is none of the region's arrays or is only read by it; at the launch the memory's contents. -/
macro "walk_back" : tactic =>
  `(tactic| simp (disch := decide) only [after_cons, after_nil, W0_eq, TRef.toBuf, TRef.ofBuf, cast_eq,
      nullary_result', unary_result', binary_result', ternary_result', quaternary_result', reshape_result',
      nullary_result_ne', unary_result_ne', binary_result_ne', ternary_result_ne', quaternary_result_ne', reshape_result_ne',
      W6_v10, W10_v10, W14_v10, W18_v10, W8_v12, W12_v12, W16_v12,
      W6_keep, W8_keep, W10_keep, W12_keep, W14_keep, W16_keep, W18_keep, W20_keep, W22_keep, W26_keep])

abbrev a0 := m ((c : Thread nD τ).loc main_arg0)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)
abbrev a15 := m ((c : Thread nD τ).loc main_arg15)
abbrev a16 := m ((c : Thread nD τ).loc main_arg16)

end Cert.KernelIdeal.Chain

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.EmbedRegion.lean ====
/-
  The embedding region.  Each of its 50 grid points takes 2000 rows of the node features, multiplies them by the
  128 × 128 weight matrix, adds the bias row, and writes the 2000 × 128 result to the first output; the same rows, each
  times its entry of the scale column, go to the second output.  Read index by index over the whole arrays: the first
  output is the affine map of the feature array, the second is that with row p scaled by entry p of the scale column.
  The blocks of the row-blocked arrays at point t are rows 2000 t … 2000 t + 1999; the weights and the bias are read
  whole at every point; the output blocks tile the output arrays, row r lying in the block of point r / 2000.
-/
import proofs.«138442_j46162308497633_2_alg».proof.Proof.Gen.KernelIdeal.Frame
import proofs.«138442_j46162308497633_2_alg».proof.Proof.GcnSpec
import proofs.«138442_j46162308497633_2_alg».proof.Proof.LibPlainDot
import proofs.«138442_j46162308497633_2_alg».proof.Proof.LibRank2Layout
import Idealize.ShloMosaic.Lib.Pipeline.Value

set_option maxRecDepth 16384

noncomputable section

namespace Cert.KernelIdeal.EmbedRegion

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! # The embedding region: the node features times the weights plus the bias, and that scaled row by row -/

theorem zero_offsets : (![0, 0] : Fin 2 → Nat) = fun _ => 0 := funext fun a => by fin_cases a <;> rfl

/-! ## One block's payload at an index -/

/-- The affine payload of one block at (p, q): the row of the block times the weight column, plus the bias. -/
theorem affine_at (x0 : Vec Ideal S2000x128 .f32) (x1 : Vec Ideal S128x128 .f32) (x2 : Vec Ideal S1x128 .f32)
    (p : Fin 2000) (q : Fin 128) :
    k0_pay1 (F := Ideal) x0 x1 x2 (ix2 p q) = Gcn.affine (Gcn.toMat x0) (Gcn.toMat x1) (Gcn.rowOf x2) p q := by
  unfold k0_pay1
  rw [addf_apply]
  rw [Rank2.bcastRow_apply, shapeCast_self]
  exact congrArg (· + x2 (ix2 0 q))
    (Cert.Bridge.matmul_zero_plain dot_S2000x128_S128x128_S2000x128_1_0_0_1_n_n rfl rfl rfl rfl rfl rfl none
      (truncf .bf16 x0 bitsLt_bf16_f32) (truncf .bf16 x1 bitsLt_bf16_f32) p q)

/-- The scaled payload at (p, q): the affine payload times the row's scale. -/
theorem scaled_at (x0 : Vec Ideal S2000x128 .f32) (x1 : Vec Ideal S128x128 .f32) (x2 : Vec Ideal S1x128 .f32)
    (x3 : Vec Ideal S2000x1 .f32) (p : Fin 2000) (q : Fin 128) :
    k0_pay2 (F := Ideal) x0 x1 x2 x3 (ix2 p q)
      = Gcn.scaleRows (Gcn.affine (Gcn.toMat x0) (Gcn.toMat x1) (Gcn.rowOf x2)) (Gcn.colOf x3) p q := by
  unfold k0_pay2
  rw [truncf_apply, mulf_apply, affine_at, Rank2.bcastCol_apply, shapeCast_self]
  rfl

/-! ## The blocks of the input arrays -/

/-- The block index maps over the grid: the row-blocked windows sit at block (t, 0), the whole windows at (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 50 := lt_of_lt_of_eq t.isLt N_0

/-- Row p of the features' block at point t is row 2000 t + p of the feature array. -/
theorem features_block (c : Dev nD) (t : Fin cfg0.N) (p : Fin 2000) (k : Fin 128) (i : S100000x128.Idx)
    (h0 : (i 0).val = 2000 * t.val + p.val) (h1 : (i 1).val = k.val) :
    iblk0 (F := Ideal) V c 0 t (ix2 p k) = V c main_arg0 i := by
  unfold iblk0
  rw [View.read_apply]
  show V c main_arg0 (((cfg0.win 0).blk t).view.emb (ix2 p k)) = V c main_arg0 i
  refine congrArg (V c main_arg0) ?_
  obtain ⟨e0, e1, -⟩ := block_indices t
  funext a; apply Fin.ext
  match a with
  | ⟨0, _⟩ => show win0_0.index t (0 : Fin 2) * 2000 + 1 * p.val = (i 0).val; rw [e0, h0]; omega
  | ⟨1, _⟩ => show win0_0.index t (1 : Fin 2) * 128 + 1 * k.val = (i 1).val; rw [e1, h1]; omega

/-- The weights' block at every point is the whole weight array. -/
theorem weights_block (c : Dev nD) (t : Fin cfg0.N) (k : Fin 128) (q : Fin 128) :
    iblk0 (F := Ideal) V c 1 t (ix2 k q) = V c main_arg2 (ix2 k q) := by
  unfold iblk0
  rw [View.read_apply]
  show V c main_arg2 (((cfg0.win 1).blk t).view.emb (ix2 k q)) = V c main_arg2 (ix2 k q)
  refine congrArg (V c main_arg2) ?_
  obtain ⟨-, -, e0, e1, -⟩ := block_indices t
  funext a; apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias' block at every point is the whole bias row. -/
theorem bias_block (c : Dev nD) (t : Fin cfg0.N) (z : Fin 1) (q : Fin 128) :
    iblk0 (F := Ideal) V c 2 t (ix2 z q) = V c main_v13 (ix2 z q) := by
  unfold iblk0
  rw [View.read_apply]
  show V c main_v13 (((cfg0.win 2).blk t).view.emb (ix2 z q)) = V c main_v13 (ix2 z q)
  refine congrArg (V c main_v13) ?_
  obtain ⟨-, -, -, -, e0, e1, -⟩ := block_indices t
  funext a; apply Fin.ext
  match a with
  | ⟨0, _⟩ => show win0_2.index t (0 : Fin 2) * 1 + 1 * z.val = z.val; rw [e0]; omega
  | ⟨1, _⟩ => show win0_2.index t (1 : Fin 2) * 128 + 1 * q.val = q.val; rw [e1]; omega

/-- Entry p of the scales' block at point t is entry 2000 t + p of the scale column. -/
theorem scales_block (c : Dev nD) (t : Fin cfg0.N) (p : Fin 2000) (z : Fin 1) (i : S100000x1.Idx)
    (h0 : (i 0).val = 2000 * t.val + p.val) (h1 : (i 1).val = z.val) :
    iblk0 (F := Ideal) V c 3 t (ix2 p z) = V c main_v10 i := by
  unfold iblk0
  rw [View.read_apply]
  show V c main_v10 (((cfg0.win 3).blk t).view.emb (ix2 p z)) = V c main_v10 i
  refine congrArg (V c main_v10) ?_
  obtain ⟨-, -, -, -, -, -, e0, e1, -⟩ := block_indices t
  funext a; apply Fin.ext
  match a with
  | ⟨0, _⟩ => show win0_3.index t (0 : Fin 2) * 2000 + 1 * p.val = (i 0).val; rw [e0, h0]; omega
  | ⟨1, _⟩ => show win0_3.index t (1 : Fin 2) * 1 + 1 * z.val = (i 1).val; rw [e1, h1]; omega

/-! ## The two output arrays as functions of the input arrays -/

/-- The embedded features: the feature array times the weights plus the bias. -/
def embedded (c : Dev nD) : Gcn.Mat 100000 128 :=
  Gcn.affine (Gcn.toMat (V c main_arg0)) (Gcn.toMat (V c main_arg2)) (Gcn.rowOf (V c main_v13))

/-- The embedded features with row p scaled by entry p of the scale column. -/
def embeddedScaled (c : Dev nD) : Gcn.Mat 100000 128 :=
  Gcn.scaleRows (embedded V c) (Gcn.colOf (V c main_v10))

/-- Where the element (p, q) of point t's output block sits in the output array: row 2000 t + p, column q. -/
theorem out_block_index (t : Fin cfg0.N) (p : Fin 2000) (q : Fin 128) (h : 2000 * t.val + p.val < 100000) :
    ((cfg0.win 4).blk t).view.emb (ix2 p q) = ix2 (⟨2000 * t.val + p.val, h⟩ : Fin 100000) q := by
  obtain ⟨-, -, -, -, -, -, -, -, e0, e1, -⟩ := block_indices t
  funext a; apply Fin.ext
  match a with
  | ⟨0, _⟩ => show win0_4.index t (0 : Fin 2) * 2000 + 1 * p.val = 2000 * t.val + p.val; rw [e0]; omega
  | ⟨1, _⟩ => show win0_4.index t (1 : Fin 2) * 128 + 1 * q.val = q.val; rw [e1]; omega

theorem out_block_index' (t : Fin cfg0.N) (p : Fin 2000) (q : Fin 128) (h : 2000 * t.val + p.val < 100000) :
    ((cfg0.win 5).blk t).view.emb (ix2 p q) = ix2 (⟨2000 * t.val + p.val, h⟩ : Fin 100000) q := by
  obtain ⟨-, -, -, -, -, -, -, -, -, -, e0, e1⟩ := block_indices t
  funext a; apply Fin.ext
  match a with
  | ⟨0, _⟩ => show win0_5.index t (0 : Fin 2) * 2000 + 1 * p.val = 2000 * t.val + p.val; rw [e0]; omega
  | ⟨1, _⟩ => show win0_5.index t (1 : Fin 2) * 128 + 1 * q.val = q.val; rw [e1]; omega

/-- The affine payload of point t's blocks at (p, q) is the embedded features at (2000 t + p, q). -/
theorem affine_of_blocks (c : Dev nD) (t : Fin cfg0.N) (p : Fin 2000) (q : Fin 128) (h : 2000 * t.val + p.val < 100000) :
    Gcn.affine (Gcn.toMat (iblk0 (F := Ideal) V c 0 t)) (Gcn.toMat (iblk0 (F := Ideal) V c 1 t))
        (Gcn.rowOf (iblk0 (F := Ideal) V c 2 t)) p q
      = embedded V c ⟨2000 * t.val + p.val, h⟩ q := by
  unfold embedded Gcn.affine
  refine congrArg₂ (· + ·) (Finset.sum_congr rfl fun k _ => congrArg₂ (· * ·) ?_ ?_) ?_
  · exact features_block V c t p k (ix2 (⟨2000 * t.val + p.val, h⟩ : Fin 100000) k) rfl rfl
  · exact weights_block V c t k q
  · exact bias_block V c t 0 q

/-- What point t writes back to the first output is block t of the embedded features. -/
theorem flushed_embedded (c : Dev nD) (t : Fin cfg0.N) :
    (dat0 (F := Ideal) V c).flushed 4 t = ((cfg0.win 4).blk t).view.read (Elt Ideal) (Gcn.ofMat (embedded V c)) := by
  show (cfg0.win 4).cut (grid0.coords t) ((dat0 (F := Ideal) V c).after 4 t) = _
  rw [after0_4]
  unfold out0_4
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  have ht := point_lt t
  have h : 2000 * t.val + p.val < 100000 := by omega
  rw [View.read_apply, out_block_index t p q h]
  show k0_pay1 (F := Ideal) (iblk0 V c 0 t) (iblk0 V c 1 t) (iblk0 V c 2 t) (ix2 p q) = embedded V c ⟨2000 * t.val + p.val, h⟩ q
  exact (affine_at (iblk0 V c 0 t) (iblk0 V c 1 t) (iblk0 V c 2 t) p q).trans (affine_of_blocks V c t p q h)

/-- What point t writes back to the second output is block t of the scaled embedded features. -/
theorem flushed_scaled (c : Dev nD) (t : Fin cfg0.N) :
    (dat0 (F := Ideal) V c).flushed 5 t = ((cfg0.win 5).blk t).view.read (Elt Ideal) (Gcn.ofMat (embeddedScaled V c)) := by
  show (cfg0.win 5).cut (grid0.coords t) ((dat0 (F := Ideal) V c).after 5 t) = _
  rw [after0_5]
  unfold out0_5
  rw [View.canon_unit_zero zero_offsets]
  simp only [View.ld_unit_zero (S := S2000x128) zero_offsets, View.ld_unit_zero (S := S128x128) zero_offsets,
    View.ld_unit_zero (S := S1x128) zero_offsets, View.ld_unit_zero (S := S2000x1) zero_offsets]
  funext j
  obtain ⟨p, q, rfl⟩ : ∃ (p : Fin 2000) (q : Fin 128), j = ix2 p q := ⟨j 0, j 1, eq_ix2 j⟩
  have ht := point_lt t
  have h : 2000 * t.val + p.val < 100000 := by omega
  rw [View.read_apply, out_block_index' t p q h]
  show k0_pay2 (F := Ideal) (iblk0 V c 0 t) (iblk0 V c 1 t) (iblk0 V c 2 t) (iblk0 V c 3 t) (ix2 p q)
    = embeddedScaled V c ⟨2000 * t.val + p.val, h⟩ q
  refine (scaled_at (iblk0 V c 0 t) (iblk0 V c 1 t) (iblk0 V c 2 t) (iblk0 V c 3 t) p q).trans ?_
  unfold embeddedScaled Gcn.scaleRows
  exact congrArg₂ (· * ·) (affine_of_blocks V c t p q h)
    (scales_block V c t p 0 (ix2 (⟨2000 * t.val + p.val, h⟩ : Fin 100000) 0) rfl rfl)

/-! ## The blocks cover the arrays -/

/-- An index of the first output is in point t's block iff each coordinate is in the block's range on its axis. -/
theorem mem_block (t : Fin cfg0.N) (i : S100000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v14_0).slice (win0_4.rect t)).set ↔ _
  rw [View.set_slice_whole, Rect.mem_set_unit]
  exact Iff.rfl

theorem mem_block' (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v14_1).slice (win0_5.rect t)).set ↔ _
  rw [View.set_slice_whole, Rect.mem_set_unit]
  exact Iff.rfl

/-- The point whose block holds row r: r / 2000. -/
def pointOf (i : S100000x128.Idx) : Fin cfg0.N :=
  ⟨(i 0).val / 2000, by
    have h : (i 0).val < 100000 := (i 0).isLt
    rw [show cfg0.N = 50 from N_0]; omega⟩

/-- Every index of the first output is in the block of the point row / 2000. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  refine ⟨pointOf i, flush0_4 _, ?_⟩
  rw [mem_block]
  obtain ⟨-, -, -, -, -, -, -, -, e0, e1, -⟩ := block_indices (pointOf i)
  intro a
  match a with
  | ⟨0, _⟩ =>
    show win0_4.index (pointOf i) (0 : Fin 2) * 2000 ≤ (i 0).val ∧ (i 0).val < win0_4.index (pointOf i) (0 : Fin 2) * 2000 + 2000
    rw [e0]; show (i 0).val / 2000 * 2000 ≤ (i 0).val ∧ (i 0).val < (i 0).val / 2000 * 2000 + 2000; omega
  | ⟨1, _⟩ =>
    show win0_4.index (pointOf i) (1 : Fin 2) * 128 ≤ (i 1).val ∧ (i 1).val < win0_4.index (pointOf i) (1 : Fin 2) * 128 + 128
    rw [e1]; omega

theorem cover' (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  refine ⟨pointOf i, flush0_5 _, ?_⟩
  rw [mem_block']
  obtain ⟨-, -, -, -, -, -, -, -, -, -, e0, e1⟩ := block_indices (pointOf i)
  intro a
  match a with
  | ⟨0, _⟩ =>
    show win0_5.index (pointOf i) (0 : Fin 2) * 2000 ≤ (i 0).val ∧ (i 0).val < win0_5.index (pointOf i) (0 : Fin 2) * 2000 + 2000
    rw [e0]; show (i 0).val / 2000 * 2000 ≤ (i 0).val ∧ (i 0).val < (i 0).val / 2000 * 2000 + 2000; omega
  | ⟨1, _⟩ =>
    show win0_5.index (pointOf i) (1 : Fin 2) * 128 ≤ (i 1).val ∧ (i 1).val < win0_5.index (pointOf i) (1 : Fin 2) * 128 + 128
    rw [e1]; omega

/-! ## The output arrays after the region -/

/-- The first output array after the region holds the embedded features. -/
theorem embed_x (c : Dev nD) (p : Fin 100000) (q : Fin 128) :
    (dat0 (F := Ideal) V c).arrAt 4 cfg0.N (ix2 p q)
      = Gcn.affine (Gcn.toMat (V c main_arg0)) (Gcn.toMat (V c main_arg2)) (Gcn.rowOf (V c main_v13)) p q := by
  rw [(dat0 (F := Ideal) V c).arrAt_eq_of_cover 4 (Gcn.ofMat (embedded V c)) (fun t _ => flushed_embedded V c t) cover]
  rfl

/-- The second output array after the region holds the embedded features with each row scaled. -/
theorem embed_hs (c : Dev nD) (p : Fin 100000) (q : Fin 128) :
    (dat0 (F := Ideal) V c).arrAt 5 cfg0.N (ix2 p q)
      = Gcn.scaleRows (Gcn.affine (Gcn.toMat (V c main_arg0)) (Gcn.toMat (V c main_arg2)) (Gcn.rowOf (V c main_v13)))
          (Gcn.colOf (V c main_v10)) p q := by
  rw [(dat0 (F := Ideal) V c).arrAt_eq_of_cover 5 (Gcn.ofMat (embeddedScaled V c)) (fun t _ => flushed_scaled V c t) cover']
  rfl

end Cert.KernelIdeal.EmbedRegion

end
-- ==== Proof.KHead.lean ====
import proofs.«138442_j46162308497633_2_alg».proof.Proof.KChainBase
import proofs.«138442_j46162308497633_2_alg».proof.Proof.EmbedRegion

/-!
  The embedding at the first region's exit, from the launch memory.

  The first region multiplies the node features by the embedding weights, adds the bias row, and also writes the result
  with row `p` scaled by the out-degree normaliser. The arrays it reads are, at its entry: the features and the weights
  as launched; the bias vector of 128 entries viewed as one row; and the one-column array `rsqrt (max 1 deg)` of the
  source edge list. So the two arrays it leaves are `Gcn.affine` of the launch arrays and its row scaling by `sOut`.
-/

set_option maxRecDepth 16384
set_option maxHeartbeats 200000

noncomputable section

namespace Cert.KernelIdeal.Chain

open Idealize.ShloMosaic Idealize.ShloMosaic.TcCoe Idealize.ShloMosaic.Tactic Idealize.ShloMosaic.StableHlo Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

/-- A vector of 128 entries viewed as one row: entry (0, q) of the row is entry q of the vector. -/
theorem row_of_vector (v : FVec Ideal S128 .f32) (q : Fin 128) :
    shapeCast S1x128 v shapeCasts_S128_S1x128 (ix2 0 q) = v (ix1 q) := by
  refine (shapeCast_addUnit_apply ![128] v shapeCasts_S128_S1x128 (ix2 0 q)).trans ?_
  refine congrArg v ?_
  funext a
  match a with
  | ⟨0, _⟩ => rfl

/-- At the first region's entry the node features are as launched. -/
theorem entry_features : V5 m ρ c main_arg0 = a0 m c := by
  show W5 m ρ c (Proc.devRef .tc main_arg0) = _
  walk_back

/-- At the first region's entry the embedding weights are as launched. -/
theorem entry_weights : V5 m ρ c main_arg2 = a2 m c := by
  show W5 m ρ c (Proc.devRef .tc main_arg2) = _
  walk_back

/-- At the first region's entry the bias row is the launched bias vector viewed as one row. -/
theorem entry_bias : V5 m ρ c main_v13 = shapeCast S1x128 (a3 m c) shapeCasts_S128_S1x128 := by
  show W5 m ρ c (Proc.devRef .tc main_v13) = _
  walk_back
  rfl

/-- At the first region's entry the row scales are `rsqrt (max 1 deg)` of the source edge list. -/
theorem entry_scale : V5 m ρ c main_v10 = Terms.invDeg (a14 m c) := by
  show W5 m ρ c (Proc.devRef .tc main_v10) = _
  walk_back
  rfl

/-- The bias row at the first region's entry is the launched bias vector. -/
theorem entry_bias_row : Gcn.rowOf (b := 128) (V5 m ρ c main_v13) = Gcn.vecOf (a3 m c) := by
  funext q
  show V5 m ρ c main_v13 (ix2 0 q) = a3 m c (ix1 q)
  rw [entry_bias m ρ c]
  exact row_of_vector (a3 m c) q

/-- The scale column at the first region's entry is `sOut`. -/
theorem entry_scale_col : Gcn.colOf (a := 100000) (V5 m ρ c main_v10) = Terms.sOut (a14 m c) := by
  rw [entry_scale m ρ c]
  rfl

/-- The embedded features after the first region, entry by entry. -/
theorem head_x (p : Fin 100000) (q : Fin 128) :
    W6 m ρ c (Proc.devRef .tc main_v14_0) (ix2 p q)
      = Gcn.affine (Gcn.toMat (a0 m c)) (Gcn.toMat (a2 m c)) (Gcn.vecOf (a3 m c)) p q := by
  have e := EmbedRegion.embed_x (V5 m ρ) c p q
  rw [entry_features m ρ c, entry_weights m ρ c, entry_bias_row m ρ c] at e
  exact (congrFun (W6_arr m ρ c 4) (ix2 p q)).trans e

/-- The scaled embedded features after the first region, entry by entry. -/
theorem head_hs (p : Fin 100000) (q : Fin 128) :
    W6 m ρ c (Proc.devRef .tc main_v14_1) (ix2 p q)
      = Gcn.scaleRows (Gcn.affine (Gcn.toMat (a0 m c)) (Gcn.toMat (a2 m c)) (Gcn.vecOf (a3 m c))) (Terms.sOut (a14 m c)) p q := by
  have e := EmbedRegion.embed_hs (V5 m ρ) c p q
  rw [entry_features m ρ c, entry_weights m ρ c, entry_bias_row m ρ c, entry_scale_col m ρ c] at e
  exact (congrFun (W6_arr m ρ c 5) (ix2 p q)).trans e

end Cert.KernelIdeal.Chain

end
-- ==== Proof.KStats.lean ====
/-
  The column statistics the kernel program takes on the host from the tiles' partial sums: a [50, 1, 128] array of per-tile
  column sums is summed over the tiles and divided by the node count (the mean), and the variance is
  `max (E[x²] − mean²) 0`. Read at column `q`, these are `Gcn.meanOf` and `Gcn.varTiled` of the matrix whose tile sums
  the partial-sum arrays hold.
-/
import proofs.«138442_j46162308497633_2_alg».proof.Proof.KTerms
import Idealize.ShloMosaic.Lib.Pipeline.Value
import Idealize.ShloMosaic.PureOps.Ideal.Laws
import Idealize.ShloMosaic.Lib.IdealHost

noncomputable section

namespace Cert.KernelIdeal.Terms

open Idealize.ShloMosaic Idealize.ShloMosaic.TcCoe Idealize.ShloMosaic.ValueIdx Idealize.SL.Sem Cert.KernelIdeal Cert.KernelIdeal.Gen
open scoped BigOperators

def nodesS : FArr S_ := constant (F := Ideal) S_ .f32 0x47C35000#32

/-- The tiles' partial column sums added up and divided by the node count. -/
def meanArr (sp : FArr S50x1x128) : FArr S1x128 :=
  Host.divf (F := Ideal) (Host.reduceAdd (F := Ideal) sp zeroS reducesTo_S50x1x128_S1x128_d0 h_S_)
    (broadcastInDim S1x128 ![] bcast_S_S1x128 nodesS)

/-- `max (E[x²] − mean²) 0` from the partial sums of `x` and of `x²`. -/
def varArr (sp sq : FArr S50x1x128) : FArr S1x128 :=
  maximumf (F := Ideal) (subf (F := Ideal) (meanArr sq) (mulf (F := Ideal) (meanArr sp) (meanArr sp)))
    (broadcastInDim S1x128 ![] bcast_S_S1x128 zeroS)

theorem meanArr_apply (sp : FArr S50x1x128) (q : Fin 128) :
    meanArr sp (ix2 0 q) = Ideal.div (0 + ∑ t : Fin 50, sp (ix3 t 0 q)) Gcn.nodes := by
  unfold meanArr
  show FloatOps.hostDivf (Host.reduceAdd (F := Ideal) sp zeroS reducesTo_S50x1x128_S1x128_d0 h_S_ (ix2 0 q))
    (broadcastInDim S1x128 ![] bcast_S_S1x128 nodesS (ix2 0 q)) = _
  rw [broadcastInDim_apply _ bcast_S_S1x128 nodesS (ix2 0 q) (fun a => a.elim0) (fun a => a.elim0)]
  simp only [Host.reduceAdd, Ideal.hostReduceAdd_def, Ideal.hostDivf_def]
  rw [Ideal.hostReduceAdd_single reducesTo_S50x1x128_S1x128_d0 (by decide)]
  have hz : zeroS (Shape.Idx.first h_S_) = 0 := Ideal.ofBits_zero_f32
  rw [hz]
  refine congrArg₂ Ideal.div (congrArg (0 + ·) (Finset.sum_congr rfl fun k _ => ?_)) rfl
  exact congrArg sp (funext fun a => Fin.ext (by match a with | ⟨0, _⟩ => rfl | ⟨1, _⟩ => rfl | ⟨2, _⟩ => rfl))

theorem varArr_apply (sp sq : FArr S50x1x128) (q : Fin 128) :
    varArr sp sq (ix2 0 q) = max (meanArr sq (ix2 0 q) - meanArr sp (ix2 0 q) * meanArr sp (ix2 0 q)) 0 := by
  unfold varArr
  show FloatOps.maximumf (FloatOps.subf (meanArr sq (ix2 0 q)) (FloatOps.mulf (meanArr sp (ix2 0 q)) (meanArr sp (ix2 0 q))))
    (broadcastInDim S1x128 ![] bcast_S_S1x128 zeroS (ix2 0 q)) = _
  rw [broadcastInDim_apply _ bcast_S_S1x128 zeroS (ix2 0 q) (fun a => a.elim0) (fun a => a.elim0)]
  have hz : zeroS (fun a : Fin S_.rank => a.elim0) = 0 := Ideal.ofBits_zero_f32
  rw [hz]
  simp only [Ideal.maximumf_def, Ideal.subf_def, Ideal.mulf_def]

/-- With the partial sums those of a matrix `f`, tile by tile, the mean and the variance are `f`'s tiled statistics. -/
theorem meanArr_tiles (f : Gcn.Mat 100000 128) (sp : FArr S50x1x128)
    (hsp : ∀ (t : Fin 50) (q : Fin 128), sp (ix3 t 0 q) = ∑ r : Fin 2000, f ⟨2000 * t.val + r.val, by omega⟩ q) (q : Fin 128) :
    meanArr sp (ix2 0 q) = Gcn.meanOf (Gcn.tileSum f) q := by
  rw [meanArr_apply]
  unfold Gcn.meanOf Gcn.tileSum
  simp only [hsp]

theorem varArr_tiles (f : Gcn.Mat 100000 128) (sp sq : FArr S50x1x128)
    (hsp : ∀ (t : Fin 50) (q : Fin 128), sp (ix3 t 0 q) = ∑ r : Fin 2000, f ⟨2000 * t.val + r.val, by omega⟩ q)
    (hsq : ∀ (t : Fin 50) (q : Fin 128), sq (ix3 t 0 q)
      = ∑ r : Fin 2000, f ⟨2000 * t.val + r.val, by omega⟩ q * f ⟨2000 * t.val + r.val, by omega⟩ q) (q : Fin 128) :
    varArr sp sq (ix2 0 q) = Gcn.varTiled f q := by
  rw [varArr_apply, meanArr_tiles f sp hsp, meanArr_tiles (Gcn.sq f) sq (fun t q => by rw [hsq]; rfl)]
  rfl

end Cert.KernelIdeal.Terms

end
-- ==== Proof.LibRank3Layout.lean ====
/-
  Rank-3 layout operations read at an index given by its three coordinates, for any sizes.

  A matrix [a, b] viewed as [a, b, 1] (a trailing unit axis added) reads, at (p, q, 0), the matrix at (p, q); a matrix
  [b, c] viewed as [1, b, c] (a leading unit axis added) reads, at (0, q, r), the matrix at (q, r).  An array [a, b, 1]
  broadcast along its last axis to [a, b, c] reads, at (p, q, r), the array at (p, q, 0); an array [1, b, c] broadcast
  along its first axis to [a, b, c] reads, at (p, q, r), the array at (0, q, r).  And over the extended reals the sum of an
  [a, b, c] array along its last axis, started from the zero word, is at (p, q) the finite sum over r of the entries
  (p, q, r).  Each is one instance of the library's read-at-an-index lemma for the operation, with the coordinate
  arithmetic discharged once for all sizes.
-/
import Idealize.ShloMosaic.Lib.ValueIdx
import Idealize.ShloMosaic.Lib.Pipeline.Value
import Idealize.ShloMosaic.PureOps.Ideal.Laws

noncomputable section

open scoped BigOperators

namespace Idealize.ShloMosaic.Rank3

open Idealize.ShloMosaic Idealize.ShloMosaic.ValueIdx

variable {α : Type}

/-- A trailing unit axis added to a matrix: entry (p, q, 0) of the view is entry (p, q). -/
theorem castAddLast_apply {a b : Nat} (v : (⟨2, ![a, b]⟩ : Shape).Idx → α)
    (h : (⟨2, ![a, b]⟩ : Shape).ShapeCasts ⟨3, ![a, b, 1]⟩) (p : Fin a) (q : Fin b) (z : Fin 1) :
    shapeCast (⟨3, ![a, b, 1]⟩ : Shape) v h (ix3 p q z) = v (ix2 p q) := by
  refine shapeCast_apply v h (ix3 p q z) (ix2 p q) ?_
  rw [Shape.rowMajor_val_two, Shape.rowMajor_val_three]
  show p.val * b + q.val = (p.val * b + q.val) * 1 + z.val
  have := z.isLt
  omega

/-- A leading unit axis added to a matrix: entry (0, q, r) of the view is entry (q, r). -/
theorem castAddFirst_apply {b c : Nat} (v : (⟨2, ![b, c]⟩ : Shape).Idx → α)
    (h : (⟨2, ![b, c]⟩ : Shape).ShapeCasts ⟨3, ![1, b, c]⟩) (z : Fin 1) (q : Fin b) (r : Fin c) :
    shapeCast (⟨3, ![1, b, c]⟩ : Shape) v h (ix3 z q r) = v (ix2 q r) := by
  refine shapeCast_apply v h (ix3 z q r) (ix2 q r) ?_
  rw [Shape.rowMajor_val_two, Shape.rowMajor_val_three]
  show q.val * c + r.val = (z.val * b + q.val) * c + r.val
  have hz : z.val = 0 := by have := z.isLt; omega
  rw [hz, Nat.zero_mul, Nat.zero_add]

/-- A broadcast along the last axis: entry (p, q, r) is the operand's entry (p, q, 0). -/
theorem bcastLast_apply {a b c : Nat} (v : (⟨3, ![a, b, 1]⟩ : Shape).Idx → α)
    (h : (⟨3, ![a, b, 1]⟩ : Shape).Broadcasts ⟨3, ![a, b, c]⟩) (p : Fin a) (q : Fin b) (r : Fin c) :
    broadcastTo (⟨3, ![a, b, c]⟩ : Shape) v h (ix3 p q r) = v (ix3 p q (0 : Fin 1)) :=
  broadcastTo_apply v h (ix3 p q r) (ix3 p q (0 : Fin 1)) (fun d => match d with
    | ⟨0, _⟩ => by
        show p.val = if a = 1 then 0 else p.val
        by_cases ha : a = 1
        · rw [if_pos ha]; have := p.isLt; omega
        · rw [if_neg ha]
    | ⟨1, _⟩ => by
        show q.val = if b = 1 then 0 else q.val
        by_cases hb : b = 1
        · rw [if_pos hb]; have := q.isLt; omega
        · rw [if_neg hb]
    | ⟨2, _⟩ => by show 0 = if (1 : Nat) = 1 then 0 else r.val; rw [if_pos rfl])

/-- A broadcast along the first axis: entry (p, q, r) is the operand's entry (0, q, r). -/
theorem bcastFirst_apply {a b c : Nat} (v : (⟨3, ![1, b, c]⟩ : Shape).Idx → α)
    (h : (⟨3, ![1, b, c]⟩ : Shape).Broadcasts ⟨3, ![a, b, c]⟩) (p : Fin a) (q : Fin b) (r : Fin c) :
    broadcastTo (⟨3, ![a, b, c]⟩ : Shape) v h (ix3 p q r) = v (ix3 (0 : Fin 1) q r) :=
  broadcastTo_apply v h (ix3 p q r) (ix3 (0 : Fin 1) q r) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb]
    | ⟨2, _⟩ => by
        show r.val = if c = 1 then 0 else r.val
        by_cases hc : c = 1
        · rw [if_pos hc]; have := r.isLt; omega
        · rw [if_neg hc])

/-- Over the extended reals, the sum along the last axis started from the zero word: entry (p, q) is the finite sum
    over r of the entries (p, q, r). -/
theorem sumLast_apply {a b c : Nat} (v : FVec Ideal (⟨3, ![a, b, c]⟩ : Shape) .f32)
    (h : (⟨3, ![a, b, c]⟩ : Shape).Reduces [(2 : Fin 3)] ⟨2, ![a, b]⟩) (hφ : FKind.Formats .f32)
    (hacc : (0x00000000#32 : BitVec 32) = FKind.add.neutral .f32 hφ) (p : Fin a) (q : Fin b) :
    multiReduction (F := Ideal) .add [(2 : Fin 3)] (⟨2, ![a, b]⟩ : Shape) v 0x00000000#32 h hφ hacc (ix2 p q)
      = ∑ r : Fin c, v (ix3 p q r) := by
  refine (Ideal.multiReduction_add_single v 0x00000000#32 h hφ hacc (ix2 p q)).trans ?_
  show ∑ r : Fin c, v (h.lift (ix2 p q) r) = ∑ r : Fin c, v (ix3 p q r)
  refine Finset.sum_congr rfl fun r _ => congrArg v (funext fun d => Fin.ext ?_)
  match d with
  | ⟨0, _⟩ => rfl
  | ⟨1, _⟩ => rfl
  | ⟨2, _⟩ => rfl

end Idealize.ShloMosaic.Rank3

end
-- ==== Proof.LinRegion1.lean ====
/-
  The linear region of the first layer, read entry by entry.

  Each of its 50 grid points takes 2000 rows of the aggregated features, scales row p by entry p of the in-degree
  normaliser, multiplies by the layer's 128 × 128 weight matrix and adds the bias row; it writes that 2000 × 128 block
  to the first output, and the block's column sums and column sums of squares to row t of two [50, 1, 128] outputs.
  The blocks of the row-blocked arrays at point t are rows 2000 t … 2000 t + 1999, the weights and the bias are read
  whole at every point, and the output blocks tile their arrays. So over the whole arrays the first output is the affine
  map of the row-scaled features, and the other two hold, tile by tile, its column sums and column sums of squares.
-/
import proofs.«138442_j46162308497633_2_alg».proof.Proof.Gen.KernelIdeal.Frame
import proofs.«138442_j46162308497633_2_alg».proof.Proof.GcnSpec
import proofs.«138442_j46162308497633_2_alg».proof.Proof.LibPlainDot
import proofs.«138442_j46162308497633_2_alg».proof.Proof.LibRank2Layout
import proofs.«138442_j46162308497633_2_alg».proof.Proof.LibRank3Layout
import Idealize.ShloMosaic.Lib.Pipeline.Value

set_option maxRecDepth 16384

noncomputable section

namespace Cert.KernelIdeal.LinRegion1

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-! ## One block: the body's three results at an index -/

/-- A vector viewed as a one-row matrix: entry (0, q) of the view is entry q. -/
theorem castRow_apply {α : Type} {n : Nat} (v : (⟨1, ![n]⟩ : Shape).Idx → α)
    (h : (⟨1, ![n]⟩ : Shape).ShapeCasts ⟨2, ![1, n]⟩) (z : Fin 1) (q : Fin n) :
    shapeCast (⟨2, ![1, n]⟩ : Shape) v h (ix2 z q) = v (ix1 q) := by
  refine shapeCast_apply v h (ix2 z q) (ix1 q) ?_
  rw [Shape.rowMajor_val_one, Shape.rowMajor_val_two]
  show q.val = z.val * n + q.val
  have hz : z.val = 0 := by have := z.isLt; omega
  rw [hz, Nat.zero_mul, Nat.zero_add]

/-- The sum of a [2000, 128] block down its rows, started from the zero word: entry q is the sum over r of the entries (r, q). -/
theorem sumRows_apply (v : FVec Ideal S2000x128 .f32) (h : S2000x128.Reduces [(0 : Fin 2)] S128) (hφ : FKind.Formats .f32)
    (hacc : (0x00000000#32 : BitVec 32) = FKind.add.neutral .f32 hφ) (q : Fin 128) :
    multiReduction (F := Ideal) .add [(0 : Fin 2)] S128 v 0x00000000#32 h hφ hacc (ix1 q) = ∑ r : Fin 2000, v (ix2 r q) := by
  refine (Ideal.multiReduction_add_single v 0x00000000#32 h hφ hacc (ix1 q)).trans ?_
  show ∑ r : Fin 2000, v (h.lift (ix1 q) r) = ∑ r : Fin 2000, v (ix2 r q)
  refine Finset.sum_congr rfl fun r _ => congrArg v (funext fun d => Fin.ext ?_)
  match d with
  | ⟨0, _⟩ => rfl
  | ⟨1, _⟩ => rfl

/-- One block of the affine map: row p of x scaled by s p, times w, plus the bias. -/
theorem pay1_at (x : Vec Ideal S2000x128 .f32) (s : Vec Ideal S2000x1 .f32) (w : Vec Ideal S128x128 .f32)
    (b : Vec Ideal S1x128 .f32) (p : Fin 2000) (q : Fin 128) :
    k1_pay1 (F := Ideal) x s w b (ix2 p q)
      = (∑ k : Fin 128, (x (ix2 p k) * s (ix2 p 0)) * w (ix2 k q)) + b (ix2 0 q) := by
  unfold k1_pay1
  simp only [shapeCast_self]
  rw [addf_apply, Rank2.bcastRow_apply]
  refine congrArg (· + b (ix2 0 q)) ?_
  refine (Cert.Bridge.matmul_zero_plain dot_S2000x128_S128x128_S2000x128_1_0_0_1_n_n rfl rfl rfl rfl rfl rfl none _ _ p q).trans ?_
  refine Finset.sum_congr rfl fun k _ => ?_
  rw [truncf_apply, truncf_apply, mulf_apply, Rank2.bcastCol_apply]

/-- The block's column sums. -/
theorem pay2_at (x : Vec Ideal S2000x128 .f32) (s : Vec Ideal S2000x1 .f32) (w : Vec Ideal S128x128 .f32)
    (b : Vec Ideal S1x128 .f32) (q : Fin 128) :
    k1_pay2 (F := Ideal) x s w b (ix3 0 0 q) = ∑ r : Fin 2000, k1_pay1 (F := Ideal) x s w b (ix2 r q) := by
  unfold k1_pay2
  refine (Rank3.castAddFirst_apply _ _ 0 0 q).trans ?_
  refine (castRow_apply _ _ 0 q).trans ?_
  exact sumRows_apply _ _ _ _ q

/-- The block's column sums of squares. -/
theorem pay3_at (x : Vec Ideal S2000x128 .f32) (s : Vec Ideal S2000x1 .f32) (w : Vec Ideal S128x128 .f32)
    (b : Vec Ideal S1x128 .f32) (q : Fin 128) :
    k1_pay3 (F := Ideal) x s w b (ix3 0 0 q)
      = ∑ r : Fin 2000, k1_pay1 (F := Ideal) x s w b (ix2 r q) * k1_pay1 (F := Ideal) x s w b (ix2 r q) := by
  unfold k1_pay3
  refine (Rank3.castAddFirst_apply _ _ 0 0 q).trans ?_
  refine (castRow_apply _ _ 0 q).trans ?_
  refine (sumRows_apply _ _ _ _ q).trans ?_
  rfl

/-! ## One block as rows of the whole arrays -/

/-- The affine map of the row-scaled features, from whole arrays: row i of X times Sc i, times W, plus the bias B. -/
abbrev hnOf (X : S100000x128.Idx → EReal) (Sc : S100000x1.Idx → EReal) (W : S128x128.Idx → EReal)
    (B : S1x128.Idx → EReal) : Gcn.Mat 100000 128 :=
  Gcn.affine (Gcn.scaleRows (Gcn.toMat X) (Gcn.colOf Sc)) (Gcn.toMat W) (Gcn.rowOf B)

/-- A [50, 1, 128] array from its entries (t, 0, q). -/
def ofTiles (g : Fin 50 → Fin 128 → EReal) : S50x1x128.Idx → EReal :=
  fun i => g ⟨(i 0).val, (i 0).isLt⟩ ⟨(i 2).val, (i 2).isLt⟩

/-- When x and s are rows 2000 t … 2000 t + 1999 of X and Sc, and w, b are W, B, the block's result at (p, q) is the
    affine map at row 2000 t + p. -/
theorem block_hn (X : S100000x128.Idx → EReal) (Sc : S100000x1.Idx → EReal) (W : S128x128.Idx → EReal)
    (B : S1x128.Idx → EReal) (t : Fin 50) (x : Vec Ideal S2000x128 .f32) (s : Vec Ideal S2000x1 .f32)
    (w : Vec Ideal S128x128 .f32) (b : Vec Ideal S1x128 .f32)
    (hx : ∀ (p : Fin 2000) (k : Fin 128), x (ix2 p k) = X (ix2 (⟨2000 * t.val + p.val, by omega⟩ : Fin 100000) k))
    (hs : ∀ p : Fin 2000, s (ix2 p 0) = Sc (ix2 (⟨2000 * t.val + p.val, by omega⟩ : Fin 100000) 0))
    (hw : ∀ (k q : Fin 128), w (ix2 k q) = W (ix2 k q)) (hb : ∀ q : Fin 128, b (ix2 0 q) = B (ix2 0 q))
    (p : Fin 2000) (q : Fin 128) :
    k1_pay1 (F := Ideal) x s w b (ix2 p q) = hnOf X Sc W B ⟨2000 * t.val + p.val, by omega⟩ q := by
  rw [pay1_at, hb]
  refine congrArg (· + B (ix2 0 q)) (Finset.sum_congr rfl fun k _ => ?_)
  rw [hx, hs, hw]
  rfl

/-! ## The region: what each grid point writes back -/

section Region

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The affine map of the region's input arrays. -/
abbrev HN (c : Dev nD) : Gcn.Mat 100000 128 :=
  hnOf (V c main_v25) (V c main_v12) (V c main_v27) (V c main_v30)

/-- The block indices over the grid: the row-blocked windows sit at block (t, 0), the whole-array windows at (0, 0), the
    per-tile outputs at (t, 0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 3) = t.val ∧ win1_5.index t (1 : Fin 3) = 0 ∧ win1_5.index t (2 : Fin 3) = 0
    ∧ win1_6.index t (0 : Fin 3) = t.val ∧ win1_6.index t (1 : Fin 3) = 0 ∧ win1_6.index t (2 : Fin 3) = 0 :=
  (by decide +kernel : ∀ t : Fin grid1.N, _)

/-- The feature block at point t is rows 2000 t … of the feature array. -/
theorem blk0_at (c : Dev nD) (t : Fin cfg1.N) (ht : t.val < 50) (p : Fin 2000) (k : Fin 128) :
    (iblk1 (F := Ideal) V c 0 t : Vec Ideal S2000x128 .f32) (ix2 p k)
      = (V c main_v25 : S100000x128.Idx → EReal) (ix2 (⟨2000 * t.val + p.val, by omega⟩ : Fin 100000) k) := by
  obtain ⟨e0, e1, -⟩ := idx_facts t
  unfold iblk1
  rw [View.read_apply]
  show V c main_v25 _ = V c main_v25 _
  refine congrArg (V c main_v25 : S100000x128.Idx → EReal) (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 128 + 1 * k.val = k.val; rw [e1]; omega

/-- The scale block at point t is rows 2000 t … of the scale column. -/
theorem blk1_at (c : Dev nD) (t : Fin cfg1.N) (ht : t.val < 50) (p : Fin 2000) :
    (iblk1 (F := Ideal) V c 1 t : Vec Ideal S2000x1 .f32) (ix2 p 0)
      = (V c main_v12 : S100000x1.Idx → EReal) (ix2 (⟨2000 * t.val + p.val, by omega⟩ : Fin 100000) 0) := by
  obtain ⟨-, -, e0, e1, -⟩ := idx_facts t
  unfold iblk1
  rw [View.read_apply]
  show V c main_v12 _ = V c main_v12 _
  refine congrArg (V c main_v12 : S100000x1.Idx → EReal) (funext fun a => Fin.ext ?_)
  match a with
  | ⟨0, _⟩ => show win1_1.index t (0 : Fin 2) * 2000 + 1 * p.val = 2000 * t.val + p.val; rw [e0]; omega
  | ⟨1, _⟩ => show win1_1.index t (1 : Fin 2) * 1 + 1 * 0 = 0; rw [e1]

/-- The weight block at every point is the weight array. -/
theorem blk2_at (c : Dev nD) (t : Fin cfg1.N) (k q : Fin 128) :
    (iblk1 (F := Ideal) V c 2 t : Vec Ideal S128x128 .f32) (ix2 k q) = (V c main_v27 : S128x128.Idx → EReal) (ix2 k q) := by
  obtain ⟨-, -, -, -, e0, e1, -⟩ := idx_facts t
  unfold iblk1
  rw [View.read_apply]
  show V c main_v27 _ = V c main_v27 _
  refine congrArg (V c main_v27 : S128x128.Idx → EReal) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias block at every point is the bias row. -/
theorem blk3_at (c : Dev nD) (t : Fin cfg1.N) (q : Fin 128) :
    (iblk1 (F := Ideal) V c 3 t : Vec Ideal S1x128 .f32) (ix2 0 q) = (V c main_v30 : S1x128.Idx → EReal) (ix2 0 q) := by
  obtain ⟨-, -, -, -, -, -, e0, e1, -⟩ := idx_facts t
  unfold iblk1
  rw [View.read_apply]
  show V c main_v30 _ = V c main_v30 _
  refine congrArg (V c main_v30 : S1x128.Idx → EReal) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- The body's result at point t, entry (p, q), is the affine map at row 2000 t + p. -/
theorem body_hn (c : Dev nD) (t : Fin cfg1.N) (ht : t.val < 50) (p : Fin 2000) (q : Fin 128) :
    k1_pay1 (F := Ideal) (iblk1 V c 0 t) (iblk1 V c 1 t) (iblk1 V c 2 t) (iblk1 V c 3 t) (ix2 p q)
      = HN V c ⟨2000 * t.val + p.val, by omega⟩ q :=
  block_hn (V c main_v25) (V c main_v12) (V c main_v27) (V c main_v30) ⟨t.val, ht⟩
    (iblk1 V c 0 t) (iblk1 V c 1 t) (iblk1 V c 2 t) (iblk1 V c 3 t)
    (fun p k => blk0_at V c t ht p k) (fun p => blk1_at V c t ht p) (fun k q => blk2_at V c t k q)
    (fun q => blk3_at V c t q) p q

/-- Point t writes back block t of the affine map. -/
theorem flushed_hn (c : Dev nD) (t : Fin cfg1.N) :
    (dat1 (F := Ideal) V c).flushed 4 t = ((cfg1.win 4).blk t).view.read (Elt Ideal) (Gcn.ofMat (HN V c)) := by
  have ht : t.val < 50 := lt_of_lt_of_eq t.isLt N_1
  show (cfg1.win 4).cut (grid1.coords t) ((dat1 V c).after 4 t) = _
  rw [after1_4]
  unfold out1_4
  rw [View.canon_unit_zero zeros2]
  simp only [View.ld_unit_zero (S := S2000x128) zeros2, View.ld_unit_zero (S := S2000x1) zeros2,
    View.ld_unit_zero (S := S128x128) zeros2, View.ld_unit_zero (S := S1x128) zeros2]
  obtain ⟨-, -, -, -, -, -, -, -, e0, e1, -⟩ := idx_facts t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (ix2 p q)
    = Gcn.ofMat (HN V c) (((cfg1.win 4).blk t).view.emb (ix2 p q))
  refine (body_hn V c t ht p q).trans ?_
  unfold Gcn.ofMat
  refine congrArg₂ (HN V c) (Fin.ext ?_) (Fin.ext ?_)
  · show 2000 * t.val + p.val = win1_4.index t (0 : Fin 2) * 2000 + 1 * p.val; rw [e0]; omega
  · show q.val = win1_4.index t (1 : Fin 2) * 128 + 1 * q.val; rw [e1]; omega

/-- An index of the [100000, 128] output is in point t's block iff each coordinate is in the block's range. -/
theorem mem_blk_hn (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v31_0).slice (win1_4.rect t)).set ↔ _
  rw [View.set_slice_whole, Rect.mem_set_unit]
  exact Iff.rfl

/-- Row r is in the block of point r / 2000. -/
theorem cover_hn (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 50 := N_1
  have hlt : (i 0).val / 2000 < cfg1.N := by rw [hN]; omega
  obtain ⟨-, -, -, -, -, -, -, -, e0, e1, -⟩ := idx_facts ⟨(i 0).val / 2000, hlt⟩
  have e0' : win1_4.index ⟨(i 0).val / 2000, hlt⟩ (0 : Fin 2) = (i 0).val / 2000 := e0
  refine ⟨⟨(i 0).val / 2000, hlt⟩, flush1_4 _, ?_⟩
  rw [mem_blk_hn]
  intro a
  match a with
  | ⟨0, _⟩ =>
    show win1_4.index ⟨(i 0).val / 2000, hlt⟩ (0 : Fin 2) * 2000 ≤ (i 0).val
      ∧ (i 0).val < win1_4.index ⟨(i 0).val / 2000, hlt⟩ (0 : Fin 2) * 2000 + 2000
    rw [e0']; omega
  | ⟨1, _⟩ =>
    show win1_4.index ⟨(i 0).val / 2000, hlt⟩ (1 : Fin 2) * 128 ≤ (i 1).val
      ∧ (i 1).val < win1_4.index ⟨(i 0).val / 2000, hlt⟩ (1 : Fin 2) * 128 + 128
    rw [e1]; omega

/-- After the region the [100000, 128] output holds the affine map of the row-scaled input. -/
theorem lin_hn (c : Dev nD) (p : Fin 100000) (q : Fin 128) :
    (dat1 (F := Ideal) V c).arrAt 4 cfg1.N (ix2 p q)
      = Gcn.affine (Gcn.scaleRows (Gcn.toMat (V c main_v25)) (Gcn.colOf (V c main_v12))) (Gcn.toMat (V c main_v27))
          (Gcn.rowOf (V c main_v30)) p q :=
  congrFun ((dat1 V c).arrAt_eq_of_cover 4 (Gcn.ofMat (HN V c)) (fun t _ => flushed_hn V c t) cover_hn) (ix2 p q)

/-- The column sums and the column sums of squares of the affine map over tile t (rows 2000 t … 2000 t + 1999). -/
abbrev tileSums (c : Dev nD) : Fin 50 → Fin 128 → EReal :=
  fun t q => ∑ r : Fin 2000, HN V c ⟨2000 * t.val + r.val, by omega⟩ q
abbrev tileSquares (c : Dev nD) : Fin 50 → Fin 128 → EReal :=
  fun t q => ∑ r : Fin 2000, HN V c ⟨2000 * t.val + r.val, by omega⟩ q * HN V c ⟨2000 * t.val + r.val, by omega⟩ q

/-- Point t writes back tile t's column sums. -/
theorem flushed_sum (c : Dev nD) (t : Fin cfg1.N) :
    (dat1 (F := Ideal) V c).flushed 5 t = ((cfg1.win 5).blk t).view.read (Elt Ideal) (ofTiles (tileSums V c)) := by
  have ht : t.val < 50 := lt_of_lt_of_eq t.isLt N_1
  show (cfg1.win 5).cut (grid1.coords t) ((dat1 V c).after 5 t) = _
  rw [after1_5]
  unfold out1_5
  rw [View.canon_unit_zero zeros3]
  simp only [View.ld_unit_zero (S := S2000x128) zeros2, View.ld_unit_zero (S := S2000x1) zeros2,
    View.ld_unit_zero (S := S128x128) zeros2, View.ld_unit_zero (S := S1x128) zeros2]
  obtain ⟨-, -, -, -, -, -, -, -, -, -, e0, -, e2, -⟩ := idx_facts t
  funext j
  obtain ⟨z0, z1, q, rfl⟩ : ∃ (z0 z1 : Fin 1) (q : Fin 128), j = ix3 z0 z1 q := ⟨j 0, j 1, j 2, eq_ix3 j⟩
  obtain rfl : z0 = 0 := Subsingleton.elim _ _
  obtain rfl : z1 = 0 := Subsingleton.elim _ _
  show k1_pay2 (F := Ideal) (iblk1 V c 0 t) (iblk1 V c 1 t) (iblk1 V c 2 t) (iblk1 V c 3 t) (ix3 0 0 q)
    = ofTiles (tileSums V c) (((cfg1.win 5).blk t).view.emb (ix3 0 0 q))
  refine (pay2_at (iblk1 V c 0 t) (iblk1 V c 1 t) (iblk1 V c 2 t) (iblk1 V c 3 t) q).trans ?_
  refine (Finset.sum_congr rfl fun r _ => body_hn V c t ht r q).trans ?_
  unfold ofTiles
  refine congrArg₂ (tileSums V c) (x := ⟨t.val, ht⟩) (Fin.ext ?_) (Fin.ext ?_)
  · show t.val = win1_5.index t (0 : Fin 3) * 1 + 1 * 0; rw [e0]; omega
  · show q.val = win1_5.index t (2 : Fin 3) * 128 + 1 * q.val; rw [e2]; omega

/-- Point t writes back tile t's column sums of squares. -/
theorem flushed_sumsq (c : Dev nD) (t : Fin cfg1.N) :
    (dat1 (F := Ideal) V c).flushed 6 t = ((cfg1.win 6).blk t).view.read (Elt Ideal) (ofTiles (tileSquares V c)) := by
  have ht : t.val < 50 := lt_of_lt_of_eq t.isLt N_1
  show (cfg1.win 6).cut (grid1.coords t) ((dat1 V c).after 6 t) = _
  rw [after1_6]
  unfold out1_6
  rw [View.canon_unit_zero zeros3]
  simp only [View.ld_unit_zero (S := S2000x128) zeros2, View.ld_unit_zero (S := S2000x1) zeros2,
    View.ld_unit_zero (S := S128x128) zeros2, View.ld_unit_zero (S := S1x128) zeros2]
  obtain ⟨-, -, -, -, -, -, -, -, -, -, -, -, -, e0, -, e2⟩ := idx_facts t
  funext j
  obtain ⟨z0, z1, q, rfl⟩ : ∃ (z0 z1 : Fin 1) (q : Fin 128), j = ix3 z0 z1 q := ⟨j 0, j 1, j 2, eq_ix3 j⟩
  obtain rfl : z0 = 0 := Subsingleton.elim _ _
  obtain rfl : z1 = 0 := Subsingleton.elim _ _
  show k1_pay3 (F := Ideal) (iblk1 V c 0 t) (iblk1 V c 1 t) (iblk1 V c 2 t) (iblk1 V c 3 t) (ix3 0 0 q)
    = ofTiles (tileSquares V c) (((cfg1.win 6).blk t).view.emb (ix3 0 0 q))
  refine (pay3_at (iblk1 V c 0 t) (iblk1 V c 1 t) (iblk1 V c 2 t) (iblk1 V c 3 t) q).trans ?_
  refine (Finset.sum_congr rfl fun r _ => by rw [body_hn V c t ht r q]).trans ?_
  unfold ofTiles
  refine congrArg₂ (tileSquares V c) (x := ⟨t.val, ht⟩) (Fin.ext ?_) (Fin.ext ?_)
  · show t.val = win1_6.index t (0 : Fin 3) * 1 + 1 * 0; rw [e0]; omega
  · show q.val = win1_6.index t (2 : Fin 3) * 128 + 1 * q.val; rw [e2]; omega

/-- An index of a [50, 1, 128] output is in point t's block iff each coordinate is in the block's range. -/
theorem mem_blk_sum (t : Fin cfg1.N) (i : S50x1x128.Idx) :
    i ∈ ((cfg1.win 5).blk t).view.set ↔ ∀ a : Fin 3, win1_5.index t a * S1x1x128.size a ≤ (i a).val
      ∧ (i a).val < win1_5.index t a * S1x1x128.size a + S1x1x128.size a := by
  show i ∈ ((View.whole main_v31_1).slice (win1_5.rect t)).set ↔ _
  rw [View.set_slice_whole, Rect.mem_set_unit]
  exact Iff.rfl

theorem mem_blk_sumsq (t : Fin cfg1.N) (i : S50x1x128.Idx) :
    i ∈ ((cfg1.win 6).blk t).view.set ↔ ∀ a : Fin 3, win1_6.index t a * S1x1x128.size a ≤ (i a).val
      ∧ (i a).val < win1_6.index t a * S1x1x128.size a + S1x1x128.size a := by
  show i ∈ ((View.whole main_v31_2).slice (win1_6.rect t)).set ↔ _
  rw [View.set_slice_whole, Rect.mem_set_unit]
  exact Iff.rfl

/-- Entry (t, 0, q) is in the block of point t. -/
theorem cover_sum (i : S50x1x128.Idx) :
    ∃ t : Fin cfg1.N, (cfg1.win 5).flush t = true ∧ i ∈ ((cfg1.win 5).blk t).view.set := by
  have hi0 : (i 0).val < 50 := (i 0).isLt
  have hi1 : (i 1).val < 1 := (i 1).isLt
  have hi2 : (i 2).val < 128 := (i 2).isLt
  have hN : cfg1.N = 50 := N_1
  have hlt : (i 0).val < cfg1.N := by rw [hN]; exact hi0
  obtain ⟨-, -, -, -, -, -, -, -, -, -, e0, e1, e2, -⟩ := idx_facts ⟨(i 0).val, hlt⟩
  have e0' : win1_5.index ⟨(i 0).val, hlt⟩ (0 : Fin 3) = (i 0).val := e0
  refine ⟨⟨(i 0).val, hlt⟩, flush1_5 _, ?_⟩
  rw [mem_blk_sum]
  intro a
  match a with
  | ⟨0, _⟩ =>
    show win1_5.index ⟨(i 0).val, hlt⟩ (0 : Fin 3) * 1 ≤ (i 0).val
      ∧ (i 0).val < win1_5.index ⟨(i 0).val, hlt⟩ (0 : Fin 3) * 1 + 1
    rw [e0']; omega
  | ⟨1, _⟩ =>
    show win1_5.index ⟨(i 0).val, hlt⟩ (1 : Fin 3) * 1 ≤ (i 1).val
      ∧ (i 1).val < win1_5.index ⟨(i 0).val, hlt⟩ (1 : Fin 3) * 1 + 1
    rw [e1]; omega
  | ⟨2, _⟩ =>
    show win1_5.index ⟨(i 0).val, hlt⟩ (2 : Fin 3) * 128 ≤ (i 2).val
      ∧ (i 2).val < win1_5.index ⟨(i 0).val, hlt⟩ (2 : Fin 3) * 128 + 128
    rw [e2]; omega

theorem cover_sumsq (i : S50x1x128.Idx) :
    ∃ t : Fin cfg1.N, (cfg1.win 6).flush t = true ∧ i ∈ ((cfg1.win 6).blk t).view.set := by
  have hi0 : (i 0).val < 50 := (i 0).isLt
  have hi1 : (i 1).val < 1 := (i 1).isLt
  have hi2 : (i 2).val < 128 := (i 2).isLt
  have hN : cfg1.N = 50 := N_1
  have hlt : (i 0).val < cfg1.N := by rw [hN]; exact hi0
  obtain ⟨-, -, -, -, -, -, -, -, -, -, -, -, -, e0, e1, e2⟩ := idx_facts ⟨(i 0).val, hlt⟩
  have e0' : win1_6.index ⟨(i 0).val, hlt⟩ (0 : Fin 3) = (i 0).val := e0
  refine ⟨⟨(i 0).val, hlt⟩, flush1_6 _, ?_⟩
  rw [mem_blk_sumsq]
  intro a
  match a with
  | ⟨0, _⟩ =>
    show win1_6.index ⟨(i 0).val, hlt⟩ (0 : Fin 3) * 1 ≤ (i 0).val
      ∧ (i 0).val < win1_6.index ⟨(i 0).val, hlt⟩ (0 : Fin 3) * 1 + 1
    rw [e0']; omega
  | ⟨1, _⟩ =>
    show win1_6.index ⟨(i 0).val, hlt⟩ (1 : Fin 3) * 1 ≤ (i 1).val
      ∧ (i 1).val < win1_6.index ⟨(i 0).val, hlt⟩ (1 : Fin 3) * 1 + 1
    rw [e1]; omega
  | ⟨2, _⟩ =>
    show win1_6.index ⟨(i 0).val, hlt⟩ (2 : Fin 3) * 128 ≤ (i 2).val
      ∧ (i 2).val < win1_6.index ⟨(i 0).val, hlt⟩ (2 : Fin 3) * 128 + 128
    rw [e2]; omega

/-- After the region the first [50, 1, 128] output holds each tile's column sums of the affine map. -/
theorem lin_sum (c : Dev nD) (t : Fin 50) (q : Fin 128) :
    (dat1 (F := Ideal) V c).arrAt 5 cfg1.N (ix3 t 0 q)
      = ∑ r : Fin 2000, Gcn.affine (Gcn.scaleRows (Gcn.toMat (V c main_v25)) (Gcn.colOf (V c main_v12)))
          (Gcn.toMat (V c main_v27)) (Gcn.rowOf (V c main_v30)) ⟨2000 * t.val + r.val, by omega⟩ q :=
  congrFun ((dat1 V c).arrAt_eq_of_cover 5 (ofTiles (tileSums V c)) (fun t _ => flushed_sum V c t) cover_sum) (ix3 t 0 q)

/-- After the region the second [50, 1, 128] output holds each tile's column sums of squares of the affine map. -/
theorem lin_sumsq (c : Dev nD) (t : Fin 50) (q : Fin 128) :
    (dat1 (F := Ideal) V c).arrAt 6 cfg1.N (ix3 t 0 q)
      = ∑ r : Fin 2000, Gcn.affine (Gcn.scaleRows (Gcn.toMat (V c main_v25)) (Gcn.colOf (V c main_v12)))
            (Gcn.toMat (V c main_v27)) (Gcn.rowOf (V c main_v30)) ⟨2000 * t.val + r.val, by omega⟩ q
          * Gcn.affine (Gcn.scaleRows (Gcn.toMat (V c main_v25)) (Gcn.colOf (V c main_v12)))
            (Gcn.toMat (V c main_v27)) (Gcn.rowOf (V c main_v30)) ⟨2000 * t.val + r.val, by omega⟩ q :=
  congrFun ((dat1 V c).arrAt_eq_of_cover 6 (ofTiles (tileSquares V c)) (fun t _ => flushed_sumsq V c t) cover_sumsq) (ix3 t 0 q)

end Region

end Cert.KernelIdeal.LinRegion1

end
-- ==== Proof.NormRegion2.lean ====
import proofs.«138442_j46162308497633_2_alg».proof.Proof.Gen.KernelIdeal.Frame
import proofs.«138442_j46162308497633_2_alg».proof.Proof.GcnSpec
import proofs.«138442_j46162308497633_2_alg».proof.Proof.LibRank2Layout
import Idealize.ShloMosaic.Lib.Pipeline.Value
import Idealize.ShloMosaic.PureOps.Ideal.Laws

/-!
  The normalisation region of the first layer, read entry by entry.

  The region walks the 100000 node rows in 50 blocks of 2000. On each block it takes the pre-normalised features `hn`,
  the layer's input `x`, the column statistics `μ`, `σ²` and the affine pair `γ`, `β` (one row of 128 each), and the
  out-degree normaliser `s` (one column), and writes two arrays: the new features
  `x + max 0 ((hn − μ)·rsqrt(σ² + ε)·γ + β)` and those features with row `p` scaled by `s p`.
  Every block is rows `2000·t … 2000·t + 1999` of its array and the statistics are the same row at every block, so
  the two output arrays are, entry by entry, `Gcn.bnRes` of the input arrays and its row scaling.
-/

set_option maxRecDepth 16384

noncomputable section

namespace Cert.KernelIdeal.NormRegion2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The block's arithmetic at an entry -/

/-- The reciprocal square root of a vector, entry by entry. -/
theorem rsqrt_apply {s : Shape} {φ : FTy} (a : FVec Ideal s φ) (i : s.Idx) : rsqrt a i = Ideal.rsqrt (a i) := rfl

/-- The new features of a block at row `p`, column `q`: the input plus the rectified normalised value. -/
theorem block_x (hn : Vec Ideal S2000x128 .f32) (mu var g bt : Vec Ideal S1x128 .f32) (x : Vec Ideal S2000x128 .f32)
    (p : Fin 2000) (q : Fin 128) :
    k2_pay1 (F := Ideal) hn mu var g bt x (ix2 p q) =
      x (ix2 p q) + max ((hn (ix2 p q) - mu (ix2 0 q)) * Ideal.rsqrt (var (ix2 0 q) + Gcn.eps) * g (ix2 0 q) + bt (ix2 0 q)) 0 := by
  unfold k2_pay1
  simp only [shapeCast_self]
  simp only [addf_apply, maximumf_apply, mulf_apply, subf_apply, broadcast_apply, Rank2.bcastRow_apply, rsqrt_apply,
    Ideal.ofBits_def, Ideal.ofBits_zero_f32, Gcn.eps]

/-- The scaled features of a block at row `p`, column `q`: the new features times the row's scale. -/
theorem block_hs (hn : Vec Ideal S2000x128 .f32) (mu var g bt : Vec Ideal S1x128 .f32) (x : Vec Ideal S2000x128 .f32)
    (s : Vec Ideal S2000x1 .f32) (p : Fin 2000) (q : Fin 128) :
    k2_pay2 (F := Ideal) hn mu var g bt x s (ix2 p q) = k2_pay1 (F := Ideal) hn mu var g bt x (ix2 p q) * s (ix2 p 0) := by
  unfold k2_pay2
  simp only [shapeCast_self]
  simp only [truncf_apply, mulf_apply, Rank2.bcastCol_apply]

/-! ## Where each block sits in its array -/

theorem zero_offsets : (![0, 0] : Fin 2 → Nat) = fun _ => 0 := funext fun a => by fin_cases a <;> rfl

/-- At grid point `t` the row-blocked arrays are at block `(t, 0)` and the statistics rows at block `(0, 0)`. -/
theorem block_index : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0)
    ∧ (win2_8.index t (0 : Fin 2) = t.val ∧ win2_8.index t (1 : Fin 2) = 0) :=
  (by decide +kernel : ∀ t : Fin grid2.N, _)

/-- Block `t` of `hn` at (p, q) is the array at row `2000·t + p`. -/
theorem hn_block (c : Dev nD) (t : Fin cfg2.N) (p : Fin 2000) (q : Fin 128) (k : Fin 100000)
    (hk : k.val = 2000 * t.val + p.val) :
    (iblk2 V c 0 t : Vec Ideal S2000x128 .f32) (ix2 p q) = (V c main_v31_0 : S100000x128.Idx → EReal) (ix2 k q) := by
  obtain ⟨⟨e0, e1⟩, -⟩ := block_index t
  unfold iblk2
  rw [View.read_apply]
  show V c main_v31_0 _ = V c main_v31_0 _
  refine congrArg (V c main_v31_0) ?_
  funext a
  apply Fin.ext
  match a with
  | ⟨0, _⟩ => show win2_0.index t (0 : Fin 2) * 2000 + 1 * p.val = k.val; rw [e0, hk]; omega
  | ⟨1, _⟩ => show win2_0.index t (1 : Fin 2) * 128 + 1 * q.val = q.val; rw [e1]; omega

/-- Block `t` of `x` at (p, q) is the array at row `2000·t + p`. -/
theorem x_block (c : Dev nD) (t : Fin cfg2.N) (p : Fin 2000) (q : Fin 128) (k : Fin 100000)
    (hk : k.val = 2000 * t.val + p.val) :
    (iblk2 V c 1 t : Vec Ideal S2000x128 .f32) (ix2 p q) = (V c main_v14_0 : S100000x128.Idx → EReal) (ix2 k q) := by
  obtain ⟨-, ⟨e0, e1⟩, -⟩ := block_index t
  unfold iblk2
  rw [View.read_apply]
  show V c main_v14_0 _ = V c main_v14_0 _
  refine congrArg (V c main_v14_0) ?_
  funext a
  apply Fin.ext
  match a with
  | ⟨0, _⟩ => show win2_1.index t (0 : Fin 2) * 2000 + 1 * p.val = k.val; rw [e0, hk]; omega
  | ⟨1, _⟩ => show win2_1.index t (1 : Fin 2) * 128 + 1 * q.val = q.val; rw [e1]; omega

/-- The block of `μ` at every point is the whole row. -/
theorem mu_block (c : Dev nD) (t : Fin cfg2.N) (q : Fin 128) :
    (iblk2 V c 2 t : Vec Ideal S1x128 .f32) (ix2 0 q) = (V c main_v35 : S1x128.Idx → EReal) (ix2 0 q) := by
  obtain ⟨-, -, ⟨e0, e1⟩, -⟩ := block_index t
  unfold iblk2
  rw [View.read_apply]
  show V c main_v35 _ = V c main_v35 _
  refine congrArg (V c main_v35) ?_
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

/-- The block of `σ²` at every point is the whole row. -/
theorem var_block (c : Dev nD) (t : Fin cfg2.N) (q : Fin 128) :
    (iblk2 V c 3 t : Vec Ideal S1x128 .f32) (ix2 0 q) = (V c main_v41 : S1x128.Idx → EReal) (ix2 0 q) := by
  obtain ⟨-, -, -, ⟨e0, e1⟩, -⟩ := block_index t
  unfold iblk2
  rw [View.read_apply]
  show V c main_v41 _ = V c main_v41 _
  refine congrArg (V c main_v41) ?_
  funext a
  apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

/-- The block of `γ` at every point is the whole row. -/
theorem gamma_block (c : Dev nD) (t : Fin cfg2.N) (q : Fin 128) :
    (iblk2 V c 4 t : Vec Ideal S1x128 .f32) (ix2 0 q) = (V c main_v44 : S1x128.Idx → EReal) (ix2 0 q) := by
  obtain ⟨-, -, -, -, ⟨e0, e1⟩, -⟩ := block_index t
  unfold iblk2
  rw [View.read_apply]
  show V c main_v44 _ = V c main_v44 _
  refine congrArg (V c main_v44) ?_
  funext a
  apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega

/-- The block of `β` at every point is the whole row. -/
theorem beta_block (c : Dev nD) (t : Fin cfg2.N) (q : Fin 128) :
    (iblk2 V c 5 t : Vec Ideal S1x128 .f32) (ix2 0 q) = (V c main_v47 : S1x128.Idx → EReal) (ix2 0 q) := by
  obtain ⟨-, -, -, -, -, ⟨e0, e1⟩, -⟩ := block_index t
  unfold iblk2
  rw [View.read_apply]
  show V c main_v47 _ = V c main_v47 _
  refine congrArg (V c main_v47) ?_
  funext a
  apply Fin.ext
  match a with
  | ⟨0, _⟩ => show win2_5.index t (0 : Fin 2) * 1 + 1 * 0 = 0; rw [e0]
  | ⟨1, _⟩ => show win2_5.index t (1 : Fin 2) * 128 + 1 * q.val = q.val; rw [e1]; omega

/-- Block `t` of the row scales at (p, 0) is the column at row `2000·t + p`. -/
theorem scale_block (c : Dev nD) (t : Fin cfg2.N) (p : Fin 2000) (k : Fin 100000)
    (hk : k.val = 2000 * t.val + p.val) :
    (iblk2 V c 6 t : Vec Ideal S2000x1 .f32) (ix2 p 0) = (V c main_v10 : S100000x1.Idx → EReal) (ix2 k 0) := by
  obtain ⟨-, -, -, -, -, -, ⟨e0, e1⟩, -⟩ := block_index t
  unfold iblk2
  rw [View.read_apply]
  show V c main_v10 _ = V c main_v10 _
  refine congrArg (V c main_v10) ?_
  funext a
  apply Fin.ext
  match a with
  | ⟨0, _⟩ => show win2_6.index t (0 : Fin 2) * 2000 + 1 * p.val = k.val; rw [e0, hk]; omega
  | ⟨1, _⟩ => show win2_6.index t (1 : Fin 2) * 1 + 1 * 0 = 0; rw [e1]

/-! ## The two output arrays -/

/-- The new features as a matrix of the region's input arrays. -/
abbrev XN (c : Dev nD) : Gcn.Mat 100000 128 :=
  Gcn.bnRes (Gcn.toMat (a := 100000) (b := 128) (V c main_v14_0)) (Gcn.toMat (a := 100000) (b := 128) (V c main_v31_0))
    (Gcn.rowOf (b := 128) (V c main_v35)) (Gcn.rowOf (b := 128) (V c main_v41)) (Gcn.rowOf (b := 128) (V c main_v44))
    (Gcn.rowOf (b := 128) (V c main_v47))

/-- The scaled new features. -/
abbrev HS (c : Dev nD) : Gcn.Mat 100000 128 := Gcn.scaleRows (XN V c) (Gcn.colOf (a := 100000) (V c main_v10))

/-- Row `p` of output block `t` is row `2000·t + p` of the array. -/
theorem out_x_row (t : Fin cfg2.N) (p : Fin 2000) (q : Fin 128) (k : Fin 100000) (hk : k.val = 2000 * t.val + p.val) :
    ((cfg2.win 7).blk t).view.emb (ix2 p q : S2000x128.Idx) = (ix2 k q : S100000x128.Idx) := by
  obtain ⟨-, -, -, -, -, -, -, ⟨e0, e1⟩, -⟩ := block_index t
  funext a
  apply Fin.ext
  match a with
  | ⟨0, _⟩ => show win2_7.index t (0 : Fin 2) * 2000 + 1 * p.val = k.val; rw [e0, hk]; omega
  | ⟨1, _⟩ => show win2_7.index t (1 : Fin 2) * 128 + 1 * q.val = q.val; rw [e1]; omega

theorem out_hs_row (t : Fin cfg2.N) (p : Fin 2000) (q : Fin 128) (k : Fin 100000) (hk : k.val = 2000 * t.val + p.val) :
    ((cfg2.win 8).blk t).view.emb (ix2 p q : S2000x128.Idx) = (ix2 k q : S100000x128.Idx) := by
  obtain ⟨-, -, -, -, -, -, -, -, ⟨e0, e1⟩⟩ := block_index t
  funext a
  apply Fin.ext
  match a with
  | ⟨0, _⟩ => show win2_8.index t (0 : Fin 2) * 2000 + 1 * p.val = k.val; rw [e0, hk]; omega
  | ⟨1, _⟩ => show win2_8.index t (1 : Fin 2) * 128 + 1 * q.val = q.val; rw [e1]; omega

/-- The body's new features at (p, q) of block `t` are `XN` at row `2000·t + p`. -/
theorem body_x (c : Dev nD) (t : Fin cfg2.N) (p : Fin 2000) (q : Fin 128) (k : Fin 100000)
    (hk : k.val = 2000 * t.val + p.val) :
    k2_pay1 (F := Ideal) (iblk2 V c 0 t) (iblk2 V c 2 t) (iblk2 V c 3 t) (iblk2 V c 4 t) (iblk2 V c 5 t) (iblk2 V c 1 t) (ix2 p q)
      = XN V c k q := by
  refine (block_x (iblk2 V c 0 t) (iblk2 V c 2 t) (iblk2 V c 3 t) (iblk2 V c 4 t) (iblk2 V c 5 t) (iblk2 V c 1 t) p q).trans ?_
  rw [hn_block V c t p q k hk, x_block V c t p q k hk, mu_block V c t q, var_block V c t q, gamma_block V c t q,
    beta_block V c t q]
  rfl

/-- What point `t` writes back to the new-features array is block `t` of `XN`. -/
theorem flushed_x (c : Dev nD) (t : Fin cfg2.N) :
    (dat2 (F := Ideal) V c).flushed 7 t = ((cfg2.win 7).blk t).view.read (Elt Ideal) (Gcn.ofMat (XN V c)) := by
  have hN : cfg2.N = 50 := N_2
  show (cfg2.win 7).cut (grid2.coords t) ((dat2 (F := Ideal) V c).after 7 t) = _
  rw [after2_7]
  unfold out2_7
  rw [View.canon_unit_zero zero_offsets]
  simp only [View.ld_unit_zero (S := S2000x128) zero_offsets, View.ld_unit_zero (S := S1x128) zero_offsets]
  funext j
  obtain ⟨p, q, rfl⟩ : ∃ (p : Fin 2000) (q : Fin 128), j = ix2 p q := ⟨j 0, j 1, eq_ix2 j⟩
  have ht : t.val < 50 := hN ▸ t.isLt
  have hk : (⟨2000 * t.val + p.val, by omega⟩ : Fin 100000).val = 2000 * t.val + p.val := rfl
  show k2_pay1 (F := Ideal) (iblk2 V c 0 t) (iblk2 V c 2 t) (iblk2 V c 3 t) (iblk2 V c 4 t) (iblk2 V c 5 t) (iblk2 V c 1 t) (ix2 p q)
    = Gcn.ofMat (XN V c) (((cfg2.win 7).blk t).view.emb (ix2 p q : S2000x128.Idx))
  rw [out_x_row t p q _ hk]
  exact body_x V c t p q _ hk

/-- What point `t` writes back to the scaled array is block `t` of `HS`. -/
theorem flushed_hs (c : Dev nD) (t : Fin cfg2.N) :
    (dat2 (F := Ideal) V c).flushed 8 t = ((cfg2.win 8).blk t).view.read (Elt Ideal) (Gcn.ofMat (HS V c)) := by
  have hN : cfg2.N = 50 := N_2
  show (cfg2.win 8).cut (grid2.coords t) ((dat2 (F := Ideal) V c).after 8 t) = _
  rw [after2_8]
  unfold out2_8
  rw [View.canon_unit_zero zero_offsets]
  simp only [View.ld_unit_zero (S := S2000x128) zero_offsets, View.ld_unit_zero (S := S1x128) zero_offsets,
    View.ld_unit_zero (S := S2000x1) zero_offsets]
  funext j
  obtain ⟨p, q, rfl⟩ : ∃ (p : Fin 2000) (q : Fin 128), j = ix2 p q := ⟨j 0, j 1, eq_ix2 j⟩
  have ht : t.val < 50 := hN ▸ t.isLt
  have hk : (⟨2000 * t.val + p.val, by omega⟩ : Fin 100000).val = 2000 * t.val + p.val := rfl
  show k2_pay2 (F := Ideal) (iblk2 V c 0 t) (iblk2 V c 2 t) (iblk2 V c 3 t) (iblk2 V c 4 t) (iblk2 V c 5 t) (iblk2 V c 1 t)
      (iblk2 V c 6 t) (ix2 p q)
    = Gcn.ofMat (HS V c) (((cfg2.win 8).blk t).view.emb (ix2 p q : S2000x128.Idx))
  rw [out_hs_row t p q _ hk]
  refine (block_hs (iblk2 V c 0 t) (iblk2 V c 2 t) (iblk2 V c 3 t) (iblk2 V c 4 t) (iblk2 V c 5 t) (iblk2 V c 1 t)
    (iblk2 V c 6 t) p q).trans ?_
  rw [body_x V c t p q _ hk, scale_block V c t p _ hk]
  rfl

/-- An index of a [100000, 128] output array is in point `t`'s block iff each coordinate is in the block's range. -/
theorem mem_block_x (t : Fin cfg2.N) (i : S100000x128.Idx) :
    i ∈ ((cfg2.win 7).blk t).view.set ↔ ∀ a : Fin 2, win2_7.index t a * S2000x128.size a ≤ (i a).val
      ∧ (i a).val < win2_7.index t a * S2000x128.size a + S2000x128.size a := by
  show i ∈ ((View.whole main_v48_0).slice (win2_7.rect t)).set ↔ _
  rw [View.set_slice_whole, Rect.mem_set_unit]
  exact Iff.rfl

theorem mem_block_hs (t : Fin cfg2.N) (i : S100000x128.Idx) :
    i ∈ ((cfg2.win 8).blk t).view.set ↔ ∀ a : Fin 2, win2_8.index t a * S2000x128.size a ≤ (i a).val
      ∧ (i a).val < win2_8.index t a * S2000x128.size a + S2000x128.size a := by
  show i ∈ ((View.whole main_v48_1).slice (win2_8.rect t)).set ↔ _
  rw [View.set_slice_whole, Rect.mem_set_unit]
  exact Iff.rfl

/-- Row `r` is in the block of point `r / 2000`. -/
theorem cover_x (i : S100000x128.Idx) : ∃ t : Fin cfg2.N, (cfg2.win 7).flush t = true ∧ i ∈ ((cfg2.win 7).blk t).view.set := by
  have hN : cfg2.N = 50 := N_2
  have h0 : (i 0).val < 100000 := (i 0).isLt
  have h1 : (i 1).val < 128 := (i 1).isLt
  refine ⟨⟨(i 0).val / 2000, by rw [hN]; omega⟩, flush2_7 _, ?_⟩
  obtain ⟨-, -, -, -, -, -, -, ⟨e0, e1⟩, -⟩ := block_index ⟨(i 0).val / 2000, by rw [hN]; omega⟩
  rw [mem_block_x]
  intro a
  match a with
  | ⟨0, _⟩ =>
    show win2_7.index _ (0 : Fin 2) * 2000 ≤ (i 0).val ∧ (i 0).val < win2_7.index _ (0 : Fin 2) * 2000 + 2000
    rw [e0]; show (i 0).val / 2000 * 2000 ≤ (i 0).val ∧ (i 0).val < (i 0).val / 2000 * 2000 + 2000; omega
  | ⟨1, _⟩ =>
    show win2_7.index _ (1 : Fin 2) * 128 ≤ (i 1).val ∧ (i 1).val < win2_7.index _ (1 : Fin 2) * 128 + 128
    rw [e1]; omega

theorem cover_hs (i : S100000x128.Idx) : ∃ t : Fin cfg2.N, (cfg2.win 8).flush t = true ∧ i ∈ ((cfg2.win 8).blk t).view.set := by
  have hN : cfg2.N = 50 := N_2
  have h0 : (i 0).val < 100000 := (i 0).isLt
  have h1 : (i 1).val < 128 := (i 1).isLt
  refine ⟨⟨(i 0).val / 2000, by rw [hN]; omega⟩, flush2_8 _, ?_⟩
  obtain ⟨-, -, -, -, -, -, -, -, ⟨e0, e1⟩⟩ := block_index ⟨(i 0).val / 2000, by rw [hN]; omega⟩
  rw [mem_block_hs]
  intro a
  match a with
  | ⟨0, _⟩ =>
    show win2_8.index _ (0 : Fin 2) * 2000 ≤ (i 0).val ∧ (i 0).val < win2_8.index _ (0 : Fin 2) * 2000 + 2000
    rw [e0]; show (i 0).val / 2000 * 2000 ≤ (i 0).val ∧ (i 0).val < (i 0).val / 2000 * 2000 + 2000; omega
  | ⟨1, _⟩ =>
    show win2_8.index _ (1 : Fin 2) * 128 ≤ (i 1).val ∧ (i 1).val < win2_8.index _ (1 : Fin 2) * 128 + 128
    rw [e1]; omega

/-- After the region the new-features array is `XN`. -/
theorem norm_x_array (c : Dev nD) : (dat2 (F := Ideal) V c).arrAt 7 cfg2.N = Gcn.ofMat (XN V c) :=
  (dat2 (F := Ideal) V c).arrAt_eq_of_cover 7 (Gcn.ofMat (XN V c)) (fun t _ => flushed_x V c t) cover_x

/-- After the region the scaled array is `HS`. -/
theorem norm_hs_array (c : Dev nD) : (dat2 (F := Ideal) V c).arrAt 8 cfg2.N = Gcn.ofMat (HS V c) :=
  (dat2 (F := Ideal) V c).arrAt_eq_of_cover 8 (Gcn.ofMat (HS V c)) (fun t _ => flushed_hs V c t) cover_hs

/-- The new features after the region, entry by entry. -/
theorem norm_x (c : Dev nD) (p : Fin 100000) (q : Fin 128) :
    (dat2 (F := Ideal) V c).arrAt 7 cfg2.N (ix2 p q) = XN V c p q :=
  congrFun (norm_x_array V c) (ix2 p q)

/-- The scaled features after the region, entry by entry. -/
theorem norm_hs (c : Dev nD) (p : Fin 100000) (q : Fin 128) :
    (dat2 (F := Ideal) V c).arrAt 8 cfg2.N (ix2 p q) = Gcn.scaleRows (XN V c) (Gcn.colOf (a := 100000) (V c main_v10)) p q :=
  congrFun (norm_hs_array V c) (ix2 p q)

end Cert.KernelIdeal.NormRegion2

end
-- ==== Proof.KLayer0.lean ====
/-
  One graph-convolution layer of the kernel program, from the features and their out-degree-scaled copy at the layer's
  entry to the new features and their scaled copy at its exit: the host operations before the affine-map region give its
  four input arrays (the edge aggregation of the scaled features, the in-degree normaliser, the layer's weight matrix and
  bias row), the region leaves the pre-normalisation matrix and its tile sums, the host operations after it give the column
  mean and variance and the layer's scale and shift rows, and the normalisation region leaves the layer's result.
-/
import proofs.«138442_j46162308497633_2_alg».proof.Proof.KChainBase
import proofs.«138442_j46162308497633_2_alg».proof.Proof.KStats
import proofs.«138442_j46162308497633_2_alg».proof.Proof.LinRegion1
import proofs.«138442_j46162308497633_2_alg».proof.Proof.NormRegion2
import proofs.«138442_j46162308497633_2_alg».proof.Proof.LibRank2Layout

set_option maxRecDepth 16384
set_option maxHeartbeats 200000

noncomputable section

namespace Cert.KernelIdeal.Chain

open Idealize.ShloMosaic Idealize.ShloMosaic.TcCoe Idealize.ShloMosaic.Tactic Idealize.ShloMosaic.StableHlo Idealize.ShloMosaic.ValueIdx
open Idealize.SL Idealize.SL.Sem
open Cert.KernelIdeal Cert.KernelIdeal.Gen
open scoped BigOperators

variable (m : (ℓ : Loc nD τ sig) → Buf (Elt Ideal) ℓ) (ρ : Dev nD → PrngReg) (c : Dev nD)

namespace Layer0

/-! ## Reading a layer's slice of the stacked parameters -/

/-- Layer l's [128, 128] weight matrix out of the stacked [4, 128, 128] array: the slice at l with its unit axis dropped. -/
theorem layerMat_at_L0 (x : FVec Ideal S4x128x128 .f32) (l : Fin 4) (h : S4x128x128.Slices ![l.val, 0, 0] S1x128x128)
    (h' : S1x128x128.ShapeCasts S128x128) (k q : Fin 128) :
    shapeCast S128x128 (extractStridedSlice S1x128x128 ![l.val, 0, 0] x h) h' (ix2 k q) = x (ix3 l k q) := by
  refine (shapeCast_apply _ h' (ix2 k q) (ix3 (0 : Fin 1) k q) ?_).trans ?_
  · rw [Shape.rowMajor_val_three, Shape.rowMajor_val_two]
    show (0 * 128 + k.val) * 128 + q.val = k.val * 128 + q.val
    omega
  · exact extractStridedSlice_apply ![l.val, 0, 0] x h (ix3 (0 : Fin 1) k q) (ix3 l k q) (fun d => match d with
      | ⟨0, _⟩ => by show l.val = l.val + 0; omega
      | ⟨1, _⟩ => by show k.val = 0 + k.val; omega
      | ⟨2, _⟩ => by show q.val = 0 + q.val; omega)

/-- Layer l's row out of a stacked [4, 128] array: the slice at l, flattened and viewed as one row again. -/
theorem layerRow_at_L0 (x : FVec Ideal S4x128 .f32) (l : Fin 4) (h : S4x128.Slices ![l.val, 0] S1x128)
    (h1 : S1x128.ShapeCasts S128) (h2 : S128.ShapeCasts S1x128) (q : Fin 128) :
    shapeCast S1x128 (fun i => shapeCast S128 (extractStridedSlice S1x128 ![l.val, 0] x h) h1 i) h2 (ix2 0 q)
      = x (ix2 l q) := by
  refine (LinRegion1.castRow_apply _ h2 0 q).trans ?_
  show shapeCast S128 (extractStridedSlice S1x128 ![l.val, 0] x h) h1 (ix1 q) = _
  refine (shapeCast_apply _ h1 (ix1 q) (ix2 (0 : Fin 1) q) ?_).trans ?_
  · rw [Shape.rowMajor_val_two, Shape.rowMajor_val_one]
    show 0 * 128 + q.val = q.val
    omega
  · exact Rank2.sliceRow_apply x h 0 q

/-! ## What the affine-map region finds in its input arrays -/

theorem in_agg : W7 m ρ c (Proc.devRef .tc main_v25)
    = Terms.aggArr (W6 m ρ c (Proc.devRef .tc main_v14_1)) (a14 m c) (a15 m c) := by walk_back; rfl

theorem in_scale : W7 m ρ c (Proc.devRef .tc main_v12) = Terms.invDeg (a15 m c) := by walk_back; rfl

theorem in_weight (k q : Fin 128) : W7 m ρ c (Proc.devRef .tc main_v27) (ix2 k q) = Terms.wL (a4 m c) 0 k q := by
  walk_back
  exact layerMat_at_L0 (a4 m c) 0 _ _ k q

theorem in_bias (q : Fin 128) : W7 m ρ c (Proc.devRef .tc main_v30) (ix2 0 q) = Terms.rowL (a5 m c) 0 q := by
  walk_back
  exact layerRow_at_L0 (a5 m c) 0 _ _ _ q

section Layer

variable (X : Gcn.Mat 100000 128)

/-- What the layer normalises: the affine map of the aggregated, degree-scaled features. -/
abbrev preL0 : Gcn.Mat 100000 128 :=
  Gcn.preNorm (Terms.agg (a14 m c) (a15 m c)) (Terms.sOut (a14 m c)) (Terms.sIn (a15 m c)) (Terms.wL (a4 m c) 0)
    (Terms.rowL (a5 m c) 0) X

theorem in_agg_mat (hhs : ∀ p q, W6 m ρ c (Proc.devRef .tc main_v14_1) (ix2 p q) = Gcn.scaleRows X (Terms.sOut (a14 m c)) p q) :
    Gcn.toMat (a := 100000) (b := 128) (W7 m ρ c (Proc.devRef .tc main_v25))
      = Terms.agg (a14 m c) (a15 m c) (Gcn.scaleRows X (Terms.sOut (a14 m c))) := by
  have e : W6 m ρ c (Proc.devRef .tc main_v14_1) = Gcn.ofMat (Gcn.scaleRows X (Terms.sOut (a14 m c))) := by
    funext i
    obtain ⟨p, q, rfl⟩ : ∃ (p : Fin 100000) (q : Fin 128), i = ix2 p q := ⟨i 0, i 1, eq_ix2 i⟩
    exact hhs p q
  rw [in_agg, e]
  unfold Terms.agg
  rfl

theorem in_scale_col : Gcn.colOf (a := 100000) (W7 m ρ c (Proc.devRef .tc main_v12)) = Terms.sIn (a15 m c) := by
  rw [in_scale]
  rfl

theorem in_weight_mat : Gcn.toMat (a := 128) (b := 128) (W7 m ρ c (Proc.devRef .tc main_v27)) = Terms.wL (a4 m c) 0 :=
  funext fun k => funext fun q => in_weight m ρ c k q

theorem in_bias_row : Gcn.rowOf (b := 128) (W7 m ρ c (Proc.devRef .tc main_v30)) = Terms.rowL (a5 m c) 0 :=
  funext fun q => in_bias m ρ c q

/-- The affine-map region's function of its input arrays is the layer's pre-normalisation matrix. -/
theorem lin_is_pre (hhs : ∀ p q, W6 m ρ c (Proc.devRef .tc main_v14_1) (ix2 p q) = Gcn.scaleRows X (Terms.sOut (a14 m c)) p q) :
    Gcn.affine (Gcn.scaleRows (Gcn.toMat (V7 m ρ c main_v25)) (Gcn.colOf (V7 m ρ c main_v12))) (Gcn.toMat (V7 m ρ c main_v27))
      (Gcn.rowOf (V7 m ρ c main_v30)) = preL0 m c X := by
  show Gcn.affine (Gcn.scaleRows (Gcn.toMat (a := 100000) (b := 128) (W7 m ρ c (Proc.devRef .tc main_v25)))
      (Gcn.colOf (a := 100000) (W7 m ρ c (Proc.devRef .tc main_v12))))
    (Gcn.toMat (a := 128) (b := 128) (W7 m ρ c (Proc.devRef .tc main_v27)))
    (Gcn.rowOf (b := 128) (W7 m ρ c (Proc.devRef .tc main_v30))) = _
  rw [in_agg_mat m ρ c X hhs, in_scale_col, in_weight_mat, in_bias_row]
  rfl

/-! ## What the affine-map region leaves -/

theorem out_hn (hhs : ∀ p q, W6 m ρ c (Proc.devRef .tc main_v14_1) (ix2 p q) = Gcn.scaleRows X (Terms.sOut (a14 m c)) p q)
    (p : Fin 100000) (q : Fin 128) : W8 m ρ c (Proc.devRef .tc main_v31_0) (ix2 p q) = preL0 m c X p q :=
  ((congrFun (W8_arr m ρ c 4) (ix2 p q)).trans (LinRegion1.lin_hn (V7 m ρ) c p q)).trans
    (congrFun (congrFun (lin_is_pre m ρ c X hhs) p) q)

theorem out_sum (hhs : ∀ p q, W6 m ρ c (Proc.devRef .tc main_v14_1) (ix2 p q) = Gcn.scaleRows X (Terms.sOut (a14 m c)) p q)
    (t : Fin 50) (q : Fin 128) :
    W8 m ρ c (Proc.devRef .tc main_v31_1) (ix3 t 0 q) = ∑ r : Fin 2000, preL0 m c X ⟨2000 * t.val + r.val, by omega⟩ q :=
  ((congrFun (W8_arr m ρ c 5) (ix3 t 0 q)).trans (LinRegion1.lin_sum (V7 m ρ) c t q)).trans
    (by rw [lin_is_pre m ρ c X hhs])

theorem out_sumsq (hhs : ∀ p q, W6 m ρ c (Proc.devRef .tc main_v14_1) (ix2 p q) = Gcn.scaleRows X (Terms.sOut (a14 m c)) p q)
    (t : Fin 50) (q : Fin 128) :
    W8 m ρ c (Proc.devRef .tc main_v31_2) (ix3 t 0 q)
      = ∑ r : Fin 2000, preL0 m c X ⟨2000 * t.val + r.val, by omega⟩ q * preL0 m c X ⟨2000 * t.val + r.val, by omega⟩ q :=
  ((congrFun (W8_arr m ρ c 6) (ix3 t 0 q)).trans (LinRegion1.lin_sumsq (V7 m ρ) c t q)).trans
    (by rw [lin_is_pre m ρ c X hhs])

/-! ## What the normalisation region finds in its input arrays -/

theorem in_mean : W9 m ρ c (Proc.devRef .tc main_v35) = Terms.meanArr (W8 m ρ c (Proc.devRef .tc main_v31_1)) := by
  walk_back; rfl

theorem in_var : W9 m ρ c (Proc.devRef .tc main_v41)
    = Terms.varArr (W8 m ρ c (Proc.devRef .tc main_v31_1)) (W8 m ρ c (Proc.devRef .tc main_v31_2)) := by
  walk_back; rfl

theorem in_gamma (q : Fin 128) : W9 m ρ c (Proc.devRef .tc main_v44) (ix2 0 q) = Terms.rowL (a6 m c) 0 q := by
  walk_back
  exact layerRow_at_L0 (a6 m c) 0 _ _ _ q

theorem in_beta (q : Fin 128) : W9 m ρ c (Proc.devRef .tc main_v47) (ix2 0 q) = Terms.rowL (a7 m c) 0 q := by
  walk_back
  exact layerRow_at_L0 (a7 m c) 0 _ _ _ q

theorem in_hn : W9 m ρ c (Proc.devRef .tc main_v31_0) = W8 m ρ c (Proc.devRef .tc main_v31_0) := by walk_back

theorem in_x : W9 m ρ c (Proc.devRef .tc main_v14_0) = W6 m ρ c (Proc.devRef .tc main_v14_0) := by walk_back

theorem in_out_scale : W9 m ρ c (Proc.devRef .tc main_v10) = Terms.invDeg (a14 m c) := by walk_back; rfl

theorem in_x_mat (hx : ∀ p q, W6 m ρ c (Proc.devRef .tc main_v14_0) (ix2 p q) = X p q) :
    Gcn.toMat (a := 100000) (b := 128) (W9 m ρ c (Proc.devRef .tc main_v14_0)) = X := by
  rw [in_x]
  exact funext fun p => funext fun q => hx p q

theorem in_hn_mat (hhs : ∀ p q, W6 m ρ c (Proc.devRef .tc main_v14_1) (ix2 p q) = Gcn.scaleRows X (Terms.sOut (a14 m c)) p q) :
    Gcn.toMat (a := 100000) (b := 128) (W9 m ρ c (Proc.devRef .tc main_v31_0)) = preL0 m c X := by
  rw [in_hn]
  exact funext fun p => funext fun q => out_hn m ρ c X hhs p q

theorem in_mean_row (hhs : ∀ p q, W6 m ρ c (Proc.devRef .tc main_v14_1) (ix2 p q) = Gcn.scaleRows X (Terms.sOut (a14 m c)) p q) :
    Gcn.rowOf (b := 128) (W9 m ρ c (Proc.devRef .tc main_v35)) = Gcn.meanOf (Gcn.tileSum (preL0 m c X)) := by
  rw [in_mean]
  exact funext fun q => Terms.meanArr_tiles (preL0 m c X) _ (fun t q => out_sum m ρ c X hhs t q) q

theorem in_var_row (hhs : ∀ p q, W6 m ρ c (Proc.devRef .tc main_v14_1) (ix2 p q) = Gcn.scaleRows X (Terms.sOut (a14 m c)) p q) :
    Gcn.rowOf (b := 128) (W9 m ρ c (Proc.devRef .tc main_v41)) = Gcn.varTiled (preL0 m c X) := by
  rw [in_var]
  exact funext fun q => Terms.varArr_tiles (preL0 m c X) _ _ (fun t q => out_sum m ρ c X hhs t q)
    (fun t q => out_sumsq m ρ c X hhs t q) q

theorem in_gamma_row : Gcn.rowOf (b := 128) (W9 m ρ c (Proc.devRef .tc main_v44)) = Terms.rowL (a6 m c) 0 :=
  funext fun q => in_gamma m ρ c q

theorem in_beta_row : Gcn.rowOf (b := 128) (W9 m ρ c (Proc.devRef .tc main_v47)) = Terms.rowL (a7 m c) 0 :=
  funext fun q => in_beta m ρ c q

theorem in_out_scale_col : Gcn.colOf (a := 100000) (W9 m ρ c (Proc.devRef .tc main_v10)) = Terms.sOut (a14 m c) := by
  rw [in_out_scale]
  rfl

/-- The normalisation region's function of its input arrays is the layer. -/
theorem norm_is_layer (hx : ∀ p q, W6 m ρ c (Proc.devRef .tc main_v14_0) (ix2 p q) = X p q)
    (hhs : ∀ p q, W6 m ρ c (Proc.devRef .tc main_v14_1) (ix2 p q) = Gcn.scaleRows X (Terms.sOut (a14 m c)) p q) :
    NormRegion2.XN (V9 m ρ) c
      = Gcn.layerTiled (Terms.agg (a14 m c) (a15 m c)) (Terms.sOut (a14 m c)) (Terms.sIn (a15 m c)) (Terms.wL (a4 m c) 0)
          (Terms.rowL (a5 m c) 0) (Terms.rowL (a6 m c) 0) (Terms.rowL (a7 m c) 0) X := by
  show Gcn.bnRes (Gcn.toMat (a := 100000) (b := 128) (W9 m ρ c (Proc.devRef .tc main_v14_0)))
      (Gcn.toMat (a := 100000) (b := 128) (W9 m ρ c (Proc.devRef .tc main_v31_0)))
      (Gcn.rowOf (b := 128) (W9 m ρ c (Proc.devRef .tc main_v35))) (Gcn.rowOf (b := 128) (W9 m ρ c (Proc.devRef .tc main_v41)))
      (Gcn.rowOf (b := 128) (W9 m ρ c (Proc.devRef .tc main_v44))) (Gcn.rowOf (b := 128) (W9 m ρ c (Proc.devRef .tc main_v47))) = _
  rw [in_x_mat m ρ c X hx, in_hn_mat m ρ c X hhs, in_mean_row m ρ c X hhs, in_var_row m ρ c X hhs, in_gamma_row, in_beta_row]
  rfl

end Layer

end Layer0

/-- One layer of the kernel program: from the features and their out-degree-scaled copy at the layer's entry to the new
    features and their scaled copy at its exit. -/
theorem layer0 (X : Gcn.Mat 100000 128)
    (hx : ∀ p q, W6 m ρ c (Proc.devRef .tc main_v14_0) (ix2 p q) = X p q)
    (hhs : ∀ p q, W6 m ρ c (Proc.devRef .tc main_v14_1) (ix2 p q) = Gcn.scaleRows X (Terms.sOut (a14 m c)) p q) :
    (∀ p q, W10 m ρ c (Proc.devRef .tc main_v48_0) (ix2 p q)
        = Gcn.layerTiled (Terms.agg (a14 m c) (a15 m c)) (Terms.sOut (a14 m c)) (Terms.sIn (a15 m c)) (Terms.wL (a4 m c) 0)
            (Terms.rowL (a5 m c) 0) (Terms.rowL (a6 m c) 0) (Terms.rowL (a7 m c) 0) X p q)
    ∧ (∀ p q, W10 m ρ c (Proc.devRef .tc main_v48_1) (ix2 p q)
        = Gcn.scaleRows (Gcn.layerTiled (Terms.agg (a14 m c) (a15 m c)) (Terms.sOut (a14 m c)) (Terms.sIn (a15 m c))
            (Terms.wL (a4 m c) 0) (Terms.rowL (a5 m c) 0) (Terms.rowL (a6 m c) 0) (Terms.rowL (a7 m c) 0) X)
            (Terms.sOut (a14 m c)) p q) := by
  refine ⟨fun p q => ?_, fun p q => ?_⟩
  · exact ((congrFun (W10_arr m ρ c 7) (ix2 p q)).trans (NormRegion2.norm_x (V9 m ρ) c p q)).trans
      (congrFun (congrFun (Layer0.norm_is_layer m ρ c X hx hhs) p) q)
  · refine ((congrFun (W10_arr m ρ c 8) (ix2 p q)).trans (NormRegion2.norm_hs (V9 m ρ) c p q)).trans ?_
    show Gcn.scaleRows (NormRegion2.XN (V9 m ρ) c) (Gcn.colOf (a := 100000) (W9 m ρ c (Proc.devRef .tc main_v10))) p q = _
    rw [Layer0.norm_is_layer m ρ c X hx hhs, Layer0.in_out_scale_col]

end Cert.KernelIdeal.Chain

end
-- ==== Proof.LinRegion3.lean ====
/-
  The linear region of the second layer, read entry by entry.

  Each of its 50 grid points takes 2000 rows of the aggregated features, scales row p by entry p of the in-degree
  normaliser, multiplies by the layer's 128 × 128 weight matrix and adds the bias row; it writes that 2000 × 128 block
  to the first output, and the block's column sums and column sums of squares to row t of two [50, 1, 128] outputs.
  The blocks of the row-blocked arrays at point t are rows 2000 t … 2000 t + 1999, the weights and the bias are read
  whole at every point, and the output blocks tile their arrays. So over the whole arrays the first output is the affine
  map of the row-scaled features, and the other two hold, tile by tile, its column sums and column sums of squares.
-/
import proofs.«138442_j46162308497633_2_alg».proof.Proof.Gen.KernelIdeal.Frame
import proofs.«138442_j46162308497633_2_alg».proof.Proof.GcnSpec
import proofs.«138442_j46162308497633_2_alg».proof.Proof.LibPlainDot
import proofs.«138442_j46162308497633_2_alg».proof.Proof.LibRank2Layout
import proofs.«138442_j46162308497633_2_alg».proof.Proof.LibRank3Layout
import Idealize.ShloMosaic.Lib.Pipeline.Value

set_option maxRecDepth 16384

noncomputable section

namespace Cert.KernelIdeal.LinRegion3

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-! ## One block: the body's three results at an index -/

/-- A vector viewed as a one-row matrix: entry (0, q) of the view is entry q. -/
theorem castRow_apply {α : Type} {n : Nat} (v : (⟨1, ![n]⟩ : Shape).Idx → α)
    (h : (⟨1, ![n]⟩ : Shape).ShapeCasts ⟨2, ![1, n]⟩) (z : Fin 1) (q : Fin n) :
    shapeCast (⟨2, ![1, n]⟩ : Shape) v h (ix2 z q) = v (ix1 q) := by
  refine shapeCast_apply v h (ix2 z q) (ix1 q) ?_
  rw [Shape.rowMajor_val_one, Shape.rowMajor_val_two]
  show q.val = z.val * n + q.val
  have hz : z.val = 0 := by have := z.isLt; omega
  rw [hz, Nat.zero_mul, Nat.zero_add]

/-- The sum of a [2000, 128] block down its rows, started from the zero word: entry q is the sum over r of the entries (r, q). -/
theorem sumRows_apply (v : FVec Ideal S2000x128 .f32) (h : S2000x128.Reduces [(0 : Fin 2)] S128) (hφ : FKind.Formats .f32)
    (hacc : (0x00000000#32 : BitVec 32) = FKind.add.neutral .f32 hφ) (q : Fin 128) :
    multiReduction (F := Ideal) .add [(0 : Fin 2)] S128 v 0x00000000#32 h hφ hacc (ix1 q) = ∑ r : Fin 2000, v (ix2 r q) := by
  refine (Ideal.multiReduction_add_single v 0x00000000#32 h hφ hacc (ix1 q)).trans ?_
  show ∑ r : Fin 2000, v (h.lift (ix1 q) r) = ∑ r : Fin 2000, v (ix2 r q)
  refine Finset.sum_congr rfl fun r _ => congrArg v (funext fun d => Fin.ext ?_)
  match d with
  | ⟨0, _⟩ => rfl
  | ⟨1, _⟩ => rfl

/-- One block of the affine map: row p of x scaled by s p, times w, plus the bias. -/
theorem pay1_at (x : Vec Ideal S2000x128 .f32) (s : Vec Ideal S2000x1 .f32) (w : Vec Ideal S128x128 .f32)
    (b : Vec Ideal S1x128 .f32) (p : Fin 2000) (q : Fin 128) :
    k3_pay1 (F := Ideal) x s w b (ix2 p q)
      = (∑ k : Fin 128, (x (ix2 p k) * s (ix2 p 0)) * w (ix2 k q)) + b (ix2 0 q) := by
  unfold k3_pay1
  simp only [shapeCast_self]
  rw [addf_apply, Rank2.bcastRow_apply]
  refine congrArg (· + b (ix2 0 q)) ?_
  refine (Cert.Bridge.matmul_zero_plain dot_S2000x128_S128x128_S2000x128_1_0_0_1_n_n rfl rfl rfl rfl rfl rfl none _ _ p q).trans ?_
  refine Finset.sum_congr rfl fun k _ => ?_
  rw [truncf_apply, truncf_apply, mulf_apply, Rank2.bcastCol_apply]

/-- The block's column sums. -/
theorem pay2_at (x : Vec Ideal S2000x128 .f32) (s : Vec Ideal S2000x1 .f32) (w : Vec Ideal S128x128 .f32)
    (b : Vec Ideal S1x128 .f32) (q : Fin 128) :
    k3_pay2 (F := Ideal) x s w b (ix3 0 0 q) = ∑ r : Fin 2000, k3_pay1 (F := Ideal) x s w b (ix2 r q) := by
  unfold k3_pay2
  refine (Rank3.castAddFirst_apply _ _ 0 0 q).trans ?_
  refine (castRow_apply _ _ 0 q).trans ?_
  exact sumRows_apply _ _ _ _ q

/-- The block's column sums of squares. -/
theorem pay3_at (x : Vec Ideal S2000x128 .f32) (s : Vec Ideal S2000x1 .f32) (w : Vec Ideal S128x128 .f32)
    (b : Vec Ideal S1x128 .f32) (q : Fin 128) :
    k3_pay3 (F := Ideal) x s w b (ix3 0 0 q)
      = ∑ r : Fin 2000, k3_pay1 (F := Ideal) x s w b (ix2 r q) * k3_pay1 (F := Ideal) x s w b (ix2 r q) := by
  unfold k3_pay3
  refine (Rank3.castAddFirst_apply _ _ 0 0 q).trans ?_
  refine (castRow_apply _ _ 0 q).trans ?_
  refine (sumRows_apply _ _ _ _ q).trans ?_
  rfl

/-! ## One block as rows of the whole arrays -/

/-- The affine map of the row-scaled features, from whole arrays: row i of X times Sc i, times W, plus the bias B. -/
abbrev hnOf (X : S100000x128.Idx → EReal) (Sc : S100000x1.Idx → EReal) (W : S128x128.Idx → EReal)
    (B : S1x128.Idx → EReal) : Gcn.Mat 100000 128 :=
  Gcn.affine (Gcn.scaleRows (Gcn.toMat X) (Gcn.colOf Sc)) (Gcn.toMat W) (Gcn.rowOf B)

/-- A [50, 1, 128] array from its entries (t, 0, q). -/
def ofTiles (g : Fin 50 → Fin 128 → EReal) : S50x1x128.Idx → EReal :=
  fun i => g ⟨(i 0).val, (i 0).isLt⟩ ⟨(i 2).val, (i 2).isLt⟩

/-- When x and s are rows 2000 t … 2000 t + 1999 of X and Sc, and w, b are W, B, the block's result at (p, q) is the
    affine map at row 2000 t + p. -/
theorem block_hn (X : S100000x128.Idx → EReal) (Sc : S100000x1.Idx → EReal) (W : S128x128.Idx → EReal)
    (B : S1x128.Idx → EReal) (t : Fin 50) (x : Vec Ideal S2000x128 .f32) (s : Vec Ideal S2000x1 .f32)
    (w : Vec Ideal S128x128 .f32) (b : Vec Ideal S1x128 .f32)
    (hx : ∀ (p : Fin 2000) (k : Fin 128), x (ix2 p k) = X (ix2 (⟨2000 * t.val + p.val, by omega⟩ : Fin 100000) k))
    (hs : ∀ p : Fin 2000, s (ix2 p 0) = Sc (ix2 (⟨2000 * t.val + p.val, by omega⟩ : Fin 100000) 0))
    (hw : ∀ (k q : Fin 128), w (ix2 k q) = W (ix2 k q)) (hb : ∀ q : Fin 128, b (ix2 0 q) = B (ix2 0 q))
    (p : Fin 2000) (q : Fin 128) :
    k3_pay1 (F := Ideal) x s w b (ix2 p q) = hnOf X Sc W B ⟨2000 * t.val + p.val, by omega⟩ q := by
  rw [pay1_at, hb]
  refine congrArg (· + B (ix2 0 q)) (Finset.sum_congr rfl fun k _ => ?_)
  rw [hx, hs, hw]
  rfl

/-! ## The region: what each grid point writes back -/

section Region

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The affine map of the region's input arrays. -/
abbrev HN (c : Dev nD) : Gcn.Mat 100000 128 :=
  hnOf (V c main_v59) (V c main_v12) (V c main_v61) (V c main_v64)

/-- The block indices over the grid: the row-blocked windows sit at block (t, 0), the whole-array windows at (0, 0), the
    per-tile outputs at (t, 0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 3) = t.val ∧ win3_5.index t (1 : Fin 3) = 0 ∧ win3_5.index t (2 : Fin 3) = 0
    ∧ win3_6.index t (0 : Fin 3) = t.val ∧ win3_6.index t (1 : Fin 3) = 0 ∧ win3_6.index t (2 : Fin 3) = 0 :=
  (by decide +kernel : ∀ t : Fin grid3.N, _)

/-- The feature block at point t is rows 2000 t … of the feature array. -/
theorem blk0_at (c : Dev nD) (t : Fin cfg3.N) (ht : t.val < 50) (p : Fin 2000) (k : Fin 128) :
    (iblk3 (F := Ideal) V c 0 t : Vec Ideal S2000x128 .f32) (ix2 p k)
      = (V c main_v59 : S100000x128.Idx → EReal) (ix2 (⟨2000 * t.val + p.val, by omega⟩ : Fin 100000) k) := by
  obtain ⟨e0, e1, -⟩ := idx_facts t
  unfold iblk3
  rw [View.read_apply]
  show V c main_v59 _ = V c main_v59 _
  refine congrArg (V c main_v59 : S100000x128.Idx → EReal) (funext fun a => Fin.ext ?_)
  match a with
  | ⟨0, _⟩ => show win3_0.index t (0 : Fin 2) * 2000 + 1 * p.val = 2000 * t.val + p.val; rw [e0]; omega
  | ⟨1, _⟩ => show win3_0.index t (1 : Fin 2) * 128 + 1 * k.val = k.val; rw [e1]; omega

/-- The scale block at point t is rows 2000 t … of the scale column. -/
theorem blk1_at (c : Dev nD) (t : Fin cfg3.N) (ht : t.val < 50) (p : Fin 2000) :
    (iblk3 (F := Ideal) V c 1 t : Vec Ideal S2000x1 .f32) (ix2 p 0)
      = (V c main_v12 : S100000x1.Idx → EReal) (ix2 (⟨2000 * t.val + p.val, by omega⟩ : Fin 100000) 0) := by
  obtain ⟨-, -, e0, e1, -⟩ := idx_facts t
  unfold iblk3
  rw [View.read_apply]
  show V c main_v12 _ = V c main_v12 _
  refine congrArg (V c main_v12 : S100000x1.Idx → EReal) (funext fun a => Fin.ext ?_)
  match a with
  | ⟨0, _⟩ => show win3_1.index t (0 : Fin 2) * 2000 + 1 * p.val = 2000 * t.val + p.val; rw [e0]; omega
  | ⟨1, _⟩ => show win3_1.index t (1 : Fin 2) * 1 + 1 * 0 = 0; rw [e1]

/-- The weight block at every point is the weight array. -/
theorem blk2_at (c : Dev nD) (t : Fin cfg3.N) (k q : Fin 128) :
    (iblk3 (F := Ideal) V c 2 t : Vec Ideal S128x128 .f32) (ix2 k q) = (V c main_v61 : S128x128.Idx → EReal) (ix2 k q) := by
  obtain ⟨-, -, -, -, e0, e1, -⟩ := idx_facts t
  unfold iblk3
  rw [View.read_apply]
  show V c main_v61 _ = V c main_v61 _
  refine congrArg (V c main_v61 : S128x128.Idx → EReal) (funext fun a => Fin.ext ?_)
  match a with
  | ⟨0, _⟩ => show win3_2.index t (0 : Fin 2) * 128 + 1 * k.val = k.val; rw [e0]; omega
  | ⟨1, _⟩ => show win3_2.index t (1 : Fin 2) * 128 + 1 * q.val = q.val; rw [e1]; omega

/-- The bias block at every point is the bias row. -/
theorem blk3_at (c : Dev nD) (t : Fin cfg3.N) (q : Fin 128) :
    (iblk3 (F := Ideal) V c 3 t : Vec Ideal S1x128 .f32) (ix2 0 q) = (V c main_v64 : S1x128.Idx → EReal) (ix2 0 q) := by
  obtain ⟨-, -, -, -, -, -, e0, e1, -⟩ := idx_facts t
  unfold iblk3
  rw [View.read_apply]
  show V c main_v64 _ = V c main_v64 _
  refine congrArg (V c main_v64 : S1x128.Idx → EReal) (funext fun a => Fin.ext ?_)
  match a with
  | ⟨0, _⟩ => show win3_3.index t (0 : Fin 2) * 1 + 1 * 0 = 0; rw [e0]
  | ⟨1, _⟩ => show win3_3.index t (1 : Fin 2) * 128 + 1 * q.val = q.val; rw [e1]; omega

/-- The body's result at point t, entry (p, q), is the affine map at row 2000 t + p. -/
theorem body_hn (c : Dev nD) (t : Fin cfg3.N) (ht : t.val < 50) (p : Fin 2000) (q : Fin 128) :
    k3_pay1 (F := Ideal) (iblk3 V c 0 t) (iblk3 V c 1 t) (iblk3 V c 2 t) (iblk3 V c 3 t) (ix2 p q)
      = HN V c ⟨2000 * t.val + p.val, by omega⟩ q :=
  block_hn (V c main_v59) (V c main_v12) (V c main_v61) (V c main_v64) ⟨t.val, ht⟩
    (iblk3 V c 0 t) (iblk3 V c 1 t) (iblk3 V c 2 t) (iblk3 V c 3 t)
    (fun p k => blk0_at V c t ht p k) (fun p => blk1_at V c t ht p) (fun k q => blk2_at V c t k q)
    (fun q => blk3_at V c t q) p q

/-- Point t writes back block t of the affine map. -/
theorem flushed_hn (c : Dev nD) (t : Fin cfg3.N) :
    (dat3 (F := Ideal) V c).flushed 4 t = ((cfg3.win 4).blk t).view.read (Elt Ideal) (Gcn.ofMat (HN V c)) := by
  have ht : t.val < 50 := lt_of_lt_of_eq t.isLt N_3
  show (cfg3.win 4).cut (grid3.coords t) ((dat3 V c).after 4 t) = _
  rw [after3_4]
  unfold out3_4
  rw [View.canon_unit_zero zeros2]
  simp only [View.ld_unit_zero (S := S2000x128) zeros2, View.ld_unit_zero (S := S2000x1) zeros2,
    View.ld_unit_zero (S := S128x128) zeros2, View.ld_unit_zero (S := S1x128) zeros2]
  obtain ⟨-, -, -, -, -, -, -, -, e0, e1, -⟩ := idx_facts t
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (iblk3 V c 2 t) (iblk3 V c 3 t) (ix2 p q)
    = Gcn.ofMat (HN V c) (((cfg3.win 4).blk t).view.emb (ix2 p q))
  refine (body_hn V c t ht p q).trans ?_
  unfold Gcn.ofMat
  refine congrArg₂ (HN V c) (Fin.ext ?_) (Fin.ext ?_)
  · show 2000 * t.val + p.val = win3_4.index t (0 : Fin 2) * 2000 + 1 * p.val; rw [e0]; omega
  · show q.val = win3_4.index t (1 : Fin 2) * 128 + 1 * q.val; rw [e1]; omega

/-- An index of the [100000, 128] output is in point t's block iff each coordinate is in the block's range. -/
theorem mem_blk_hn (t : Fin cfg3.N) (i : S100000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v65_0).slice (win3_4.rect t)).set ↔ _
  rw [View.set_slice_whole, Rect.mem_set_unit]
  exact Iff.rfl

/-- Row r is in the block of point r / 2000. -/
theorem cover_hn (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 50 := N_3
  have hlt : (i 0).val / 2000 < cfg3.N := by rw [hN]; omega
  obtain ⟨-, -, -, -, -, -, -, -, e0, e1, -⟩ := idx_facts ⟨(i 0).val / 2000, hlt⟩
  have e0' : win3_4.index ⟨(i 0).val / 2000, hlt⟩ (0 : Fin 2) = (i 0).val / 2000 := e0
  refine ⟨⟨(i 0).val / 2000, hlt⟩, flush3_4 _, ?_⟩
  rw [mem_blk_hn]
  intro a
  match a with
  | ⟨0, _⟩ =>
    show win3_4.index ⟨(i 0).val / 2000, hlt⟩ (0 : Fin 2) * 2000 ≤ (i 0).val
      ∧ (i 0).val < win3_4.index ⟨(i 0).val / 2000, hlt⟩ (0 : Fin 2) * 2000 + 2000
    rw [e0']; omega
  | ⟨1, _⟩ =>
    show win3_4.index ⟨(i 0).val / 2000, hlt⟩ (1 : Fin 2) * 128 ≤ (i 1).val
      ∧ (i 1).val < win3_4.index ⟨(i 0).val / 2000, hlt⟩ (1 : Fin 2) * 128 + 128
    rw [e1]; omega

/-- After the region the [100000, 128] output holds the affine map of the row-scaled input. -/
theorem lin_hn (c : Dev nD) (p : Fin 100000) (q : Fin 128) :
    (dat3 (F := Ideal) V c).arrAt 4 cfg3.N (ix2 p q)
      = Gcn.affine (Gcn.scaleRows (Gcn.toMat (V c main_v59)) (Gcn.colOf (V c main_v12))) (Gcn.toMat (V c main_v61))
          (Gcn.rowOf (V c main_v64)) p q :=
  congrFun ((dat3 V c).arrAt_eq_of_cover 4 (Gcn.ofMat (HN V c)) (fun t _ => flushed_hn V c t) cover_hn) (ix2 p q)

/-- The column sums and the column sums of squares of the affine map over tile t (rows 2000 t … 2000 t + 1999). -/
abbrev tileSums (c : Dev nD) : Fin 50 → Fin 128 → EReal :=
  fun t q => ∑ r : Fin 2000, HN V c ⟨2000 * t.val + r.val, by omega⟩ q
abbrev tileSquares (c : Dev nD) : Fin 50 → Fin 128 → EReal :=
  fun t q => ∑ r : Fin 2000, HN V c ⟨2000 * t.val + r.val, by omega⟩ q * HN V c ⟨2000 * t.val + r.val, by omega⟩ q

/-- Point t writes back tile t's column sums. -/
theorem flushed_sum (c : Dev nD) (t : Fin cfg3.N) :
    (dat3 (F := Ideal) V c).flushed 5 t = ((cfg3.win 5).blk t).view.read (Elt Ideal) (ofTiles (tileSums V c)) := by
  have ht : t.val < 50 := lt_of_lt_of_eq t.isLt N_3
  show (cfg3.win 5).cut (grid3.coords t) ((dat3 V c).after 5 t) = _
  rw [after3_5]
  unfold out3_5
  rw [View.canon_unit_zero zeros3]
  simp only [View.ld_unit_zero (S := S2000x128) zeros2, View.ld_unit_zero (S := S2000x1) zeros2,
    View.ld_unit_zero (S := S128x128) zeros2, View.ld_unit_zero (S := S1x128) zeros2]
  obtain ⟨-, -, -, -, -, -, -, -, -, -, e0, -, e2, -⟩ := idx_facts t
  funext j
  obtain ⟨z0, z1, q, rfl⟩ : ∃ (z0 z1 : Fin 1) (q : Fin 128), j = ix3 z0 z1 q := ⟨j 0, j 1, j 2, eq_ix3 j⟩
  obtain rfl : z0 = 0 := Subsingleton.elim _ _
  obtain rfl : z1 = 0 := Subsingleton.elim _ _
  show k3_pay2 (F := Ideal) (iblk3 V c 0 t) (iblk3 V c 1 t) (iblk3 V c 2 t) (iblk3 V c 3 t) (ix3 0 0 q)
    = ofTiles (tileSums V c) (((cfg3.win 5).blk t).view.emb (ix3 0 0 q))
  refine (pay2_at (iblk3 V c 0 t) (iblk3 V c 1 t) (iblk3 V c 2 t) (iblk3 V c 3 t) q).trans ?_
  refine (Finset.sum_congr rfl fun r _ => body_hn V c t ht r q).trans ?_
  unfold ofTiles
  refine congrArg₂ (tileSums V c) (x := ⟨t.val, ht⟩) (Fin.ext ?_) (Fin.ext ?_)
  · show t.val = win3_5.index t (0 : Fin 3) * 1 + 1 * 0; rw [e0]; omega
  · show q.val = win3_5.index t (2 : Fin 3) * 128 + 1 * q.val; rw [e2]; omega

/-- Point t writes back tile t's column sums of squares. -/
theorem flushed_sumsq (c : Dev nD) (t : Fin cfg3.N) :
    (dat3 (F := Ideal) V c).flushed 6 t = ((cfg3.win 6).blk t).view.read (Elt Ideal) (ofTiles (tileSquares V c)) := by
  have ht : t.val < 50 := lt_of_lt_of_eq t.isLt N_3
  show (cfg3.win 6).cut (grid3.coords t) ((dat3 V c).after 6 t) = _
  rw [after3_6]
  unfold out3_6
  rw [View.canon_unit_zero zeros3]
  simp only [View.ld_unit_zero (S := S2000x128) zeros2, View.ld_unit_zero (S := S2000x1) zeros2,
    View.ld_unit_zero (S := S128x128) zeros2, View.ld_unit_zero (S := S1x128) zeros2]
  obtain ⟨-, -, -, -, -, -, -, -, -, -, -, -, -, e0, -, e2⟩ := idx_facts t
  funext j
  obtain ⟨z0, z1, q, rfl⟩ : ∃ (z0 z1 : Fin 1) (q : Fin 128), j = ix3 z0 z1 q := ⟨j 0, j 1, j 2, eq_ix3 j⟩
  obtain rfl : z0 = 0 := Subsingleton.elim _ _
  obtain rfl : z1 = 0 := Subsingleton.elim _ _
  show k3_pay3 (F := Ideal) (iblk3 V c 0 t) (iblk3 V c 1 t) (iblk3 V c 2 t) (iblk3 V c 3 t) (ix3 0 0 q)
    = ofTiles (tileSquares V c) (((cfg3.win 6).blk t).view.emb (ix3 0 0 q))
  refine (pay3_at (iblk3 V c 0 t) (iblk3 V c 1 t) (iblk3 V c 2 t) (iblk3 V c 3 t) q).trans ?_
  refine (Finset.sum_congr rfl fun r _ => by rw [body_hn V c t ht r q]).trans ?_
  unfold ofTiles
  refine congrArg₂ (tileSquares V c) (x := ⟨t.val, ht⟩) (Fin.ext ?_) (Fin.ext ?_)
  · show t.val = win3_6.index t (0 : Fin 3) * 1 + 1 * 0; rw [e0]; omega
  · show q.val = win3_6.index t (2 : Fin 3) * 128 + 1 * q.val; rw [e2]; omega

/-- An index of a [50, 1, 128] output is in point t's block iff each coordinate is in the block's range. -/
theorem mem_blk_sum (t : Fin cfg3.N) (i : S50x1x128.Idx) :
    i ∈ ((cfg3.win 5).blk t).view.set ↔ ∀ a : Fin 3, win3_5.index t a * S1x1x128.size a ≤ (i a).val
      ∧ (i a).val < win3_5.index t a * S1x1x128.size a + S1x1x128.size a := by
  show i ∈ ((View.whole main_v65_1).slice (win3_5.rect t)).set ↔ _
  rw [View.set_slice_whole, Rect.mem_set_unit]
  exact Iff.rfl

theorem mem_blk_sumsq (t : Fin cfg3.N) (i : S50x1x128.Idx) :
    i ∈ ((cfg3.win 6).blk t).view.set ↔ ∀ a : Fin 3, win3_6.index t a * S1x1x128.size a ≤ (i a).val
      ∧ (i a).val < win3_6.index t a * S1x1x128.size a + S1x1x128.size a := by
  show i ∈ ((View.whole main_v65_2).slice (win3_6.rect t)).set ↔ _
  rw [View.set_slice_whole, Rect.mem_set_unit]
  exact Iff.rfl

/-- Entry (t, 0, q) is in the block of point t. -/
theorem cover_sum (i : S50x1x128.Idx) :
    ∃ t : Fin cfg3.N, (cfg3.win 5).flush t = true ∧ i ∈ ((cfg3.win 5).blk t).view.set := by
  have hi0 : (i 0).val < 50 := (i 0).isLt
  have hi1 : (i 1).val < 1 := (i 1).isLt
  have hi2 : (i 2).val < 128 := (i 2).isLt
  have hN : cfg3.N = 50 := N_3
  have hlt : (i 0).val < cfg3.N := by rw [hN]; exact hi0
  obtain ⟨-, -, -, -, -, -, -, -, -, -, e0, e1, e2, -⟩ := idx_facts ⟨(i 0).val, hlt⟩
  have e0' : win3_5.index ⟨(i 0).val, hlt⟩ (0 : Fin 3) = (i 0).val := e0
  refine ⟨⟨(i 0).val, hlt⟩, flush3_5 _, ?_⟩
  rw [mem_blk_sum]
  intro a
  match a with
  | ⟨0, _⟩ =>
    show win3_5.index ⟨(i 0).val, hlt⟩ (0 : Fin 3) * 1 ≤ (i 0).val
      ∧ (i 0).val < win3_5.index ⟨(i 0).val, hlt⟩ (0 : Fin 3) * 1 + 1
    rw [e0']; omega
  | ⟨1, _⟩ =>
    show win3_5.index ⟨(i 0).val, hlt⟩ (1 : Fin 3) * 1 ≤ (i 1).val
      ∧ (i 1).val < win3_5.index ⟨(i 0).val, hlt⟩ (1 : Fin 3) * 1 + 1
    rw [e1]; omega
  | ⟨2, _⟩ =>
    show win3_5.index ⟨(i 0).val, hlt⟩ (2 : Fin 3) * 128 ≤ (i 2).val
      ∧ (i 2).val < win3_5.index ⟨(i 0).val, hlt⟩ (2 : Fin 3) * 128 + 128
    rw [e2]; omega

theorem cover_sumsq (i : S50x1x128.Idx) :
    ∃ t : Fin cfg3.N, (cfg3.win 6).flush t = true ∧ i ∈ ((cfg3.win 6).blk t).view.set := by
  have hi0 : (i 0).val < 50 := (i 0).isLt
  have hi1 : (i 1).val < 1 := (i 1).isLt
  have hi2 : (i 2).val < 128 := (i 2).isLt
  have hN : cfg3.N = 50 := N_3
  have hlt : (i 0).val < cfg3.N := by rw [hN]; exact hi0
  obtain ⟨-, -, -, -, -, -, -, -, -, -, -, -, -, e0, e1, e2⟩ := idx_facts ⟨(i 0).val, hlt⟩
  have e0' : win3_6.index ⟨(i 0).val, hlt⟩ (0 : Fin 3) = (i 0).val := e0
  refine ⟨⟨(i 0).val, hlt⟩, flush3_6 _, ?_⟩
  rw [mem_blk_sumsq]
  intro a
  match a with
  | ⟨0, _⟩ =>
    show win3_6.index ⟨(i 0).val, hlt⟩ (0 : Fin 3) * 1 ≤ (i 0).val
      ∧ (i 0).val < win3_6.index ⟨(i 0).val, hlt⟩ (0 : Fin 3) * 1 + 1
    rw [e0']; omega
  | ⟨1, _⟩ =>
    show win3_6.index ⟨(i 0).val, hlt⟩ (1 : Fin 3) * 1 ≤ (i 1).val
      ∧ (i 1).val < win3_6.index ⟨(i 0).val, hlt⟩ (1 : Fin 3) * 1 + 1
    rw [e1]; omega
  | ⟨2, _⟩ =>
    show win3_6.index ⟨(i 0).val, hlt⟩ (2 : Fin 3) * 128 ≤ (i 2).val
      ∧ (i 2).val < win3_6.index ⟨(i 0).val, hlt⟩ (2 : Fin 3) * 128 + 128
    rw [e2]; omega

/-- After the region the first [50, 1, 128] output holds each tile's column sums of the affine map. -/
theorem lin_sum (c : Dev nD) (t : Fin 50) (q : Fin 128) :
    (dat3 (F := Ideal) V c).arrAt 5 cfg3.N (ix3 t 0 q)
      = ∑ r : Fin 2000, Gcn.affine (Gcn.scaleRows (Gcn.toMat (V c main_v59)) (Gcn.colOf (V c main_v12)))
          (Gcn.toMat (V c main_v61)) (Gcn.rowOf (V c main_v64)) ⟨2000 * t.val + r.val, by omega⟩ q :=
  congrFun ((dat3 V c).arrAt_eq_of_cover 5 (ofTiles (tileSums V c)) (fun t _ => flushed_sum V c t) cover_sum) (ix3 t 0 q)

/-- After the region the second [50, 1, 128] output holds each tile's column sums of squares of the affine map. -/
theorem lin_sumsq (c : Dev nD) (t : Fin 50) (q : Fin 128) :
    (dat3 (F := Ideal) V c).arrAt 6 cfg3.N (ix3 t 0 q)
      = ∑ r : Fin 2000, Gcn.affine (Gcn.scaleRows (Gcn.toMat (V c main_v59)) (Gcn.colOf (V c main_v12)))
            (Gcn.toMat (V c main_v61)) (Gcn.rowOf (V c main_v64)) ⟨2000 * t.val + r.val, by omega⟩ q
          * Gcn.affine (Gcn.scaleRows (Gcn.toMat (V c main_v59)) (Gcn.colOf (V c main_v12)))
            (Gcn.toMat (V c main_v61)) (Gcn.rowOf (V c main_v64)) ⟨2000 * t.val + r.val, by omega⟩ q :=
  congrFun ((dat3 V c).arrAt_eq_of_cover 6 (ofTiles (tileSquares V c)) (fun t _ => flushed_sumsq V c t) cover_sumsq) (ix3 t 0 q)

end Region

end Cert.KernelIdeal.LinRegion3

end
-- ==== Proof.NormRegion4.lean ====
import proofs.«138442_j46162308497633_2_alg».proof.Proof.Gen.KernelIdeal.Frame
import proofs.«138442_j46162308497633_2_alg».proof.Proof.GcnSpec
import proofs.«138442_j46162308497633_2_alg».proof.Proof.LibRank2Layout
import Idealize.ShloMosaic.Lib.Pipeline.Value
import Idealize.ShloMosaic.PureOps.Ideal.Laws

/-!
  The normalisation region of the second layer, read entry by entry.

  The region walks the 100000 node rows in 50 blocks of 2000. On each block it takes the pre-normalised features `hn`,
  the layer's input `x`, the column statistics `μ`, `σ²` and the affine pair `γ`, `β` (one row of 128 each), and the
  out-degree normaliser `s` (one column), and writes two arrays: the new features
  `x + max 0 ((hn − μ)·rsqrt(σ² + ε)·γ + β)` and those features with row `p` scaled by `s p`.
  Every block is rows `2000·t … 2000·t + 1999` of its array and the statistics are the same row at every block, so
  the two output arrays are, entry by entry, `Gcn.bnRes` of the input arrays and its row scaling.
-/

set_option maxRecDepth 16384

noncomputable section

namespace Cert.KernelIdeal.NormRegion4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The block's arithmetic at an entry -/

/-- The reciprocal square root of a vector, entry by entry. -/
theorem rsqrt_apply {s : Shape} {φ : FTy} (a : FVec Ideal s φ) (i : s.Idx) : rsqrt a i = Ideal.rsqrt (a i) := rfl

/-- The new features of a block at row `p`, column `q`: the input plus the rectified normalised value. -/
theorem block_x (hn : Vec Ideal S2000x128 .f32) (mu var g bt : Vec Ideal S1x128 .f32) (x : Vec Ideal S2000x128 .f32)
    (p : Fin 2000) (q : Fin 128) :
    k4_pay1 (F := Ideal) hn mu var g bt x (ix2 p q) =
      x (ix2 p q) + max ((hn (ix2 p q) - mu (ix2 0 q)) * Ideal.rsqrt (var (ix2 0 q) + Gcn.eps) * g (ix2 0 q) + bt (ix2 0 q)) 0 := by
  unfold k4_pay1
  simp only [shapeCast_self]
  simp only [addf_apply, maximumf_apply, mulf_apply, subf_apply, broadcast_apply, Rank2.bcastRow_apply, rsqrt_apply,
    Ideal.ofBits_def, Ideal.ofBits_zero_f32, Gcn.eps]

/-- The scaled features of a block at row `p`, column `q`: the new features times the row's scale. -/
theorem block_hs (hn : Vec Ideal S2000x128 .f32) (mu var g bt : Vec Ideal S1x128 .f32) (x : Vec Ideal S2000x128 .f32)
    (s : Vec Ideal S2000x1 .f32) (p : Fin 2000) (q : Fin 128) :
    k4_pay2 (F := Ideal) hn mu var g bt x s (ix2 p q) = k4_pay1 (F := Ideal) hn mu var g bt x (ix2 p q) * s (ix2 p 0) := by
  unfold k4_pay2
  simp only [shapeCast_self]
  simp only [truncf_apply, mulf_apply, Rank2.bcastCol_apply]

/-! ## Where each block sits in its array -/

theorem zero_offsets : (![0, 0] : Fin 2 → Nat) = fun _ => 0 := funext fun a => by fin_cases a <;> rfl

/-- At grid point `t` the row-blocked arrays are at block `(t, 0)` and the statistics rows at block `(0, 0)`. -/
theorem block_index : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = t.val ∧ win4_6.index t (1 : Fin 2) = 0)
    ∧ (win4_7.index t (0 : Fin 2) = t.val ∧ win4_7.index t (1 : Fin 2) = 0)
    ∧ (win4_8.index t (0 : Fin 2) = t.val ∧ win4_8.index t (1 : Fin 2) = 0) :=
  (by decide +kernel : ∀ t : Fin grid4.N, _)

/-- Block `t` of `hn` at (p, q) is the array at row `2000·t + p`. -/
theorem hn_block (c : Dev nD) (t : Fin cfg4.N) (p : Fin 2000) (q : Fin 128) (k : Fin 100000)
    (hk : k.val = 2000 * t.val + p.val) :
    (iblk4 V c 0 t : Vec Ideal S2000x128 .f32) (ix2 p q) = (V c main_v65_0 : S100000x128.Idx → EReal) (ix2 k q) := by
  obtain ⟨⟨e0, e1⟩, -⟩ := block_index t
  unfold iblk4
  rw [View.read_apply]
  show V c main_v65_0 _ = V c main_v65_0 _
  refine congrArg (V c main_v65_0) ?_
  funext a
  apply Fin.ext
  match a with
  | ⟨0, _⟩ => show win4_0.index t (0 : Fin 2) * 2000 + 1 * p.val = k.val; rw [e0, hk]; omega
  | ⟨1, _⟩ => show win4_0.index t (1 : Fin 2) * 128 + 1 * q.val = q.val; rw [e1]; omega

/-- Block `t` of `x` at (p, q) is the array at row `2000·t + p`. -/
theorem x_block (c : Dev nD) (t : Fin cfg4.N) (p : Fin 2000) (q : Fin 128) (k : Fin 100000)
    (hk : k.val = 2000 * t.val + p.val) :
    (iblk4 V c 1 t : Vec Ideal S2000x128 .f32) (ix2 p q) = (V c main_v48_0 : S100000x128.Idx → EReal) (ix2 k q) := by
  obtain ⟨-, ⟨e0, e1⟩, -⟩ := block_index t
  unfold iblk4
  rw [View.read_apply]
  show V c main_v48_0 _ = V c main_v48_0 _
  refine congrArg (V c main_v48_0) ?_
  funext a
  apply Fin.ext
  match a with
  | ⟨0, _⟩ => show win4_1.index t (0 : Fin 2) * 2000 + 1 * p.val = k.val; rw [e0, hk]; omega
  | ⟨1, _⟩ => show win4_1.index t (1 : Fin 2) * 128 + 1 * q.val = q.val; rw [e1]; omega

/-- The block of `μ` at every point is the whole row. -/
theorem mu_block (c : Dev nD) (t : Fin cfg4.N) (q : Fin 128) :
    (iblk4 V c 2 t : Vec Ideal S1x128 .f32) (ix2 0 q) = (V c main_v69 : S1x128.Idx → EReal) (ix2 0 q) := by
  obtain ⟨-, -, ⟨e0, e1⟩, -⟩ := block_index t
  unfold iblk4
  rw [View.read_apply]
  show V c main_v69 _ = V c main_v69 _
  refine congrArg (V c main_v69) ?_
  funext a
  apply Fin.ext
  match a with
  | ⟨0, _⟩ => show win4_2.index t (0 : Fin 2) * 1 + 1 * 0 = 0; rw [e0]
  | ⟨1, _⟩ => show win4_2.index t (1 : Fin 2) * 128 + 1 * q.val = q.val; rw [e1]; omega

/-- The block of `σ²` at every point is the whole row. -/
theorem var_block (c : Dev nD) (t : Fin cfg4.N) (q : Fin 128) :
    (iblk4 V c 3 t : Vec Ideal S1x128 .f32) (ix2 0 q) = (V c main_v75 : S1x128.Idx → EReal) (ix2 0 q) := by
  obtain ⟨-, -, -, ⟨e0, e1⟩, -⟩ := block_index t
  unfold iblk4
  rw [View.read_apply]
  show V c main_v75 _ = V c main_v75 _
  refine congrArg (V c main_v75) ?_
  funext a
  apply Fin.ext
  match a with
  | ⟨0, _⟩ => show win4_3.index t (0 : Fin 2) * 1 + 1 * 0 = 0; rw [e0]
  | ⟨1, _⟩ => show win4_3.index t (1 : Fin 2) * 128 + 1 * q.val = q.val; rw [e1]; omega

/-- The block of `γ` at every point is the whole row. -/
theorem gamma_block (c : Dev nD) (t : Fin cfg4.N) (q : Fin 128) :
    (iblk4 V c 4 t : Vec Ideal S1x128 .f32) (ix2 0 q) = (V c main_v78 : S1x128.Idx → EReal) (ix2 0 q) := by
  obtain ⟨-, -, -, -, ⟨e0, e1⟩, -⟩ := block_index t
  unfold iblk4
  rw [View.read_apply]
  show V c main_v78 _ = V c main_v78 _
  refine congrArg (V c main_v78) ?_
  funext a
  apply Fin.ext
  match a with
  | ⟨0, _⟩ => show win4_4.index t (0 : Fin 2) * 1 + 1 * 0 = 0; rw [e0]
  | ⟨1, _⟩ => show win4_4.index t (1 : Fin 2) * 128 + 1 * q.val = q.val; rw [e1]; omega

/-- The block of `β` at every point is the whole row. -/
theorem beta_block (c : Dev nD) (t : Fin cfg4.N) (q : Fin 128) :
    (iblk4 V c 5 t : Vec Ideal S1x128 .f32) (ix2 0 q) = (V c main_v81 : S1x128.Idx → EReal) (ix2 0 q) := by
  obtain ⟨-, -, -, -, -, ⟨e0, e1⟩, -⟩ := block_index t
  unfold iblk4
  rw [View.read_apply]
  show V c main_v81 _ = V c main_v81 _
  refine congrArg (V c main_v81) ?_
  funext a
  apply Fin.ext
  match a with
  | ⟨0, _⟩ => show win4_5.index t (0 : Fin 2) * 1 + 1 * 0 = 0; rw [e0]
  | ⟨1, _⟩ => show win4_5.index t (1 : Fin 2) * 128 + 1 * q.val = q.val; rw [e1]; omega

/-- Block `t` of the row scales at (p, 0) is the column at row `2000·t + p`. -/
theorem scale_block (c : Dev nD) (t : Fin cfg4.N) (p : Fin 2000) (k : Fin 100000)
    (hk : k.val = 2000 * t.val + p.val) :
    (iblk4 V c 6 t : Vec Ideal S2000x1 .f32) (ix2 p 0) = (V c main_v10 : S100000x1.Idx → EReal) (ix2 k 0) := by
  obtain ⟨-, -, -, -, -, -, ⟨e0, e1⟩, -⟩ := block_index t
  unfold iblk4
  rw [View.read_apply]
  show V c main_v10 _ = V c main_v10 _
  refine congrArg (V c main_v10) ?_
  funext a
  apply Fin.ext
  match a with
  | ⟨0, _⟩ => show win4_6.index t (0 : Fin 2) * 2000 + 1 * p.val = k.val; rw [e0, hk]; omega
  | ⟨1, _⟩ => show win4_6.index t (1 : Fin 2) * 1 + 1 * 0 = 0; rw [e1]

/-! ## The two output arrays -/

/-- The new features as a matrix of the region's input arrays. -/
abbrev XN (c : Dev nD) : Gcn.Mat 100000 128 :=
  Gcn.bnRes (Gcn.toMat (a := 100000) (b := 128) (V c main_v48_0)) (Gcn.toMat (a := 100000) (b := 128) (V c main_v65_0))
    (Gcn.rowOf (b := 128) (V c main_v69)) (Gcn.rowOf (b := 128) (V c main_v75)) (Gcn.rowOf (b := 128) (V c main_v78))
    (Gcn.rowOf (b := 128) (V c main_v81))

/-- The scaled new features. -/
abbrev HS (c : Dev nD) : Gcn.Mat 100000 128 := Gcn.scaleRows (XN V c) (Gcn.colOf (a := 100000) (V c main_v10))

/-- Row `p` of output block `t` is row `2000·t + p` of the array. -/
theorem out_x_row (t : Fin cfg4.N) (p : Fin 2000) (q : Fin 128) (k : Fin 100000) (hk : k.val = 2000 * t.val + p.val) :
    ((cfg4.win 7).blk t).view.emb (ix2 p q : S2000x128.Idx) = (ix2 k q : S100000x128.Idx) := by
  obtain ⟨-, -, -, -, -, -, -, ⟨e0, e1⟩, -⟩ := block_index t
  funext a
  apply Fin.ext
  match a with
  | ⟨0, _⟩ => show win4_7.index t (0 : Fin 2) * 2000 + 1 * p.val = k.val; rw [e0, hk]; omega
  | ⟨1, _⟩ => show win4_7.index t (1 : Fin 2) * 128 + 1 * q.val = q.val; rw [e1]; omega

theorem out_hs_row (t : Fin cfg4.N) (p : Fin 2000) (q : Fin 128) (k : Fin 100000) (hk : k.val = 2000 * t.val + p.val) :
    ((cfg4.win 8).blk t).view.emb (ix2 p q : S2000x128.Idx) = (ix2 k q : S100000x128.Idx) := by
  obtain ⟨-, -, -, -, -, -, -, -, ⟨e0, e1⟩⟩ := block_index t
  funext a
  apply Fin.ext
  match a with
  | ⟨0, _⟩ => show win4_8.index t (0 : Fin 2) * 2000 + 1 * p.val = k.val; rw [e0, hk]; omega
  | ⟨1, _⟩ => show win4_8.index t (1 : Fin 2) * 128 + 1 * q.val = q.val; rw [e1]; omega

/-- The body's new features at (p, q) of block `t` are `XN` at row `2000·t + p`. -/
theorem body_x (c : Dev nD) (t : Fin cfg4.N) (p : Fin 2000) (q : Fin 128) (k : Fin 100000)
    (hk : k.val = 2000 * t.val + p.val) :
    k4_pay1 (F := Ideal) (iblk4 V c 0 t) (iblk4 V c 2 t) (iblk4 V c 3 t) (iblk4 V c 4 t) (iblk4 V c 5 t) (iblk4 V c 1 t) (ix2 p q)
      = XN V c k q := by
  refine (block_x (iblk4 V c 0 t) (iblk4 V c 2 t) (iblk4 V c 3 t) (iblk4 V c 4 t) (iblk4 V c 5 t) (iblk4 V c 1 t) p q).trans ?_
  rw [hn_block V c t p q k hk, x_block V c t p q k hk, mu_block V c t q, var_block V c t q, gamma_block V c t q,
    beta_block V c t q]
  rfl

/-- What point `t` writes back to the new-features array is block `t` of `XN`. -/
theorem flushed_x (c : Dev nD) (t : Fin cfg4.N) :
    (dat4 (F := Ideal) V c).flushed 7 t = ((cfg4.win 7).blk t).view.read (Elt Ideal) (Gcn.ofMat (XN V c)) := by
  have hN : cfg4.N = 50 := N_4
  show (cfg4.win 7).cut (grid4.coords t) ((dat4 (F := Ideal) V c).after 7 t) = _
  rw [after4_7]
  unfold out4_7
  rw [View.canon_unit_zero zero_offsets]
  simp only [View.ld_unit_zero (S := S2000x128) zero_offsets, View.ld_unit_zero (S := S1x128) zero_offsets]
  funext j
  obtain ⟨p, q, rfl⟩ : ∃ (p : Fin 2000) (q : Fin 128), j = ix2 p q := ⟨j 0, j 1, eq_ix2 j⟩
  have ht : t.val < 50 := hN ▸ t.isLt
  have hk : (⟨2000 * t.val + p.val, by omega⟩ : Fin 100000).val = 2000 * t.val + p.val := rfl
  show k4_pay1 (F := Ideal) (iblk4 V c 0 t) (iblk4 V c 2 t) (iblk4 V c 3 t) (iblk4 V c 4 t) (iblk4 V c 5 t) (iblk4 V c 1 t) (ix2 p q)
    = Gcn.ofMat (XN V c) (((cfg4.win 7).blk t).view.emb (ix2 p q : S2000x128.Idx))
  rw [out_x_row t p q _ hk]
  exact body_x V c t p q _ hk

/-- What point `t` writes back to the scaled array is block `t` of `HS`. -/
theorem flushed_hs (c : Dev nD) (t : Fin cfg4.N) :
    (dat4 (F := Ideal) V c).flushed 8 t = ((cfg4.win 8).blk t).view.read (Elt Ideal) (Gcn.ofMat (HS V c)) := by
  have hN : cfg4.N = 50 := N_4
  show (cfg4.win 8).cut (grid4.coords t) ((dat4 (F := Ideal) V c).after 8 t) = _
  rw [after4_8]
  unfold out4_8
  rw [View.canon_unit_zero zero_offsets]
  simp only [View.ld_unit_zero (S := S2000x128) zero_offsets, View.ld_unit_zero (S := S1x128) zero_offsets,
    View.ld_unit_zero (S := S2000x1) zero_offsets]
  funext j
  obtain ⟨p, q, rfl⟩ : ∃ (p : Fin 2000) (q : Fin 128), j = ix2 p q := ⟨j 0, j 1, eq_ix2 j⟩
  have ht : t.val < 50 := hN ▸ t.isLt
  have hk : (⟨2000 * t.val + p.val, by omega⟩ : Fin 100000).val = 2000 * t.val + p.val := rfl
  show k4_pay2 (F := Ideal) (iblk4 V c 0 t) (iblk4 V c 2 t) (iblk4 V c 3 t) (iblk4 V c 4 t) (iblk4 V c 5 t) (iblk4 V c 1 t)
      (iblk4 V c 6 t) (ix2 p q)
    = Gcn.ofMat (HS V c) (((cfg4.win 8).blk t).view.emb (ix2 p q : S2000x128.Idx))
  rw [out_hs_row t p q _ hk]
  refine (block_hs (iblk4 V c 0 t) (iblk4 V c 2 t) (iblk4 V c 3 t) (iblk4 V c 4 t) (iblk4 V c 5 t) (iblk4 V c 1 t)
    (iblk4 V c 6 t) p q).trans ?_
  rw [body_x V c t p q _ hk, scale_block V c t p _ hk]
  rfl

/-- An index of a [100000, 128] output array is in point `t`'s block iff each coordinate is in the block's range. -/
theorem mem_block_x (t : Fin cfg4.N) (i : S100000x128.Idx) :
    i ∈ ((cfg4.win 7).blk t).view.set ↔ ∀ a : Fin 2, win4_7.index t a * S2000x128.size a ≤ (i a).val
      ∧ (i a).val < win4_7.index t a * S2000x128.size a + S2000x128.size a := by
  show i ∈ ((View.whole main_v82_0).slice (win4_7.rect t)).set ↔ _
  rw [View.set_slice_whole, Rect.mem_set_unit]
  exact Iff.rfl

theorem mem_block_hs (t : Fin cfg4.N) (i : S100000x128.Idx) :
    i ∈ ((cfg4.win 8).blk t).view.set ↔ ∀ a : Fin 2, win4_8.index t a * S2000x128.size a ≤ (i a).val
      ∧ (i a).val < win4_8.index t a * S2000x128.size a + S2000x128.size a := by
  show i ∈ ((View.whole main_v82_1).slice (win4_8.rect t)).set ↔ _
  rw [View.set_slice_whole, Rect.mem_set_unit]
  exact Iff.rfl

/-- Row `r` is in the block of point `r / 2000`. -/
theorem cover_x (i : S100000x128.Idx) : ∃ t : Fin cfg4.N, (cfg4.win 7).flush t = true ∧ i ∈ ((cfg4.win 7).blk t).view.set := by
  have hN : cfg4.N = 50 := N_4
  have h0 : (i 0).val < 100000 := (i 0).isLt
  have h1 : (i 1).val < 128 := (i 1).isLt
  refine ⟨⟨(i 0).val / 2000, by rw [hN]; omega⟩, flush4_7 _, ?_⟩
  obtain ⟨-, -, -, -, -, -, -, ⟨e0, e1⟩, -⟩ := block_index ⟨(i 0).val / 2000, by rw [hN]; omega⟩
  rw [mem_block_x]
  intro a
  match a with
  | ⟨0, _⟩ =>
    show win4_7.index _ (0 : Fin 2) * 2000 ≤ (i 0).val ∧ (i 0).val < win4_7.index _ (0 : Fin 2) * 2000 + 2000
    rw [e0]; show (i 0).val / 2000 * 2000 ≤ (i 0).val ∧ (i 0).val < (i 0).val / 2000 * 2000 + 2000; omega
  | ⟨1, _⟩ =>
    show win4_7.index _ (1 : Fin 2) * 128 ≤ (i 1).val ∧ (i 1).val < win4_7.index _ (1 : Fin 2) * 128 + 128
    rw [e1]; omega

theorem cover_hs (i : S100000x128.Idx) : ∃ t : Fin cfg4.N, (cfg4.win 8).flush t = true ∧ i ∈ ((cfg4.win 8).blk t).view.set := by
  have hN : cfg4.N = 50 := N_4
  have h0 : (i 0).val < 100000 := (i 0).isLt
  have h1 : (i 1).val < 128 := (i 1).isLt
  refine ⟨⟨(i 0).val / 2000, by rw [hN]; omega⟩, flush4_8 _, ?_⟩
  obtain ⟨-, -, -, -, -, -, -, -, ⟨e0, e1⟩⟩ := block_index ⟨(i 0).val / 2000, by rw [hN]; omega⟩
  rw [mem_block_hs]
  intro a
  match a with
  | ⟨0, _⟩ =>
    show win4_8.index _ (0 : Fin 2) * 2000 ≤ (i 0).val ∧ (i 0).val < win4_8.index _ (0 : Fin 2) * 2000 + 2000
    rw [e0]; show (i 0).val / 2000 * 2000 ≤ (i 0).val ∧ (i 0).val < (i 0).val / 2000 * 2000 + 2000; omega
  | ⟨1, _⟩ =>
    show win4_8.index _ (1 : Fin 2) * 128 ≤ (i 1).val ∧ (i 1).val < win4_8.index _ (1 : Fin 2) * 128 + 128
    rw [e1]; omega

/-- After the region the new-features array is `XN`. -/
theorem norm_x_array (c : Dev nD) : (dat4 (F := Ideal) V c).arrAt 7 cfg4.N = Gcn.ofMat (XN V c) :=
  (dat4 (F := Ideal) V c).arrAt_eq_of_cover 7 (Gcn.ofMat (XN V c)) (fun t _ => flushed_x V c t) cover_x

/-- After the region the scaled array is `HS`. -/
theorem norm_hs_array (c : Dev nD) : (dat4 (F := Ideal) V c).arrAt 8 cfg4.N = Gcn.ofMat (HS V c) :=
  (dat4 (F := Ideal) V c).arrAt_eq_of_cover 8 (Gcn.ofMat (HS V c)) (fun t _ => flushed_hs V c t) cover_hs

/-- The new features after the region, entry by entry. -/
theorem norm_x (c : Dev nD) (p : Fin 100000) (q : Fin 128) :
    (dat4 (F := Ideal) V c).arrAt 7 cfg4.N (ix2 p q) = XN V c p q :=
  congrFun (norm_x_array V c) (ix2 p q)

/-- The scaled features after the region, entry by entry. -/
theorem norm_hs (c : Dev nD) (p : Fin 100000) (q : Fin 128) :
    (dat4 (F := Ideal) V c).arrAt 8 cfg4.N (ix2 p q) = Gcn.scaleRows (XN V c) (Gcn.colOf (a := 100000) (V c main_v10)) p q :=
  congrFun (norm_hs_array V c) (ix2 p q)

end Cert.KernelIdeal.NormRegion4

end
-- ==== Proof.KLayer1.lean ====
/-
  One graph-convolution layer of the kernel program, from the features and their out-degree-scaled copy at the layer's
  entry to the new features and their scaled copy at its exit: the host operations before the affine-map region give its
  four input arrays (the edge aggregation of the scaled features, the in-degree normaliser, the layer's weight matrix and
  bias row), the region leaves the pre-normalisation matrix and its tile sums, the host operations after it give the column
  mean and variance and the layer's scale and shift rows, and the normalisation region leaves the layer's result.
-/
import proofs.«138442_j46162308497633_2_alg».proof.Proof.KChainBase
import proofs.«138442_j46162308497633_2_alg».proof.Proof.KStats
import proofs.«138442_j46162308497633_2_alg».proof.Proof.LinRegion3
import proofs.«138442_j46162308497633_2_alg».proof.Proof.NormRegion4
import proofs.«138442_j46162308497633_2_alg».proof.Proof.LibRank2Layout

set_option maxRecDepth 16384
set_option maxHeartbeats 200000

noncomputable section

namespace Cert.KernelIdeal.Chain

open Idealize.ShloMosaic Idealize.ShloMosaic.TcCoe Idealize.ShloMosaic.Tactic Idealize.ShloMosaic.StableHlo Idealize.ShloMosaic.ValueIdx
open Idealize.SL Idealize.SL.Sem
open Cert.KernelIdeal Cert.KernelIdeal.Gen
open scoped BigOperators

variable (m : (ℓ : Loc nD τ sig) → Buf (Elt Ideal) ℓ) (ρ : Dev nD → PrngReg) (c : Dev nD)

namespace Layer1

/-! ## Reading a layer's slice of the stacked parameters -/

/-- Layer l's [128, 128] weight matrix out of the stacked [4, 128, 128] array: the slice at l with its unit axis dropped. -/
theorem layerMat_at_L1 (x : FVec Ideal S4x128x128 .f32) (l : Fin 4) (h : S4x128x128.Slices ![l.val, 0, 0] S1x128x128)
    (h' : S1x128x128.ShapeCasts S128x128) (k q : Fin 128) :
    shapeCast S128x128 (extractStridedSlice S1x128x128 ![l.val, 0, 0] x h) h' (ix2 k q) = x (ix3 l k q) := by
  refine (shapeCast_apply _ h' (ix2 k q) (ix3 (0 : Fin 1) k q) ?_).trans ?_
  · rw [Shape.rowMajor_val_three, Shape.rowMajor_val_two]
    show (0 * 128 + k.val) * 128 + q.val = k.val * 128 + q.val
    omega
  · exact extractStridedSlice_apply ![l.val, 0, 0] x h (ix3 (0 : Fin 1) k q) (ix3 l k q) (fun d => match d with
      | ⟨0, _⟩ => by show l.val = l.val + 0; omega
      | ⟨1, _⟩ => by show k.val = 0 + k.val; omega
      | ⟨2, _⟩ => by show q.val = 0 + q.val; omega)

/-- Layer l's row out of a stacked [4, 128] array: the slice at l, flattened and viewed as one row again. -/
theorem layerRow_at_L1 (x : FVec Ideal S4x128 .f32) (l : Fin 4) (h : S4x128.Slices ![l.val, 0] S1x128)
    (h1 : S1x128.ShapeCasts S128) (h2 : S128.ShapeCasts S1x128) (q : Fin 128) :
    shapeCast S1x128 (fun i => shapeCast S128 (extractStridedSlice S1x128 ![l.val, 0] x h) h1 i) h2 (ix2 0 q)
      = x (ix2 l q) := by
  refine (LinRegion3.castRow_apply _ h2 0 q).trans ?_
  show shapeCast S128 (extractStridedSlice S1x128 ![l.val, 0] x h) h1 (ix1 q) = _
  refine (shapeCast_apply _ h1 (ix1 q) (ix2 (0 : Fin 1) q) ?_).trans ?_
  · rw [Shape.rowMajor_val_two, Shape.rowMajor_val_one]
    show 0 * 128 + q.val = q.val
    omega
  · exact Rank2.sliceRow_apply x h 0 q

/-! ## What the affine-map region finds in its input arrays -/

theorem in_agg : W11 m ρ c (Proc.devRef .tc main_v59)
    = Terms.aggArr (W10 m ρ c (Proc.devRef .tc main_v48_1)) (a14 m c) (a15 m c) := by walk_back; rfl

theorem in_scale : W11 m ρ c (Proc.devRef .tc main_v12) = Terms.invDeg (a15 m c) := by walk_back; rfl

theorem in_weight (k q : Fin 128) : W11 m ρ c (Proc.devRef .tc main_v61) (ix2 k q) = Terms.wL (a4 m c) 1 k q := by
  walk_back
  exact layerMat_at_L1 (a4 m c) 1 _ _ k q

theorem in_bias (q : Fin 128) : W11 m ρ c (Proc.devRef .tc main_v64) (ix2 0 q) = Terms.rowL (a5 m c) 1 q := by
  walk_back
  exact layerRow_at_L1 (a5 m c) 1 _ _ _ q

section Layer

variable (X : Gcn.Mat 100000 128)

/-- What the layer normalises: the affine map of the aggregated, degree-scaled features. -/
abbrev preL1 : Gcn.Mat 100000 128 :=
  Gcn.preNorm (Terms.agg (a14 m c) (a15 m c)) (Terms.sOut (a14 m c)) (Terms.sIn (a15 m c)) (Terms.wL (a4 m c) 1)
    (Terms.rowL (a5 m c) 1) X

theorem in_agg_mat (hhs : ∀ p q, W10 m ρ c (Proc.devRef .tc main_v48_1) (ix2 p q) = Gcn.scaleRows X (Terms.sOut (a14 m c)) p q) :
    Gcn.toMat (a := 100000) (b := 128) (W11 m ρ c (Proc.devRef .tc main_v59))
      = Terms.agg (a14 m c) (a15 m c) (Gcn.scaleRows X (Terms.sOut (a14 m c))) := by
  have e : W10 m ρ c (Proc.devRef .tc main_v48_1) = Gcn.ofMat (Gcn.scaleRows X (Terms.sOut (a14 m c))) := by
    funext i
    obtain ⟨p, q, rfl⟩ : ∃ (p : Fin 100000) (q : Fin 128), i = ix2 p q := ⟨i 0, i 1, eq_ix2 i⟩
    exact hhs p q
  rw [in_agg, e]
  unfold Terms.agg
  rfl

theorem in_scale_col : Gcn.colOf (a := 100000) (W11 m ρ c (Proc.devRef .tc main_v12)) = Terms.sIn (a15 m c) := by
  rw [in_scale]
  rfl

theorem in_weight_mat : Gcn.toMat (a := 128) (b := 128) (W11 m ρ c (Proc.devRef .tc main_v61)) = Terms.wL (a4 m c) 1 :=
  funext fun k => funext fun q => in_weight m ρ c k q

theorem in_bias_row : Gcn.rowOf (b := 128) (W11 m ρ c (Proc.devRef .tc main_v64)) = Terms.rowL (a5 m c) 1 :=
  funext fun q => in_bias m ρ c q

/-- The affine-map region's function of its input arrays is the layer's pre-normalisation matrix. -/
theorem lin_is_pre (hhs : ∀ p q, W10 m ρ c (Proc.devRef .tc main_v48_1) (ix2 p q) = Gcn.scaleRows X (Terms.sOut (a14 m c)) p q) :
    Gcn.affine (Gcn.scaleRows (Gcn.toMat (V11 m ρ c main_v59)) (Gcn.colOf (V11 m ρ c main_v12))) (Gcn.toMat (V11 m ρ c main_v61))
      (Gcn.rowOf (V11 m ρ c main_v64)) = preL1 m c X := by
  show Gcn.affine (Gcn.scaleRows (Gcn.toMat (a := 100000) (b := 128) (W11 m ρ c (Proc.devRef .tc main_v59)))
      (Gcn.colOf (a := 100000) (W11 m ρ c (Proc.devRef .tc main_v12))))
    (Gcn.toMat (a := 128) (b := 128) (W11 m ρ c (Proc.devRef .tc main_v61)))
    (Gcn.rowOf (b := 128) (W11 m ρ c (Proc.devRef .tc main_v64))) = _
  rw [in_agg_mat m ρ c X hhs, in_scale_col, in_weight_mat, in_bias_row]
  rfl

/-! ## What the affine-map region leaves -/

theorem out_hn (hhs : ∀ p q, W10 m ρ c (Proc.devRef .tc main_v48_1) (ix2 p q) = Gcn.scaleRows X (Terms.sOut (a14 m c)) p q)
    (p : Fin 100000) (q : Fin 128) : W12 m ρ c (Proc.devRef .tc main_v65_0) (ix2 p q) = preL1 m c X p q :=
  ((congrFun (W12_arr m ρ c 4) (ix2 p q)).trans (LinRegion3.lin_hn (V11 m ρ) c p q)).trans
    (congrFun (congrFun (lin_is_pre m ρ c X hhs) p) q)

theorem out_sum (hhs : ∀ p q, W10 m ρ c (Proc.devRef .tc main_v48_1) (ix2 p q) = Gcn.scaleRows X (Terms.sOut (a14 m c)) p q)
    (t : Fin 50) (q : Fin 128) :
    W12 m ρ c (Proc.devRef .tc main_v65_1) (ix3 t 0 q) = ∑ r : Fin 2000, preL1 m c X ⟨2000 * t.val + r.val, by omega⟩ q :=
  ((congrFun (W12_arr m ρ c 5) (ix3 t 0 q)).trans (LinRegion3.lin_sum (V11 m ρ) c t q)).trans
    (by rw [lin_is_pre m ρ c X hhs])

theorem out_sumsq (hhs : ∀ p q, W10 m ρ c (Proc.devRef .tc main_v48_1) (ix2 p q) = Gcn.scaleRows X (Terms.sOut (a14 m c)) p q)
    (t : Fin 50) (q : Fin 128) :
    W12 m ρ c (Proc.devRef .tc main_v65_2) (ix3 t 0 q)
      = ∑ r : Fin 2000, preL1 m c X ⟨2000 * t.val + r.val, by omega⟩ q * preL1 m c X ⟨2000 * t.val + r.val, by omega⟩ q :=
  ((congrFun (W12_arr m ρ c 6) (ix3 t 0 q)).trans (LinRegion3.lin_sumsq (V11 m ρ) c t q)).trans
    (by rw [lin_is_pre m ρ c X hhs])

/-! ## What the normalisation region finds in its input arrays -/

theorem in_mean : W13 m ρ c (Proc.devRef .tc main_v69) = Terms.meanArr (W12 m ρ c (Proc.devRef .tc main_v65_1)) := by
  walk_back; rfl

theorem in_var : W13 m ρ c (Proc.devRef .tc main_v75)
    = Terms.varArr (W12 m ρ c (Proc.devRef .tc main_v65_1)) (W12 m ρ c (Proc.devRef .tc main_v65_2)) := by
  walk_back; rfl

theorem in_gamma (q : Fin 128) : W13 m ρ c (Proc.devRef .tc main_v78) (ix2 0 q) = Terms.rowL (a6 m c) 1 q := by
  walk_back
  exact layerRow_at_L1 (a6 m c) 1 _ _ _ q

theorem in_beta (q : Fin 128) : W13 m ρ c (Proc.devRef .tc main_v81) (ix2 0 q) = Terms.rowL (a7 m c) 1 q := by
  walk_back
  exact layerRow_at_L1 (a7 m c) 1 _ _ _ q

theorem in_hn : W13 m ρ c (Proc.devRef .tc main_v65_0) = W12 m ρ c (Proc.devRef .tc main_v65_0) := by walk_back

theorem in_x : W13 m ρ c (Proc.devRef .tc main_v48_0) = W10 m ρ c (Proc.devRef .tc main_v48_0) := by walk_back

theorem in_out_scale : W13 m ρ c (Proc.devRef .tc main_v10) = Terms.invDeg (a14 m c) := by walk_back; rfl

theorem in_x_mat (hx : ∀ p q, W10 m ρ c (Proc.devRef .tc main_v48_0) (ix2 p q) = X p q) :
    Gcn.toMat (a := 100000) (b := 128) (W13 m ρ c (Proc.devRef .tc main_v48_0)) = X := by
  rw [in_x]
  exact funext fun p => funext fun q => hx p q

theorem in_hn_mat (hhs : ∀ p q, W10 m ρ c (Proc.devRef .tc main_v48_1) (ix2 p q) = Gcn.scaleRows X (Terms.sOut (a14 m c)) p q) :
    Gcn.toMat (a := 100000) (b := 128) (W13 m ρ c (Proc.devRef .tc main_v65_0)) = preL1 m c X := by
  rw [in_hn]
  exact funext fun p => funext fun q => out_hn m ρ c X hhs p q

theorem in_mean_row (hhs : ∀ p q, W10 m ρ c (Proc.devRef .tc main_v48_1) (ix2 p q) = Gcn.scaleRows X (Terms.sOut (a14 m c)) p q) :
    Gcn.rowOf (b := 128) (W13 m ρ c (Proc.devRef .tc main_v69)) = Gcn.meanOf (Gcn.tileSum (preL1 m c X)) := by
  rw [in_mean]
  exact funext fun q => Terms.meanArr_tiles (preL1 m c X) _ (fun t q => out_sum m ρ c X hhs t q) q

theorem in_var_row (hhs : ∀ p q, W10 m ρ c (Proc.devRef .tc main_v48_1) (ix2 p q) = Gcn.scaleRows X (Terms.sOut (a14 m c)) p q) :
    Gcn.rowOf (b := 128) (W13 m ρ c (Proc.devRef .tc main_v75)) = Gcn.varTiled (preL1 m c X) := by
  rw [in_var]
  exact funext fun q => Terms.varArr_tiles (preL1 m c X) _ _ (fun t q => out_sum m ρ c X hhs t q)
    (fun t q => out_sumsq m ρ c X hhs t q) q

theorem in_gamma_row : Gcn.rowOf (b := 128) (W13 m ρ c (Proc.devRef .tc main_v78)) = Terms.rowL (a6 m c) 1 :=
  funext fun q => in_gamma m ρ c q

theorem in_beta_row : Gcn.rowOf (b := 128) (W13 m ρ c (Proc.devRef .tc main_v81)) = Terms.rowL (a7 m c) 1 :=
  funext fun q => in_beta m ρ c q

theorem in_out_scale_col : Gcn.colOf (a := 100000) (W13 m ρ c (Proc.devRef .tc main_v10)) = Terms.sOut (a14 m c) := by
  rw [in_out_scale]
  rfl

/-- The normalisation region's function of its input arrays is the layer. -/
theorem norm_is_layer (hx : ∀ p q, W10 m ρ c (Proc.devRef .tc main_v48_0) (ix2 p q) = X p q)
    (hhs : ∀ p q, W10 m ρ c (Proc.devRef .tc main_v48_1) (ix2 p q) = Gcn.scaleRows X (Terms.sOut (a14 m c)) p q) :
    NormRegion4.XN (V13 m ρ) c
      = Gcn.layerTiled (Terms.agg (a14 m c) (a15 m c)) (Terms.sOut (a14 m c)) (Terms.sIn (a15 m c)) (Terms.wL (a4 m c) 1)
          (Terms.rowL (a5 m c) 1) (Terms.rowL (a6 m c) 1) (Terms.rowL (a7 m c) 1) X := by
  show Gcn.bnRes (Gcn.toMat (a := 100000) (b := 128) (W13 m ρ c (Proc.devRef .tc main_v48_0)))
      (Gcn.toMat (a := 100000) (b := 128) (W13 m ρ c (Proc.devRef .tc main_v65_0)))
      (Gcn.rowOf (b := 128) (W13 m ρ c (Proc.devRef .tc main_v69))) (Gcn.rowOf (b := 128) (W13 m ρ c (Proc.devRef .tc main_v75)))
      (Gcn.rowOf (b := 128) (W13 m ρ c (Proc.devRef .tc main_v78))) (Gcn.rowOf (b := 128) (W13 m ρ c (Proc.devRef .tc main_v81))) = _
  rw [in_x_mat m ρ c X hx, in_hn_mat m ρ c X hhs, in_mean_row m ρ c X hhs, in_var_row m ρ c X hhs, in_gamma_row, in_beta_row]
  rfl

end Layer

end Layer1

/-- One layer of the kernel program: from the features and their out-degree-scaled copy at the layer's entry to the new
    features and their scaled copy at its exit. -/
theorem layer1 (X : Gcn.Mat 100000 128)
    (hx : ∀ p q, W10 m ρ c (Proc.devRef .tc main_v48_0) (ix2 p q) = X p q)
    (hhs : ∀ p q, W10 m ρ c (Proc.devRef .tc main_v48_1) (ix2 p q) = Gcn.scaleRows X (Terms.sOut (a14 m c)) p q) :
    (∀ p q, W14 m ρ c (Proc.devRef .tc main_v82_0) (ix2 p q)
        = Gcn.layerTiled (Terms.agg (a14 m c) (a15 m c)) (Terms.sOut (a14 m c)) (Terms.sIn (a15 m c)) (Terms.wL (a4 m c) 1)
            (Terms.rowL (a5 m c) 1) (Terms.rowL (a6 m c) 1) (Terms.rowL (a7 m c) 1) X p q)
    ∧ (∀ p q, W14 m ρ c (Proc.devRef .tc main_v82_1) (ix2 p q)
        = Gcn.scaleRows (Gcn.layerTiled (Terms.agg (a14 m c) (a15 m c)) (Terms.sOut (a14 m c)) (Terms.sIn (a15 m c))
            (Terms.wL (a4 m c) 1) (Terms.rowL (a5 m c) 1) (Terms.rowL (a6 m c) 1) (Terms.rowL (a7 m c) 1) X)
            (Terms.sOut (a14 m c)) p q) := by
  refine ⟨fun p q => ?_, fun p q => ?_⟩
  · exact ((congrFun (W14_arr m ρ c 7) (ix2 p q)).trans (NormRegion4.norm_x (V13 m ρ) c p q)).trans
      (congrFun (congrFun (Layer1.norm_is_layer m ρ c X hx hhs) p) q)
  · refine ((congrFun (W14_arr m ρ c 8) (ix2 p q)).trans (NormRegion4.norm_hs (V13 m ρ) c p q)).trans ?_
    show Gcn.scaleRows (NormRegion4.XN (V13 m ρ) c) (Gcn.colOf (a := 100000) (W13 m ρ c (Proc.devRef .tc main_v10))) p q = _
    rw [Layer1.norm_is_layer m ρ c X hx hhs, Layer1.in_out_scale_col]

end Cert.KernelIdeal.Chain

end
-- ==== Proof.LinRegion5.lean ====
/-
  The linear region of the third layer, read entry by entry.

  Each of its 50 grid points takes 2000 rows of the aggregated features, scales row p by entry p of the in-degree
  normaliser, multiplies by the layer's 128 × 128 weight matrix and adds the bias row; it writes that 2000 × 128 block
  to the first output, and the block's column sums and column sums of squares to row t of two [50, 1, 128] outputs.
  The blocks of the row-blocked arrays at point t are rows 2000 t … 2000 t + 1999, the weights and the bias are read
  whole at every point, and the output blocks tile their arrays. So over the whole arrays the first output is the affine
  map of the row-scaled features, and the other two hold, tile by tile, its column sums and column sums of squares.
-/
import proofs.«138442_j46162308497633_2_alg».proof.Proof.Gen.KernelIdeal.Frame
import proofs.«138442_j46162308497633_2_alg».proof.Proof.GcnSpec
import proofs.«138442_j46162308497633_2_alg».proof.Proof.LibPlainDot
import proofs.«138442_j46162308497633_2_alg».proof.Proof.LibRank2Layout
import proofs.«138442_j46162308497633_2_alg».proof.Proof.LibRank3Layout
import Idealize.ShloMosaic.Lib.Pipeline.Value

set_option maxRecDepth 16384

noncomputable section

namespace Cert.KernelIdeal.LinRegion5

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-! ## One block: the body's three results at an index -/

/-- A vector viewed as a one-row matrix: entry (0, q) of the view is entry q. -/
theorem castRow_apply {α : Type} {n : Nat} (v : (⟨1, ![n]⟩ : Shape).Idx → α)
    (h : (⟨1, ![n]⟩ : Shape).ShapeCasts ⟨2, ![1, n]⟩) (z : Fin 1) (q : Fin n) :
    shapeCast (⟨2, ![1, n]⟩ : Shape) v h (ix2 z q) = v (ix1 q) := by
  refine shapeCast_apply v h (ix2 z q) (ix1 q) ?_
  rw [Shape.rowMajor_val_one, Shape.rowMajor_val_two]
  show q.val = z.val * n + q.val
  have hz : z.val = 0 := by have := z.isLt; omega
  rw [hz, Nat.zero_mul, Nat.zero_add]

/-- The sum of a [2000, 128] block down its rows, started from the zero word: entry q is the sum over r of the entries (r, q). -/
theorem sumRows_apply (v : FVec Ideal S2000x128 .f32) (h : S2000x128.Reduces [(0 : Fin 2)] S128) (hφ : FKind.Formats .f32)
    (hacc : (0x00000000#32 : BitVec 32) = FKind.add.neutral .f32 hφ) (q : Fin 128) :
    multiReduction (F := Ideal) .add [(0 : Fin 2)] S128 v 0x00000000#32 h hφ hacc (ix1 q) = ∑ r : Fin 2000, v (ix2 r q) := by
  refine (Ideal.multiReduction_add_single v 0x00000000#32 h hφ hacc (ix1 q)).trans ?_
  show ∑ r : Fin 2000, v (h.lift (ix1 q) r) = ∑ r : Fin 2000, v (ix2 r q)
  refine Finset.sum_congr rfl fun r _ => congrArg v (funext fun d => Fin.ext ?_)
  match d with
  | ⟨0, _⟩ => rfl
  | ⟨1, _⟩ => rfl

/-- One block of the affine map: row p of x scaled by s p, times w, plus the bias. -/
theorem pay1_at (x : Vec Ideal S2000x128 .f32) (s : Vec Ideal S2000x1 .f32) (w : Vec Ideal S128x128 .f32)
    (b : Vec Ideal S1x128 .f32) (p : Fin 2000) (q : Fin 128) :
    k5_pay1 (F := Ideal) x s w b (ix2 p q)
      = (∑ k : Fin 128, (x (ix2 p k) * s (ix2 p 0)) * w (ix2 k q)) + b (ix2 0 q) := by
  unfold k5_pay1
  simp only [shapeCast_self]
  rw [addf_apply, Rank2.bcastRow_apply]
  refine congrArg (· + b (ix2 0 q)) ?_
  refine (Cert.Bridge.matmul_zero_plain dot_S2000x128_S128x128_S2000x128_1_0_0_1_n_n rfl rfl rfl rfl rfl rfl none _ _ p q).trans ?_
  refine Finset.sum_congr rfl fun k _ => ?_
  rw [truncf_apply, truncf_apply, mulf_apply, Rank2.bcastCol_apply]

/-- The block's column sums. -/
theorem pay2_at (x : Vec Ideal S2000x128 .f32) (s : Vec Ideal S2000x1 .f32) (w : Vec Ideal S128x128 .f32)
    (b : Vec Ideal S1x128 .f32) (q : Fin 128) :
    k5_pay2 (F := Ideal) x s w b (ix3 0 0 q) = ∑ r : Fin 2000, k5_pay1 (F := Ideal) x s w b (ix2 r q) := by
  unfold k5_pay2
  refine (Rank3.castAddFirst_apply _ _ 0 0 q).trans ?_
  refine (castRow_apply _ _ 0 q).trans ?_
  exact sumRows_apply _ _ _ _ q

/-- The block's column sums of squares. -/
theorem pay3_at (x : Vec Ideal S2000x128 .f32) (s : Vec Ideal S2000x1 .f32) (w : Vec Ideal S128x128 .f32)
    (b : Vec Ideal S1x128 .f32) (q : Fin 128) :
    k5_pay3 (F := Ideal) x s w b (ix3 0 0 q)
      = ∑ r : Fin 2000, k5_pay1 (F := Ideal) x s w b (ix2 r q) * k5_pay1 (F := Ideal) x s w b (ix2 r q) := by
  unfold k5_pay3
  refine (Rank3.castAddFirst_apply _ _ 0 0 q).trans ?_
  refine (castRow_apply _ _ 0 q).trans ?_
  refine (sumRows_apply _ _ _ _ q).trans ?_
  rfl

/-! ## One block as rows of the whole arrays -/

/-- The affine map of the row-scaled features, from whole arrays: row i of X times Sc i, times W, plus the bias B. -/
abbrev hnOf (X : S100000x128.Idx → EReal) (Sc : S100000x1.Idx → EReal) (W : S128x128.Idx → EReal)
    (B : S1x128.Idx → EReal) : Gcn.Mat 100000 128 :=
  Gcn.affine (Gcn.scaleRows (Gcn.toMat X) (Gcn.colOf Sc)) (Gcn.toMat W) (Gcn.rowOf B)

/-- A [50, 1, 128] array from its entries (t, 0, q). -/
def ofTiles (g : Fin 50 → Fin 128 → EReal) : S50x1x128.Idx → EReal :=
  fun i => g ⟨(i 0).val, (i 0).isLt⟩ ⟨(i 2).val, (i 2).isLt⟩

/-- When x and s are rows 2000 t … 2000 t + 1999 of X and Sc, and w, b are W, B, the block's result at (p, q) is the
    affine map at row 2000 t + p. -/
theorem block_hn (X : S100000x128.Idx → EReal) (Sc : S100000x1.Idx → EReal) (W : S128x128.Idx → EReal)
    (B : S1x128.Idx → EReal) (t : Fin 50) (x : Vec Ideal S2000x128 .f32) (s : Vec Ideal S2000x1 .f32)
    (w : Vec Ideal S128x128 .f32) (b : Vec Ideal S1x128 .f32)
    (hx : ∀ (p : Fin 2000) (k : Fin 128), x (ix2 p k) = X (ix2 (⟨2000 * t.val + p.val, by omega⟩ : Fin 100000) k))
    (hs : ∀ p : Fin 2000, s (ix2 p 0) = Sc (ix2 (⟨2000 * t.val + p.val, by omega⟩ : Fin 100000) 0))
    (hw : ∀ (k q : Fin 128), w (ix2 k q) = W (ix2 k q)) (hb : ∀ q : Fin 128, b (ix2 0 q) = B (ix2 0 q))
    (p : Fin 2000) (q : Fin 128) :
    k5_pay1 (F := Ideal) x s w b (ix2 p q) = hnOf X Sc W B ⟨2000 * t.val + p.val, by omega⟩ q := by
  rw [pay1_at, hb]
  refine congrArg (· + B (ix2 0 q)) (Finset.sum_congr rfl fun k _ => ?_)
  rw [hx, hs, hw]
  rfl

/-! ## The region: what each grid point writes back -/

section Region

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The affine map of the region's input arrays. -/
abbrev HN (c : Dev nD) : Gcn.Mat 100000 128 :=
  hnOf (V c main_v93) (V c main_v12) (V c main_v95) (V c main_v98)

/-- The block indices over the grid: the row-blocked windows sit at block (t, 0), the whole-array windows at (0, 0), the
    per-tile outputs at (t, 0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 3) = t.val ∧ win5_5.index t (1 : Fin 3) = 0 ∧ win5_5.index t (2 : Fin 3) = 0
    ∧ win5_6.index t (0 : Fin 3) = t.val ∧ win5_6.index t (1 : Fin 3) = 0 ∧ win5_6.index t (2 : Fin 3) = 0 :=
  (by decide +kernel : ∀ t : Fin grid5.N, _)

/-- The feature block at point t is rows 2000 t … of the feature array. -/
theorem blk0_at (c : Dev nD) (t : Fin cfg5.N) (ht : t.val < 50) (p : Fin 2000) (k : Fin 128) :
    (iblk5 (F := Ideal) V c 0 t : Vec Ideal S2000x128 .f32) (ix2 p k)
      = (V c main_v93 : S100000x128.Idx → EReal) (ix2 (⟨2000 * t.val + p.val, by omega⟩ : Fin 100000) k) := by
  obtain ⟨e0, e1, -⟩ := idx_facts t
  unfold iblk5
  rw [View.read_apply]
  show V c main_v93 _ = V c main_v93 _
  refine congrArg (V c main_v93 : S100000x128.Idx → EReal) (funext fun a => Fin.ext ?_)
  match a with
  | ⟨0, _⟩ => show win5_0.index t (0 : Fin 2) * 2000 + 1 * p.val = 2000 * t.val + p.val; rw [e0]; omega
  | ⟨1, _⟩ => show win5_0.index t (1 : Fin 2) * 128 + 1 * k.val = k.val; rw [e1]; omega

/-- The scale block at point t is rows 2000 t … of the scale column. -/
theorem blk1_at (c : Dev nD) (t : Fin cfg5.N) (ht : t.val < 50) (p : Fin 2000) :
    (iblk5 (F := Ideal) V c 1 t : Vec Ideal S2000x1 .f32) (ix2 p 0)
      = (V c main_v12 : S100000x1.Idx → EReal) (ix2 (⟨2000 * t.val + p.val, by omega⟩ : Fin 100000) 0) := by
  obtain ⟨-, -, e0, e1, -⟩ := idx_facts t
  unfold iblk5
  rw [View.read_apply]
  show V c main_v12 _ = V c main_v12 _
  refine congrArg (V c main_v12 : S100000x1.Idx → EReal) (funext fun a => Fin.ext ?_)
  match a with
  | ⟨0, _⟩ => show win5_1.index t (0 : Fin 2) * 2000 + 1 * p.val = 2000 * t.val + p.val; rw [e0]; omega
  | ⟨1, _⟩ => show win5_1.index t (1 : Fin 2) * 1 + 1 * 0 = 0; rw [e1]

/-- The weight block at every point is the weight array. -/
theorem blk2_at (c : Dev nD) (t : Fin cfg5.N) (k q : Fin 128) :
    (iblk5 (F := Ideal) V c 2 t : Vec Ideal S128x128 .f32) (ix2 k q) = (V c main_v95 : S128x128.Idx → EReal) (ix2 k q) := by
  obtain ⟨-, -, -, -, e0, e1, -⟩ := idx_facts t
  unfold iblk5
  rw [View.read_apply]
  show V c main_v95 _ = V c main_v95 _
  refine congrArg (V c main_v95 : S128x128.Idx → EReal) (funext fun a => Fin.ext ?_)
  match a with
  | ⟨0, _⟩ => show win5_2.index t (0 : Fin 2) * 128 + 1 * k.val = k.val; rw [e0]; omega
  | ⟨1, _⟩ => show win5_2.index t (1 : Fin 2) * 128 + 1 * q.val = q.val; rw [e1]; omega

/-- The bias block at every point is the bias row. -/
theorem blk3_at (c : Dev nD) (t : Fin cfg5.N) (q : Fin 128) :
    (iblk5 (F := Ideal) V c 3 t : Vec Ideal S1x128 .f32) (ix2 0 q) = (V c main_v98 : S1x128.Idx → EReal) (ix2 0 q) := by
  obtain ⟨-, -, -, -, -, -, e0, e1, -⟩ := idx_facts t
  unfold iblk5
  rw [View.read_apply]
  show V c main_v98 _ = V c main_v98 _
  refine congrArg (V c main_v98 : S1x128.Idx → EReal) (funext fun a => Fin.ext ?_)
  match a with
  | ⟨0, _⟩ => show win5_3.index t (0 : Fin 2) * 1 + 1 * 0 = 0; rw [e0]
  | ⟨1, _⟩ => show win5_3.index t (1 : Fin 2) * 128 + 1 * q.val = q.val; rw [e1]; omega

/-- The body's result at point t, entry (p, q), is the affine map at row 2000 t + p. -/
theorem body_hn (c : Dev nD) (t : Fin cfg5.N) (ht : t.val < 50) (p : Fin 2000) (q : Fin 128) :
    k5_pay1 (F := Ideal) (iblk5 V c 0 t) (iblk5 V c 1 t) (iblk5 V c 2 t) (iblk5 V c 3 t) (ix2 p q)
      = HN V c ⟨2000 * t.val + p.val, by omega⟩ q :=
  block_hn (V c main_v93) (V c main_v12) (V c main_v95) (V c main_v98) ⟨t.val, ht⟩
    (iblk5 V c 0 t) (iblk5 V c 1 t) (iblk5 V c 2 t) (iblk5 V c 3 t)
    (fun p k => blk0_at V c t ht p k) (fun p => blk1_at V c t ht p) (fun k q => blk2_at V c t k q)
    (fun q => blk3_at V c t q) p q

/-- Point t writes back block t of the affine map. -/
theorem flushed_hn (c : Dev nD) (t : Fin cfg5.N) :
    (dat5 (F := Ideal) V c).flushed 4 t = ((cfg5.win 4).blk t).view.read (Elt Ideal) (Gcn.ofMat (HN V c)) := by
  have ht : t.val < 50 := lt_of_lt_of_eq t.isLt N_5
  show (cfg5.win 4).cut (grid5.coords t) ((dat5 V c).after 4 t) = _
  rw [after5_4]
  unfold out5_4
  rw [View.canon_unit_zero zeros2]
  simp only [View.ld_unit_zero (S := S2000x128) zeros2, View.ld_unit_zero (S := S2000x1) zeros2,
    View.ld_unit_zero (S := S128x128) zeros2, View.ld_unit_zero (S := S1x128) zeros2]
  obtain ⟨-, -, -, -, -, -, -, -, e0, e1, -⟩ := idx_facts t
  funext j
  obtain ⟨p, q, rfl⟩ : ∃ (p : Fin 2000) (q : Fin 128), j = ix2 p q := ⟨j 0, j 1, eq_ix2 j⟩
  show k5_pay1 (F := Ideal) (iblk5 V c 0 t) (iblk5 V c 1 t) (iblk5 V c 2 t) (iblk5 V c 3 t) (ix2 p q)
    = Gcn.ofMat (HN V c) (((cfg5.win 4).blk t).view.emb (ix2 p q))
  refine (body_hn V c t ht p q).trans ?_
  unfold Gcn.ofMat
  refine congrArg₂ (HN V c) (Fin.ext ?_) (Fin.ext ?_)
  · show 2000 * t.val + p.val = win5_4.index t (0 : Fin 2) * 2000 + 1 * p.val; rw [e0]; omega
  · show q.val = win5_4.index t (1 : Fin 2) * 128 + 1 * q.val; rw [e1]; omega

/-- An index of the [100000, 128] output is in point t's block iff each coordinate is in the block's range. -/
theorem mem_blk_hn (t : Fin cfg5.N) (i : S100000x128.Idx) :
    i ∈ ((cfg5.win 4).blk t).view.set ↔ ∀ a : Fin 2, win5_4.index t a * S2000x128.size a ≤ (i a).val
      ∧ (i a).val < win5_4.index t a * S2000x128.size a + S2000x128.size a := by
  show i ∈ ((View.whole main_v99_0).slice (win5_4.rect t)).set ↔ _
  rw [View.set_slice_whole, Rect.mem_set_unit]
  exact Iff.rfl

/-- Row r is in the block of point r / 2000. -/
theorem cover_hn (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  have hN : cfg5.N = 50 := N_5
  have hlt : (i 0).val / 2000 < cfg5.N := by rw [hN]; omega
  obtain ⟨-, -, -, -, -, -, -, -, e0, e1, -⟩ := idx_facts ⟨(i 0).val / 2000, hlt⟩
  have e0' : win5_4.index ⟨(i 0).val / 2000, hlt⟩ (0 : Fin 2) = (i 0).val / 2000 := e0
  refine ⟨⟨(i 0).val / 2000, hlt⟩, flush5_4 _, ?_⟩
  rw [mem_blk_hn]
  intro a
  match a with
  | ⟨0, _⟩ =>
    show win5_4.index ⟨(i 0).val / 2000, hlt⟩ (0 : Fin 2) * 2000 ≤ (i 0).val
      ∧ (i 0).val < win5_4.index ⟨(i 0).val / 2000, hlt⟩ (0 : Fin 2) * 2000 + 2000
    rw [e0']; omega
  | ⟨1, _⟩ =>
    show win5_4.index ⟨(i 0).val / 2000, hlt⟩ (1 : Fin 2) * 128 ≤ (i 1).val
      ∧ (i 1).val < win5_4.index ⟨(i 0).val / 2000, hlt⟩ (1 : Fin 2) * 128 + 128
    rw [e1]; omega

/-- After the region the [100000, 128] output holds the affine map of the row-scaled input. -/
theorem lin_hn (c : Dev nD) (p : Fin 100000) (q : Fin 128) :
    (dat5 (F := Ideal) V c).arrAt 4 cfg5.N (ix2 p q)
      = Gcn.affine (Gcn.scaleRows (Gcn.toMat (V c main_v93)) (Gcn.colOf (V c main_v12))) (Gcn.toMat (V c main_v95))
          (Gcn.rowOf (V c main_v98)) p q :=
  congrFun ((dat5 V c).arrAt_eq_of_cover 4 (Gcn.ofMat (HN V c)) (fun t _ => flushed_hn V c t) cover_hn) (ix2 p q)

/-- The column sums and the column sums of squares of the affine map over tile t (rows 2000 t … 2000 t + 1999). -/
abbrev tileSums (c : Dev nD) : Fin 50 → Fin 128 → EReal :=
  fun t q => ∑ r : Fin 2000, HN V c ⟨2000 * t.val + r.val, by omega⟩ q
abbrev tileSquares (c : Dev nD) : Fin 50 → Fin 128 → EReal :=
  fun t q => ∑ r : Fin 2000, HN V c ⟨2000 * t.val + r.val, by omega⟩ q * HN V c ⟨2000 * t.val + r.val, by omega⟩ q

/-- Point t writes back tile t's column sums. -/
theorem flushed_sum (c : Dev nD) (t : Fin cfg5.N) :
    (dat5 (F := Ideal) V c).flushed 5 t = ((cfg5.win 5).blk t).view.read (Elt Ideal) (ofTiles (tileSums V c)) := by
  have ht : t.val < 50 := lt_of_lt_of_eq t.isLt N_5
  show (cfg5.win 5).cut (grid5.coords t) ((dat5 V c).after 5 t) = _
  rw [after5_5]
  unfold out5_5
  rw [View.canon_unit_zero zeros3]
  simp only [View.ld_unit_zero (S := S2000x128) zeros2, View.ld_unit_zero (S := S2000x1) zeros2,
    View.ld_unit_zero (S := S128x128) zeros2, View.ld_unit_zero (S := S1x128) zeros2]
  obtain ⟨-, -, -, -, -, -, -, -, -, -, e0, -, e2, -⟩ := idx_facts t
  funext j
  obtain ⟨z0, z1, q, rfl⟩ : ∃ (z0 z1 : Fin 1) (q : Fin 128), j = ix3 z0 z1 q := ⟨j 0, j 1, j 2, eq_ix3 j⟩
  obtain rfl : z0 = 0 := Subsingleton.elim _ _
  obtain rfl : z1 = 0 := Subsingleton.elim _ _
  show k5_pay2 (F := Ideal) (iblk5 V c 0 t) (iblk5 V c 1 t) (iblk5 V c 2 t) (iblk5 V c 3 t) (ix3 0 0 q)
    = ofTiles (tileSums V c) (((cfg5.win 5).blk t).view.emb (ix3 0 0 q))
  refine (pay2_at (iblk5 V c 0 t) (iblk5 V c 1 t) (iblk5 V c 2 t) (iblk5 V c 3 t) q).trans ?_
  refine (Finset.sum_congr rfl fun r _ => body_hn V c t ht r q).trans ?_
  unfold ofTiles
  refine congrArg₂ (tileSums V c) (x := ⟨t.val, ht⟩) (Fin.ext ?_) (Fin.ext ?_)
  · show t.val = win5_5.index t (0 : Fin 3) * 1 + 1 * 0; rw [e0]; omega
  · show q.val = win5_5.index t (2 : Fin 3) * 128 + 1 * q.val; rw [e2]; omega

/-- Point t writes back tile t's column sums of squares. -/
theorem flushed_sumsq (c : Dev nD) (t : Fin cfg5.N) :
    (dat5 (F := Ideal) V c).flushed 6 t = ((cfg5.win 6).blk t).view.read (Elt Ideal) (ofTiles (tileSquares V c)) := by
  have ht : t.val < 50 := lt_of_lt_of_eq t.isLt N_5
  show (cfg5.win 6).cut (grid5.coords t) ((dat5 V c).after 6 t) = _
  rw [after5_6]
  unfold out5_6
  rw [View.canon_unit_zero zeros3]
  simp only [View.ld_unit_zero (S := S2000x128) zeros2, View.ld_unit_zero (S := S2000x1) zeros2,
    View.ld_unit_zero (S := S128x128) zeros2, View.ld_unit_zero (S := S1x128) zeros2]
  obtain ⟨-, -, -, -, -, -, -, -, -, -, -, -, -, e0, -, e2⟩ := idx_facts t
  funext j
  obtain ⟨z0, z1, q, rfl⟩ : ∃ (z0 z1 : Fin 1) (q : Fin 128), j = ix3 z0 z1 q := ⟨j 0, j 1, j 2, eq_ix3 j⟩
  obtain rfl : z0 = 0 := Subsingleton.elim _ _
  obtain rfl : z1 = 0 := Subsingleton.elim _ _
  show k5_pay3 (F := Ideal) (iblk5 V c 0 t) (iblk5 V c 1 t) (iblk5 V c 2 t) (iblk5 V c 3 t) (ix3 0 0 q)
    = ofTiles (tileSquares V c) (((cfg5.win 6).blk t).view.emb (ix3 0 0 q))
  refine (pay3_at (iblk5 V c 0 t) (iblk5 V c 1 t) (iblk5 V c 2 t) (iblk5 V c 3 t) q).trans ?_
  refine (Finset.sum_congr rfl fun r _ => by rw [body_hn V c t ht r q]).trans ?_
  unfold ofTiles
  refine congrArg₂ (tileSquares V c) (x := ⟨t.val, ht⟩) (Fin.ext ?_) (Fin.ext ?_)
  · show t.val = win5_6.index t (0 : Fin 3) * 1 + 1 * 0; rw [e0]; omega
  · show q.val = win5_6.index t (2 : Fin 3) * 128 + 1 * q.val; rw [e2]; omega

/-- An index of a [50, 1, 128] output is in point t's block iff each coordinate is in the block's range. -/
theorem mem_blk_sum (t : Fin cfg5.N) (i : S50x1x128.Idx) :
    i ∈ ((cfg5.win 5).blk t).view.set ↔ ∀ a : Fin 3, win5_5.index t a * S1x1x128.size a ≤ (i a).val
      ∧ (i a).val < win5_5.index t a * S1x1x128.size a + S1x1x128.size a := by
  show i ∈ ((View.whole main_v99_1).slice (win5_5.rect t)).set ↔ _
  rw [View.set_slice_whole, Rect.mem_set_unit]
  exact Iff.rfl

theorem mem_blk_sumsq (t : Fin cfg5.N) (i : S50x1x128.Idx) :
    i ∈ ((cfg5.win 6).blk t).view.set ↔ ∀ a : Fin 3, win5_6.index t a * S1x1x128.size a ≤ (i a).val
      ∧ (i a).val < win5_6.index t a * S1x1x128.size a + S1x1x128.size a := by
  show i ∈ ((View.whole main_v99_2).slice (win5_6.rect t)).set ↔ _
  rw [View.set_slice_whole, Rect.mem_set_unit]
  exact Iff.rfl

/-- Entry (t, 0, q) is in the block of point t. -/
theorem cover_sum (i : S50x1x128.Idx) :
    ∃ t : Fin cfg5.N, (cfg5.win 5).flush t = true ∧ i ∈ ((cfg5.win 5).blk t).view.set := by
  have hi0 : (i 0).val < 50 := (i 0).isLt
  have hi1 : (i 1).val < 1 := (i 1).isLt
  have hi2 : (i 2).val < 128 := (i 2).isLt
  have hN : cfg5.N = 50 := N_5
  have hlt : (i 0).val < cfg5.N := by rw [hN]; exact hi0
  obtain ⟨-, -, -, -, -, -, -, -, -, -, e0, e1, e2, -⟩ := idx_facts ⟨(i 0).val, hlt⟩
  have e0' : win5_5.index ⟨(i 0).val, hlt⟩ (0 : Fin 3) = (i 0).val := e0
  refine ⟨⟨(i 0).val, hlt⟩, flush5_5 _, ?_⟩
  rw [mem_blk_sum]
  intro a
  match a with
  | ⟨0, _⟩ =>
    show win5_5.index ⟨(i 0).val, hlt⟩ (0 : Fin 3) * 1 ≤ (i 0).val
      ∧ (i 0).val < win5_5.index ⟨(i 0).val, hlt⟩ (0 : Fin 3) * 1 + 1
    rw [e0']; omega
  | ⟨1, _⟩ =>
    show win5_5.index ⟨(i 0).val, hlt⟩ (1 : Fin 3) * 1 ≤ (i 1).val
      ∧ (i 1).val < win5_5.index ⟨(i 0).val, hlt⟩ (1 : Fin 3) * 1 + 1
    rw [e1]; omega
  | ⟨2, _⟩ =>
    show win5_5.index ⟨(i 0).val, hlt⟩ (2 : Fin 3) * 128 ≤ (i 2).val
      ∧ (i 2).val < win5_5.index ⟨(i 0).val, hlt⟩ (2 : Fin 3) * 128 + 128
    rw [e2]; omega

theorem cover_sumsq (i : S50x1x128.Idx) :
    ∃ t : Fin cfg5.N, (cfg5.win 6).flush t = true ∧ i ∈ ((cfg5.win 6).blk t).view.set := by
  have hi0 : (i 0).val < 50 := (i 0).isLt
  have hi1 : (i 1).val < 1 := (i 1).isLt
  have hi2 : (i 2).val < 128 := (i 2).isLt
  have hN : cfg5.N = 50 := N_5
  have hlt : (i 0).val < cfg5.N := by rw [hN]; exact hi0
  obtain ⟨-, -, -, -, -, -, -, -, -, -, -, -, -, e0, e1, e2⟩ := idx_facts ⟨(i 0).val, hlt⟩
  have e0' : win5_6.index ⟨(i 0).val, hlt⟩ (0 : Fin 3) = (i 0).val := e0
  refine ⟨⟨(i 0).val, hlt⟩, flush5_6 _, ?_⟩
  rw [mem_blk_sumsq]
  intro a
  match a with
  | ⟨0, _⟩ =>
    show win5_6.index ⟨(i 0).val, hlt⟩ (0 : Fin 3) * 1 ≤ (i 0).val
      ∧ (i 0).val < win5_6.index ⟨(i 0).val, hlt⟩ (0 : Fin 3) * 1 + 1
    rw [e0']; omega
  | ⟨1, _⟩ =>
    show win5_6.index ⟨(i 0).val, hlt⟩ (1 : Fin 3) * 1 ≤ (i 1).val
      ∧ (i 1).val < win5_6.index ⟨(i 0).val, hlt⟩ (1 : Fin 3) * 1 + 1
    rw [e1]; omega
  | ⟨2, _⟩ =>
    show win5_6.index ⟨(i 0).val, hlt⟩ (2 : Fin 3) * 128 ≤ (i 2).val
      ∧ (i 2).val < win5_6.index ⟨(i 0).val, hlt⟩ (2 : Fin 3) * 128 + 128
    rw [e2]; omega

/-- After the region the first [50, 1, 128] output holds each tile's column sums of the affine map. -/
theorem lin_sum (c : Dev nD) (t : Fin 50) (q : Fin 128) :
    (dat5 (F := Ideal) V c).arrAt 5 cfg5.N (ix3 t 0 q)
      = ∑ r : Fin 2000, Gcn.affine (Gcn.scaleRows (Gcn.toMat (V c main_v93)) (Gcn.colOf (V c main_v12)))
          (Gcn.toMat (V c main_v95)) (Gcn.rowOf (V c main_v98)) ⟨2000 * t.val + r.val, by omega⟩ q :=
  congrFun ((dat5 V c).arrAt_eq_of_cover 5 (ofTiles (tileSums V c)) (fun t _ => flushed_sum V c t) cover_sum) (ix3 t 0 q)

/-- After the region the second [50, 1, 128] output holds each tile's column sums of squares of the affine map. -/
theorem lin_sumsq (c : Dev nD) (t : Fin 50) (q : Fin 128) :
    (dat5 (F := Ideal) V c).arrAt 6 cfg5.N (ix3 t 0 q)
      = ∑ r : Fin 2000, Gcn.affine (Gcn.scaleRows (Gcn.toMat (V c main_v93)) (Gcn.colOf (V c main_v12)))
            (Gcn.toMat (V c main_v95)) (Gcn.rowOf (V c main_v98)) ⟨2000 * t.val + r.val, by omega⟩ q
          * Gcn.affine (Gcn.scaleRows (Gcn.toMat (V c main_v93)) (Gcn.colOf (V c main_v12)))
            (Gcn.toMat (V c main_v95)) (Gcn.rowOf (V c main_v98)) ⟨2000 * t.val + r.val, by omega⟩ q :=
  congrFun ((dat5 V c).arrAt_eq_of_cover 6 (ofTiles (tileSquares V c)) (fun t _ => flushed_sumsq V c t) cover_sumsq) (ix3 t 0 q)

end Region

end Cert.KernelIdeal.LinRegion5

end
-- ==== Proof.NormRegion6.lean ====
import proofs.«138442_j46162308497633_2_alg».proof.Proof.Gen.KernelIdeal.Frame
import proofs.«138442_j46162308497633_2_alg».proof.Proof.GcnSpec
import proofs.«138442_j46162308497633_2_alg».proof.Proof.LibRank2Layout
import Idealize.ShloMosaic.Lib.Pipeline.Value
import Idealize.ShloMosaic.PureOps.Ideal.Laws

/-!
  The normalisation region of the third layer, read entry by entry.

  The region walks the 100000 node rows in 50 blocks of 2000. On each block it takes the pre-normalised features `hn`,
  the layer's input `x`, the column statistics `μ`, `σ²` and the affine pair `γ`, `β` (one row of 128 each), and the
  out-degree normaliser `s` (one column), and writes two arrays: the new features
  `x + max 0 ((hn − μ)·rsqrt(σ² + ε)·γ + β)` and those features with row `p` scaled by `s p`.
  Every block is rows `2000·t … 2000·t + 1999` of its array and the statistics are the same row at every block, so
  the two output arrays are, entry by entry, `Gcn.bnRes` of the input arrays and its row scaling.
-/

set_option maxRecDepth 16384

noncomputable section

namespace Cert.KernelIdeal.NormRegion6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The block's arithmetic at an entry -/

/-- The reciprocal square root of a vector, entry by entry. -/
theorem rsqrt_apply {s : Shape} {φ : FTy} (a : FVec Ideal s φ) (i : s.Idx) : rsqrt a i = Ideal.rsqrt (a i) := rfl

/-- The new features of a block at row `p`, column `q`: the input plus the rectified normalised value. -/
theorem block_x (hn : Vec Ideal S2000x128 .f32) (mu var g bt : Vec Ideal S1x128 .f32) (x : Vec Ideal S2000x128 .f32)
    (p : Fin 2000) (q : Fin 128) :
    k6_pay1 (F := Ideal) hn mu var g bt x (ix2 p q) =
      x (ix2 p q) + max ((hn (ix2 p q) - mu (ix2 0 q)) * Ideal.rsqrt (var (ix2 0 q) + Gcn.eps) * g (ix2 0 q) + bt (ix2 0 q)) 0 := by
  unfold k6_pay1
  simp only [shapeCast_self]
  simp only [addf_apply, maximumf_apply, mulf_apply, subf_apply, broadcast_apply, Rank2.bcastRow_apply, rsqrt_apply,
    Ideal.ofBits_def, Ideal.ofBits_zero_f32, Gcn.eps]

/-- The scaled features of a block at row `p`, column `q`: the new features times the row's scale. -/
theorem block_hs (hn : Vec Ideal S2000x128 .f32) (mu var g bt : Vec Ideal S1x128 .f32) (x : Vec Ideal S2000x128 .f32)
    (s : Vec Ideal S2000x1 .f32) (p : Fin 2000) (q : Fin 128) :
    k6_pay2 (F := Ideal) hn mu var g bt x s (ix2 p q) = k6_pay1 (F := Ideal) hn mu var g bt x (ix2 p q) * s (ix2 p 0) := by
  unfold k6_pay2
  simp only [shapeCast_self]
  simp only [truncf_apply, mulf_apply, Rank2.bcastCol_apply]

/-! ## Where each block sits in its array -/

theorem zero_offsets : (![0, 0] : Fin 2 → Nat) = fun _ => 0 := funext fun a => by fin_cases a <;> rfl

/-- At grid point `t` the row-blocked arrays are at block `(t, 0)` and the statistics rows at block `(0, 0)`. -/
theorem block_index : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = t.val ∧ win6_6.index t (1 : Fin 2) = 0)
    ∧ (win6_7.index t (0 : Fin 2) = t.val ∧ win6_7.index t (1 : Fin 2) = 0)
    ∧ (win6_8.index t (0 : Fin 2) = t.val ∧ win6_8.index t (1 : Fin 2) = 0) :=
  (by decide +kernel : ∀ t : Fin grid6.N, _)

/-- Block `t` of `hn` at (p, q) is the array at row `2000·t + p`. -/
theorem hn_block (c : Dev nD) (t : Fin cfg6.N) (p : Fin 2000) (q : Fin 128) (k : Fin 100000)
    (hk : k.val = 2000 * t.val + p.val) :
    (iblk6 V c 0 t : Vec Ideal S2000x128 .f32) (ix2 p q) = (V c main_v99_0 : S100000x128.Idx → EReal) (ix2 k q) := by
  obtain ⟨⟨e0, e1⟩, -⟩ := block_index t
  unfold iblk6
  rw [View.read_apply]
  show V c main_v99_0 _ = V c main_v99_0 _
  refine congrArg (V c main_v99_0) ?_
  funext a
  apply Fin.ext
  match a with
  | ⟨0, _⟩ => show win6_0.index t (0 : Fin 2) * 2000 + 1 * p.val = k.val; rw [e0, hk]; omega
  | ⟨1, _⟩ => show win6_0.index t (1 : Fin 2) * 128 + 1 * q.val = q.val; rw [e1]; omega

/-- Block `t` of `x` at (p, q) is the array at row `2000·t + p`. -/
theorem x_block (c : Dev nD) (t : Fin cfg6.N) (p : Fin 2000) (q : Fin 128) (k : Fin 100000)
    (hk : k.val = 2000 * t.val + p.val) :
    (iblk6 V c 1 t : Vec Ideal S2000x128 .f32) (ix2 p q) = (V c main_v82_0 : S100000x128.Idx → EReal) (ix2 k q) := by
  obtain ⟨-, ⟨e0, e1⟩, -⟩ := block_index t
  unfold iblk6
  rw [View.read_apply]
  show V c main_v82_0 _ = V c main_v82_0 _
  refine congrArg (V c main_v82_0) ?_
  funext a
  apply Fin.ext
  match a with
  | ⟨0, _⟩ => show win6_1.index t (0 : Fin 2) * 2000 + 1 * p.val = k.val; rw [e0, hk]; omega
  | ⟨1, _⟩ => show win6_1.index t (1 : Fin 2) * 128 + 1 * q.val = q.val; rw [e1]; omega

/-- The block of `μ` at every point is the whole row. -/
theorem mu_block (c : Dev nD) (t : Fin cfg6.N) (q : Fin 128) :
    (iblk6 V c 2 t : Vec Ideal S1x128 .f32) (ix2 0 q) = (V c main_v103 : S1x128.Idx → EReal) (ix2 0 q) := by
  obtain ⟨-, -, ⟨e0, e1⟩, -⟩ := block_index t
  unfold iblk6
  rw [View.read_apply]
  show V c main_v103 _ = V c main_v103 _
  refine congrArg (V c main_v103) ?_
  funext a
  apply Fin.ext
  match a with
  | ⟨0, _⟩ => show win6_2.index t (0 : Fin 2) * 1 + 1 * 0 = 0; rw [e0]
  | ⟨1, _⟩ => show win6_2.index t (1 : Fin 2) * 128 + 1 * q.val = q.val; rw [e1]; omega

/-- The block of `σ²` at every point is the whole row. -/
theorem var_block (c : Dev nD) (t : Fin cfg6.N) (q : Fin 128) :
    (iblk6 V c 3 t : Vec Ideal S1x128 .f32) (ix2 0 q) = (V c main_v109 : S1x128.Idx → EReal) (ix2 0 q) := by
  obtain ⟨-, -, -, ⟨e0, e1⟩, -⟩ := block_index t
  unfold iblk6
  rw [View.read_apply]
  show V c main_v109 _ = V c main_v109 _
  refine congrArg (V c main_v109) ?_
  funext a
  apply Fin.ext
  match a with
  | ⟨0, _⟩ => show win6_3.index t (0 : Fin 2) * 1 + 1 * 0 = 0; rw [e0]
  | ⟨1, _⟩ => show win6_3.index t (1 : Fin 2) * 128 + 1 * q.val = q.val; rw [e1]; omega

/-- The block of `γ` at every point is the whole row. -/
theorem gamma_block (c : Dev nD) (t : Fin cfg6.N) (q : Fin 128) :
    (iblk6 V c 4 t : Vec Ideal S1x128 .f32) (ix2 0 q) = (V c main_v112 : S1x128.Idx → EReal) (ix2 0 q) := by
  obtain ⟨-, -, -, -, ⟨e0, e1⟩, -⟩ := block_index t
  unfold iblk6
  rw [View.read_apply]
  show V c main_v112 _ = V c main_v112 _
  refine congrArg (V c main_v112) ?_
  funext a
  apply Fin.ext
  match a with
  | ⟨0, _⟩ => show win6_4.index t (0 : Fin 2) * 1 + 1 * 0 = 0; rw [e0]
  | ⟨1, _⟩ => show win6_4.index t (1 : Fin 2) * 128 + 1 * q.val = q.val; rw [e1]; omega

/-- The block of `β` at every point is the whole row. -/
theorem beta_block (c : Dev nD) (t : Fin cfg6.N) (q : Fin 128) :
    (iblk6 V c 5 t : Vec Ideal S1x128 .f32) (ix2 0 q) = (V c main_v115 : S1x128.Idx → EReal) (ix2 0 q) := by
  obtain ⟨-, -, -, -, -, ⟨e0, e1⟩, -⟩ := block_index t
  unfold iblk6
  rw [View.read_apply]
  show V c main_v115 _ = V c main_v115 _
  refine congrArg (V c main_v115) ?_
  funext a
  apply Fin.ext
  match a with
  | ⟨0, _⟩ => show win6_5.index t (0 : Fin 2) * 1 + 1 * 0 = 0; rw [e0]
  | ⟨1, _⟩ => show win6_5.index t (1 : Fin 2) * 128 + 1 * q.val = q.val; rw [e1]; omega

/-- Block `t` of the row scales at (p, 0) is the column at row `2000·t + p`. -/
theorem scale_block (c : Dev nD) (t : Fin cfg6.N) (p : Fin 2000) (k : Fin 100000)
    (hk : k.val = 2000 * t.val + p.val) :
    (iblk6 V c 6 t : Vec Ideal S2000x1 .f32) (ix2 p 0) = (V c main_v10 : S100000x1.Idx → EReal) (ix2 k 0) := by
  obtain ⟨-, -, -, -, -, -, ⟨e0, e1⟩, -⟩ := block_index t
  unfold iblk6
  rw [View.read_apply]
  show V c main_v10 _ = V c main_v10 _
  refine congrArg (V c main_v10) ?_
  funext a
  apply Fin.ext
  match a with
  | ⟨0, _⟩ => show win6_6.index t (0 : Fin 2) * 2000 + 1 * p.val = k.val; rw [e0, hk]; omega
  | ⟨1, _⟩ => show win6_6.index t (1 : Fin 2) * 1 + 1 * 0 = 0; rw [e1]

/-! ## The two output arrays -/

/-- The new features as a matrix of the region's input arrays. -/
abbrev XN (c : Dev nD) : Gcn.Mat 100000 128 :=
  Gcn.bnRes (Gcn.toMat (a := 100000) (b := 128) (V c main_v82_0)) (Gcn.toMat (a := 100000) (b := 128) (V c main_v99_0))
    (Gcn.rowOf (b := 128) (V c main_v103)) (Gcn.rowOf (b := 128) (V c main_v109)) (Gcn.rowOf (b := 128) (V c main_v112))
    (Gcn.rowOf (b := 128) (V c main_v115))

/-- The scaled new features. -/
abbrev HS (c : Dev nD) : Gcn.Mat 100000 128 := Gcn.scaleRows (XN V c) (Gcn.colOf (a := 100000) (V c main_v10))

/-- Row `p` of output block `t` is row `2000·t + p` of the array. -/
theorem out_x_row (t : Fin cfg6.N) (p : Fin 2000) (q : Fin 128) (k : Fin 100000) (hk : k.val = 2000 * t.val + p.val) :
    ((cfg6.win 7).blk t).view.emb (ix2 p q : S2000x128.Idx) = (ix2 k q : S100000x128.Idx) := by
  obtain ⟨-, -, -, -, -, -, -, ⟨e0, e1⟩, -⟩ := block_index t
  funext a
  apply Fin.ext
  match a with
  | ⟨0, _⟩ => show win6_7.index t (0 : Fin 2) * 2000 + 1 * p.val = k.val; rw [e0, hk]; omega
  | ⟨1, _⟩ => show win6_7.index t (1 : Fin 2) * 128 + 1 * q.val = q.val; rw [e1]; omega

theorem out_hs_row (t : Fin cfg6.N) (p : Fin 2000) (q : Fin 128) (k : Fin 100000) (hk : k.val = 2000 * t.val + p.val) :
    ((cfg6.win 8).blk t).view.emb (ix2 p q : S2000x128.Idx) = (ix2 k q : S100000x128.Idx) := by
  obtain ⟨-, -, -, -, -, -, -, -, ⟨e0, e1⟩⟩ := block_index t
  funext a
  apply Fin.ext
  match a with
  | ⟨0, _⟩ => show win6_8.index t (0 : Fin 2) * 2000 + 1 * p.val = k.val; rw [e0, hk]; omega
  | ⟨1, _⟩ => show win6_8.index t (1 : Fin 2) * 128 + 1 * q.val = q.val; rw [e1]; omega

/-- The body's new features at (p, q) of block `t` are `XN` at row `2000·t + p`. -/
theorem body_x (c : Dev nD) (t : Fin cfg6.N) (p : Fin 2000) (q : Fin 128) (k : Fin 100000)
    (hk : k.val = 2000 * t.val + p.val) :
    k6_pay1 (F := Ideal) (iblk6 V c 0 t) (iblk6 V c 2 t) (iblk6 V c 3 t) (iblk6 V c 4 t) (iblk6 V c 5 t) (iblk6 V c 1 t) (ix2 p q)
      = XN V c k q := by
  refine (block_x (iblk6 V c 0 t) (iblk6 V c 2 t) (iblk6 V c 3 t) (iblk6 V c 4 t) (iblk6 V c 5 t) (iblk6 V c 1 t) p q).trans ?_
  rw [hn_block V c t p q k hk, x_block V c t p q k hk, mu_block V c t q, var_block V c t q, gamma_block V c t q,
    beta_block V c t q]
  rfl

/-- What point `t` writes back to the new-features array is block `t` of `XN`. -/
theorem flushed_x (c : Dev nD) (t : Fin cfg6.N) :
    (dat6 (F := Ideal) V c).flushed 7 t = ((cfg6.win 7).blk t).view.read (Elt Ideal) (Gcn.ofMat (XN V c)) := by
  have hN : cfg6.N = 50 := N_6
  show (cfg6.win 7).cut (grid6.coords t) ((dat6 (F := Ideal) V c).after 7 t) = _
  rw [after6_7]
  unfold out6_7
  rw [View.canon_unit_zero zero_offsets]
  simp only [View.ld_unit_zero (S := S2000x128) zero_offsets, View.ld_unit_zero (S := S1x128) zero_offsets]
  funext j
  obtain ⟨p, q, rfl⟩ : ∃ (p : Fin 2000) (q : Fin 128), j = ix2 p q := ⟨j 0, j 1, eq_ix2 j⟩
  have ht : t.val < 50 := hN ▸ t.isLt
  have hk : (⟨2000 * t.val + p.val, by omega⟩ : Fin 100000).val = 2000 * t.val + p.val := rfl
  show k6_pay1 (F := Ideal) (iblk6 V c 0 t) (iblk6 V c 2 t) (iblk6 V c 3 t) (iblk6 V c 4 t) (iblk6 V c 5 t) (iblk6 V c 1 t) (ix2 p q)
    = Gcn.ofMat (XN V c) (((cfg6.win 7).blk t).view.emb (ix2 p q : S2000x128.Idx))
  rw [out_x_row t p q _ hk]
  exact body_x V c t p q _ hk

/-- What point `t` writes back to the scaled array is block `t` of `HS`. -/
theorem flushed_hs (c : Dev nD) (t : Fin cfg6.N) :
    (dat6 (F := Ideal) V c).flushed 8 t = ((cfg6.win 8).blk t).view.read (Elt Ideal) (Gcn.ofMat (HS V c)) := by
  have hN : cfg6.N = 50 := N_6
  show (cfg6.win 8).cut (grid6.coords t) ((dat6 (F := Ideal) V c).after 8 t) = _
  rw [after6_8]
  unfold out6_8
  rw [View.canon_unit_zero zero_offsets]
  simp only [View.ld_unit_zero (S := S2000x128) zero_offsets, View.ld_unit_zero (S := S1x128) zero_offsets,
    View.ld_unit_zero (S := S2000x1) zero_offsets]
  funext j
  obtain ⟨p, q, rfl⟩ : ∃ (p : Fin 2000) (q : Fin 128), j = ix2 p q := ⟨j 0, j 1, eq_ix2 j⟩
  have ht : t.val < 50 := hN ▸ t.isLt
  have hk : (⟨2000 * t.val + p.val, by omega⟩ : Fin 100000).val = 2000 * t.val + p.val := rfl
  show k6_pay2 (F := Ideal) (iblk6 V c 0 t) (iblk6 V c 2 t) (iblk6 V c 3 t) (iblk6 V c 4 t) (iblk6 V c 5 t) (iblk6 V c 1 t)
      (iblk6 V c 6 t) (ix2 p q)
    = Gcn.ofMat (HS V c) (((cfg6.win 8).blk t).view.emb (ix2 p q : S2000x128.Idx))
  rw [out_hs_row t p q _ hk]
  refine (block_hs (iblk6 V c 0 t) (iblk6 V c 2 t) (iblk6 V c 3 t) (iblk6 V c 4 t) (iblk6 V c 5 t) (iblk6 V c 1 t)
    (iblk6 V c 6 t) p q).trans ?_
  rw [body_x V c t p q _ hk, scale_block V c t p _ hk]
  rfl

/-- An index of a [100000, 128] output array is in point `t`'s block iff each coordinate is in the block's range. -/
theorem mem_block_x (t : Fin cfg6.N) (i : S100000x128.Idx) :
    i ∈ ((cfg6.win 7).blk t).view.set ↔ ∀ a : Fin 2, win6_7.index t a * S2000x128.size a ≤ (i a).val
      ∧ (i a).val < win6_7.index t a * S2000x128.size a + S2000x128.size a := by
  show i ∈ ((View.whole main_v116_0).slice (win6_7.rect t)).set ↔ _
  rw [View.set_slice_whole, Rect.mem_set_unit]
  exact Iff.rfl

theorem mem_block_hs (t : Fin cfg6.N) (i : S100000x128.Idx) :
    i ∈ ((cfg6.win 8).blk t).view.set ↔ ∀ a : Fin 2, win6_8.index t a * S2000x128.size a ≤ (i a).val
      ∧ (i a).val < win6_8.index t a * S2000x128.size a + S2000x128.size a := by
  show i ∈ ((View.whole main_v116_1).slice (win6_8.rect t)).set ↔ _
  rw [View.set_slice_whole, Rect.mem_set_unit]
  exact Iff.rfl

/-- Row `r` is in the block of point `r / 2000`. -/
theorem cover_x (i : S100000x128.Idx) : ∃ t : Fin cfg6.N, (cfg6.win 7).flush t = true ∧ i ∈ ((cfg6.win 7).blk t).view.set := by
  have hN : cfg6.N = 50 := N_6
  have h0 : (i 0).val < 100000 := (i 0).isLt
  have h1 : (i 1).val < 128 := (i 1).isLt
  refine ⟨⟨(i 0).val / 2000, by rw [hN]; omega⟩, flush6_7 _, ?_⟩
  obtain ⟨-, -, -, -, -, -, -, ⟨e0, e1⟩, -⟩ := block_index ⟨(i 0).val / 2000, by rw [hN]; omega⟩
  rw [mem_block_x]
  intro a
  match a with
  | ⟨0, _⟩ =>
    show win6_7.index _ (0 : Fin 2) * 2000 ≤ (i 0).val ∧ (i 0).val < win6_7.index _ (0 : Fin 2) * 2000 + 2000
    rw [e0]; show (i 0).val / 2000 * 2000 ≤ (i 0).val ∧ (i 0).val < (i 0).val / 2000 * 2000 + 2000; omega
  | ⟨1, _⟩ =>
    show win6_7.index _ (1 : Fin 2) * 128 ≤ (i 1).val ∧ (i 1).val < win6_7.index _ (1 : Fin 2) * 128 + 128
    rw [e1]; omega

theorem cover_hs (i : S100000x128.Idx) : ∃ t : Fin cfg6.N, (cfg6.win 8).flush t = true ∧ i ∈ ((cfg6.win 8).blk t).view.set := by
  have hN : cfg6.N = 50 := N_6
  have h0 : (i 0).val < 100000 := (i 0).isLt
  have h1 : (i 1).val < 128 := (i 1).isLt
  refine ⟨⟨(i 0).val / 2000, by rw [hN]; omega⟩, flush6_8 _, ?_⟩
  obtain ⟨-, -, -, -, -, -, -, -, ⟨e0, e1⟩⟩ := block_index ⟨(i 0).val / 2000, by rw [hN]; omega⟩
  rw [mem_block_hs]
  intro a
  match a with
  | ⟨0, _⟩ =>
    show win6_8.index _ (0 : Fin 2) * 2000 ≤ (i 0).val ∧ (i 0).val < win6_8.index _ (0 : Fin 2) * 2000 + 2000
    rw [e0]; show (i 0).val / 2000 * 2000 ≤ (i 0).val ∧ (i 0).val < (i 0).val / 2000 * 2000 + 2000; omega
  | ⟨1, _⟩ =>
    show win6_8.index _ (1 : Fin 2) * 128 ≤ (i 1).val ∧ (i 1).val < win6_8.index _ (1 : Fin 2) * 128 + 128
    rw [e1]; omega

/-- After the region the new-features array is `XN`. -/
theorem norm_x_array (c : Dev nD) : (dat6 (F := Ideal) V c).arrAt 7 cfg6.N = Gcn.ofMat (XN V c) :=
  (dat6 (F := Ideal) V c).arrAt_eq_of_cover 7 (Gcn.ofMat (XN V c)) (fun t _ => flushed_x V c t) cover_x

/-- After the region the scaled array is `HS`. -/
theorem norm_hs_array (c : Dev nD) : (dat6 (F := Ideal) V c).arrAt 8 cfg6.N = Gcn.ofMat (HS V c) :=
  (dat6 (F := Ideal) V c).arrAt_eq_of_cover 8 (Gcn.ofMat (HS V c)) (fun t _ => flushed_hs V c t) cover_hs

/-- The new features after the region, entry by entry. -/
theorem norm_x (c : Dev nD) (p : Fin 100000) (q : Fin 128) :
    (dat6 (F := Ideal) V c).arrAt 7 cfg6.N (ix2 p q) = XN V c p q :=
  congrFun (norm_x_array V c) (ix2 p q)

/-- The scaled features after the region, entry by entry. -/
theorem norm_hs (c : Dev nD) (p : Fin 100000) (q : Fin 128) :
    (dat6 (F := Ideal) V c).arrAt 8 cfg6.N (ix2 p q) = Gcn.scaleRows (XN V c) (Gcn.colOf (a := 100000) (V c main_v10)) p q :=
  congrFun (norm_hs_array V c) (ix2 p q)

end Cert.KernelIdeal.NormRegion6

end
-- ==== Proof.KLayer2.lean ====
/-
  One graph-convolution layer of the kernel program, from the features and their out-degree-scaled copy at the layer's
  entry to the new features and their scaled copy at its exit: the host operations before the affine-map region give its
  four input arrays (the edge aggregation of the scaled features, the in-degree normaliser, the layer's weight matrix and
  bias row), the region leaves the pre-normalisation matrix and its tile sums, the host operations after it give the column
  mean and variance and the layer's scale and shift rows, and the normalisation region leaves the layer's result.
-/
import proofs.«138442_j46162308497633_2_alg».proof.Proof.KChainBase
import proofs.«138442_j46162308497633_2_alg».proof.Proof.KStats
import proofs.«138442_j46162308497633_2_alg».proof.Proof.LinRegion5
import proofs.«138442_j46162308497633_2_alg».proof.Proof.NormRegion6
import proofs.«138442_j46162308497633_2_alg».proof.Proof.LibRank2Layout

set_option maxRecDepth 16384
set_option maxHeartbeats 200000

noncomputable section

namespace Cert.KernelIdeal.Chain

open Idealize.ShloMosaic Idealize.ShloMosaic.TcCoe Idealize.ShloMosaic.Tactic Idealize.ShloMosaic.StableHlo Idealize.ShloMosaic.ValueIdx
open Idealize.SL Idealize.SL.Sem
open Cert.KernelIdeal Cert.KernelIdeal.Gen
open scoped BigOperators

variable (m : (ℓ : Loc nD τ sig) → Buf (Elt Ideal) ℓ) (ρ : Dev nD → PrngReg) (c : Dev nD)

namespace Layer2

/-! ## Reading a layer's slice of the stacked parameters -/

/-- Layer l's [128, 128] weight matrix out of the stacked [4, 128, 128] array: the slice at l with its unit axis dropped. -/
theorem layerMat_at_L2 (x : FVec Ideal S4x128x128 .f32) (l : Fin 4) (h : S4x128x128.Slices ![l.val, 0, 0] S1x128x128)
    (h' : S1x128x128.ShapeCasts S128x128) (k q : Fin 128) :
    shapeCast S128x128 (extractStridedSlice S1x128x128 ![l.val, 0, 0] x h) h' (ix2 k q) = x (ix3 l k q) := by
  refine (shapeCast_apply _ h' (ix2 k q) (ix3 (0 : Fin 1) k q) ?_).trans ?_
  · rw [Shape.rowMajor_val_three, Shape.rowMajor_val_two]
    show (0 * 128 + k.val) * 128 + q.val = k.val * 128 + q.val
    omega
  · exact extractStridedSlice_apply ![l.val, 0, 0] x h (ix3 (0 : Fin 1) k q) (ix3 l k q) (fun d => match d with
      | ⟨0, _⟩ => by show l.val = l.val + 0; omega
      | ⟨1, _⟩ => by show k.val = 0 + k.val; omega
      | ⟨2, _⟩ => by show q.val = 0 + q.val; omega)

/-- Layer l's row out of a stacked [4, 128] array: the slice at l, flattened and viewed as one row again. -/
theorem layerRow_at_L2 (x : FVec Ideal S4x128 .f32) (l : Fin 4) (h : S4x128.Slices ![l.val, 0] S1x128)
    (h1 : S1x128.ShapeCasts S128) (h2 : S128.ShapeCasts S1x128) (q : Fin 128) :
    shapeCast S1x128 (fun i => shapeCast S128 (extractStridedSlice S1x128 ![l.val, 0] x h) h1 i) h2 (ix2 0 q)
      = x (ix2 l q) := by
  refine (LinRegion5.castRow_apply _ h2 0 q).trans ?_
  show shapeCast S128 (extractStridedSlice S1x128 ![l.val, 0] x h) h1 (ix1 q) = _
  refine (shapeCast_apply _ h1 (ix1 q) (ix2 (0 : Fin 1) q) ?_).trans ?_
  · rw [Shape.rowMajor_val_two, Shape.rowMajor_val_one]
    show 0 * 128 + q.val = q.val
    omega
  · exact Rank2.sliceRow_apply x h 0 q

/-! ## What the affine-map region finds in its input arrays -/

theorem in_agg : W15 m ρ c (Proc.devRef .tc main_v93)
    = Terms.aggArr (W14 m ρ c (Proc.devRef .tc main_v82_1)) (a14 m c) (a15 m c) := by walk_back; rfl

theorem in_scale : W15 m ρ c (Proc.devRef .tc main_v12) = Terms.invDeg (a15 m c) := by walk_back; rfl

theorem in_weight (k q : Fin 128) : W15 m ρ c (Proc.devRef .tc main_v95) (ix2 k q) = Terms.wL (a4 m c) 2 k q := by
  walk_back
  exact layerMat_at_L2 (a4 m c) 2 _ _ k q

theorem in_bias (q : Fin 128) : W15 m ρ c (Proc.devRef .tc main_v98) (ix2 0 q) = Terms.rowL (a5 m c) 2 q := by
  walk_back
  exact layerRow_at_L2 (a5 m c) 2 _ _ _ q

section Layer

variable (X : Gcn.Mat 100000 128)

/-- What the layer normalises: the affine map of the aggregated, degree-scaled features. -/
abbrev preL2 : Gcn.Mat 100000 128 :=
  Gcn.preNorm (Terms.agg (a14 m c) (a15 m c)) (Terms.sOut (a14 m c)) (Terms.sIn (a15 m c)) (Terms.wL (a4 m c) 2)
    (Terms.rowL (a5 m c) 2) X

theorem in_agg_mat (hhs : ∀ p q, W14 m ρ c (Proc.devRef .tc main_v82_1) (ix2 p q) = Gcn.scaleRows X (Terms.sOut (a14 m c)) p q) :
    Gcn.toMat (a := 100000) (b := 128) (W15 m ρ c (Proc.devRef .tc main_v93))
      = Terms.agg (a14 m c) (a15 m c) (Gcn.scaleRows X (Terms.sOut (a14 m c))) := by
  have e : W14 m ρ c (Proc.devRef .tc main_v82_1) = Gcn.ofMat (Gcn.scaleRows X (Terms.sOut (a14 m c))) := by
    funext i
    obtain ⟨p, q, rfl⟩ : ∃ (p : Fin 100000) (q : Fin 128), i = ix2 p q := ⟨i 0, i 1, eq_ix2 i⟩
    exact hhs p q
  rw [in_agg, e]
  unfold Terms.agg
  rfl

theorem in_scale_col : Gcn.colOf (a := 100000) (W15 m ρ c (Proc.devRef .tc main_v12)) = Terms.sIn (a15 m c) := by
  rw [in_scale]
  rfl

theorem in_weight_mat : Gcn.toMat (a := 128) (b := 128) (W15 m ρ c (Proc.devRef .tc main_v95)) = Terms.wL (a4 m c) 2 :=
  funext fun k => funext fun q => in_weight m ρ c k q

theorem in_bias_row : Gcn.rowOf (b := 128) (W15 m ρ c (Proc.devRef .tc main_v98)) = Terms.rowL (a5 m c) 2 :=
  funext fun q => in_bias m ρ c q

/-- The affine-map region's function of its input arrays is the layer's pre-normalisation matrix. -/
theorem lin_is_pre (hhs : ∀ p q, W14 m ρ c (Proc.devRef .tc main_v82_1) (ix2 p q) = Gcn.scaleRows X (Terms.sOut (a14 m c)) p q) :
    Gcn.affine (Gcn.scaleRows (Gcn.toMat (V15 m ρ c main_v93)) (Gcn.colOf (V15 m ρ c main_v12))) (Gcn.toMat (V15 m ρ c main_v95))
      (Gcn.rowOf (V15 m ρ c main_v98)) = preL2 m c X := by
  show Gcn.affine (Gcn.scaleRows (Gcn.toMat (a := 100000) (b := 128) (W15 m ρ c (Proc.devRef .tc main_v93)))
      (Gcn.colOf (a := 100000) (W15 m ρ c (Proc.devRef .tc main_v12))))
    (Gcn.toMat (a := 128) (b := 128) (W15 m ρ c (Proc.devRef .tc main_v95)))
    (Gcn.rowOf (b := 128) (W15 m ρ c (Proc.devRef .tc main_v98))) = _
  rw [in_agg_mat m ρ c X hhs, in_scale_col, in_weight_mat, in_bias_row]
  rfl

/-! ## What the affine-map region leaves -/

theorem out_hn (hhs : ∀ p q, W14 m ρ c (Proc.devRef .tc main_v82_1) (ix2 p q) = Gcn.scaleRows X (Terms.sOut (a14 m c)) p q)
    (p : Fin 100000) (q : Fin 128) : W16 m ρ c (Proc.devRef .tc main_v99_0) (ix2 p q) = preL2 m c X p q :=
  ((congrFun (W16_arr m ρ c 4) (ix2 p q)).trans (LinRegion5.lin_hn (V15 m ρ) c p q)).trans
    (congrFun (congrFun (lin_is_pre m ρ c X hhs) p) q)

theorem out_sum (hhs : ∀ p q, W14 m ρ c (Proc.devRef .tc main_v82_1) (ix2 p q) = Gcn.scaleRows X (Terms.sOut (a14 m c)) p q)
    (t : Fin 50) (q : Fin 128) :
    W16 m ρ c (Proc.devRef .tc main_v99_1) (ix3 t 0 q) = ∑ r : Fin 2000, preL2 m c X ⟨2000 * t.val + r.val, by omega⟩ q :=
  ((congrFun (W16_arr m ρ c 5) (ix3 t 0 q)).trans (LinRegion5.lin_sum (V15 m ρ) c t q)).trans
    (by rw [lin_is_pre m ρ c X hhs])

theorem out_sumsq (hhs : ∀ p q, W14 m ρ c (Proc.devRef .tc main_v82_1) (ix2 p q) = Gcn.scaleRows X (Terms.sOut (a14 m c)) p q)
    (t : Fin 50) (q : Fin 128) :
    W16 m ρ c (Proc.devRef .tc main_v99_2) (ix3 t 0 q)
      = ∑ r : Fin 2000, preL2 m c X ⟨2000 * t.val + r.val, by omega⟩ q * preL2 m c X ⟨2000 * t.val + r.val, by omega⟩ q :=
  ((congrFun (W16_arr m ρ c 6) (ix3 t 0 q)).trans (LinRegion5.lin_sumsq (V15 m ρ) c t q)).trans
    (by rw [lin_is_pre m ρ c X hhs])

/-! ## What the normalisation region finds in its input arrays -/

theorem in_mean : W17 m ρ c (Proc.devRef .tc main_v103) = Terms.meanArr (W16 m ρ c (Proc.devRef .tc main_v99_1)) := by
  walk_back; rfl

theorem in_var : W17 m ρ c (Proc.devRef .tc main_v109)
    = Terms.varArr (W16 m ρ c (Proc.devRef .tc main_v99_1)) (W16 m ρ c (Proc.devRef .tc main_v99_2)) := by
  walk_back; rfl

theorem in_gamma (q : Fin 128) : W17 m ρ c (Proc.devRef .tc main_v112) (ix2 0 q) = Terms.rowL (a6 m c) 2 q := by
  walk_back
  exact layerRow_at_L2 (a6 m c) 2 _ _ _ q

theorem in_beta (q : Fin 128) : W17 m ρ c (Proc.devRef .tc main_v115) (ix2 0 q) = Terms.rowL (a7 m c) 2 q := by
  walk_back
  exact layerRow_at_L2 (a7 m c) 2 _ _ _ q

theorem in_hn : W17 m ρ c (Proc.devRef .tc main_v99_0) = W16 m ρ c (Proc.devRef .tc main_v99_0) := by walk_back

theorem in_x : W17 m ρ c (Proc.devRef .tc main_v82_0) = W14 m ρ c (Proc.devRef .tc main_v82_0) := by walk_back

theorem in_out_scale : W17 m ρ c (Proc.devRef .tc main_v10) = Terms.invDeg (a14 m c) := by walk_back; rfl

theorem in_x_mat (hx : ∀ p q, W14 m ρ c (Proc.devRef .tc main_v82_0) (ix2 p q) = X p q) :
    Gcn.toMat (a := 100000) (b := 128) (W17 m ρ c (Proc.devRef .tc main_v82_0)) = X := by
  rw [in_x]
  exact funext fun p => funext fun q => hx p q

theorem in_hn_mat (hhs : ∀ p q, W14 m ρ c (Proc.devRef .tc main_v82_1) (ix2 p q) = Gcn.scaleRows X (Terms.sOut (a14 m c)) p q) :
    Gcn.toMat (a := 100000) (b := 128) (W17 m ρ c (Proc.devRef .tc main_v99_0)) = preL2 m c X := by
  rw [in_hn]
  exact funext fun p => funext fun q => out_hn m ρ c X hhs p q

theorem in_mean_row (hhs : ∀ p q, W14 m ρ c (Proc.devRef .tc main_v82_1) (ix2 p q) = Gcn.scaleRows X (Terms.sOut (a14 m c)) p q) :
    Gcn.rowOf (b := 128) (W17 m ρ c (Proc.devRef .tc main_v103)) = Gcn.meanOf (Gcn.tileSum (preL2 m c X)) := by
  rw [in_mean]
  exact funext fun q => Terms.meanArr_tiles (preL2 m c X) _ (fun t q => out_sum m ρ c X hhs t q) q

theorem in_var_row (hhs : ∀ p q, W14 m ρ c (Proc.devRef .tc main_v82_1) (ix2 p q) = Gcn.scaleRows X (Terms.sOut (a14 m c)) p q) :
    Gcn.rowOf (b := 128) (W17 m ρ c (Proc.devRef .tc main_v109)) = Gcn.varTiled (preL2 m c X) := by
  rw [in_var]
  exact funext fun q => Terms.varArr_tiles (preL2 m c X) _ _ (fun t q => out_sum m ρ c X hhs t q)
    (fun t q => out_sumsq m ρ c X hhs t q) q

theorem in_gamma_row : Gcn.rowOf (b := 128) (W17 m ρ c (Proc.devRef .tc main_v112)) = Terms.rowL (a6 m c) 2 :=
  funext fun q => in_gamma m ρ c q

theorem in_beta_row : Gcn.rowOf (b := 128) (W17 m ρ c (Proc.devRef .tc main_v115)) = Terms.rowL (a7 m c) 2 :=
  funext fun q => in_beta m ρ c q

theorem in_out_scale_col : Gcn.colOf (a := 100000) (W17 m ρ c (Proc.devRef .tc main_v10)) = Terms.sOut (a14 m c) := by
  rw [in_out_scale]
  rfl

/-- The normalisation region's function of its input arrays is the layer. -/
theorem norm_is_layer (hx : ∀ p q, W14 m ρ c (Proc.devRef .tc main_v82_0) (ix2 p q) = X p q)
    (hhs : ∀ p q, W14 m ρ c (Proc.devRef .tc main_v82_1) (ix2 p q) = Gcn.scaleRows X (Terms.sOut (a14 m c)) p q) :
    NormRegion6.XN (V17 m ρ) c
      = Gcn.layerTiled (Terms.agg (a14 m c) (a15 m c)) (Terms.sOut (a14 m c)) (Terms.sIn (a15 m c)) (Terms.wL (a4 m c) 2)
          (Terms.rowL (a5 m c) 2) (Terms.rowL (a6 m c) 2) (Terms.rowL (a7 m c) 2) X := by
  show Gcn.bnRes (Gcn.toMat (a := 100000) (b := 128) (W17 m ρ c (Proc.devRef .tc main_v82_0)))
      (Gcn.toMat (a := 100000) (b := 128) (W17 m ρ c (Proc.devRef .tc main_v99_0)))
      (Gcn.rowOf (b := 128) (W17 m ρ c (Proc.devRef .tc main_v103))) (Gcn.rowOf (b := 128) (W17 m ρ c (Proc.devRef .tc main_v109)))
      (Gcn.rowOf (b := 128) (W17 m ρ c (Proc.devRef .tc main_v112))) (Gcn.rowOf (b := 128) (W17 m ρ c (Proc.devRef .tc main_v115))) = _
  rw [in_x_mat m ρ c X hx, in_hn_mat m ρ c X hhs, in_mean_row m ρ c X hhs, in_var_row m ρ c X hhs, in_gamma_row, in_beta_row]
  rfl

end Layer

end Layer2

/-- One layer of the kernel program: from the features and their out-degree-scaled copy at the layer's entry to the new
    features and their scaled copy at its exit. -/
theorem layer2 (X : Gcn.Mat 100000 128)
    (hx : ∀ p q, W14 m ρ c (Proc.devRef .tc main_v82_0) (ix2 p q) = X p q)
    (hhs : ∀ p q, W14 m ρ c (Proc.devRef .tc main_v82_1) (ix2 p q) = Gcn.scaleRows X (Terms.sOut (a14 m c)) p q) :
    (∀ p q, W18 m ρ c (Proc.devRef .tc main_v116_0) (ix2 p q)
        = Gcn.layerTiled (Terms.agg (a14 m c) (a15 m c)) (Terms.sOut (a14 m c)) (Terms.sIn (a15 m c)) (Terms.wL (a4 m c) 2)
            (Terms.rowL (a5 m c) 2) (Terms.rowL (a6 m c) 2) (Terms.rowL (a7 m c) 2) X p q)
    ∧ (∀ p q, W18 m ρ c (Proc.devRef .tc main_v116_1) (ix2 p q)
        = Gcn.scaleRows (Gcn.layerTiled (Terms.agg (a14 m c) (a15 m c)) (Terms.sOut (a14 m c)) (Terms.sIn (a15 m c))
            (Terms.wL (a4 m c) 2) (Terms.rowL (a5 m c) 2) (Terms.rowL (a6 m c) 2) (Terms.rowL (a7 m c) 2) X)
            (Terms.sOut (a14 m c)) p q) := by
  refine ⟨fun p q => ?_, fun p q => ?_⟩
  · exact ((congrFun (W18_arr m ρ c 7) (ix2 p q)).trans (NormRegion6.norm_x (V17 m ρ) c p q)).trans
      (congrFun (congrFun (Layer2.norm_is_layer m ρ c X hx hhs) p) q)
  · refine ((congrFun (W18_arr m ρ c 8) (ix2 p q)).trans (NormRegion6.norm_hs (V17 m ρ) c p q)).trans ?_
    show Gcn.scaleRows (NormRegion6.XN (V17 m ρ) c) (Gcn.colOf (a := 100000) (W17 m ρ c (Proc.devRef .tc main_v10))) p q = _
    rw [Layer2.norm_is_layer m ρ c X hx hhs, Layer2.in_out_scale_col]

end Cert.KernelIdeal.Chain

end
-- ==== Proof.LinRegion7.lean ====
/-
  The linear region of the fourth layer, read entry by entry.

  Each of its 50 grid points takes 2000 rows of the aggregated features, scales row p by entry p of the in-degree
  normaliser, multiplies by the layer's 128 × 128 weight matrix and adds the bias row; it writes that 2000 × 128 block
  to the first output, and the block's column sums and column sums of squares to row t of two [50, 1, 128] outputs.
  The blocks of the row-blocked arrays at point t are rows 2000 t … 2000 t + 1999, the weights and the bias are read
  whole at every point, and the output blocks tile their arrays. So over the whole arrays the first output is the affine
  map of the row-scaled features, and the other two hold, tile by tile, its column sums and column sums of squares.
-/
import proofs.«138442_j46162308497633_2_alg».proof.Proof.Gen.KernelIdeal.Frame
import proofs.«138442_j46162308497633_2_alg».proof.Proof.GcnSpec
import proofs.«138442_j46162308497633_2_alg».proof.Proof.LibPlainDot
import proofs.«138442_j46162308497633_2_alg».proof.Proof.LibRank2Layout
import proofs.«138442_j46162308497633_2_alg».proof.Proof.LibRank3Layout
import Idealize.ShloMosaic.Lib.Pipeline.Value

set_option maxRecDepth 16384

noncomputable section

namespace Cert.KernelIdeal.LinRegion7

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-! ## One block: the body's three results at an index -/

/-- A vector viewed as a one-row matrix: entry (0, q) of the view is entry q. -/
theorem castRow_apply {α : Type} {n : Nat} (v : (⟨1, ![n]⟩ : Shape).Idx → α)
    (h : (⟨1, ![n]⟩ : Shape).ShapeCasts ⟨2, ![1, n]⟩) (z : Fin 1) (q : Fin n) :
    shapeCast (⟨2, ![1, n]⟩ : Shape) v h (ix2 z q) = v (ix1 q) := by
  refine shapeCast_apply v h (ix2 z q) (ix1 q) ?_
  rw [Shape.rowMajor_val_one, Shape.rowMajor_val_two]
  show q.val = z.val * n + q.val
  have hz : z.val = 0 := by have := z.isLt; omega
  rw [hz, Nat.zero_mul, Nat.zero_add]

/-- The sum of a [2000, 128] block down its rows, started from the zero word: entry q is the sum over r of the entries (r, q). -/
theorem sumRows_apply (v : FVec Ideal S2000x128 .f32) (h : S2000x128.Reduces [(0 : Fin 2)] S128) (hφ : FKind.Formats .f32)
    (hacc : (0x00000000#32 : BitVec 32) = FKind.add.neutral .f32 hφ) (q : Fin 128) :
    multiReduction (F := Ideal) .add [(0 : Fin 2)] S128 v 0x00000000#32 h hφ hacc (ix1 q) = ∑ r : Fin 2000, v (ix2 r q) := by
  refine (Ideal.multiReduction_add_single v 0x00000000#32 h hφ hacc (ix1 q)).trans ?_
  show ∑ r : Fin 2000, v (h.lift (ix1 q) r) = ∑ r : Fin 2000, v (ix2 r q)
  refine Finset.sum_congr rfl fun r _ => congrArg v (funext fun d => Fin.ext ?_)
  match d with
  | ⟨0, _⟩ => rfl
  | ⟨1, _⟩ => rfl

/-- One block of the affine map: row p of x scaled by s p, times w, plus the bias. -/
theorem pay1_at (x : Vec Ideal S2000x128 .f32) (s : Vec Ideal S2000x1 .f32) (w : Vec Ideal S128x128 .f32)
    (b : Vec Ideal S1x128 .f32) (p : Fin 2000) (q : Fin 128) :
    k7_pay1 (F := Ideal) x s w b (ix2 p q)
      = (∑ k : Fin 128, (x (ix2 p k) * s (ix2 p 0)) * w (ix2 k q)) + b (ix2 0 q) := by
  unfold k7_pay1
  simp only [shapeCast_self]
  rw [addf_apply, Rank2.bcastRow_apply]
  refine congrArg (· + b (ix2 0 q)) ?_
  refine (Cert.Bridge.matmul_zero_plain dot_S2000x128_S128x128_S2000x128_1_0_0_1_n_n rfl rfl rfl rfl rfl rfl none _ _ p q).trans ?_
  refine Finset.sum_congr rfl fun k _ => ?_
  rw [truncf_apply, truncf_apply, mulf_apply, Rank2.bcastCol_apply]

/-- The block's column sums. -/
theorem pay2_at (x : Vec Ideal S2000x128 .f32) (s : Vec Ideal S2000x1 .f32) (w : Vec Ideal S128x128 .f32)
    (b : Vec Ideal S1x128 .f32) (q : Fin 128) :
    k7_pay2 (F := Ideal) x s w b (ix3 0 0 q) = ∑ r : Fin 2000, k7_pay1 (F := Ideal) x s w b (ix2 r q) := by
  unfold k7_pay2
  refine (Rank3.castAddFirst_apply _ _ 0 0 q).trans ?_
  refine (castRow_apply _ _ 0 q).trans ?_
  exact sumRows_apply _ _ _ _ q

/-- The block's column sums of squares. -/
theorem pay3_at (x : Vec Ideal S2000x128 .f32) (s : Vec Ideal S2000x1 .f32) (w : Vec Ideal S128x128 .f32)
    (b : Vec Ideal S1x128 .f32) (q : Fin 128) :
    k7_pay3 (F := Ideal) x s w b (ix3 0 0 q)
      = ∑ r : Fin 2000, k7_pay1 (F := Ideal) x s w b (ix2 r q) * k7_pay1 (F := Ideal) x s w b (ix2 r q) := by
  unfold k7_pay3
  refine (Rank3.castAddFirst_apply _ _ 0 0 q).trans ?_
  refine (castRow_apply _ _ 0 q).trans ?_
  refine (sumRows_apply _ _ _ _ q).trans ?_
  rfl

/-! ## One block as rows of the whole arrays -/

/-- The affine map of the row-scaled features, from whole arrays: row i of X times Sc i, times W, plus the bias B. -/
abbrev hnOf (X : S100000x128.Idx → EReal) (Sc : S100000x1.Idx → EReal) (W : S128x128.Idx → EReal)
    (B : S1x128.Idx → EReal) : Gcn.Mat 100000 128 :=
  Gcn.affine (Gcn.scaleRows (Gcn.toMat X) (Gcn.colOf Sc)) (Gcn.toMat W) (Gcn.rowOf B)

/-- A [50, 1, 128] array from its entries (t, 0, q). -/
def ofTiles (g : Fin 50 → Fin 128 → EReal) : S50x1x128.Idx → EReal :=
  fun i => g ⟨(i 0).val, (i 0).isLt⟩ ⟨(i 2).val, (i 2).isLt⟩

/-- When x and s are rows 2000 t … 2000 t + 1999 of X and Sc, and w, b are W, B, the block's result at (p, q) is the
    affine map at row 2000 t + p. -/
theorem block_hn (X : S100000x128.Idx → EReal) (Sc : S100000x1.Idx → EReal) (W : S128x128.Idx → EReal)
    (B : S1x128.Idx → EReal) (t : Fin 50) (x : Vec Ideal S2000x128 .f32) (s : Vec Ideal S2000x1 .f32)
    (w : Vec Ideal S128x128 .f32) (b : Vec Ideal S1x128 .f32)
    (hx : ∀ (p : Fin 2000) (k : Fin 128), x (ix2 p k) = X (ix2 (⟨2000 * t.val + p.val, by omega⟩ : Fin 100000) k))
    (hs : ∀ p : Fin 2000, s (ix2 p 0) = Sc (ix2 (⟨2000 * t.val + p.val, by omega⟩ : Fin 100000) 0))
    (hw : ∀ (k q : Fin 128), w (ix2 k q) = W (ix2 k q)) (hb : ∀ q : Fin 128, b (ix2 0 q) = B (ix2 0 q))
    (p : Fin 2000) (q : Fin 128) :
    k7_pay1 (F := Ideal) x s w b (ix2 p q) = hnOf X Sc W B ⟨2000 * t.val + p.val, by omega⟩ q := by
  rw [pay1_at, hb]
  refine congrArg (· + B (ix2 0 q)) (Finset.sum_congr rfl fun k _ => ?_)
  rw [hx, hs, hw]
  rfl

/-! ## The region: what each grid point writes back -/

section Region

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The affine map of the region's input arrays. -/
abbrev HN (c : Dev nD) : Gcn.Mat 100000 128 :=
  hnOf (V c main_v127) (V c main_v12) (V c main_v129) (V c main_v132)

/-- The block indices over the grid: the row-blocked windows sit at block (t, 0), the whole-array windows at (0, 0), the
    per-tile outputs at (t, 0, 0). -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 3) = t.val ∧ win7_5.index t (1 : Fin 3) = 0 ∧ win7_5.index t (2 : Fin 3) = 0
    ∧ win7_6.index t (0 : Fin 3) = t.val ∧ win7_6.index t (1 : Fin 3) = 0 ∧ win7_6.index t (2 : Fin 3) = 0 :=
  (by decide +kernel : ∀ t : Fin grid7.N, _)

/-- The feature block at point t is rows 2000 t … of the feature array. -/
theorem blk0_at (c : Dev nD) (t : Fin cfg7.N) (ht : t.val < 50) (p : Fin 2000) (k : Fin 128) :
    (iblk7 (F := Ideal) V c 0 t : Vec Ideal S2000x128 .f32) (ix2 p k)
      = (V c main_v127 : S100000x128.Idx → EReal) (ix2 (⟨2000 * t.val + p.val, by omega⟩ : Fin 100000) k) := by
  obtain ⟨e0, e1, -⟩ := idx_facts t
  unfold iblk7
  rw [View.read_apply]
  show V c main_v127 _ = V c main_v127 _
  refine congrArg (V c main_v127 : S100000x128.Idx → EReal) (funext fun a => Fin.ext ?_)
  match a with
  | ⟨0, _⟩ => show win7_0.index t (0 : Fin 2) * 2000 + 1 * p.val = 2000 * t.val + p.val; rw [e0]; omega
  | ⟨1, _⟩ => show win7_0.index t (1 : Fin 2) * 128 + 1 * k.val = k.val; rw [e1]; omega

/-- The scale block at point t is rows 2000 t … of the scale column. -/
theorem blk1_at (c : Dev nD) (t : Fin cfg7.N) (ht : t.val < 50) (p : Fin 2000) :
    (iblk7 (F := Ideal) V c 1 t : Vec Ideal S2000x1 .f32) (ix2 p 0)
      = (V c main_v12 : S100000x1.Idx → EReal) (ix2 (⟨2000 * t.val + p.val, by omega⟩ : Fin 100000) 0) := by
  obtain ⟨-, -, e0, e1, -⟩ := idx_facts t
  unfold iblk7
  rw [View.read_apply]
  show V c main_v12 _ = V c main_v12 _
  refine congrArg (V c main_v12 : S100000x1.Idx → EReal) (funext fun a => Fin.ext ?_)
  match a with
  | ⟨0, _⟩ => show win7_1.index t (0 : Fin 2) * 2000 + 1 * p.val = 2000 * t.val + p.val; rw [e0]; omega
  | ⟨1, _⟩ => show win7_1.index t (1 : Fin 2) * 1 + 1 * 0 = 0; rw [e1]

/-- The weight block at every point is the weight array. -/
theorem blk2_at (c : Dev nD) (t : Fin cfg7.N) (k q : Fin 128) :
    (iblk7 (F := Ideal) V c 2 t : Vec Ideal S128x128 .f32) (ix2 k q) = (V c main_v129 : S128x128.Idx → EReal) (ix2 k q) := by
  obtain ⟨-, -, -, -, e0, e1, -⟩ := idx_facts t
  unfold iblk7
  rw [View.read_apply]
  show V c main_v129 _ = V c main_v129 _
  refine congrArg (V c main_v129 : S128x128.Idx → EReal) (funext fun a => Fin.ext ?_)
  match a with
  | ⟨0, _⟩ => show win7_2.index t (0 : Fin 2) * 128 + 1 * k.val = k.val; rw [e0]; omega
  | ⟨1, _⟩ => show win7_2.index t (1 : Fin 2) * 128 + 1 * q.val = q.val; rw [e1]; omega

/-- The bias block at every point is the bias row. -/
theorem blk3_at (c : Dev nD) (t : Fin cfg7.N) (q : Fin 128) :
    (iblk7 (F := Ideal) V c 3 t : Vec Ideal S1x128 .f32) (ix2 0 q) = (V c main_v132 : S1x128.Idx → EReal) (ix2 0 q) := by
  obtain ⟨-, -, -, -, -, -, e0, e1, -⟩ := idx_facts t
  unfold iblk7
  rw [View.read_apply]
  show V c main_v132 _ = V c main_v132 _
  refine congrArg (V c main_v132 : S1x128.Idx → EReal) (funext fun a => Fin.ext ?_)
  match a with
  | ⟨0, _⟩ => show win7_3.index t (0 : Fin 2) * 1 + 1 * 0 = 0; rw [e0]
  | ⟨1, _⟩ => show win7_3.index t (1 : Fin 2) * 128 + 1 * q.val = q.val; rw [e1]; omega

/-- The body's result at point t, entry (p, q), is the affine map at row 2000 t + p. -/
theorem body_hn (c : Dev nD) (t : Fin cfg7.N) (ht : t.val < 50) (p : Fin 2000) (q : Fin 128) :
    k7_pay1 (F := Ideal) (iblk7 V c 0 t) (iblk7 V c 1 t) (iblk7 V c 2 t) (iblk7 V c 3 t) (ix2 p q)
      = HN V c ⟨2000 * t.val + p.val, by omega⟩ q :=
  block_hn (V c main_v127) (V c main_v12) (V c main_v129) (V c main_v132) ⟨t.val, ht⟩
    (iblk7 V c 0 t) (iblk7 V c 1 t) (iblk7 V c 2 t) (iblk7 V c 3 t)
    (fun p k => blk0_at V c t ht p k) (fun p => blk1_at V c t ht p) (fun k q => blk2_at V c t k q)
    (fun q => blk3_at V c t q) p q

/-- Point t writes back block t of the affine map. -/
theorem flushed_hn (c : Dev nD) (t : Fin cfg7.N) :
    (dat7 (F := Ideal) V c).flushed 4 t = ((cfg7.win 4).blk t).view.read (Elt Ideal) (Gcn.ofMat (HN V c)) := by
  have ht : t.val < 50 := lt_of_lt_of_eq t.isLt N_7
  show (cfg7.win 4).cut (grid7.coords t) ((dat7 V c).after 4 t) = _
  rw [after7_4]
  unfold out7_4
  rw [View.canon_unit_zero zeros2]
  simp only [View.ld_unit_zero (S := S2000x128) zeros2, View.ld_unit_zero (S := S2000x1) zeros2,
    View.ld_unit_zero (S := S128x128) zeros2, View.ld_unit_zero (S := S1x128) zeros2]
  obtain ⟨-, -, -, -, -, -, -, -, e0, e1, -⟩ := idx_facts t
  funext j
  obtain ⟨p, q, rfl⟩ : ∃ (p : Fin 2000) (q : Fin 128), j = ix2 p q := ⟨j 0, j 1, eq_ix2 j⟩
  show k7_pay1 (F := Ideal) (iblk7 V c 0 t) (iblk7 V c 1 t) (iblk7 V c 2 t) (iblk7 V c 3 t) (ix2 p q)
    = Gcn.ofMat (HN V c) (((cfg7.win 4).blk t).view.emb (ix2 p q))
  refine (body_hn V c t ht p q).trans ?_
  unfold Gcn.ofMat
  refine congrArg₂ (HN V c) (Fin.ext ?_) (Fin.ext ?_)
  · show 2000 * t.val + p.val = win7_4.index t (0 : Fin 2) * 2000 + 1 * p.val; rw [e0]; omega
  · show q.val = win7_4.index t (1 : Fin 2) * 128 + 1 * q.val; rw [e1]; omega

/-- An index of the [100000, 128] output is in point t's block iff each coordinate is in the block's range. -/
theorem mem_blk_hn (t : Fin cfg7.N) (i : S100000x128.Idx) :
    i ∈ ((cfg7.win 4).blk t).view.set ↔ ∀ a : Fin 2, win7_4.index t a * S2000x128.size a ≤ (i a).val
      ∧ (i a).val < win7_4.index t a * S2000x128.size a + S2000x128.size a := by
  show i ∈ ((View.whole main_v133_0).slice (win7_4.rect t)).set ↔ _
  rw [View.set_slice_whole, Rect.mem_set_unit]
  exact Iff.rfl

/-- Row r is in the block of point r / 2000. -/
theorem cover_hn (i : S100000x128.Idx) :
    ∃ t : Fin cfg7.N, (cfg7.win 4).flush t = true ∧ i ∈ ((cfg7.win 4).blk t).view.set := by
  have hi0 : (i 0).val < 100000 := (i 0).isLt
  have hi1 : (i 1).val < 128 := (i 1).isLt
  have hN : cfg7.N = 50 := N_7
  have hlt : (i 0).val / 2000 < cfg7.N := by rw [hN]; omega
  obtain ⟨-, -, -, -, -, -, -, -, e0, e1, -⟩ := idx_facts ⟨(i 0).val / 2000, hlt⟩
  have e0' : win7_4.index ⟨(i 0).val / 2000, hlt⟩ (0 : Fin 2) = (i 0).val / 2000 := e0
  refine ⟨⟨(i 0).val / 2000, hlt⟩, flush7_4 _, ?_⟩
  rw [mem_blk_hn]
  intro a
  match a with
  | ⟨0, _⟩ =>
    show win7_4.index ⟨(i 0).val / 2000, hlt⟩ (0 : Fin 2) * 2000 ≤ (i 0).val
      ∧ (i 0).val < win7_4.index ⟨(i 0).val / 2000, hlt⟩ (0 : Fin 2) * 2000 + 2000
    rw [e0']; omega
  | ⟨1, _⟩ =>
    show win7_4.index ⟨(i 0).val / 2000, hlt⟩ (1 : Fin 2) * 128 ≤ (i 1).val
      ∧ (i 1).val < win7_4.index ⟨(i 0).val / 2000, hlt⟩ (1 : Fin 2) * 128 + 128
    rw [e1]; omega

/-- After the region the [100000, 128] output holds the affine map of the row-scaled input. -/
theorem lin_hn (c : Dev nD) (p : Fin 100000) (q : Fin 128) :
    (dat7 (F := Ideal) V c).arrAt 4 cfg7.N (ix2 p q)
      = Gcn.affine (Gcn.scaleRows (Gcn.toMat (V c main_v127)) (Gcn.colOf (V c main_v12))) (Gcn.toMat (V c main_v129))
          (Gcn.rowOf (V c main_v132)) p q :=
  congrFun ((dat7 V c).arrAt_eq_of_cover 4 (Gcn.ofMat (HN V c)) (fun t _ => flushed_hn V c t) cover_hn) (ix2 p q)

/-- The column sums and the column sums of squares of the affine map over tile t (rows 2000 t … 2000 t + 1999). -/
abbrev tileSums (c : Dev nD) : Fin 50 → Fin 128 → EReal :=
  fun t q => ∑ r : Fin 2000, HN V c ⟨2000 * t.val + r.val, by omega⟩ q
abbrev tileSquares (c : Dev nD) : Fin 50 → Fin 128 → EReal :=
  fun t q => ∑ r : Fin 2000, HN V c ⟨2000 * t.val + r.val, by omega⟩ q * HN V c ⟨2000 * t.val + r.val, by omega⟩ q

/-- Point t writes back tile t's column sums. -/
theorem flushed_sum (c : Dev nD) (t : Fin cfg7.N) :
    (dat7 (F := Ideal) V c).flushed 5 t = ((cfg7.win 5).blk t).view.read (Elt Ideal) (ofTiles (tileSums V c)) := by
  have ht : t.val < 50 := lt_of_lt_of_eq t.isLt N_7
  show (cfg7.win 5).cut (grid7.coords t) ((dat7 V c).after 5 t) = _
  rw [after7_5]
  unfold out7_5
  rw [View.canon_unit_zero zeros3]
  simp only [View.ld_unit_zero (S := S2000x128) zeros2, View.ld_unit_zero (S := S2000x1) zeros2,
    View.ld_unit_zero (S := S128x128) zeros2, View.ld_unit_zero (S := S1x128) zeros2]
  obtain ⟨-, -, -, -, -, -, -, -, -, -, e0, -, e2, -⟩ := idx_facts t
  funext j
  obtain ⟨z0, z1, q, rfl⟩ : ∃ (z0 z1 : Fin 1) (q : Fin 128), j = ix3 z0 z1 q := ⟨j 0, j 1, j 2, eq_ix3 j⟩
  obtain rfl : z0 = 0 := Subsingleton.elim _ _
  obtain rfl : z1 = 0 := Subsingleton.elim _ _
  show k7_pay2 (F := Ideal) (iblk7 V c 0 t) (iblk7 V c 1 t) (iblk7 V c 2 t) (iblk7 V c 3 t) (ix3 0 0 q)
    = ofTiles (tileSums V c) (((cfg7.win 5).blk t).view.emb (ix3 0 0 q))
  refine (pay2_at (iblk7 V c 0 t) (iblk7 V c 1 t) (iblk7 V c 2 t) (iblk7 V c 3 t) q).trans ?_
  refine (Finset.sum_congr rfl fun r _ => body_hn V c t ht r q).trans ?_
  unfold ofTiles
  refine congrArg₂ (tileSums V c) (x := ⟨t.val, ht⟩) (Fin.ext ?_) (Fin.ext ?_)
  · show t.val = win7_5.index t (0 : Fin 3) * 1 + 1 * 0; rw [e0]; omega
  · show q.val = win7_5.index t (2 : Fin 3) * 128 + 1 * q.val; rw [e2]; omega

/-- Point t writes back tile t's column sums of squares. -/
theorem flushed_sumsq (c : Dev nD) (t : Fin cfg7.N) :
    (dat7 (F := Ideal) V c).flushed 6 t = ((cfg7.win 6).blk t).view.read (Elt Ideal) (ofTiles (tileSquares V c)) := by
  have ht : t.val < 50 := lt_of_lt_of_eq t.isLt N_7
  show (cfg7.win 6).cut (grid7.coords t) ((dat7 V c).after 6 t) = _
  rw [after7_6]
  unfold out7_6
  rw [View.canon_unit_zero zeros3]
  simp only [View.ld_unit_zero (S := S2000x128) zeros2, View.ld_unit_zero (S := S2000x1) zeros2,
    View.ld_unit_zero (S := S128x128) zeros2, View.ld_unit_zero (S := S1x128) zeros2]
  obtain ⟨-, -, -, -, -, -, -, -, -, -, -, -, -, e0, -, e2⟩ := idx_facts t
  funext j
  obtain ⟨z0, z1, q, rfl⟩ : ∃ (z0 z1 : Fin 1) (q : Fin 128), j = ix3 z0 z1 q := ⟨j 0, j 1, j 2, eq_ix3 j⟩
  obtain rfl : z0 = 0 := Subsingleton.elim _ _
  obtain rfl : z1 = 0 := Subsingleton.elim _ _
  show k7_pay3 (F := Ideal) (iblk7 V c 0 t) (iblk7 V c 1 t) (iblk7 V c 2 t) (iblk7 V c 3 t) (ix3 0 0 q)
    = ofTiles (tileSquares V c) (((cfg7.win 6).blk t).view.emb (ix3 0 0 q))
  refine (pay3_at (iblk7 V c 0 t) (iblk7 V c 1 t) (iblk7 V c 2 t) (iblk7 V c 3 t) q).trans ?_
  refine (Finset.sum_congr rfl fun r _ => by rw [body_hn V c t ht r q]).trans ?_
  unfold ofTiles
  refine congrArg₂ (tileSquares V c) (x := ⟨t.val, ht⟩) (Fin.ext ?_) (Fin.ext ?_)
  · show t.val = win7_6.index t (0 : Fin 3) * 1 + 1 * 0; rw [e0]; omega
  · show q.val = win7_6.index t (2 : Fin 3) * 128 + 1 * q.val; rw [e2]; omega

/-- An index of a [50, 1, 128] output is in point t's block iff each coordinate is in the block's range. -/
theorem mem_blk_sum (t : Fin cfg7.N) (i : S50x1x128.Idx) :
    i ∈ ((cfg7.win 5).blk t).view.set ↔ ∀ a : Fin 3, win7_5.index t a * S1x1x128.size a ≤ (i a).val
      ∧ (i a).val < win7_5.index t a * S1x1x128.size a + S1x1x128.size a := by
  show i ∈ ((View.whole main_v133_1).slice (win7_5.rect t)).set ↔ _
  rw [View.set_slice_whole, Rect.mem_set_unit]
  exact Iff.rfl

theorem mem_blk_sumsq (t : Fin cfg7.N) (i : S50x1x128.Idx) :
    i ∈ ((cfg7.win 6).blk t).view.set ↔ ∀ a : Fin 3, win7_6.index t a * S1x1x128.size a ≤ (i a).val
      ∧ (i a).val < win7_6.index t a * S1x1x128.size a + S1x1x128.size a := by
  show i ∈ ((View.whole main_v133_2).slice (win7_6.rect t)).set ↔ _
  rw [View.set_slice_whole, Rect.mem_set_unit]
  exact Iff.rfl

/-- Entry (t, 0, q) is in the block of point t. -/
theorem cover_sum (i : S50x1x128.Idx) :
    ∃ t : Fin cfg7.N, (cfg7.win 5).flush t = true ∧ i ∈ ((cfg7.win 5).blk t).view.set := by
  have hi0 : (i 0).val < 50 := (i 0).isLt
  have hi1 : (i 1).val < 1 := (i 1).isLt
  have hi2 : (i 2).val < 128 := (i 2).isLt
  have hN : cfg7.N = 50 := N_7
  have hlt : (i 0).val < cfg7.N := by rw [hN]; exact hi0
  obtain ⟨-, -, -, -, -, -, -, -, -, -, e0, e1, e2, -⟩ := idx_facts ⟨(i 0).val, hlt⟩
  have e0' : win7_5.index ⟨(i 0).val, hlt⟩ (0 : Fin 3) = (i 0).val := e0
  refine ⟨⟨(i 0).val, hlt⟩, flush7_5 _, ?_⟩
  rw [mem_blk_sum]
  intro a
  match a with
  | ⟨0, _⟩ =>
    show win7_5.index ⟨(i 0).val, hlt⟩ (0 : Fin 3) * 1 ≤ (i 0).val
      ∧ (i 0).val < win7_5.index ⟨(i 0).val, hlt⟩ (0 : Fin 3) * 1 + 1
    rw [e0']; omega
  | ⟨1, _⟩ =>
    show win7_5.index ⟨(i 0).val, hlt⟩ (1 : Fin 3) * 1 ≤ (i 1).val
      ∧ (i 1).val < win7_5.index ⟨(i 0).val, hlt⟩ (1 : Fin 3) * 1 + 1
    rw [e1]; omega
  | ⟨2, _⟩ =>
    show win7_5.index ⟨(i 0).val, hlt⟩ (2 : Fin 3) * 128 ≤ (i 2).val
      ∧ (i 2).val < win7_5.index ⟨(i 0).val, hlt⟩ (2 : Fin 3) * 128 + 128
    rw [e2]; omega

theorem cover_sumsq (i : S50x1x128.Idx) :
    ∃ t : Fin cfg7.N, (cfg7.win 6).flush t = true ∧ i ∈ ((cfg7.win 6).blk t).view.set := by
  have hi0 : (i 0).val < 50 := (i 0).isLt
  have hi1 : (i 1).val < 1 := (i 1).isLt
  have hi2 : (i 2).val < 128 := (i 2).isLt
  have hN : cfg7.N = 50 := N_7
  have hlt : (i 0).val < cfg7.N := by rw [hN]; exact hi0
  obtain ⟨-, -, -, -, -, -, -, -, -, -, -, -, -, e0, e1, e2⟩ := idx_facts ⟨(i 0).val, hlt⟩
  have e0' : win7_6.index ⟨(i 0).val, hlt⟩ (0 : Fin 3) = (i 0).val := e0
  refine ⟨⟨(i 0).val, hlt⟩, flush7_6 _, ?_⟩
  rw [mem_blk_sumsq]
  intro a
  match a with
  | ⟨0, _⟩ =>
    show win7_6.index ⟨(i 0).val, hlt⟩ (0 : Fin 3) * 1 ≤ (i 0).val
      ∧ (i 0).val < win7_6.index ⟨(i 0).val, hlt⟩ (0 : Fin 3) * 1 + 1
    rw [e0']; omega
  | ⟨1, _⟩ =>
    show win7_6.index ⟨(i 0).val, hlt⟩ (1 : Fin 3) * 1 ≤ (i 1).val
      ∧ (i 1).val < win7_6.index ⟨(i 0).val, hlt⟩ (1 : Fin 3) * 1 + 1
    rw [e1]; omega
  | ⟨2, _⟩ =>
    show win7_6.index ⟨(i 0).val, hlt⟩ (2 : Fin 3) * 128 ≤ (i 2).val
      ∧ (i 2).val < win7_6.index ⟨(i 0).val, hlt⟩ (2 : Fin 3) * 128 + 128
    rw [e2]; omega

/-- After the region the first [50, 1, 128] output holds each tile's column sums of the affine map. -/
theorem lin_sum (c : Dev nD) (t : Fin 50) (q : Fin 128) :
    (dat7 (F := Ideal) V c).arrAt 5 cfg7.N (ix3 t 0 q)
      = ∑ r : Fin 2000, Gcn.affine (Gcn.scaleRows (Gcn.toMat (V c main_v127)) (Gcn.colOf (V c main_v12)))
          (Gcn.toMat (V c main_v129)) (Gcn.rowOf (V c main_v132)) ⟨2000 * t.val + r.val, by omega⟩ q :=
  congrFun ((dat7 V c).arrAt_eq_of_cover 5 (ofTiles (tileSums V c)) (fun t _ => flushed_sum V c t) cover_sum) (ix3 t 0 q)

/-- After the region the second [50, 1, 128] output holds each tile's column sums of squares of the affine map. -/
theorem lin_sumsq (c : Dev nD) (t : Fin 50) (q : Fin 128) :
    (dat7 (F := Ideal) V c).arrAt 6 cfg7.N (ix3 t 0 q)
      = ∑ r : Fin 2000, Gcn.affine (Gcn.scaleRows (Gcn.toMat (V c main_v127)) (Gcn.colOf (V c main_v12)))
            (Gcn.toMat (V c main_v129)) (Gcn.rowOf (V c main_v132)) ⟨2000 * t.val + r.val, by omega⟩ q
          * Gcn.affine (Gcn.scaleRows (Gcn.toMat (V c main_v127)) (Gcn.colOf (V c main_v12)))
            (Gcn.toMat (V c main_v129)) (Gcn.rowOf (V c main_v132)) ⟨2000 * t.val + r.val, by omega⟩ q :=
  congrFun ((dat7 V c).arrAt_eq_of_cover 6 (ofTiles (tileSquares V c)) (fun t _ => flushed_sumsq V c t) cover_sumsq) (ix3 t 0 q)

end Region

end Cert.KernelIdeal.LinRegion7

end
-- ==== Proof.NormRegion8.lean ====
import proofs.«138442_j46162308497633_2_alg».proof.Proof.Gen.KernelIdeal.Frame
import proofs.«138442_j46162308497633_2_alg».proof.Proof.GcnSpec
import proofs.«138442_j46162308497633_2_alg».proof.Proof.LibRank2Layout
import Idealize.ShloMosaic.Lib.Pipeline.Value
import Idealize.ShloMosaic.PureOps.Ideal.Laws

/-!
  The normalisation region of the fourth layer, read entry by entry.

  The region walks the 100000 node rows in 50 blocks of 2000. On each block it takes the pre-normalised features `hn`,
  the layer's input `x`, the column statistics `μ`, `σ²` and the affine pair `γ`, `β` (one row of 128 each), and the
  out-degree normaliser `s` (one column), and writes two arrays: the new features
  `x + max 0 ((hn − μ)·rsqrt(σ² + ε)·γ + β)` and those features with row `p` scaled by `s p`.
  Every block is rows `2000·t … 2000·t + 1999` of its array and the statistics are the same row at every block, so
  the two output arrays are, entry by entry, `Gcn.bnRes` of the input arrays and its row scaling.
-/

set_option maxRecDepth 16384

noncomputable section

namespace Cert.KernelIdeal.NormRegion8

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The block's arithmetic at an entry -/

/-- The reciprocal square root of a vector, entry by entry. -/
theorem rsqrt_apply {s : Shape} {φ : FTy} (a : FVec Ideal s φ) (i : s.Idx) : rsqrt a i = Ideal.rsqrt (a i) := rfl

/-- The new features of a block at row `p`, column `q`: the input plus the rectified normalised value. -/
theorem block_x (hn : Vec Ideal S2000x128 .f32) (mu var g bt : Vec Ideal S1x128 .f32) (x : Vec Ideal S2000x128 .f32)
    (p : Fin 2000) (q : Fin 128) :
    k8_pay1 (F := Ideal) hn mu var g bt x (ix2 p q) =
      x (ix2 p q) + max ((hn (ix2 p q) - mu (ix2 0 q)) * Ideal.rsqrt (var (ix2 0 q) + Gcn.eps) * g (ix2 0 q) + bt (ix2 0 q)) 0 := by
  unfold k8_pay1
  simp only [shapeCast_self]
  simp only [addf_apply, maximumf_apply, mulf_apply, subf_apply, broadcast_apply, Rank2.bcastRow_apply, rsqrt_apply,
    Ideal.ofBits_def, Ideal.ofBits_zero_f32, Gcn.eps]

/-- The scaled features of a block at row `p`, column `q`: the new features times the row's scale. -/
theorem block_hs (hn : Vec Ideal S2000x128 .f32) (mu var g bt : Vec Ideal S1x128 .f32) (x : Vec Ideal S2000x128 .f32)
    (s : Vec Ideal S2000x1 .f32) (p : Fin 2000) (q : Fin 128) :
    k8_pay2 (F := Ideal) hn mu var g bt x s (ix2 p q) = k8_pay1 (F := Ideal) hn mu var g bt x (ix2 p q) * s (ix2 p 0) := by
  unfold k8_pay2
  simp only [shapeCast_self]
  simp only [truncf_apply, mulf_apply, Rank2.bcastCol_apply]

/-! ## Where each block sits in its array -/

theorem zero_offsets : (![0, 0] : Fin 2 → Nat) = fun _ => 0 := funext fun a => by fin_cases a <;> rfl

/-- At grid point `t` the row-blocked arrays are at block `(t, 0)` and the statistics rows at block `(0, 0)`. -/
theorem block_index : ∀ t : Fin cfg8.N,
    (win8_0.index t (0 : Fin 2) = t.val ∧ win8_0.index t (1 : Fin 2) = 0)
    ∧ (win8_1.index t (0 : Fin 2) = t.val ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0)
    ∧ (win8_6.index t (0 : Fin 2) = t.val ∧ win8_6.index t (1 : Fin 2) = 0)
    ∧ (win8_7.index t (0 : Fin 2) = t.val ∧ win8_7.index t (1 : Fin 2) = 0)
    ∧ (win8_8.index t (0 : Fin 2) = t.val ∧ win8_8.index t (1 : Fin 2) = 0) :=
  (by decide +kernel : ∀ t : Fin grid8.N, _)

/-- Block `t` of `hn` at (p, q) is the array at row `2000·t + p`. -/
theorem hn_block (c : Dev nD) (t : Fin cfg8.N) (p : Fin 2000) (q : Fin 128) (k : Fin 100000)
    (hk : k.val = 2000 * t.val + p.val) :
    (iblk8 V c 0 t : Vec Ideal S2000x128 .f32) (ix2 p q) = (V c main_v133_0 : S100000x128.Idx → EReal) (ix2 k q) := by
  obtain ⟨⟨e0, e1⟩, -⟩ := block_index t
  unfold iblk8
  rw [View.read_apply]
  show V c main_v133_0 _ = V c main_v133_0 _
  refine congrArg (V c main_v133_0) ?_
  funext a
  apply Fin.ext
  match a with
  | ⟨0, _⟩ => show win8_0.index t (0 : Fin 2) * 2000 + 1 * p.val = k.val; rw [e0, hk]; omega
  | ⟨1, _⟩ => show win8_0.index t (1 : Fin 2) * 128 + 1 * q.val = q.val; rw [e1]; omega

/-- Block `t` of `x` at (p, q) is the array at row `2000·t + p`. -/
theorem x_block (c : Dev nD) (t : Fin cfg8.N) (p : Fin 2000) (q : Fin 128) (k : Fin 100000)
    (hk : k.val = 2000 * t.val + p.val) :
    (iblk8 V c 1 t : Vec Ideal S2000x128 .f32) (ix2 p q) = (V c main_v116_0 : S100000x128.Idx → EReal) (ix2 k q) := by
  obtain ⟨-, ⟨e0, e1⟩, -⟩ := block_index t
  unfold iblk8
  rw [View.read_apply]
  show V c main_v116_0 _ = V c main_v116_0 _
  refine congrArg (V c main_v116_0) ?_
  funext a
  apply Fin.ext
  match a with
  | ⟨0, _⟩ => show win8_1.index t (0 : Fin 2) * 2000 + 1 * p.val = k.val; rw [e0, hk]; omega
  | ⟨1, _⟩ => show win8_1.index t (1 : Fin 2) * 128 + 1 * q.val = q.val; rw [e1]; omega

/-- The block of `μ` at every point is the whole row. -/
theorem mu_block (c : Dev nD) (t : Fin cfg8.N) (q : Fin 128) :
    (iblk8 V c 2 t : Vec Ideal S1x128 .f32) (ix2 0 q) = (V c main_v137 : S1x128.Idx → EReal) (ix2 0 q) := by
  obtain ⟨-, -, ⟨e0, e1⟩, -⟩ := block_index t
  unfold iblk8
  rw [View.read_apply]
  show V c main_v137 _ = V c main_v137 _
  refine congrArg (V c main_v137) ?_
  funext a
  apply Fin.ext
  match a with
  | ⟨0, _⟩ => show win8_2.index t (0 : Fin 2) * 1 + 1 * 0 = 0; rw [e0]
  | ⟨1, _⟩ => show win8_2.index t (1 : Fin 2) * 128 + 1 * q.val = q.val; rw [e1]; omega

/-- The block of `σ²` at every point is the whole row. -/
theorem var_block (c : Dev nD) (t : Fin cfg8.N) (q : Fin 128) :
    (iblk8 V c 3 t : Vec Ideal S1x128 .f32) (ix2 0 q) = (V c main_v143 : S1x128.Idx → EReal) (ix2 0 q) := by
  obtain ⟨-, -, -, ⟨e0, e1⟩, -⟩ := block_index t
  unfold iblk8
  rw [View.read_apply]
  show V c main_v143 _ = V c main_v143 _
  refine congrArg (V c main_v143) ?_
  funext a
  apply Fin.ext
  match a with
  | ⟨0, _⟩ => show win8_3.index t (0 : Fin 2) * 1 + 1 * 0 = 0; rw [e0]
  | ⟨1, _⟩ => show win8_3.index t (1 : Fin 2) * 128 + 1 * q.val = q.val; rw [e1]; omega

/-- The block of `γ` at every point is the whole row. -/
theorem gamma_block (c : Dev nD) (t : Fin cfg8.N) (q : Fin 128) :
    (iblk8 V c 4 t : Vec Ideal S1x128 .f32) (ix2 0 q) = (V c main_v146 : S1x128.Idx → EReal) (ix2 0 q) := by
  obtain ⟨-, -, -, -, ⟨e0, e1⟩, -⟩ := block_index t
  unfold iblk8
  rw [View.read_apply]
  show V c main_v146 _ = V c main_v146 _
  refine congrArg (V c main_v146) ?_
  funext a
  apply Fin.ext
  match a with
  | ⟨0, _⟩ => show win8_4.index t (0 : Fin 2) * 1 + 1 * 0 = 0; rw [e0]
  | ⟨1, _⟩ => show win8_4.index t (1 : Fin 2) * 128 + 1 * q.val = q.val; rw [e1]; omega

/-- The block of `β` at every point is the whole row. -/
theorem beta_block (c : Dev nD) (t : Fin cfg8.N) (q : Fin 128) :
    (iblk8 V c 5 t : Vec Ideal S1x128 .f32) (ix2 0 q) = (V c main_v149 : S1x128.Idx → EReal) (ix2 0 q) := by
  obtain ⟨-, -, -, -, -, ⟨e0, e1⟩, -⟩ := block_index t
  unfold iblk8
  rw [View.read_apply]
  show V c main_v149 _ = V c main_v149 _
  refine congrArg (V c main_v149) ?_
  funext a
  apply Fin.ext
  match a with
  | ⟨0, _⟩ => show win8_5.index t (0 : Fin 2) * 1 + 1 * 0 = 0; rw [e0]
  | ⟨1, _⟩ => show win8_5.index t (1 : Fin 2) * 128 + 1 * q.val = q.val; rw [e1]; omega

/-- Block `t` of the row scales at (p, 0) is the column at row `2000·t + p`. -/
theorem scale_block (c : Dev nD) (t : Fin cfg8.N) (p : Fin 2000) (k : Fin 100000)
    (hk : k.val = 2000 * t.val + p.val) :
    (iblk8 V c 6 t : Vec Ideal S2000x1 .f32) (ix2 p 0) = (V c main_v10 : S100000x1.Idx → EReal) (ix2 k 0) := by
  obtain ⟨-, -, -, -, -, -, ⟨e0, e1⟩, -⟩ := block_index t
  unfold iblk8
  rw [View.read_apply]
  show V c main_v10 _ = V c main_v10 _
  refine congrArg (V c main_v10) ?_
  funext a
  apply Fin.ext
  match a with
  | ⟨0, _⟩ => show win8_6.index t (0 : Fin 2) * 2000 + 1 * p.val = k.val; rw [e0, hk]; omega
  | ⟨1, _⟩ => show win8_6.index t (1 : Fin 2) * 1 + 1 * 0 = 0; rw [e1]

/-! ## The two output arrays -/

/-- The new features as a matrix of the region's input arrays. -/
abbrev XN (c : Dev nD) : Gcn.Mat 100000 128 :=
  Gcn.bnRes (Gcn.toMat (a := 100000) (b := 128) (V c main_v116_0)) (Gcn.toMat (a := 100000) (b := 128) (V c main_v133_0))
    (Gcn.rowOf (b := 128) (V c main_v137)) (Gcn.rowOf (b := 128) (V c main_v143)) (Gcn.rowOf (b := 128) (V c main_v146))
    (Gcn.rowOf (b := 128) (V c main_v149))

/-- The scaled new features. -/
abbrev HS (c : Dev nD) : Gcn.Mat 100000 128 := Gcn.scaleRows (XN V c) (Gcn.colOf (a := 100000) (V c main_v10))

/-- Row `p` of output block `t` is row `2000·t + p` of the array. -/
theorem out_x_row (t : Fin cfg8.N) (p : Fin 2000) (q : Fin 128) (k : Fin 100000) (hk : k.val = 2000 * t.val + p.val) :
    ((cfg8.win 7).blk t).view.emb (ix2 p q : S2000x128.Idx) = (ix2 k q : S100000x128.Idx) := by
  obtain ⟨-, -, -, -, -, -, -, ⟨e0, e1⟩, -⟩ := block_index t
  funext a
  apply Fin.ext
  match a with
  | ⟨0, _⟩ => show win8_7.index t (0 : Fin 2) * 2000 + 1 * p.val = k.val; rw [e0, hk]; omega
  | ⟨1, _⟩ => show win8_7.index t (1 : Fin 2) * 128 + 1 * q.val = q.val; rw [e1]; omega

theorem out_hs_row (t : Fin cfg8.N) (p : Fin 2000) (q : Fin 128) (k : Fin 100000) (hk : k.val = 2000 * t.val + p.val) :
    ((cfg8.win 8).blk t).view.emb (ix2 p q : S2000x128.Idx) = (ix2 k q : S100000x128.Idx) := by
  obtain ⟨-, -, -, -, -, -, -, -, ⟨e0, e1⟩⟩ := block_index t
  funext a
  apply Fin.ext
  match a with
  | ⟨0, _⟩ => show win8_8.index t (0 : Fin 2) * 2000 + 1 * p.val = k.val; rw [e0, hk]; omega
  | ⟨1, _⟩ => show win8_8.index t (1 : Fin 2) * 128 + 1 * q.val = q.val; rw [e1]; omega

/-- The body's new features at (p, q) of block `t` are `XN` at row `2000·t + p`. -/
theorem body_x (c : Dev nD) (t : Fin cfg8.N) (p : Fin 2000) (q : Fin 128) (k : Fin 100000)
    (hk : k.val = 2000 * t.val + p.val) :
    k8_pay1 (F := Ideal) (iblk8 V c 0 t) (iblk8 V c 2 t) (iblk8 V c 3 t) (iblk8 V c 4 t) (iblk8 V c 5 t) (iblk8 V c 1 t) (ix2 p q)
      = XN V c k q := by
  refine (block_x (iblk8 V c 0 t) (iblk8 V c 2 t) (iblk8 V c 3 t) (iblk8 V c 4 t) (iblk8 V c 5 t) (iblk8 V c 1 t) p q).trans ?_
  rw [hn_block V c t p q k hk, x_block V c t p q k hk, mu_block V c t q, var_block V c t q, gamma_block V c t q,
    beta_block V c t q]
  rfl

/-- What point `t` writes back to the new-features array is block `t` of `XN`. -/
theorem flushed_x (c : Dev nD) (t : Fin cfg8.N) :
    (dat8 (F := Ideal) V c).flushed 7 t = ((cfg8.win 7).blk t).view.read (Elt Ideal) (Gcn.ofMat (XN V c)) := by
  have hN : cfg8.N = 50 := N_8
  show (cfg8.win 7).cut (grid8.coords t) ((dat8 (F := Ideal) V c).after 7 t) = _
  rw [after8_7]
  unfold out8_7
  rw [View.canon_unit_zero zero_offsets]
  simp only [View.ld_unit_zero (S := S2000x128) zero_offsets, View.ld_unit_zero (S := S1x128) zero_offsets]
  funext j
  obtain ⟨p, q, rfl⟩ : ∃ (p : Fin 2000) (q : Fin 128), j = ix2 p q := ⟨j 0, j 1, eq_ix2 j⟩
  have ht : t.val < 50 := hN ▸ t.isLt
  have hk : (⟨2000 * t.val + p.val, by omega⟩ : Fin 100000).val = 2000 * t.val + p.val := rfl
  show k8_pay1 (F := Ideal) (iblk8 V c 0 t) (iblk8 V c 2 t) (iblk8 V c 3 t) (iblk8 V c 4 t) (iblk8 V c 5 t) (iblk8 V c 1 t) (ix2 p q)
    = Gcn.ofMat (XN V c) (((cfg8.win 7).blk t).view.emb (ix2 p q : S2000x128.Idx))
  rw [out_x_row t p q _ hk]
  exact body_x V c t p q _ hk

/-- What point `t` writes back to the scaled array is block `t` of `HS`. -/
theorem flushed_hs (c : Dev nD) (t : Fin cfg8.N) :
    (dat8 (F := Ideal) V c).flushed 8 t = ((cfg8.win 8).blk t).view.read (Elt Ideal) (Gcn.ofMat (HS V c)) := by
  have hN : cfg8.N = 50 := N_8
  show (cfg8.win 8).cut (grid8.coords t) ((dat8 (F := Ideal) V c).after 8 t) = _
  rw [after8_8]
  unfold out8_8
  rw [View.canon_unit_zero zero_offsets]
  simp only [View.ld_unit_zero (S := S2000x128) zero_offsets, View.ld_unit_zero (S := S1x128) zero_offsets,
    View.ld_unit_zero (S := S2000x1) zero_offsets]
  funext j
  obtain ⟨p, q, rfl⟩ : ∃ (p : Fin 2000) (q : Fin 128), j = ix2 p q := ⟨j 0, j 1, eq_ix2 j⟩
  have ht : t.val < 50 := hN ▸ t.isLt
  have hk : (⟨2000 * t.val + p.val, by omega⟩ : Fin 100000).val = 2000 * t.val + p.val := rfl
  show k8_pay2 (F := Ideal) (iblk8 V c 0 t) (iblk8 V c 2 t) (iblk8 V c 3 t) (iblk8 V c 4 t) (iblk8 V c 5 t) (iblk8 V c 1 t)
      (iblk8 V c 6 t) (ix2 p q)
    = Gcn.ofMat (HS V c) (((cfg8.win 8).blk t).view.emb (ix2 p q : S2000x128.Idx))
  rw [out_hs_row t p q _ hk]
  refine (block_hs (iblk8 V c 0 t) (iblk8 V c 2 t) (iblk8 V c 3 t) (iblk8 V c 4 t) (iblk8 V c 5 t) (iblk8 V c 1 t)
    (iblk8 V c 6 t) p q).trans ?_
  rw [body_x V c t p q _ hk, scale_block V c t p _ hk]
  rfl

/-- An index of a [100000, 128] output array is in point `t`'s block iff each coordinate is in the block's range. -/
theorem mem_block_x (t : Fin cfg8.N) (i : S100000x128.Idx) :
    i ∈ ((cfg8.win 7).blk t).view.set ↔ ∀ a : Fin 2, win8_7.index t a * S2000x128.size a ≤ (i a).val
      ∧ (i a).val < win8_7.index t a * S2000x128.size a + S2000x128.size a := by
  show i ∈ ((View.whole main_v150_0).slice (win8_7.rect t)).set ↔ _
  rw [View.set_slice_whole, Rect.mem_set_unit]
  exact Iff.rfl

theorem mem_block_hs (t : Fin cfg8.N) (i : S100000x128.Idx) :
    i ∈ ((cfg8.win 8).blk t).view.set ↔ ∀ a : Fin 2, win8_8.index t a * S2000x128.size a ≤ (i a).val
      ∧ (i a).val < win8_8.index t a * S2000x128.size a + S2000x128.size a := by
  show i ∈ ((View.whole main_v150_1).slice (win8_8.rect t)).set ↔ _
  rw [View.set_slice_whole, Rect.mem_set_unit]
  exact Iff.rfl

/-- Row `r` is in the block of point `r / 2000`. -/
theorem cover_x (i : S100000x128.Idx) : ∃ t : Fin cfg8.N, (cfg8.win 7).flush t = true ∧ i ∈ ((cfg8.win 7).blk t).view.set := by
  have hN : cfg8.N = 50 := N_8
  have h0 : (i 0).val < 100000 := (i 0).isLt
  have h1 : (i 1).val < 128 := (i 1).isLt
  refine ⟨⟨(i 0).val / 2000, by rw [hN]; omega⟩, flush8_7 _, ?_⟩
  obtain ⟨-, -, -, -, -, -, -, ⟨e0, e1⟩, -⟩ := block_index ⟨(i 0).val / 2000, by rw [hN]; omega⟩
  rw [mem_block_x]
  intro a
  match a with
  | ⟨0, _⟩ =>
    show win8_7.index _ (0 : Fin 2) * 2000 ≤ (i 0).val ∧ (i 0).val < win8_7.index _ (0 : Fin 2) * 2000 + 2000
    rw [e0]; show (i 0).val / 2000 * 2000 ≤ (i 0).val ∧ (i 0).val < (i 0).val / 2000 * 2000 + 2000; omega
  | ⟨1, _⟩ =>
    show win8_7.index _ (1 : Fin 2) * 128 ≤ (i 1).val ∧ (i 1).val < win8_7.index _ (1 : Fin 2) * 128 + 128
    rw [e1]; omega

theorem cover_hs (i : S100000x128.Idx) : ∃ t : Fin cfg8.N, (cfg8.win 8).flush t = true ∧ i ∈ ((cfg8.win 8).blk t).view.set := by
  have hN : cfg8.N = 50 := N_8
  have h0 : (i 0).val < 100000 := (i 0).isLt
  have h1 : (i 1).val < 128 := (i 1).isLt
  refine ⟨⟨(i 0).val / 2000, by rw [hN]; omega⟩, flush8_8 _, ?_⟩
  obtain ⟨-, -, -, -, -, -, -, -, ⟨e0, e1⟩⟩ := block_index ⟨(i 0).val / 2000, by rw [hN]; omega⟩
  rw [mem_block_hs]
  intro a
  match a with
  | ⟨0, _⟩ =>
    show win8_8.index _ (0 : Fin 2) * 2000 ≤ (i 0).val ∧ (i 0).val < win8_8.index _ (0 : Fin 2) * 2000 + 2000
    rw [e0]; show (i 0).val / 2000 * 2000 ≤ (i 0).val ∧ (i 0).val < (i 0).val / 2000 * 2000 + 2000; omega
  | ⟨1, _⟩ =>
    show win8_8.index _ (1 : Fin 2) * 128 ≤ (i 1).val ∧ (i 1).val < win8_8.index _ (1 : Fin 2) * 128 + 128
    rw [e1]; omega

/-- After the region the new-features array is `XN`. -/
theorem norm_x_array (c : Dev nD) : (dat8 (F := Ideal) V c).arrAt 7 cfg8.N = Gcn.ofMat (XN V c) :=
  (dat8 (F := Ideal) V c).arrAt_eq_of_cover 7 (Gcn.ofMat (XN V c)) (fun t _ => flushed_x V c t) cover_x

/-- After the region the scaled array is `HS`. -/
theorem norm_hs_array (c : Dev nD) : (dat8 (F := Ideal) V c).arrAt 8 cfg8.N = Gcn.ofMat (HS V c) :=
  (dat8 (F := Ideal) V c).arrAt_eq_of_cover 8 (Gcn.ofMat (HS V c)) (fun t _ => flushed_hs V c t) cover_hs

/-- The new features after the region, entry by entry. -/
theorem norm_x (c : Dev nD) (p : Fin 100000) (q : Fin 128) :
    (dat8 (F := Ideal) V c).arrAt 7 cfg8.N (ix2 p q) = XN V c p q :=
  congrFun (norm_x_array V c) (ix2 p q)

/-- The scaled features after the region, entry by entry. -/
theorem norm_hs (c : Dev nD) (p : Fin 100000) (q : Fin 128) :
    (dat8 (F := Ideal) V c).arrAt 8 cfg8.N (ix2 p q) = Gcn.scaleRows (XN V c) (Gcn.colOf (a := 100000) (V c main_v10)) p q :=
  congrFun (norm_hs_array V c) (ix2 p q)

end Cert.KernelIdeal.NormRegion8

end
-- ==== Proof.KLayer3.lean ====
/-
  One graph-convolution layer of the kernel program, from the features and their out-degree-scaled copy at the layer's
  entry to the new features and their scaled copy at its exit: the host operations before the affine-map region give its
  four input arrays (the edge aggregation of the scaled features, the in-degree normaliser, the layer's weight matrix and
  bias row), the region leaves the pre-normalisation matrix and its tile sums, the host operations after it give the column
  mean and variance and the layer's scale and shift rows, and the normalisation region leaves the layer's result.
-/
import proofs.«138442_j46162308497633_2_alg».proof.Proof.KChainBase
import proofs.«138442_j46162308497633_2_alg».proof.Proof.KStats
import proofs.«138442_j46162308497633_2_alg».proof.Proof.LinRegion7
import proofs.«138442_j46162308497633_2_alg».proof.Proof.NormRegion8
import proofs.«138442_j46162308497633_2_alg».proof.Proof.LibRank2Layout

set_option maxRecDepth 16384
set_option maxHeartbeats 200000

noncomputable section

namespace Cert.KernelIdeal.Chain

open Idealize.ShloMosaic Idealize.ShloMosaic.TcCoe Idealize.ShloMosaic.Tactic Idealize.ShloMosaic.StableHlo Idealize.ShloMosaic.ValueIdx
open Idealize.SL Idealize.SL.Sem
open Cert.KernelIdeal Cert.KernelIdeal.Gen
open scoped BigOperators

variable (m : (ℓ : Loc nD τ sig) → Buf (Elt Ideal) ℓ) (ρ : Dev nD → PrngReg) (c : Dev nD)

namespace Layer3

/-! ## Reading a layer's slice of the stacked parameters -/

/-- Layer l's [128, 128] weight matrix out of the stacked [4, 128, 128] array: the slice at l with its unit axis dropped. -/
theorem layerMat_at_L3 (x : FVec Ideal S4x128x128 .f32) (l : Fin 4) (h : S4x128x128.Slices ![l.val, 0, 0] S1x128x128)
    (h' : S1x128x128.ShapeCasts S128x128) (k q : Fin 128) :
    shapeCast S128x128 (extractStridedSlice S1x128x128 ![l.val, 0, 0] x h) h' (ix2 k q) = x (ix3 l k q) := by
  refine (shapeCast_apply _ h' (ix2 k q) (ix3 (0 : Fin 1) k q) ?_).trans ?_
  · rw [Shape.rowMajor_val_three, Shape.rowMajor_val_two]
    show (0 * 128 + k.val) * 128 + q.val = k.val * 128 + q.val
    omega
  · exact extractStridedSlice_apply ![l.val, 0, 0] x h (ix3 (0 : Fin 1) k q) (ix3 l k q) (fun d => match d with
      | ⟨0, _⟩ => by show l.val = l.val + 0; omega
      | ⟨1, _⟩ => by show k.val = 0 + k.val; omega
      | ⟨2, _⟩ => by show q.val = 0 + q.val; omega)

/-- Layer l's row out of a stacked [4, 128] array: the slice at l, flattened and viewed as one row again. -/
theorem layerRow_at_L3 (x : FVec Ideal S4x128 .f32) (l : Fin 4) (h : S4x128.Slices ![l.val, 0] S1x128)
    (h1 : S1x128.ShapeCasts S128) (h2 : S128.ShapeCasts S1x128) (q : Fin 128) :
    shapeCast S1x128 (fun i => shapeCast S128 (extractStridedSlice S1x128 ![l.val, 0] x h) h1 i) h2 (ix2 0 q)
      = x (ix2 l q) := by
  refine (LinRegion7.castRow_apply _ h2 0 q).trans ?_
  show shapeCast S128 (extractStridedSlice S1x128 ![l.val, 0] x h) h1 (ix1 q) = _
  refine (shapeCast_apply _ h1 (ix1 q) (ix2 (0 : Fin 1) q) ?_).trans ?_
  · rw [Shape.rowMajor_val_two, Shape.rowMajor_val_one]
    show 0 * 128 + q.val = q.val
    omega
  · exact Rank2.sliceRow_apply x h 0 q

/-! ## What the affine-map region finds in its input arrays -/

set_option maxHeartbeats 1000000 in
theorem in_agg : W19 m ρ c (Proc.devRef .tc main_v127)
    = Terms.aggArr (W18 m ρ c (Proc.devRef .tc main_v116_1)) (a14 m c) (a15 m c) := by walk_back; rfl

theorem in_scale : W19 m ρ c (Proc.devRef .tc main_v12) = Terms.invDeg (a15 m c) := by walk_back; rfl

theorem in_weight (k q : Fin 128) : W19 m ρ c (Proc.devRef .tc main_v129) (ix2 k q) = Terms.wL (a4 m c) 3 k q := by
  walk_back
  exact layerMat_at_L3 (a4 m c) 3 _ _ k q

theorem in_bias (q : Fin 128) : W19 m ρ c (Proc.devRef .tc main_v132) (ix2 0 q) = Terms.rowL (a5 m c) 3 q := by
  walk_back
  exact layerRow_at_L3 (a5 m c) 3 _ _ _ q

section Layer

variable (X : Gcn.Mat 100000 128)

/-- What the layer normalises: the affine map of the aggregated, degree-scaled features. -/
abbrev preL3 : Gcn.Mat 100000 128 :=
  Gcn.preNorm (Terms.agg (a14 m c) (a15 m c)) (Terms.sOut (a14 m c)) (Terms.sIn (a15 m c)) (Terms.wL (a4 m c) 3)
    (Terms.rowL (a5 m c) 3) X

theorem in_agg_mat (hhs : ∀ p q, W18 m ρ c (Proc.devRef .tc main_v116_1) (ix2 p q) = Gcn.scaleRows X (Terms.sOut (a14 m c)) p q) :
    Gcn.toMat (a := 100000) (b := 128) (W19 m ρ c (Proc.devRef .tc main_v127))
      = Terms.agg (a14 m c) (a15 m c) (Gcn.scaleRows X (Terms.sOut (a14 m c))) := by
  have e : W18 m ρ c (Proc.devRef .tc main_v116_1) = Gcn.ofMat (Gcn.scaleRows X (Terms.sOut (a14 m c))) := by
    funext i
    obtain ⟨p, q, rfl⟩ : ∃ (p : Fin 100000) (q : Fin 128), i = ix2 p q := ⟨i 0, i 1, eq_ix2 i⟩
    exact hhs p q
  rw [in_agg, e]
  unfold Terms.agg
  rfl

theorem in_scale_col : Gcn.colOf (a := 100000) (W19 m ρ c (Proc.devRef .tc main_v12)) = Terms.sIn (a15 m c) := by
  rw [in_scale]
  rfl

theorem in_weight_mat : Gcn.toMat (a := 128) (b := 128) (W19 m ρ c (Proc.devRef .tc main_v129)) = Terms.wL (a4 m c) 3 :=
  funext fun k => funext fun q => in_weight m ρ c k q

theorem in_bias_row : Gcn.rowOf (b := 128) (W19 m ρ c (Proc.devRef .tc main_v132)) = Terms.rowL (a5 m c) 3 :=
  funext fun q => in_bias m ρ c q

/-- The affine-map region's function of its input arrays is the layer's pre-normalisation matrix. -/
theorem lin_is_pre (hhs : ∀ p q, W18 m ρ c (Proc.devRef .tc main_v116_1) (ix2 p q) = Gcn.scaleRows X (Terms.sOut (a14 m c)) p q) :
    Gcn.affine (Gcn.scaleRows (Gcn.toMat (V19 m ρ c main_v127)) (Gcn.colOf (V19 m ρ c main_v12))) (Gcn.toMat (V19 m ρ c main_v129))
      (Gcn.rowOf (V19 m ρ c main_v132)) = preL3 m c X := by
  show Gcn.affine (Gcn.scaleRows (Gcn.toMat (a := 100000) (b := 128) (W19 m ρ c (Proc.devRef .tc main_v127)))
      (Gcn.colOf (a := 100000) (W19 m ρ c (Proc.devRef .tc main_v12))))
    (Gcn.toMat (a := 128) (b := 128) (W19 m ρ c (Proc.devRef .tc main_v129)))
    (Gcn.rowOf (b := 128) (W19 m ρ c (Proc.devRef .tc main_v132))) = _
  rw [in_agg_mat m ρ c X hhs, in_scale_col, in_weight_mat, in_bias_row]
  rfl

/-! ## What the affine-map region leaves -/

theorem out_hn (hhs : ∀ p q, W18 m ρ c (Proc.devRef .tc main_v116_1) (ix2 p q) = Gcn.scaleRows X (Terms.sOut (a14 m c)) p q)
    (p : Fin 100000) (q : Fin 128) : W20 m ρ c (Proc.devRef .tc main_v133_0) (ix2 p q) = preL3 m c X p q :=
  ((congrFun (W20_arr m ρ c 4) (ix2 p q)).trans (LinRegion7.lin_hn (V19 m ρ) c p q)).trans
    (congrFun (congrFun (lin_is_pre m ρ c X hhs) p) q)

theorem out_sum (hhs : ∀ p q, W18 m ρ c (Proc.devRef .tc main_v116_1) (ix2 p q) = Gcn.scaleRows X (Terms.sOut (a14 m c)) p q)
    (t : Fin 50) (q : Fin 128) :
    W20 m ρ c (Proc.devRef .tc main_v133_1) (ix3 t 0 q) = ∑ r : Fin 2000, preL3 m c X ⟨2000 * t.val + r.val, by omega⟩ q :=
  ((congrFun (W20_arr m ρ c 5) (ix3 t 0 q)).trans (LinRegion7.lin_sum (V19 m ρ) c t q)).trans
    (by rw [lin_is_pre m ρ c X hhs])

theorem out_sumsq (hhs : ∀ p q, W18 m ρ c (Proc.devRef .tc main_v116_1) (ix2 p q) = Gcn.scaleRows X (Terms.sOut (a14 m c)) p q)
    (t : Fin 50) (q : Fin 128) :
    W20 m ρ c (Proc.devRef .tc main_v133_2) (ix3 t 0 q)
      = ∑ r : Fin 2000, preL3 m c X ⟨2000 * t.val + r.val, by omega⟩ q * preL3 m c X ⟨2000 * t.val + r.val, by omega⟩ q :=
  ((congrFun (W20_arr m ρ c 6) (ix3 t 0 q)).trans (LinRegion7.lin_sumsq (V19 m ρ) c t q)).trans
    (by rw [lin_is_pre m ρ c X hhs])

/-! ## What the normalisation region finds in its input arrays -/

theorem in_mean : W21 m ρ c (Proc.devRef .tc main_v137) = Terms.meanArr (W20 m ρ c (Proc.devRef .tc main_v133_1)) := by
  walk_back; rfl

theorem in_var : W21 m ρ c (Proc.devRef .tc main_v143)
    = Terms.varArr (W20 m ρ c (Proc.devRef .tc main_v133_1)) (W20 m ρ c (Proc.devRef .tc main_v133_2)) := by
  walk_back; rfl

theorem in_gamma (q : Fin 128) : W21 m ρ c (Proc.devRef .tc main_v146) (ix2 0 q) = Terms.rowL (a6 m c) 3 q := by
  walk_back
  exact layerRow_at_L3 (a6 m c) 3 _ _ _ q

theorem in_beta (q : Fin 128) : W21 m ρ c (Proc.devRef .tc main_v149) (ix2 0 q) = Terms.rowL (a7 m c) 3 q := by
  walk_back
  exact layerRow_at_L3 (a7 m c) 3 _ _ _ q

theorem in_hn : W21 m ρ c (Proc.devRef .tc main_v133_0) = W20 m ρ c (Proc.devRef .tc main_v133_0) := by walk_back

theorem in_x : W21 m ρ c (Proc.devRef .tc main_v116_0) = W18 m ρ c (Proc.devRef .tc main_v116_0) := by walk_back

theorem in_out_scale : W21 m ρ c (Proc.devRef .tc main_v10) = Terms.invDeg (a14 m c) := by walk_back; rfl

theorem in_x_mat (hx : ∀ p q, W18 m ρ c (Proc.devRef .tc main_v116_0) (ix2 p q) = X p q) :
    Gcn.toMat (a := 100000) (b := 128) (W21 m ρ c (Proc.devRef .tc main_v116_0)) = X := by
  rw [in_x]
  exact funext fun p => funext fun q => hx p q

theorem in_hn_mat (hhs : ∀ p q, W18 m ρ c (Proc.devRef .tc main_v116_1) (ix2 p q) = Gcn.scaleRows X (Terms.sOut (a14 m c)) p q) :
    Gcn.toMat (a := 100000) (b := 128) (W21 m ρ c (Proc.devRef .tc main_v133_0)) = preL3 m c X := by
  rw [in_hn]
  exact funext fun p => funext fun q => out_hn m ρ c X hhs p q

theorem in_mean_row (hhs : ∀ p q, W18 m ρ c (Proc.devRef .tc main_v116_1) (ix2 p q) = Gcn.scaleRows X (Terms.sOut (a14 m c)) p q) :
    Gcn.rowOf (b := 128) (W21 m ρ c (Proc.devRef .tc main_v137)) = Gcn.meanOf (Gcn.tileSum (preL3 m c X)) := by
  rw [in_mean]
  exact funext fun q => Terms.meanArr_tiles (preL3 m c X) _ (fun t q => out_sum m ρ c X hhs t q) q

theorem in_var_row (hhs : ∀ p q, W18 m ρ c (Proc.devRef .tc main_v116_1) (ix2 p q) = Gcn.scaleRows X (Terms.sOut (a14 m c)) p q) :
    Gcn.rowOf (b := 128) (W21 m ρ c (Proc.devRef .tc main_v143)) = Gcn.varTiled (preL3 m c X) := by
  rw [in_var]
  exact funext fun q => Terms.varArr_tiles (preL3 m c X) _ _ (fun t q => out_sum m ρ c X hhs t q)
    (fun t q => out_sumsq m ρ c X hhs t q) q

theorem in_gamma_row : Gcn.rowOf (b := 128) (W21 m ρ c (Proc.devRef .tc main_v146)) = Terms.rowL (a6 m c) 3 :=
  funext fun q => in_gamma m ρ c q

theorem in_beta_row : Gcn.rowOf (b := 128) (W21 m ρ c (Proc.devRef .tc main_v149)) = Terms.rowL (a7 m c) 3 :=
  funext fun q => in_beta m ρ c q

theorem in_out_scale_col : Gcn.colOf (a := 100000) (W21 m ρ c (Proc.devRef .tc main_v10)) = Terms.sOut (a14 m c) := by
  rw [in_out_scale]
  rfl

/-- The normalisation region's function of its input arrays is the layer. -/
theorem norm_is_layer (hx : ∀ p q, W18 m ρ c (Proc.devRef .tc main_v116_0) (ix2 p q) = X p q)
    (hhs : ∀ p q, W18 m ρ c (Proc.devRef .tc main_v116_1) (ix2 p q) = Gcn.scaleRows X (Terms.sOut (a14 m c)) p q) :
    NormRegion8.XN (V21 m ρ) c
      = Gcn.layerTiled (Terms.agg (a14 m c) (a15 m c)) (Terms.sOut (a14 m c)) (Terms.sIn (a15 m c)) (Terms.wL (a4 m c) 3)
          (Terms.rowL (a5 m c) 3) (Terms.rowL (a6 m c) 3) (Terms.rowL (a7 m c) 3) X := by
  show Gcn.bnRes (Gcn.toMat (a := 100000) (b := 128) (W21 m ρ c (Proc.devRef .tc main_v116_0)))
      (Gcn.toMat (a := 100000) (b := 128) (W21 m ρ c (Proc.devRef .tc main_v133_0)))
      (Gcn.rowOf (b := 128) (W21 m ρ c (Proc.devRef .tc main_v137))) (Gcn.rowOf (b := 128) (W21 m ρ c (Proc.devRef .tc main_v143)))
      (Gcn.rowOf (b := 128) (W21 m ρ c (Proc.devRef .tc main_v146))) (Gcn.rowOf (b := 128) (W21 m ρ c (Proc.devRef .tc main_v149))) = _
  rw [in_x_mat m ρ c X hx, in_hn_mat m ρ c X hhs, in_mean_row m ρ c X hhs, in_var_row m ρ c X hhs, in_gamma_row, in_beta_row]
  rfl

end Layer

end Layer3

/-- One layer of the kernel program: from the features and their out-degree-scaled copy at the layer's entry to the new
    features and their scaled copy at its exit. -/
theorem layer3 (X : Gcn.Mat 100000 128)
    (hx : ∀ p q, W18 m ρ c (Proc.devRef .tc main_v116_0) (ix2 p q) = X p q)
    (hhs : ∀ p q, W18 m ρ c (Proc.devRef .tc main_v116_1) (ix2 p q) = Gcn.scaleRows X (Terms.sOut (a14 m c)) p q) :
    (∀ p q, W22 m ρ c (Proc.devRef .tc main_v150_0) (ix2 p q)
        = Gcn.layerTiled (Terms.agg (a14 m c) (a15 m c)) (Terms.sOut (a14 m c)) (Terms.sIn (a15 m c)) (Terms.wL (a4 m c) 3)
            (Terms.rowL (a5 m c) 3) (Terms.rowL (a6 m c) 3) (Terms.rowL (a7 m c) 3) X p q)
    ∧ (∀ p q, W22 m ρ c (Proc.devRef .tc main_v150_1) (ix2 p q)
        = Gcn.scaleRows (Gcn.layerTiled (Terms.agg (a14 m c) (a15 m c)) (Terms.sOut (a14 m c)) (Terms.sIn (a15 m c))
            (Terms.wL (a4 m c) 3) (Terms.rowL (a5 m c) 3) (Terms.rowL (a6 m c) 3) (Terms.rowL (a7 m c) 3) X)
            (Terms.sOut (a14 m c)) p q) := by
  refine ⟨fun p q => ?_, fun p q => ?_⟩
  · exact ((congrFun (W22_arr m ρ c 7) (ix2 p q)).trans (NormRegion8.norm_x (V21 m ρ) c p q)).trans
      (congrFun (congrFun (Layer3.norm_is_layer m ρ c X hx hhs) p) q)
  · refine ((congrFun (W22_arr m ρ c 8) (ix2 p q)).trans (NormRegion8.norm_hs (V21 m ρ) c p q)).trans ?_
    show Gcn.scaleRows (NormRegion8.XN (V21 m ρ) c) (Gcn.colOf (a := 100000) (W21 m ρ c (Proc.devRef .tc main_v10))) p q = _
    rw [Layer3.norm_is_layer m ρ c X hx hhs, Layer3.in_out_scale_col]

end Cert.KernelIdeal.Chain

end
-- ==== Proof.LibRowGatherScatter.lean ====
/-
  Row gather and row scatter-add, read at an index.

  `x[idx]` of a matrix `x : [N, C]` at a vector of `E` row numbers lowers to `stablehlo.gather` with offset_dims [1],
  collapsed_slice_dims [0], start_index_map [0], index_vector_dim 1 and slice sizes [1, C] over the row numbers as an
  `[E, 1]` array: result element `(e, k)` is `x` at row `idx[e, 0]` — read signed and clamped into `[0, N − 1]` — and
  column `k` (`gather_rows_apply`).

  `segment_sum(u, idx)` of updates `u : [E, C]` into `[N, C]` lowers to `stablehlo.scatter` with an `add` body,
  update_window_dims [1], inserted_window_dims [0], scatter_dims_to_operand_dims [0], index_vector_dim 1: at the extended
  reals element `(n, c)` of the result is the operand's plus the sum, over the rows `e` whose row number `idx[e, 0]`, read
  signed and NOT clamped, is `n`, of `u (e, c)` (`scatterAdd_rows_apply`). A row number outside `[0, N)` lands nowhere.

  Both for any sizes `N`, `E`, `C` and any index width.
-/
import Idealize.ShloMosaic.Lib.ValueIdx
import Idealize.ShloMosaic.PureOps.Ideal.Laws

noncomputable section

open scoped BigOperators

namespace Idealize.ShloMosaic.RowIndexing

open Idealize.ShloMosaic Idealize.ShloMosaic.ValueIdx

/-- The entry `[e, 0]` of an `[E, 1]` array of row numbers. -/
abbrev rowAt {E : Nat} (e : Fin E) : (⟨2, ![E, 1]⟩ : Shape).Idx := ix2 e (⟨0, Nat.one_pos⟩ : Fin 1)

/-! ## The gather of whole rows -/

section Gather
variable {α : Type}

/-- The dimension numbers of a gather of whole rows of an `[N, C]` operand at `[E, 1]` row numbers. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]`, read signed and clamped into `[0, N − 1]`, column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (rowAt e)).toInt.toNat (N - 1), by omega⟩ : Fin N) k) := by
  unfold Host.gather
  refine congrArg x ?_
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = rowAt e := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = _
    rw [GatherDims.batchCoord_eq_zero _ _ _ List.not_mem_nil]
    have hs : (rowGatherDims N E C wf).start (ix2 e k) idx 1 = 0 := by
      unfold GatherDims.start
      rw [dif_neg (show ¬ (1 : Fin 2) ∈ (rowGatherDims N E C wf).startIndexMap from
        fun h => absurd (List.mem_singleton.mp h) (show ¬ ((1 : Fin 2) = 0) by decide))]
    have ho : (rowGatherDims N E C wf).offCoord (ix2 e k) 1 = k.val := by
      unfold GatherDims.offCoord
      rw [dif_pos (show (1 : Fin 2) ∈ (rowGatherDims N E C wf).sKept from (GatherDims.mem_sKept _ _).mpr
        ⟨fun h => absurd (List.mem_singleton.mp h) (show ¬ ((1 : Fin 2) = 0) by decide), List.not_mem_nil⟩)]
      rfl
    rw [hs, ho, Nat.add_zero, Nat.zero_add]

end Gather

/-! ## The scatter-add of whole rows -/

section Scatter

/-- The dimension numbers of a scatter of `[E, C]` update rows into an `[N, C]` operand at `[E, 1]` row numbers. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the window of update `(e, k)` starts at the row number `idx[e, 0]`, read signed. -/
theorem rowScatter_start0 : (rowScatterDims N E C wf).start (ix2 e k) idx 0 = (idx (rowAt e)).toInt := by
  unfold ScatterDims.start
  rw [dif_pos (show (0 : Fin 2) ∈ (rowScatterDims N E C wf).scatterDimsToOperandDims from List.mem_singleton.mpr rfl)]
  have hsi : (rowScatterDims N E C wf).siIdx (ix2 e k) ⟨List.idxOf (0 : Fin 2) (rowScatterDims N E C wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

/-- On the column axis it starts at `0`. -/
theorem rowScatter_start1 : (rowScatterDims N E C wf).start (ix2 e k) idx 1 = 0 := by
  unfold ScatterDims.start
  rw [dif_neg (show ¬ (1 : Fin 2) ∈ (rowScatterDims N E C wf).scatterDimsToOperandDims from
    fun h => absurd (List.mem_singleton.mp h) (show ¬ ((1 : Fin 2) = 0) by decide))]

/-- The row axis is inserted: the window coordinate there is `0`. -/
theorem rowScatter_window0 : (rowScatterDims N E C wf).window (ix2 e k) 0 = 0 := by
  unfold ScatterDims.window
  rw [dif_neg]
  intro h
  have : (0 : Fin 2) ∈ (List.finRange 2).filter (fun a => a ∉ [(0 : Fin 2)]) := h
  simp at this

/-- On the column axis the window coordinate is the update's column. -/
theorem rowScatter_window1 : (rowScatterDims N E C wf).window (ix2 e k) 1 = k.val := by
  unfold ScatterDims.window
  rw [dif_pos]
  · rfl
  · show (1 : Fin 2) ∈ (List.finRange 2).filter (fun a => a ∉ [(0 : Fin 2)])
    simp

/-- Update `(e, k)` lands at `(n, c)` exactly when its row number, read signed, is `n` and `k = c`. -/
theorem rowScatter_resultIdx_eq_some_iff (n : Fin N) (c : Fin C) :
    (rowScatterDims N E C wf).resultIdx? (ix2 e k) idx = some (ix2 n c)
      ↔ (idx (rowAt e)).toInt = (n.val : Int) ∧ k = c := by
  have hs0 := rowScatter_start0 wf idx e k
  have hs1 := rowScatter_start1 wf idx e k
  have hw0 := rowScatter_window0 wf e k
  have hw1 := rowScatter_window1 wf e k
  have hn : n.val < N := n.isLt
  have hk : k.val < C := k.isLt
  unfold ScatterDims.resultIdx?
  split
  · rename_i h
    rw [Option.some.injEq]
    constructor
    · intro heq
      have e0 := congrArg Fin.val (congrFun heq 0)
      have e1 := congrArg Fin.val (congrFun heq 1)
      have h0 := (h 0).1
      simp only [hs0, hw0, hs1, hw1] at e0 e1 h0
      have e0' : ((idx (rowAt e)).toInt + ((0 : Nat) : Int)).toNat = n.val := e0
      have e1' : ((0 : Int) + (k.val : Int)).toNat = c.val := e1
      refine ⟨by omega, Fin.ext (by omega)⟩
    · rintro ⟨h0, rfl⟩
      funext a
      refine Fin.ext ?_
      match a with
      | ⟨0, _⟩ =>
        show ((rowScatterDims N E C wf).start (ix2 e k) idx 0 + ((rowScatterDims N E C wf).window (ix2 e k) 0 : Nat)).toNat = n.val
        rw [hs0, hw0, h0]; omega
      | ⟨1, _⟩ =>
        show ((rowScatterDims N E C wf).start (ix2 e k) idx 1 + ((rowScatterDims N E C wf).window (ix2 e k) 1 : Nat)).toNat = k.val
        rw [hs1, hw1]; omega
  · rename_i h
    constructor
    · intro heq; exact absurd heq (by simp)
    · rintro ⟨h0, rfl⟩
      exfalso
      apply h
      intro a
      match a with
      | ⟨0, _⟩ =>
        show 0 ≤ (rowScatterDims N E C wf).start (ix2 e k) idx 0 + ((rowScatterDims N E C wf).window (ix2 e k) 0 : Nat)
          ∧ (rowScatterDims N E C wf).start (ix2 e k) idx 0 + ((rowScatterDims N E C wf).window (ix2 e k) 0 : Nat) < (N : Int)
        rw [hs0, hw0, h0]; omega
      | ⟨1, _⟩ =>
        show 0 ≤ (rowScatterDims N E C wf).start (ix2 e k) idx 1 + ((rowScatterDims N E C wf).window (ix2 e k) 1 : Nat)
          ∧ (rowScatterDims N E C wf).start (ix2 e k) idx 1 + ((rowScatterDims N E C wf).window (ix2 e k) 1 : Nat) < (C : Int)
        rw [hs1, hw1]; omega

/-- THE ROW SCATTER-ADD READ AT `(n, c)`, on the extended reals: the operand there plus the sum over the update rows whose row
    number, read signed, is `n`, of the update at column `c`. -/
theorem scatterAdd_rows_apply {φ : FTy} (x : FVec Ideal ⟨2, ![N, C]⟩ φ) (upd : FVec Ideal ⟨2, ![E, C]⟩ φ) (n : Fin N) (c : Fin C) :
    Host.scatterAdd (rowScatterDims N E C wf) x idx upd (ix2 n c)
      = x (ix2 n c) + ∑ e : Fin E, if (idx (rowAt e)).toInt = (n.val : Int) then upd (ix2 e c) else 0 := by
  show x (ix2 n c) + ∑ j ∈ Finset.univ.filter (fun j => (rowScatterDims N E C wf).resultIdx? j idx = some (ix2 n c)), upd j = _
  refine congrArg (x (ix2 n c) + ·) ?_
  rw [Finset.sum_filter, sum_idx2]
  refine Finset.sum_congr rfl fun e _ => ?_
  simp only [rowScatter_resultIdx_eq_some_iff]
  by_cases h : (idx (rowAt e)).toInt = (n.val : Int)
  · simp only [h, true_and, if_true]
    rw [Finset.sum_ite_eq' Finset.univ c (fun k => upd (ix2 e k))]
    simp
  · simp [h]

end Scatter

end Idealize.ShloMosaic.RowIndexing

end
-- ==== Proof.LibVecGatherScatter.lean ====
/-
  Gather from a vector and scatter-add into a vector, read at an index.

  `v[idx]` of a vector `v : [N]` at `E` positions lowers to `stablehlo.gather` with no offset axis, collapsed_slice_dims [0],
  start_index_map [0], index_vector_dim 1 and slice sizes [1] over the positions as an `[E, 1]` array: result element `e`
  is `v` at position `idx[e, 0]`, read signed and clamped into `[0, N − 1]` (`gather_vec_apply`).

  `segment_sum(u, idx)` of updates `u : [E]` into `[N]` lowers to `stablehlo.scatter` with an `add` body, no update window
  axis, inserted_window_dims [0], scatter_dims_to_operand_dims [0], index_vector_dim 1: at the extended reals element `n` of
  the result is the operand's plus the sum, over the updates `e` whose position `idx[e, 0]`, read signed and NOT clamped,
  is `n`, of `u e` (`scatterAdd_vec_apply`). A position outside `[0, N)` lands nowhere.

  Both for any sizes `N`, `E` and any index width. Also: a sum over the indices of a rank-1 shape is the sum over its
  coordinate (`sum_idx1`).
-/
import Idealize.ShloMosaic.Lib.ValueIdx
import Idealize.ShloMosaic.PureOps.Ideal.Laws

noncomputable section

open scoped BigOperators

namespace Idealize.ShloMosaic.VecIndexing

open Idealize.ShloMosaic Idealize.ShloMosaic.ValueIdx

/-- A rank-1 index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The entry `[e, 0]` of an `[E, 1]` array of positions. -/
abbrev posAt {E : Nat} (e : Fin E) : (⟨2, ![E, 1]⟩ : Shape).Idx := ix2 e (⟨0, Nat.one_pos⟩ : Fin 1)

/-! ## The gather of single entries -/

section Gather
variable {α : Type}

/-- The dimension numbers of a gather of single entries of an `[N]` operand at `[E, 1]` positions. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at position `idx[e, 0]`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (posAt e)).toInt.toNat (N - 1), by omega⟩ : Fin N)) := by
  unfold Host.gather
  refine congrArg x ?_
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = posAt e := by
      funext b; refine Fin.ext ?_
      match b with
      | ⟨0, _⟩ => rfl
      | ⟨1, _⟩ => rfl
    rw [hsi]
    rfl

end Gather

/-! ## The scatter-add of single entries -/

section Scatter

/-- The dimension numbers of a scatter of `[E]` updates into an `[N]` operand at `[E, 1]` positions. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the position `idx[e, 0]`, read signed. -/
theorem vecScatter_start0 : (vecScatterDims N E wf).start (ix1 e) idx 0 = (idx (posAt e)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = posAt e := by
    funext b; refine Fin.ext ?_
    match b with
    | ⟨0, _⟩ => rfl
    | ⟨1, _⟩ => rfl
  rw [hsi]

/-- The one axis is inserted: the window coordinate there is `0`. -/
theorem vecScatter_window0 : (vecScatterDims N E wf).window (ix1 e) 0 = 0 := by
  unfold ScatterDims.window
  rw [dif_neg]
  intro h
  have : (0 : Fin 1) ∈ (List.finRange 1).filter (fun a => a ∉ [(0 : Fin 1)]) := h
  simp at this

/-- Update `e` lands at `n` exactly when its position, read signed, is `n`. -/
theorem vecScatter_resultIdx_eq_some_iff (n : Fin N) :
    (vecScatterDims N E wf).resultIdx? (ix1 e) idx = some (ix1 n) ↔ (idx (posAt e)).toInt = (n.val : Int) := by
  have hs0 := vecScatter_start0 wf idx e
  have hw0 := vecScatter_window0 wf e
  have hn : n.val < N := n.isLt
  unfold ScatterDims.resultIdx?
  split
  · rename_i h
    rw [Option.some.injEq]
    constructor
    · intro heq
      have e0 := congrArg Fin.val (congrFun heq 0)
      have h0 := (h 0).1
      simp only [hs0, hw0] at e0 h0
      have e0' : ((idx (posAt e)).toInt + ((0 : Nat) : Int)).toNat = n.val := e0
      omega
    · intro h0
      funext a
      refine Fin.ext ?_
      match a with
      | ⟨0, _⟩ =>
        show ((vecScatterDims N E wf).start (ix1 e) idx 0 + ((vecScatterDims N E wf).window (ix1 e) 0 : Nat)).toNat = n.val
        rw [hs0, hw0, h0]; omega
  · rename_i h
    constructor
    · intro heq; exact absurd heq (by simp)
    · intro h0
      exfalso
      apply h
      intro a
      match a with
      | ⟨0, _⟩ =>
        show 0 ≤ (vecScatterDims N E wf).start (ix1 e) idx 0 + ((vecScatterDims N E wf).window (ix1 e) 0 : Nat)
          ∧ (vecScatterDims N E wf).start (ix1 e) idx 0 + ((vecScatterDims N E wf).window (ix1 e) 0 : Nat) < (N : Int)
        rw [hs0, hw0, h0]; omega

/-- THE VECTOR SCATTER-ADD READ AT `n`, on the extended reals: the operand there plus the sum over the updates whose position,
    read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e : Fin E, if (idx (posAt e)).toInt = (n.val : Int) then upd (ix1 e) else 0 := by
  show x (ix1 n) + ∑ j ∈ Finset.univ.filter (fun j => (vecScatterDims N E wf).resultIdx? j idx = some (ix1 n)), upd j = _
  refine congrArg (x (ix1 n) + ·) ?_
  rw [Finset.sum_filter, sum_idx1]
  refine Finset.sum_congr rfl fun e _ => ?_
  simp only [vecScatter_resultIdx_eq_some_iff]

end Scatter

end Idealize.ShloMosaic.VecIndexing

end
-- ==== Proof.LibAggregateLinear.lean ====
/-
  A linear map commutes with a weighted aggregation, on the extended reals.

  Aggregating rows first and applying a matrix afterwards,
      ∑ k, (∑ e ∈ hits, x e k · a e) · w k ,
  is applying the matrix to every row first and aggregating afterwards,
      ∑ e ∈ hits, (∑ k, x e k · w k) · a e ,
  when every `x e k`, `w k` and `a e` is a real number: over ℝ this is distributivity and an exchange of the two finite sums.
  (With an infinite entry the two sides can differ: distributivity fails at `⊤ + ⊥`.)  The selection of the rows that hit is an
  `if` inside the sum, as a scatter-add read at an index leaves it.

  Also here: the coercion ℝ → EReal commutes with finite sums, and the reciprocal square root of a positive extended real is
  a real number (`⊤ ↦ 0`), so that `if 0 < y then rsqrt (max y ε) else 0` is real for every `y` and `ε`.
-/
import Idealize.ShloMosaic.PureOps.Ideal

noncomputable section

open scoped BigOperators

namespace Idealize.ShloMosaic.AggregateLinear

/-- The coercion of a finite real sum is the sum of the coercions. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem sum_isReal {ι : Type*} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih fun i hi => hf i (Finset.mem_insert_of_mem hi)
    obtain ⟨q, hq⟩ := hf a (Finset.mem_insert_self a s)
    exact ⟨q + r, by rw [Finset.sum_insert ha, hr, hq, EReal.coe_add]⟩

/-- AGGREGATE THEN MAP = MAP THEN AGGREGATE, when every entry is real. -/
theorem aggregate_map_comm {ι κ : Type*} [Fintype ι] [Fintype κ] (x : ι → κ → EReal) (w : κ → EReal) (a : ι → EReal)
    (p : ι → Prop) [DecidablePred p]
    (hx : ∀ e k, ∃ r : ℝ, x e k = r) (hw : ∀ k, ∃ r : ℝ, w k = r) (ha : ∀ e, ∃ r : ℝ, a e = r) :
    ∑ k, (∑ e, if p e then x e k * a e else 0) * w k = ∑ e, if p e then (∑ k, x e k * w k) * a e else 0 := by
  choose X hX using hx
  choose W hW using hw
  choose A hA using ha
  have hl : ∀ k, (∑ e, if p e then x e k * a e else 0) * w k
      = (((∑ e, if p e then X e k * A e else 0) * W k : ℝ) : EReal) := by
    intro k
    rw [EReal.coe_mul, coe_finset_sum, hW]
    refine congrArg (· * (W k : EReal)) (Finset.sum_congr rfl fun e _ => ?_)
    by_cases h : p e
    · rw [if_pos h, if_pos h, hX, hA, EReal.coe_mul]
    · rw [if_neg h, if_neg h, EReal.coe_zero]
  have hr : ∀ e, (if p e then (∑ k, x e k * w k) * a e else 0)
      = (((if p e then (∑ k, X e k * W k) * A e else 0 : ℝ)) : EReal) := by
    intro e
    by_cases h : p e
    · rw [if_pos h, if_pos h, EReal.coe_mul, coe_finset_sum, hA]
      refine congrArg (· * (A e : EReal)) (Finset.sum_congr rfl fun k _ => ?_)
      rw [hX, hW, EReal.coe_mul]
    · rw [if_neg h, if_neg h, EReal.coe_zero]
  simp only [hl, hr, ← coe_finset_sum]
  refine congrArg (fun r : ℝ => (r : EReal)) ?_
  simp only [Finset.sum_mul]
  rw [Finset.sum_comm]
  refine Finset.sum_congr rfl fun e _ => ?_
  by_cases h : p e
  · simp only [if_pos h]
    refine Finset.sum_congr rfl fun k _ => ?_
    ring
  · simp only [if_neg h, zero_mul, Finset.sum_const_zero]

/-- The reciprocal square root of a positive extended real is a real number (`⊤ ↦ 0`). -/
theorem rsqrt_isReal_of_pos (y : EReal) (h : 0 < y) : ∃ r : ℝ, Ideal.rsqrt y = r := by
  induction y using EReal.rec with
  | bot => exact absurd h (not_lt.mpr bot_le)
  | top => exact ⟨0, by rw [Ideal.rsqrt_top, EReal.coe_zero]⟩
  | coe r =>
    have hr : 0 < r := EReal.coe_pos.mp h
    refine ⟨(Real.sqrt r)⁻¹, ?_⟩
    rw [Ideal.rsqrt_coe, if_neg (not_lt.mpr hr.le), if_neg hr.ne']

end Idealize.ShloMosaic.AggregateLinear

end
-- ==== Proof.EdgeReal.lean ====
/-
  Gathered and scatter-added entries of real arrays are real.

  A row gather only copies entries of its operand, so each gathered entry is an entry of the operand. A scatter-add read
  at an index is the operand's entry plus a finite sum of update entries (those whose row number hits), so it is a real
  number when the operand's and the updates' entries are. When the operand is zero and every update is a nonnegative real
  (for instance the constant 1, as in a degree count), each entry of the result is a nonnegative real.

  All for any sizes and any index width, over indices `ix2 n c` / `ix1 n` and over the whole index type.
-/
import proofs.«138442_j46162308497633_2_alg».proof.Proof.LibRowGatherScatter
import proofs.«138442_j46162308497633_2_alg».proof.Proof.LibVecGatherScatter
import proofs.«138442_j46162308497633_2_alg».proof.Proof.LibAggregateLinear
import proofs.«138442_j46162308497633_2_alg».proof.Proof.GcnSpec

noncomputable section

open scoped BigOperators

namespace Gcn.EdgeReal

open Idealize.ShloMosaic Idealize.ShloMosaic.ValueIdx
open Idealize.ShloMosaic.RowIndexing Idealize.ShloMosaic.VecIndexing Idealize.ShloMosaic.AggregateLinear

/-- A nonnegative real number among the extended reals. -/
def IsNonnegReal (x : EReal) : Prop := ∃ r : ℝ, 0 ≤ r ∧ x = (r : EReal)

theorem IsNonnegReal.isReal {x : EReal} (h : IsNonnegReal x) : IsReal x := by
  obtain ⟨r, _, hr⟩ := h
  exact ⟨r, hr⟩

theorem isReal_zero : IsReal (0 : EReal) := ⟨0, EReal.coe_zero.symm⟩

theorem isNonnegReal_zero : IsNonnegReal (0 : EReal) := ⟨0, le_refl 0, EReal.coe_zero.symm⟩

theorem isNonnegReal_coe_one : IsNonnegReal ((1 : ℝ) : EReal) := ⟨1, zero_le_one, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem IsNonnegReal.add {x y : EReal} (hx : IsNonnegReal x) (hy : IsNonnegReal y) : IsNonnegReal (x + y) := by
  obtain ⟨a, ha, rfl⟩ := hx
  obtain ⟨b, hb, rfl⟩ := hy
  exact ⟨a + b, add_nonneg ha hb, (EReal.coe_add a b).symm⟩

/-- A finite sum of real numbers is a real number. -/
theorem isReal_sum {ι : Type*} (s : Finset ι) (f : ι → EReal) (hf : ∀ i ∈ s, IsReal (f i)) : IsReal (∑ i ∈ s, f i) :=
  sum_isReal s f hf

/-- A finite sum of nonnegative real numbers is a nonnegative real number. -/
theorem isNonnegReal_sum {ι : Type*} (s : Finset ι) (f : ι → EReal) (hf : ∀ i ∈ s, IsNonnegReal (f i)) :
    IsNonnegReal (∑ i ∈ s, f i) := by
  classical
  induction s using Finset.induction_on with
  | empty => rw [Finset.sum_empty]; exact isNonnegReal_zero
  | insert a s ha ih =>
    rw [Finset.sum_insert ha]
    exact (hf a (Finset.mem_insert_self a s)).add (ih fun i hi => hf i (Finset.mem_insert_of_mem hi))

/-- A selected sum `∑ e, if p e then f e else 0` of real numbers is real. -/
theorem isReal_sum_ite {ι : Type*} [Fintype ι] (p : ι → Prop) [DecidablePred p] (f : ι → EReal) (hf : ∀ e, IsReal (f e)) :
    IsReal (∑ e, if p e then f e else 0) := by
  refine isReal_sum _ _ fun e _ => ?_
  by_cases h : p e
  · rw [if_pos h]; exact hf e
  · rw [if_neg h]; exact isReal_zero

/-- A selected sum of nonnegative real numbers is a nonnegative real. -/
theorem isNonnegReal_sum_ite {ι : Type*} [Fintype ι] (p : ι → Prop) [DecidablePred p] (f : ι → EReal)
    (hf : ∀ e, IsNonnegReal (f e)) : IsNonnegReal (∑ e, if p e then f e else 0) := by
  refine isNonnegReal_sum _ _ fun e _ => ?_
  by_cases h : p e
  · rw [if_pos h]; exact hf e
  · rw [if_neg h]; exact isNonnegReal_zero

/-! ## The row gather -/

section RowGather
variable {α : Type} {N E C w : Nat}
  (wf : GatherDims.WF ⟨2, ![N, C]⟩ ⟨2, ![E, 1]⟩ ⟨2, ![E, C]⟩ [1] [0] [] [0] [] 1 ![1, C])

/-- Every gathered entry `(e, k)` is an entry of the operand. -/
theorem gather_rows_mem (hN : 0 < N) (x : (⟨2, ![N, C]⟩ : Shape).Idx → α) (idx : IVec ⟨2, ![E, 1]⟩ w) (e : Fin E) (k : Fin C) :
    ∃ j, Host.gather (rowGatherDims N E C wf) x idx (ix2 e k) = x j :=
  ⟨_, gather_rows_apply hN wf x idx e k⟩

/-- Every gathered entry is an entry of the operand. -/
theorem gather_rows_mem' (hN : 0 < N) (x : (⟨2, ![N, C]⟩ : Shape).Idx → α) (idx : IVec ⟨2, ![E, 1]⟩ w)
    (i : (⟨2, ![E, C]⟩ : Shape).Idx) : ∃ j, Host.gather (rowGatherDims N E C wf) x idx i = x j := by
  rw [eq_ix2 i]
  exact gather_rows_mem wf hN x idx (i 0) (i 1)

/-- A property of every entry of the operand holds of every gathered entry. -/
theorem gather_rows_forall (hN : 0 < N) (P : α → Prop) (x : (⟨2, ![N, C]⟩ : Shape).Idx → α) (idx : IVec ⟨2, ![E, 1]⟩ w)
    (hx : ∀ j, P (x j)) (i : (⟨2, ![E, C]⟩ : Shape).Idx) : P (Host.gather (rowGatherDims N E C wf) x idx i) := by
  obtain ⟨j, hj⟩ := gather_rows_mem' wf hN x idx i
  rw [hj]
  exact hx j

/-- The gathered rows of a real matrix are real, at `(e, k)`. -/
theorem gather_rows_isReal_ix2 (hN : 0 < N) (x : (⟨2, ![N, C]⟩ : Shape).Idx → EReal) (idx : IVec ⟨2, ![E, 1]⟩ w)
    (hx : ∀ j, IsReal (x j)) (e : Fin E) (k : Fin C) : IsReal (Host.gather (rowGatherDims N E C wf) x idx (ix2 e k)) :=
  gather_rows_forall wf hN IsReal x idx hx (ix2 e k)

/-- The gathered rows of a real matrix are real. -/
theorem gather_rows_isReal (hN : 0 < N) (x : (⟨2, ![N, C]⟩ : Shape).Idx → EReal) (idx : IVec ⟨2, ![E, 1]⟩ w)
    (hx : ∀ j, IsReal (x j)) (i : (⟨2, ![E, C]⟩ : Shape).Idx) : IsReal (Host.gather (rowGatherDims N E C wf) x idx i) :=
  gather_rows_forall wf hN IsReal x idx hx i

end RowGather

/-! ## The vector gather -/

section VecGather
variable {α : Type} {N E w : Nat}
  (wf : GatherDims.WF ⟨1, ![N]⟩ ⟨2, ![E, 1]⟩ ⟨1, ![E]⟩ [] [0] [] [0] [] 1 ![1])

/-- Every gathered entry is an entry of the operand. -/
theorem gather_vec_mem (hN : 0 < N) (x : (⟨1, ![N]⟩ : Shape).Idx → α) (idx : IVec ⟨2, ![E, 1]⟩ w)
    (i : (⟨1, ![E]⟩ : Shape).Idx) : ∃ j, Host.gather (vecGatherDims N E wf) x idx i = x j := by
  rw [eq_ix1 i]
  exact ⟨_, gather_vec_apply hN wf x idx (i 0)⟩

/-- A property of every entry of the operand holds of every gathered entry. -/
theorem gather_vec_forall (hN : 0 < N) (P : α → Prop) (x : (⟨1, ![N]⟩ : Shape).Idx → α) (idx : IVec ⟨2, ![E, 1]⟩ w)
    (hx : ∀ j, P (x j)) (i : (⟨1, ![E]⟩ : Shape).Idx) : P (Host.gather (vecGatherDims N E wf) x idx i) := by
  obtain ⟨j, hj⟩ := gather_vec_mem wf hN x idx i
  rw [hj]
  exact hx j

/-- The gathered entries of a real vector are real. -/
theorem gather_vec_isReal (hN : 0 < N) (x : (⟨1, ![N]⟩ : Shape).Idx → EReal) (idx : IVec ⟨2, ![E, 1]⟩ w)
    (hx : ∀ j, IsReal (x j)) (i : (⟨1, ![E]⟩ : Shape).Idx) : IsReal (Host.gather (vecGatherDims N E wf) x idx i) :=
  gather_vec_forall wf hN IsReal x idx hx i

end VecGather

/-! ## The row scatter-add -/

section RowScatter
variable {N E C w : Nat} (wf : ScatterDims.WF ⟨2, ![N, C]⟩ ⟨2, ![E, 1]⟩ ⟨2, ![E, C]⟩ [1] [0] [0] 1)
  {φ : FTy} (x : FVec Ideal ⟨2, ![N, C]⟩ φ) (idx : IVec ⟨2, ![E, 1]⟩ w) (upd : FVec Ideal ⟨2, ![E, C]⟩ φ)

/-- The row scatter-add of real updates into a real operand is real, at `(n, c)`. -/
theorem scatterAdd_rows_isReal_ix2 (hx : ∀ j, IsReal (x j)) (hu : ∀ j, IsReal (upd j)) (n : Fin N) (c : Fin C) :
    IsReal (Host.scatterAdd (rowScatterDims N E C wf) x idx upd (ix2 n c)) := by
  rw [scatterAdd_rows_apply wf idx x upd n c]
  exact isReal_add (hx _) (isReal_sum_ite _ (fun e => upd (ix2 e c)) fun e => hu _)

/-- The row scatter-add of real updates into a real operand is real. -/
theorem scatterAdd_rows_isReal (hx : ∀ j, IsReal (x j)) (hu : ∀ j, IsReal (upd j)) (i : (⟨2, ![N, C]⟩ : Shape).Idx) :
    IsReal (Host.scatterAdd (rowScatterDims N E C wf) x idx upd i) := by
  rw [eq_ix2 i]
  exact scatterAdd_rows_isReal_ix2 wf x idx upd hx hu (i 0) (i 1)

/-- The row scatter-add of nonnegative real updates into a nonnegative real operand is a nonnegative real, at `(n, c)`. -/
theorem scatterAdd_rows_isNonnegReal_ix2 (hx : ∀ j, IsNonnegReal (x j)) (hu : ∀ j, IsNonnegReal (upd j)) (n : Fin N) (c : Fin C) :
    IsNonnegReal (Host.scatterAdd (rowScatterDims N E C wf) x idx upd (ix2 n c)) := by
  rw [scatterAdd_rows_apply wf idx x upd n c]
  exact (hx _).add (isNonnegReal_sum_ite _ (fun e => upd (ix2 e c)) fun e => hu _)

/-- The row scatter-add of nonnegative real updates into a nonnegative real operand is a nonnegative real. -/
theorem scatterAdd_rows_isNonnegReal (hx : ∀ j, IsNonnegReal (x j)) (hu : ∀ j, IsNonnegReal (upd j))
    (i : (⟨2, ![N, C]⟩ : Shape).Idx) : IsNonnegReal (Host.scatterAdd (rowScatterDims N E C wf) x idx upd i) := by
  rw [eq_ix2 i]
  exact scatterAdd_rows_isNonnegReal_ix2 wf x idx upd hx hu (i 0) (i 1)

end RowScatter

/-! ## The vector scatter-add -/

section VecScatter
variable {N E w : Nat} (wf : ScatterDims.WF ⟨1, ![N]⟩ ⟨2, ![E, 1]⟩ ⟨1, ![E]⟩ [] [0] [0] 1)
  {φ : FTy} (x : FVec Ideal ⟨1, ![N]⟩ φ) (idx : IVec ⟨2, ![E, 1]⟩ w) (upd : FVec Ideal ⟨1, ![E]⟩ φ)

/-- The vector scatter-add of real updates into a real operand is real, at `n`. -/
theorem scatterAdd_vec_isReal_ix1 (hx : ∀ j, IsReal (x j)) (hu : ∀ j, IsReal (upd j)) (n : Fin N) :
    IsReal (Host.scatterAdd (vecScatterDims N E wf) x idx upd (ix1 n)) := by
  rw [scatterAdd_vec_apply wf idx x upd n]
  exact isReal_add (hx _) (isReal_sum_ite _ (fun e => upd (ix1 e)) fun e => hu _)

/-- The vector scatter-add of real updates into a real operand is real. -/
theorem scatterAdd_vec_isReal (hx : ∀ j, IsReal (x j)) (hu : ∀ j, IsReal (upd j)) (i : (⟨1, ![N]⟩ : Shape).Idx) :
    IsReal (Host.scatterAdd (vecScatterDims N E wf) x idx upd i) := by
  rw [eq_ix1 i]
  exact scatterAdd_vec_isReal_ix1 wf x idx upd hx hu (i 0)

/-- The vector scatter-add of nonnegative real updates into a nonnegative real operand is a nonnegative real, at `n`. -/
theorem scatterAdd_vec_isNonnegReal_ix1 (hx : ∀ j, IsNonnegReal (x j)) (hu : ∀ j, IsNonnegReal (upd j)) (n : Fin N) :
    IsNonnegReal (Host.scatterAdd (vecScatterDims N E wf) x idx upd (ix1 n)) := by
  rw [scatterAdd_vec_apply wf idx x upd n]
  exact (hx _).add (isNonnegReal_sum_ite _ (fun e => upd (ix1 e)) fun e => hu _)

/-- The vector scatter-add of nonnegative real updates into a nonnegative real operand is a nonnegative real. -/
theorem scatterAdd_vec_isNonnegReal (hx : ∀ j, IsNonnegReal (x j)) (hu : ∀ j, IsNonnegReal (upd j))
    (i : (⟨1, ![N]⟩ : Shape).Idx) : IsNonnegReal (Host.scatterAdd (vecScatterDims N E wf) x idx upd i) := by
  rw [eq_ix1 i]
  exact scatterAdd_vec_isNonnegReal_ix1 wf x idx upd hx hu (i 0)

/-- A count: scatter-adding the real `1` into zeros gives a nonnegative real at every position `n`. -/
theorem scatterAdd_vec_count_ix1 (hx : ∀ j, x j = 0) (hu : ∀ j, upd j = ((1 : ℝ) : EReal)) (n : Fin N) :
    ∃ r : ℝ, 0 ≤ r ∧ Host.scatterAdd (vecScatterDims N E wf) x idx upd (ix1 n) = (r : EReal) :=
  scatterAdd_vec_isNonnegReal_ix1 wf x idx upd (fun j => by rw [hx j]; exact isNonnegReal_zero)
    (fun j => by rw [hu j]; exact isNonnegReal_coe_one) n

/-- A count: scatter-adding the real `1` into zeros gives a nonnegative real at every index. -/
theorem scatterAdd_vec_count (hx : ∀ j, x j = 0) (hu : ∀ j, upd j = ((1 : ℝ) : EReal)) (i : (⟨1, ![N]⟩ : Shape).Idx) :
    ∃ r : ℝ, 0 ≤ r ∧ Host.scatterAdd (vecScatterDims N E wf) x idx upd i = (r : EReal) :=
  scatterAdd_vec_isNonnegReal wf x idx upd (fun j => by rw [hx j]; exact isNonnegReal_zero)
    (fun j => by rw [hu j]; exact isNonnegReal_coe_one) i

end VecScatter

end Gcn.EdgeReal

end
-- ==== Proof.LibBlockSums.lean ====
import Mathlib

/-! # Sums over a range cut into equal blocks, and running sums

Two regroupings of a finite sum in a commutative additive monoid (the extended reals among them: no
finiteness is asked):

* `sum_blocks`: a sum over `a · b` consecutive positions is the sum, over the `a` blocks of `b` consecutive
  positions, of each block's sum: `∑ n < a, ∑ q < b, f (b · n + q) = ∑ j < a · b, f j`. The literal forms
  `8 · 512 = 4096` and `4 · 1024 = 4096` state it over `Fin 4096`.
* `foldl_add_eq_sum` / `runningSum_eq_sum`: an accumulator that starts at `0` and adds `g n` at step `n`
  holds, after all `N` steps, `∑ n < N, g n`. -/

open scoped BigOperators

namespace Cert.BlockSums

variable {M : Type*} [AddCommMonoid M]

/-- Position `b · n + q` of block `n`, offset `q`, lies below `a · b`. -/
theorem block_pos_lt {a b : ℕ} (n : Fin a) (q : Fin b) : b * n.val + q.val < a * b := by
  have hn := n.isLt
  have hq := q.isLt
  calc b * n.val + q.val < b * n.val + b := by omega
    _ = b * (n.val + 1) := by ring
    _ ≤ b * a := Nat.mul_le_mul_left b hn
    _ = a * b := Nat.mul_comm b a

/-- A sum over `a · b` positions, block by block. -/
theorem sum_blocks (a b : ℕ) (f : ℕ → M) :
    ∑ n : Fin a, ∑ q : Fin b, f (b * n.val + q.val) = ∑ j : Fin (a * b), f j.val := by
  rw [← Fintype.sum_prod_type', ← Equiv.sum_comp (finProdFinEquiv (m := a) (n := b))]
  refine Finset.sum_congr rfl fun p _ => ?_
  show f (b * p.1.val + p.2.val) = f (p.2.val + b * p.1.val)
  rw [Nat.add_comm]

/-- The same over `Fin N` with `N = a · b`, for a function of the position as an element of `Fin N`. -/
theorem sum_blocks_fin {N : ℕ} (a b : ℕ) (h : a * b = N) (f : Fin N → M) :
    ∑ n : Fin a, ∑ q : Fin b, f ⟨b * n.val + q.val, h ▸ block_pos_lt n q⟩ = ∑ j : Fin N, f j := by
  subst h
  have key := sum_blocks a b (fun j => if hj : j < a * b then f ⟨j, hj⟩ else 0)
  simp only [block_pos_lt, dif_pos, Fin.is_lt, Fin.eta] at key
  exact key

/-- Eight blocks of 512 positions make up 4096 positions. -/
theorem sum_blocks_8_512 (f : Fin 4096 → M) :
    ∑ n : Fin 8, ∑ q : Fin 512, f ⟨512 * n.val + q.val, by have := n.isLt; have := q.isLt; omega⟩
      = ∑ j : Fin 4096, f j :=
  sum_blocks_fin 8 512 rfl f

/-- Four blocks of 1024 positions make up 4096 positions. -/
theorem sum_blocks_4_1024 (f : Fin 4096 → M) :
    ∑ n : Fin 4, ∑ q : Fin 1024, f ⟨1024 * n.val + q.val, by have := n.isLt; have := q.isLt; omega⟩
      = ∑ j : Fin 4096, f j :=
  sum_blocks_fin 4 1024 rfl f

/-- A left fold that adds `g n` at step `n`, from `init`, over the first `N` steps, is `init` plus the sum. -/
theorem foldl_add_eq_sum (g : ℕ → M) (init : M) (N : ℕ) :
    (List.range N).foldl (fun acc n => acc + g n) init = init + ∑ n ∈ Finset.range N, g n := by
  induction N with
  | zero => simp
  | succ N ih =>
    rw [List.range_succ, List.foldl_append, ih, Finset.sum_range_succ]
    show init + ∑ n ∈ Finset.range N, g n + g N = _
    rw [add_assoc]

/-- The running sum: `acc 0 = 0`, `acc (n + 1) = acc n + g n`. -/
def runningSum (g : ℕ → M) : ℕ → M
  | 0 => 0
  | n + 1 => runningSum g n + g n

/-- After `N` steps the running sum is `∑ n < N, g n`. -/
theorem runningSum_eq_sum (g : ℕ → M) (N : ℕ) : runningSum g N = ∑ n ∈ Finset.range N, g n := by
  induction N with
  | zero => rfl
  | succ N ih => rw [runningSum, ih, Finset.sum_range_succ]

/-- Any accumulator sequence that starts at `0` and adds `g n` at step `n` is, after `N` steps, the sum over
    `Fin N` of `g`. -/
theorem acc_eq_sum_fin (g : ℕ → M) (acc : ℕ → M) (h0 : acc 0 = 0) (hs : ∀ n, acc (n + 1) = acc n + g n) (N : ℕ) :
    acc N = ∑ n : Fin N, g n.val := by
  rw [Fin.sum_univ_eq_sum_range (fun n => g n) N]
  induction N with
  | zero => simpa using h0
  | succ N ih => rw [hs, ih, Finset.sum_range_succ]

end Cert.BlockSums
-- ==== Proof.GcnLaws.lean ====
/-
  The two ways of taking a layer's column statistics agree on real matrices.

  Summing a column tile by tile is a regrouping of summing it in one go. With column sum S, sum of squares Q and n rows,
  Q/n − (S/n)² = (1/n) ∑ (f − S/n)² ≥ 0 over the reals, so the clamped difference of moments is the centred variance. Real
  inputs give real outputs through every step of a layer (the variance is a nonnegative real, so its sum with ε is positive and
  the reciprocal square root is real), and so four layers in a row agree.
-/
import proofs.«138442_j46162308497633_2_alg».proof.Proof.GcnSpec
import proofs.«138442_j46162308497633_2_alg».proof.Proof.LibBlockSums
import proofs.«138442_j46162308497633_2_alg».proof.Proof.LibAggregateLinear

noncomputable section

namespace Gcn

open Idealize.ShloMosaic
open scoped BigOperators

/-! ### The three float patterns -/

theorem one_eq : one = ((1 : ℝ) : EReal) := by
  simp [one, Ideal.ofBits, Ideal.ieee, -EReal.coe_mul]; norm_num

theorem nodes_eq : nodes = ((100000 : ℝ) : EReal) := by
  simp [nodes, Ideal.ofBits, Ideal.ieee, -EReal.coe_mul]; norm_num

theorem eps_eq : eps = ((10995116 * (2 : ℝ) ^ (-40 : ℤ) : ℝ) : EReal) := by
  simp [eps, Ideal.ofBits, Ideal.ieee, -EReal.coe_mul]

theorem eps_pos : ∃ e : ℝ, 0 < e ∧ eps = (e : EReal) :=
  ⟨10995116 * (2 : ℝ) ^ (-40 : ℤ), by positivity, eps_eq⟩

/-! ### Real numbers among the extended reals -/

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem coe_max (a b : ℝ) : max (a : EReal) (b : EReal) = ((max a b : ℝ) : EReal) :=
  (EReal.coe_strictMono.monotone.map_max).symm

theorem IsReal.max {x y : EReal} (hx : IsReal x) (hy : IsReal y) : IsReal (max x y) := by
  obtain ⟨a, rfl⟩ := hx; obtain ⟨b, rfl⟩ := hy; exact ⟨Max.max a b, coe_max a b⟩

theorem isReal_zero : IsReal (0 : EReal) := ⟨0, EReal.coe_zero.symm⟩

theorem isReal_sum {ι : Type*} [Fintype ι] (f : ι → EReal) (hf : ∀ i, IsReal (f i)) : IsReal (∑ i, f i) :=
  AggregateLinear.sum_isReal Finset.univ f fun i _ => hf i

/-! ### Column sums and means of a real matrix -/

theorem tileSum_eq_fullSum (f : Mat 100000 128) : tileSum f = fullSum f := by
  funext q
  unfold tileSum fullSum
  exact congrArg (fun s => 0 + s) (Cert.BlockSums.sum_blocks_fin 50 2000 rfl (fun i => f i q))

/-- The whole-column sum of a matrix of reals is the real sum. -/
theorem fullSum_coe (F : Fin 100000 → Fin 128 → ℝ) (q : Fin 128) :
    fullSum (fun p q => (F p q : EReal)) q = ((∑ i, F i q : ℝ) : EReal) := by
  unfold fullSum
  rw [zero_add, AggregateLinear.coe_finset_sum]

/-- The mean of a real column sum is the real quotient by the row count. -/
theorem meanOf_coe (s : Col 128) (q : Fin 128) (r : ℝ) (h : s q = (r : EReal)) :
    meanOf s q = ((r / 100000 : ℝ) : EReal) := by
  unfold meanOf
  rw [nodes_eq, Ideal.div_coe (by norm_num), h, ← EReal.coe_mul]
  exact congrArg _ (by ring)

/-- Over the reals: the difference of moments is the mean squared deviation, and it is nonnegative. -/
theorem moments_eq_centred {ι : Type*} [Fintype ι] (g : ι → ℝ) (n : ℝ) (hn : (Fintype.card ι : ℝ) = n) (hpos : 0 < n) :
    (∑ i, g i * g i) / n - (∑ i, g i) / n * ((∑ i, g i) / n)
      = (∑ i, (g i - (∑ j, g j) / n) * (g i - (∑ j, g j) / n)) / n := by
  set S := ∑ i, g i with hS
  have hexp : ∀ i, (g i - S / n) * (g i - S / n) = g i * g i - 2 * (S / n) * g i + S / n * (S / n) := fun i => by ring
  have key : ∑ i, (g i - S / n) * (g i - S / n) = (∑ i, g i * g i) - S * S / n := by
    simp only [hexp]
    rw [Finset.sum_add_distrib, Finset.sum_sub_distrib, ← Finset.mul_sum, Finset.sum_const, Finset.card_univ,
      nsmul_eq_mul, hn, ← hS]
    field_simp
    ring
  rw [key]
  field_simp

theorem centred_nonneg {ι : Type*} [Fintype ι] (g : ι → ℝ) (m n : ℝ) (hpos : 0 < n) :
    0 ≤ (∑ i, (g i - m) * (g i - m)) / n :=
  div_nonneg (Finset.sum_nonneg fun i _ => mul_self_nonneg _) hpos.le

/-- The centred variance of a matrix of reals, as a real number. -/
theorem varCentred_coe (F : Fin 100000 → Fin 128 → ℝ) (q : Fin 128) :
    varCentred (fun p q => (F p q : EReal)) q
      = (((∑ i, (F i q - (∑ j, F j q) / 100000) * (F i q - (∑ j, F j q) / 100000)) / 100000 : ℝ) : EReal) := by
  unfold varCentred
  have hmean : ∀ q, meanOf (fullSum fun p q => (F p q : EReal)) q = (((∑ j, F j q) / 100000 : ℝ) : EReal) :=
    fun q => meanOf_coe _ q _ (fullSum_coe F q)
  have hsq : (sq fun p q => (F p q : EReal) - meanOf (fullSum fun p q => (F p q : EReal)) q)
      = fun p q => (((F p q - (∑ j, F j q) / 100000) * (F p q - (∑ j, F j q) / 100000) : ℝ) : EReal) := by
    funext p q
    unfold sq
    beta_reduce
    rw [hmean, ← EReal.coe_sub, ← EReal.coe_mul]
  rw [hsq]
  exact meanOf_coe _ q _ (fullSum_coe _ q)

/-- The moment form of the variance of a matrix of reals, as a real number. -/
theorem varTiled_coe (F : Fin 100000 → Fin 128 → ℝ) (q : Fin 128) :
    varTiled (fun p q => (F p q : EReal)) q
      = ((Max.max ((∑ i, F i q * F i q) / 100000 - (∑ i, F i q) / 100000 * ((∑ i, F i q) / 100000)) 0 : ℝ) : EReal) := by
  unfold varTiled
  rw [tileSum_eq_fullSum, tileSum_eq_fullSum]
  have hsq : (sq fun p q => (F p q : EReal)) = fun p q => ((F p q * F p q : ℝ) : EReal) := by
    funext p q
    unfold sq
    beta_reduce
    rw [← EReal.coe_mul]
  rw [hsq, meanOf_coe _ q _ (fullSum_coe _ q), meanOf_coe _ q _ (fullSum_coe F q), ← EReal.coe_mul, ← EReal.coe_sub,
    ← EReal.coe_zero, coe_max]

theorem varTiled_eq_varCentred (f : Mat 100000 128) (hf : RealM f) : varTiled f = varCentred f := by
  choose F hF using hf
  obtain rfl : f = fun p q => (F p q : EReal) := funext fun p => funext fun q => hF p q
  funext q
  rw [varTiled_coe, varCentred_coe]
  have hcard : ((Fintype.card (Fin 100000) : ℕ) : ℝ) = 100000 := by rw [Fintype.card_fin]; norm_num
  have h := moments_eq_centred (fun i => F i q) 100000 hcard (by norm_num)
  rw [h, max_eq_left (centred_nonneg _ _ _ (by norm_num))]

theorem layer_eq (agg : Mat 100000 128 → Mat 100000 128) (sOut sIn : Col 100000) (w : Mat 128 128) (b g bt : Col 128)
    (x : Mat 100000 128) (h : RealM (preNorm agg sOut sIn w b x)) :
    layerTiled agg sOut sIn w b g bt x = layerWhole agg sOut sIn w b g bt x := by
  unfold layerTiled layerWhole
  rw [tileSum_eq_fullSum, varTiled_eq_varCentred _ h]

/-! ### Real inputs give real outputs -/

theorem real_affine {n k h : Nat} {l : Mat n k} {w : Mat k h} {b : Col h} (hl : RealM l) (hw : RealM w) (hb : RealC b) :
    RealM (affine l w b) :=
  fun p q => (isReal_sum _ fun j => (hl p j).mul (hw j q)).add (hb q)

theorem real_scaleRows {n h : Nat} {x : Mat n h} {s : Col n} (hx : RealM x) (hs : RealC s) : RealM (scaleRows x s) :=
  fun p q => (hx p q).mul (hs p)

theorem real_invSqrtDeg {n : Nat} (d : Col n) (hd : ∀ p, ∃ r : ℝ, 0 ≤ r ∧ d p = (r : EReal)) : RealC (invSqrtDeg d) := by
  intro p
  obtain ⟨r, _, hr⟩ := hd p
  unfold invSqrtDeg
  rw [hr, one_eq, coe_max]
  refine AggregateLinear.rsqrt_isReal_of_pos _ (EReal.coe_pos.mpr ?_)
  exact lt_of_lt_of_le one_pos (le_max_left 1 r)

theorem real_preNorm {agg : Mat 100000 128 → Mat 100000 128} (hagg : ∀ y, RealM y → RealM (agg y))
    {sOut sIn : Col 100000} (hO : RealC sOut) (hI : RealC sIn) {w : Mat 128 128} {b : Col 128} (hw : RealM w) (hb : RealC b)
    {x : Mat 100000 128} (hx : RealM x) : RealM (preNorm agg sOut sIn w b x) :=
  real_affine (real_scaleRows (hagg _ (real_scaleRows hx hO)) hI) hw hb

/-- Batch normalisation over whole columns keeps a real matrix real. -/
theorem real_bnWhole {x hn : Mat 100000 128} {g bt : Col 128} (hx : RealM x) (hh : RealM hn) (hg : RealC g) (hbt : RealC bt) :
    RealM (bnRes x hn (meanOf (fullSum hn)) (varCentred hn) g bt) := by
  choose H hH using hh
  obtain rfl : hn = fun p q => (H p q : EReal) := funext fun p => funext fun q => hH p q
  intro p q
  unfold bnRes
  have hmu : IsReal (meanOf (fullSum fun p q => (H p q : EReal)) q) := ⟨_, meanOf_coe _ q _ (fullSum_coe H q)⟩
  have hrs : IsReal (Ideal.rsqrt (varCentred (fun p q => (H p q : EReal)) q + eps)) := by
    obtain ⟨e, he, hee⟩ := eps_pos
    rw [varCentred_coe, hee, ← EReal.coe_add]
    refine AggregateLinear.rsqrt_isReal_of_pos _ (EReal.coe_pos.mpr ?_)
    exact add_pos_of_nonneg_of_pos (centred_nonneg _ _ _ (by norm_num)) he
  exact (hx p q).add ((((((isReal_coe _).sub hmu).mul hrs).mul (hg q)).add (hbt q)).max isReal_zero)

theorem real_layerWhole {agg : Mat 100000 128 → Mat 100000 128} (hagg : ∀ y, RealM y → RealM (agg y))
    {sOut sIn : Col 100000} (hO : RealC sOut) (hI : RealC sIn) {w : Mat 128 128} {b g bt : Col 128} (hw : RealM w)
    (hb : RealC b) (hg : RealC g) (hbt : RealC bt) {x : Mat 100000 128} (hx : RealM x) :
    RealM (layerWhole agg sOut sIn w b g bt x) := by
  unfold layerWhole
  exact real_bnWhole hx (real_preNorm hagg hO hI hw hb hx) hg hbt

/-! ### Four layers -/

theorem four_layers (agg : Mat 100000 128 → Mat 100000 128) (hagg : ∀ y, RealM y → RealM (agg y))
    (sOut sIn : Col 100000) (hO : RealC sOut) (hI : RealC sIn) (w : Fin 4 → Mat 128 128) (b g bt : Fin 4 → Col 128)
    (hw : ∀ l, RealM (w l)) (hb : ∀ l, RealC (b l)) (hg : ∀ l, RealC (g l)) (hbt : ∀ l, RealC (bt l))
    (x : Mat 100000 128) (hx : RealM x) :
    layerTiled agg sOut sIn (w 3) (b 3) (g 3) (bt 3) (layerTiled agg sOut sIn (w 2) (b 2) (g 2) (bt 2)
      (layerTiled agg sOut sIn (w 1) (b 1) (g 1) (bt 1) (layerTiled agg sOut sIn (w 0) (b 0) (g 0) (bt 0) x)))
    = layerWhole agg sOut sIn (w 3) (b 3) (g 3) (bt 3) (layerWhole agg sOut sIn (w 2) (b 2) (g 2) (bt 2)
      (layerWhole agg sOut sIn (w 1) (b 1) (g 1) (bt 1) (layerWhole agg sOut sIn (w 0) (b 0) (g 0) (bt 0) x))) := by
  have step : ∀ (l : Fin 4) (y : Mat 100000 128), RealM y →
      layerTiled agg sOut sIn (w l) (b l) (g l) (bt l) y = layerWhole agg sOut sIn (w l) (b l) (g l) (bt l) y ∧
      RealM (layerWhole agg sOut sIn (w l) (b l) (g l) (bt l) y) := fun l y hy =>
    ⟨layer_eq agg sOut sIn (w l) (b l) (g l) (bt l) y (real_preNorm hagg hO hI (hw l) (hb l) hy),
      real_layerWhole hagg hO hI (hw l) (hb l) (hg l) (hbt l) hy⟩
  obtain ⟨e0, r0⟩ := step 0 x hx
  rw [e0]
  obtain ⟨e1, r1⟩ := step 1 _ r0
  rw [e1]
  obtain ⟨e2, r2⟩ := step 2 _ r1
  rw [e2]
  exact (step 3 _ r2).1

end Gcn

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.LibSideBySide.lean ====
/-
  Layout and clamp lemmas for any sizes.  Two matrices with the same rows laid side by side, read at a column of
  the first or of the second; a sum over a + b positions split into the first a and the last b; a one-column matrix read
  as a vector; a scalar spread over any shape; the select on the comparison x ≥ 0 as an if-then-else; and the two
  spellings of a leaky clamp (branching on 0 ≤ x or on 0 < x), equal because both give 0 at 0.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx

variable {α : Type}

/-- Two arrays with the same rows laid side by side: a column in the first a columns reads the first array. -/
theorem sideBySide_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin a) (hk : k'.val = k.val) :
    concatenate (⟨2, ![n, c]⟩ : Shape) (1 : Fin 2) [⟨⟨2, ![n, a]⟩, x⟩, ⟨⟨2, ![n, b]⟩, y⟩] h (ix2 p k) = x (ix2 p k') :=
  concatenate_pair_apply_left (1 : Fin 2) x y h (ix2 p k) rfl (ix2 p k') (fun d => match d with
    | ⟨0, _⟩ => rfl
    | ⟨1, _⟩ => hk)

/-- Two arrays with the same rows laid side by side: a column past the first a reads the second array, a columns
    earlier. -/
theorem sideBySide_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin b) (hk : k'.val + a = k.val) :
    concatenate (⟨2, ![n, c]⟩ : Shape) (1 : Fin 2) [⟨⟨2, ![n, a]⟩, x⟩, ⟨⟨2, ![n, b]⟩, y⟩] h (ix2 p k) = y (ix2 p k') :=
  concatenate_pair_apply_right (1 : Fin 2) x y h (ix2 p k) rfl rfl (ix2 p k') (fun d hd => match d, hd with
    | ⟨0, _⟩, _ => rfl
    | ⟨1, _⟩, hd => absurd rfl hd) hk

/-- A sum over a + b positions is the sum over the first a plus the sum over the last b. -/
theorem sum_split {M : Type*} [AddCommMonoid M] {a b c : Nat} (hc : a + b = c) (f : Fin c → M) :
    ∑ k : Fin c, f k = (∑ k : Fin a, f ⟨k.val, by omega⟩) + ∑ k : Fin b, f ⟨a + k.val, by omega⟩ := by
  subst hc
  rw [Fin.sum_univ_add]
  rfl

/-- A one-column matrix read as a vector: entry p is the matrix's entry (p, 0). -/
theorem colAsVec_apply {a : Nat} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A scalar spread over any shape reads the scalar everywhere. -/
theorem splat_apply {t : Shape} (h : (⟨0, ![]⟩ : Shape).BroadcastsInDim t (![] : Fin 0 → Fin t.rank))
    (x : (⟨0, ![]⟩ : Shape).Idx → α) (j : t.Idx) : broadcastInDim t (![] : Fin 0 → Fin t.rank) h x j = x ix0 :=
  broadcastInDim_apply (![] : Fin 0 → Fin t.rank) h x j ix0 (fun a => a.elim0)

/-- The two leaky clamps agree: at 0 one takes the branch x, the other c · x, and both are 0. -/
theorem leaky_of_ge (c x : EReal) : (if 0 ≤ x then x else c * x) = (if 0 < x then x else c * x) := by
  by_cases h : 0 < x
  · rw [if_pos h, if_pos h.le]
  · rw [if_neg h]
    by_cases h0 : 0 ≤ x
    · have hx : x = 0 := le_antisymm (not_lt.mp h) h0
      rw [if_pos h0, hx, mul_zero]
    · rw [if_neg h0]

/-- A select on the comparison "x ≥ 0" (0 as its f32 pattern) is the if-then-else on 0 ≤ x. -/
theorem select_oge_zero {β : Type} (x : EReal) (a b : β) :
    Scalar.select (FloatOps.cmpf (F := Ideal) (φ := .f32) .oge x (Ideal.ofBits .f32 0x00000000#32)) a b
      = if 0 ≤ x then a else b := by
  rw [Ideal.ofBits_zero_f32]
  show Scalar.select (Ideal.cmp .oge x 0) a b = _
  unfold Ideal.cmp
  by_cases h : (0 : EReal) ≤ x
  · rw [if_pos h]; simp only [decide_eq_true h, BitVec.ofBool_true]; exact select_one a b
  · rw [if_neg h]; simp only [decide_eq_false h, BitVec.ofBool_false]; exact select_zero a b

end Cert.Bridge

end
-- ==== Proof.KTermsReal.lean ====
/-
  The host-side terms of the kernel program as the graph network's normalisers, aggregation and per-graph mean.

  The out- and in-degree normalisers are rsqrt (max 1 deg) of a degree count, read entry by entry; a degree count is a
  nonnegative real (a finite sum of ones), so the normalisers are real. The edge aggregation copies entries of its real
  operand and adds finitely many of them into zeros, so it keeps a real matrix real. The per-graph mean is the pooled sum
  divided entry by entry by the clamped graph size.
-/
import proofs.«138442_j46162308497633_2_alg».proof.Proof.KTerms
import proofs.«138442_j46162308497633_2_alg».proof.Proof.EdgeReal
import proofs.«138442_j46162308497633_2_alg».proof.Proof.GcnLaws
import proofs.«138442_j46162308497633_2_alg».proof.Proof.LibBroadcastInDim2
import proofs.«138442_j46162308497633_2_alg».proof.Proof.LibSideBySide
import Idealize.ShloMosaic.Lib.IdealHost

set_option maxRecDepth 16384

noncomputable section

namespace Cert.KernelIdeal.TermsReal

open Idealize.ShloMosaic Idealize.ShloMosaic.ValueIdx Idealize.SL.Sem Cert.KernelIdeal Cert.KernelIdeal.Gen
open Idealize.ShloMosaic.BroadcastInDim2 Cert.Bridge

/-! ### A rank-2 array as a matrix and back -/

theorem toMat_ofMat {a b : Nat} (g : Gcn.Mat a b) : Gcn.toMat (Gcn.ofMat g) = g := rfl

theorem ofMat_toMat {a b : Nat} (f : (⟨2, ![a, b]⟩ : Shape).Idx → EReal) : Gcn.ofMat (Gcn.toMat f) = f := by
  funext i
  exact congrArg f (eq_ix2 i).symm

/-! ### The host's elementwise operations read at an index -/

theorem hostRsqrt_apply {s : Shape} {φ : FTy} (x : FVec Ideal s φ) (i : s.Idx) : Host.rsqrt x i = Ideal.rsqrt (x i) := rfl

theorem toMat_apply {a b : Nat} (f : (⟨2, ![a, b]⟩ : Shape).Idx → EReal) (p : Fin a) (q : Fin b) :
    Gcn.toMat f p q = f (ix2 p q) := rfl

theorem vecOf_apply {a : Nat} (f : (⟨1, ![a]⟩ : Shape).Idx → EReal) (p : Fin a) : Gcn.vecOf f p = f (ix1 p) := rfl

theorem colOf_apply {a : Nat} (f : (⟨2, ![a, 1]⟩ : Shape).Idx → EReal) (p : Fin a) : Gcn.colOf f p = f (ix2 p 0) := rfl

/-! ### The scalars spread over a shape -/

theorem zeros_apply {t : Shape} (h : (⟨0, ![]⟩ : Shape).BroadcastsInDim t (![] : Fin 0 → Fin t.rank)) (j : t.Idx) :
    broadcastInDim t (![] : Fin 0 → Fin t.rank) h Terms.zeroS j = 0 := by
  rw [splat_apply]
  exact Ideal.ofBits_zero_f32

theorem ones_apply {t : Shape} (h : (⟨0, ![]⟩ : Shape).BroadcastsInDim t (![] : Fin 0 → Fin t.rank)) (j : t.Idx) :
    broadcastInDim t (![] : Fin 0 → Fin t.rank) h Terms.oneS j = Gcn.one := by
  rw [splat_apply]
  rfl

/-! ### The degree normalisers -/

theorem invDeg_apply (a : Terms.IArr S1600000) (p : Fin 100000) :
    Terms.invDeg a (ix2 p 0) = Ideal.rsqrt (max Gcn.one (Terms.deg a (ix1 p))) := by
  unfold Terms.invDeg
  rw [vecToCol_apply, hostRsqrt_apply]
  unfold Terms.clipDeg
  rw [maximumf_apply, id_eq, ones_apply]

theorem sOut_eq (a14 : Terms.IArr S1600000) : Terms.sOut a14 = Gcn.invSqrtDeg (Gcn.vecOf (Terms.deg a14)) := by
  funext p
  unfold Terms.sOut Gcn.invSqrtDeg
  rw [colOf_apply, vecOf_apply]
  exact invDeg_apply a14 p

theorem sIn_eq (a15 : Terms.IArr S1600000) : Terms.sIn a15 = Gcn.invSqrtDeg (Gcn.vecOf (Terms.deg a15)) := by
  funext p
  unfold Terms.sIn Gcn.invSqrtDeg
  rw [colOf_apply, vecOf_apply]
  exact invDeg_apply a15 p

/-- A degree count is a nonnegative real at every node. -/
theorem deg_nonneg (a : Terms.IArr S1600000) (p : Fin 100000) :
    ∃ r : ℝ, 0 ≤ r ∧ Gcn.vecOf (Terms.deg a) p = (r : EReal) := by
  rw [vecOf_apply]
  unfold Terms.deg
  exact Gcn.EdgeReal.scatterAdd_vec_count_ix1 (N := 100000) (E := 1600000)
    Cert.KernelIdeal.Gen.scatter_S100000_S1600000x1_S1600000_n_0_0_1_wf _ (Terms.colE a) Terms.onesE
    (fun j => zeros_apply _ j) (fun j => (ones_apply _ j).trans Gcn.one_eq) p

theorem real_invSqrtDeg_deg (a : Terms.IArr S1600000) : Gcn.RealC (Gcn.invSqrtDeg (Gcn.vecOf (Terms.deg a))) :=
  Gcn.real_invSqrtDeg _ (deg_nonneg a)

theorem real_sOut (a14 : Terms.IArr S1600000) : Gcn.RealC (Terms.sOut a14) := by
  rw [sOut_eq]
  exact real_invSqrtDeg_deg a14

theorem real_sIn (a15 : Terms.IArr S1600000) : Gcn.RealC (Terms.sIn a15) := by
  rw [sIn_eq]
  exact real_invSqrtDeg_deg a15

/-! ### The edge aggregation -/

theorem real_agg (a14 a15 : Terms.IArr S1600000) (y : Gcn.Mat 100000 128) (hy : Gcn.RealM y) :
    Gcn.RealM (Terms.agg a14 a15 y) := by
  intro p q
  unfold Terms.agg
  rw [toMat_apply]
  unfold Terms.aggArr
  refine Gcn.EdgeReal.scatterAdd_rows_isReal_ix2 (N := 100000) (E := 1600000) (C := 128)
    Cert.KernelIdeal.Gen.scatter_S100000x128_S1600000x1_S1600000x128_1_0_0_1_wf _ (Terms.colE a15) _
    (fun j => ?_) (fun j => ?_) p q
  · rw [zeros_apply]
    exact Gcn.EdgeReal.isReal_zero
  · rw [extf_apply]
    exact Gcn.EdgeReal.gather_rows_isReal (N := 100000) (E := 1600000) (C := 128)
      Cert.KernelIdeal.Gen.gather_S100000x128_S1600000x1_S1600000x128_1_0_n_n_0_1_1128_wf (by norm_num) (Gcn.ofMat y)
      (Terms.srcIdx a14) (fun i => hy _ _) j

/-! ### The per-graph mean -/

theorem hg_eq (x : Terms.FArr S100000x128) (a16 : Terms.IArr S100000) :
    Gcn.toMat (Terms.hgArr x a16) = Gcn.graphMean (Terms.pool a16 (Gcn.toMat x)) (Terms.cnt a16) := by
  funext g k
  unfold Terms.pool
  rw [ofMat_toMat]
  unfold Gcn.graphMean Terms.cnt
  rw [toMat_apply, toMat_apply, vecOf_apply]
  unfold Terms.hgArr
  rw [hostDivf_apply, colToMat_apply, vecToCol_apply]

end Cert.KernelIdeal.TermsReal

end
-- ==== Proof.ReadoutRegion.lean ====
/-
  The read-out region.  Its one grid point reads the pooled graph features [128, 128] and three weight matrices with
  their bias rows whole, and writes affine₃ (relu (affine₂ (relu (affine₁ features)))) to the [128, 10] output.  Each
  dense layer is a product into the zero accumulator plus the bias row broadcast down the rows; the rectifier is the
  maximum with the zero word.  Every window's block is its whole array, and the output's one block covers the output.
-/
import proofs.«138442_j46162308497633_2_alg».proof.Proof.Gen.KernelIdeal.Frame
import proofs.«138442_j46162308497633_2_alg».proof.Proof.GcnSpec
import proofs.«138442_j46162308497633_2_alg».proof.Proof.LibPlainDot
import proofs.«138442_j46162308497633_2_alg».proof.Proof.LibRank2Layout
import Idealize.ShloMosaic.Lib.Pipeline.Value

set_option maxRecDepth 16384

noncomputable section

namespace Cert.KernelIdeal.ReadoutRegion

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! # The read-out region: three dense layers on the pooled graph features -/

theorem zero_offsets : (![0, 0] : Fin 2 → Nat) = fun _ => 0 := funext fun a => by fin_cases a <;> rfl

/-! ## The payload at an index -/

/-- One dense layer at (p, q): a product into the zero accumulator plus a bias row broadcast down the rows is the
    affine map of the operands read as matrices. -/
theorem dense_at {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![A, K]⟩ .bf16) (w : FVec Ideal ⟨2, ![K, B]⟩ .bf16) (b : FVec Ideal ⟨2, ![1, B]⟩ .f32)
    (hs : (⟨2, ![1, B]⟩ : Shape).ShapeCasts ⟨2, ![1, B]⟩) (hb : (⟨2, ![1, B]⟩ : Shape).Broadcasts ⟨2, ![A, B]⟩)
    (p : Fin A) (q : Fin B) :
    addf (matmul d none l w (constant (F := Ideal) ⟨2, ![A, B]⟩ .f32 0x00000000#32))
        (broadcastTo (⟨2, ![A, B]⟩ : Shape) (shapeCast (⟨2, ![1, B]⟩ : Shape) b hs) hb) (ix2 p q)
      = Gcn.affine (Gcn.toMat l) (Gcn.toMat w) (Gcn.rowOf b) p q := by
  rw [addf_apply, Rank2.bcastRow_apply, shapeCast_self]
  exact congrArg (· + b (ix2 0 q)) (Cert.Bridge.matmul_zero_plain d hlc hrc hln hrn hlb hrb none l w p q)

/-- The rectifier against the broadcast zero word, as a matrix. -/
theorem relu_at {A B : Nat} (x : FVec Ideal ⟨2, ![A, B]⟩ .f32) :
    Gcn.toMat (truncf .bf16 (maximumf x (broadcast (⟨2, ![A, B]⟩ : Shape) (Scalar.ofBits (F := Ideal) .f32 0x00000000#32))) bitsLt_bf16_f32)
      = Gcn.relu (Gcn.toMat x) := by
  funext p q
  show max (x (ix2 p q)) (Ideal.ofBits .f32 0x00000000#32) = max (x (ix2 p q)) 0
  rw [Ideal.ofBits_zero_f32]

/-- The read-out payload at (p, q): three dense layers with a rectifier after the first two. -/
theorem mlp_at (x0 : Vec Ideal S128x128 .f32) (x1 : Vec Ideal S128x64 .f32) (x2 : Vec Ideal S1x64 .f32)
    (x3 : Vec Ideal S64x32 .f32) (x4 : Vec Ideal S1x32 .f32) (x5 : Vec Ideal S32x10 .f32) (x6 : Vec Ideal S1x10 .f32)
    (p : Fin 128) (q : Fin 10) :
    k9_pay1 (F := Ideal) x0 x1 x2 x3 x4 x5 x6 (ix2 p q)
      = Gcn.mlp (Gcn.toMat x0) (Gcn.toMat x1) (Gcn.rowOf x2) (Gcn.toMat x3) (Gcn.rowOf x4) (Gcn.toMat x5) (Gcn.rowOf x6) p q := by
  unfold k9_pay1 Gcn.mlp
  refine (dense_at dot_S128x32_S32x10_S128x10_1_0_0_1_n_n rfl rfl rfl rfl rfl rfl _ _ x6 _ _ p q).trans ?_
  rw [relu_at]
  have h2 : Gcn.toMat (addf (matmul dot_S128x64_S64x32_S128x32_1_0_0_1_n_n none
        (truncf .bf16 (maximumf (addf (matmul dot_S128x128_S128x64_S128x64_1_0_0_1_n_n none
            (truncf .bf16 (shapeCast S128x128 x0 shapeCasts_S128x128_S128x128) bitsLt_bf16_f32) (truncf .bf16 x1 bitsLt_bf16_f32)
            (constant (F := Ideal) S128x64 .f32 0x00000000#32))
          (broadcastTo S128x64 (shapeCast S1x64 x2 shapeCasts_S1x64_S1x64) broadcasts_S1x64_S128x64))
          (broadcast S128x64 (Scalar.ofBits (F := Ideal) .f32 0x00000000#32))) bitsLt_bf16_f32)
        (truncf .bf16 x3 bitsLt_bf16_f32) (constant (F := Ideal) S128x32 .f32 0x00000000#32))
      (broadcastTo S128x32 (shapeCast S1x32 x4 shapeCasts_S1x32_S1x32) broadcasts_S1x32_S128x32))
      = Gcn.affine (Gcn.relu (Gcn.affine (Gcn.toMat x0) (Gcn.toMat x1) (Gcn.rowOf x2))) (Gcn.toMat x3) (Gcn.rowOf x4) := by
    funext p' q'
    refine (dense_at dot_S128x64_S64x32_S128x32_1_0_0_1_n_n rfl rfl rfl rfl rfl rfl _ _ x4 _ _ p' q').trans ?_
    rw [relu_at]
    have h1 : Gcn.toMat (addf (matmul dot_S128x128_S128x64_S128x64_1_0_0_1_n_n none
            (truncf .bf16 (shapeCast S128x128 x0 shapeCasts_S128x128_S128x128) bitsLt_bf16_f32) (truncf .bf16 x1 bitsLt_bf16_f32)
            (constant (F := Ideal) S128x64 .f32 0x00000000#32))
          (broadcastTo S128x64 (shapeCast S1x64 x2 shapeCasts_S1x64_S1x64) broadcasts_S1x64_S128x64))
        = Gcn.affine (Gcn.toMat x0) (Gcn.toMat x1) (Gcn.rowOf x2) := by
      funext p'' q''
      refine (dense_at dot_S128x128_S128x64_S128x64_1_0_0_1_n_n rfl rfl rfl rfl rfl rfl _ _ x2 _ _ p'' q'').trans ?_
      rw [shapeCast_self]
      rfl
    rw [h1]
    rfl
  rw [h2]
  rfl

/-! ## The windows' blocks are the whole arrays -/

/-- The one grid point reads every window at block (0, 0). -/
theorem block_indices : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0 :=
  (by decide +kernel : ∀ t : Fin grid9.N, _)

theorem pooled_block (c : Dev nD) (t : Fin cfg9.N) : (iblk9 (F := Ideal) V c 0 t : Vec Ideal S128x128 .f32) = V c main_v161 := by
  funext j
  unfold iblk9
  rw [View.read_apply]
  show V c main_v161 (((cfg9.win 0).blk t).view.emb j) = V c main_v161 j
  refine congrArg (V c main_v161) ?_
  obtain ⟨e0, e1, -⟩ := block_indices t
  funext a; apply Fin.ext
  match a with
  | ⟨0, _⟩ => show win9_0.index t (0 : Fin 2) * 128 + 1 * (j 0).val = (j 0).val; rw [e0]; omega
  | ⟨1, _⟩ => show win9_0.index t (1 : Fin 2) * 128 + 1 * (j 1).val = (j 1).val; rw [e1]; omega

theorem weights1_block (c : Dev nD) (t : Fin cfg9.N) : (iblk9 (F := Ideal) V c 1 t : Vec Ideal S128x64 .f32) = V c main_arg8 := by
  funext j
  unfold iblk9
  rw [View.read_apply]
  show V c main_arg8 (((cfg9.win 1).blk t).view.emb j) = V c main_arg8 j
  refine congrArg (V c main_arg8) ?_
  obtain ⟨-, -, e0, e1, -⟩ := block_indices t
  funext a; apply Fin.ext
  match a with
  | ⟨0, _⟩ => show win9_1.index t (0 : Fin 2) * 128 + 1 * (j 0).val = (j 0).val; rw [e0]; omega
  | ⟨1, _⟩ => show win9_1.index t (1 : Fin 2) * 64 + 1 * (j 1).val = (j 1).val; rw [e1]; omega

theorem bias1_block (c : Dev nD) (t : Fin cfg9.N) : (iblk9 (F := Ideal) V c 2 t : Vec Ideal S1x64 .f32) = V c main_v162 := by
  funext j
  unfold iblk9
  rw [View.read_apply]
  show V c main_v162 (((cfg9.win 2).blk t).view.emb j) = V c main_v162 j
  refine congrArg (V c main_v162) ?_
  obtain ⟨-, -, -, -, e0, e1, -⟩ := block_indices t
  funext a; apply Fin.ext
  match a with
  | ⟨0, _⟩ => show win9_2.index t (0 : Fin 2) * 1 + 1 * (j 0).val = (j 0).val; rw [e0]; omega
  | ⟨1, _⟩ => show win9_2.index t (1 : Fin 2) * 64 + 1 * (j 1).val = (j 1).val; rw [e1]; omega

theorem weights2_block (c : Dev nD) (t : Fin cfg9.N) : (iblk9 (F := Ideal) V c 3 t : Vec Ideal S64x32 .f32) = V c main_arg10 := by
  funext j
  unfold iblk9
  rw [View.read_apply]
  show V c main_arg10 (((cfg9.win 3).blk t).view.emb j) = V c main_arg10 j
  refine congrArg (V c main_arg10) ?_
  obtain ⟨-, -, -, -, -, -, e0, e1, -⟩ := block_indices t
  funext a; apply Fin.ext
  match a with
  | ⟨0, _⟩ => show win9_3.index t (0 : Fin 2) * 64 + 1 * (j 0).val = (j 0).val; rw [e0]; omega
  | ⟨1, _⟩ => show win9_3.index t (1 : Fin 2) * 32 + 1 * (j 1).val = (j 1).val; rw [e1]; omega

theorem bias2_block (c : Dev nD) (t : Fin cfg9.N) : (iblk9 (F := Ideal) V c 4 t : Vec Ideal S1x32 .f32) = V c main_v163 := by
  funext j
  unfold iblk9
  rw [View.read_apply]
  show V c main_v163 (((cfg9.win 4).blk t).view.emb j) = V c main_v163 j
  refine congrArg (V c main_v163) ?_
  obtain ⟨-, -, -, -, -, -, -, -, e0, e1, -⟩ := block_indices t
  funext a; apply Fin.ext
  match a with
  | ⟨0, _⟩ => show win9_4.index t (0 : Fin 2) * 1 + 1 * (j 0).val = (j 0).val; rw [e0]; omega
  | ⟨1, _⟩ => show win9_4.index t (1 : Fin 2) * 32 + 1 * (j 1).val = (j 1).val; rw [e1]; omega

theorem weights3_block (c : Dev nD) (t : Fin cfg9.N) : (iblk9 (F := Ideal) V c 5 t : Vec Ideal S32x10 .f32) = V c main_arg12 := by
  funext j
  unfold iblk9
  rw [View.read_apply]
  show V c main_arg12 (((cfg9.win 5).blk t).view.emb j) = V c main_arg12 j
  refine congrArg (V c main_arg12) ?_
  obtain ⟨-, -, -, -, -, -, -, -, -, -, e0, e1, -⟩ := block_indices t
  funext a; apply Fin.ext
  match a with
  | ⟨0, _⟩ => show win9_5.index t (0 : Fin 2) * 32 + 1 * (j 0).val = (j 0).val; rw [e0]; omega
  | ⟨1, _⟩ => show win9_5.index t (1 : Fin 2) * 10 + 1 * (j 1).val = (j 1).val; rw [e1]; omega

theorem bias3_block (c : Dev nD) (t : Fin cfg9.N) : (iblk9 (F := Ideal) V c 6 t : Vec Ideal S1x10 .f32) = V c main_v164 := by
  funext j
  unfold iblk9
  rw [View.read_apply]
  show V c main_v164 (((cfg9.win 6).blk t).view.emb j) = V c main_v164 j
  refine congrArg (V c main_v164) ?_
  obtain ⟨-, -, -, -, -, -, -, -, -, -, -, -, e0, e1, -⟩ := block_indices t
  funext a; apply Fin.ext
  match a with
  | ⟨0, _⟩ => show win9_6.index t (0 : Fin 2) * 1 + 1 * (j 0).val = (j 0).val; rw [e0]; omega
  | ⟨1, _⟩ => show win9_6.index t (1 : Fin 2) * 10 + 1 * (j 1).val = (j 1).val; rw [e1]; omega

/-! ## The output array as a function of the input arrays -/

/-- The read-out of the pooled features. -/
def readout (c : Dev nD) : Gcn.Mat 128 10 :=
  Gcn.mlp (Gcn.toMat (V c main_v161)) (Gcn.toMat (V c main_arg8)) (Gcn.rowOf (V c main_v162)) (Gcn.toMat (V c main_arg10))
    (Gcn.rowOf (V c main_v163)) (Gcn.toMat (V c main_arg12)) (Gcn.rowOf (V c main_v164))

/-- The output's one block is the whole output array. -/
theorem out_block_index (t : Fin cfg9.N) (p : Fin 128) (q : Fin 10) :
    ((cfg9.win 7).blk t).view.emb (ix2 p q) = ix2 p q := by
  obtain ⟨-, -, -, -, -, -, -, -, -, -, -, -, -, -, e0, e1⟩ := block_indices t
  funext a; apply Fin.ext
  match a with
  | ⟨0, _⟩ => show win9_7.index t (0 : Fin 2) * 128 + 1 * p.val = p.val; rw [e0]; omega
  | ⟨1, _⟩ => show win9_7.index t (1 : Fin 2) * 10 + 1 * q.val = q.val; rw [e1]; omega

/-- What the one point writes back is the read-out. -/
theorem flushed_readout (c : Dev nD) (t : Fin cfg9.N) :
    (dat9 (F := Ideal) V c).flushed 7 t = ((cfg9.win 7).blk t).view.read (Elt Ideal) (Gcn.ofMat (readout V c)) := by
  show (cfg9.win 7).cut (grid9.coords t) ((dat9 (F := Ideal) V c).after 7 t) = _
  rw [after9_7]
  unfold out9_7
  rw [View.canon_unit_zero zero_offsets]
  simp only [View.ld_unit_zero (S := S128x128) zero_offsets, View.ld_unit_zero (S := S128x64) zero_offsets,
    View.ld_unit_zero (S := S1x64) zero_offsets, View.ld_unit_zero (S := S64x32) zero_offsets,
    View.ld_unit_zero (S := S1x32) zero_offsets, View.ld_unit_zero (S := S32x10) zero_offsets,
    View.ld_unit_zero (S := S1x10) zero_offsets]
  funext j
  obtain ⟨p, q, rfl⟩ : ∃ (p : Fin 128) (q : Fin 10), j = ix2 p q := ⟨j 0, j 1, eq_ix2 j⟩
  rw [View.read_apply, out_block_index t p q]
  show k9_pay1 (F := Ideal) (iblk9 V c 0 t) (iblk9 V c 1 t) (iblk9 V c 2 t) (iblk9 V c 3 t) (iblk9 V c 4 t) (iblk9 V c 5 t)
    (iblk9 V c 6 t) (ix2 p q) = readout V c p q
  refine (mlp_at (iblk9 V c 0 t) (iblk9 V c 1 t) (iblk9 V c 2 t) (iblk9 V c 3 t) (iblk9 V c 4 t) (iblk9 V c 5 t)
    (iblk9 V c 6 t) p q).trans ?_
  unfold readout
  rw [pooled_block V c t, weights1_block V c t, bias1_block V c t, weights2_block V c t, bias2_block V c t,
    weights3_block V c t, bias3_block V c t]

/-! ## The one block covers the array -/

theorem mem_block (t : Fin cfg9.N) (i : S128x10.Idx) :
    i ∈ ((cfg9.win 7).blk t).view.set ↔ ∀ a : Fin 2, win9_7.index t a * S128x10.size a ≤ (i a).val
      ∧ (i a).val < win9_7.index t a * S128x10.size a + S128x10.size a := by
  show i ∈ ((View.whole main_v165).slice (win9_7.rect t)).set ↔ _
  rw [View.set_slice_whole, Rect.mem_set_unit]
  exact Iff.rfl

theorem cover (i : S128x10.Idx) :
    ∃ t : Fin cfg9.N, (cfg9.win 7).flush t = true ∧ i ∈ ((cfg9.win 7).blk t).view.set := by
  have hi0 : (i 0).val < 128 := (i 0).isLt
  have hi1 : (i 1).val < 10 := (i 1).isLt
  refine ⟨t9_0, flush9_7 _, ?_⟩
  rw [mem_block]
  obtain ⟨-, -, -, -, -, -, -, -, -, -, -, -, -, -, e0, e1⟩ := block_indices t9_0
  intro a
  match a with
  | ⟨0, _⟩ =>
    show win9_7.index t9_0 (0 : Fin 2) * 128 ≤ (i 0).val ∧ (i 0).val < win9_7.index t9_0 (0 : Fin 2) * 128 + 128
    rw [e0]; omega
  | ⟨1, _⟩ =>
    show win9_7.index t9_0 (1 : Fin 2) * 10 ≤ (i 1).val ∧ (i 1).val < win9_7.index t9_0 (1 : Fin 2) * 10 + 10
    rw [e1]; omega

/-! ## The output array after the region -/

/-- The output array after the region holds the read-out of the pooled features. -/
theorem readout_out (c : Dev nD) (p : Fin 128) (q : Fin 10) :
    (dat9 (F := Ideal) V c).arrAt 7 cfg9.N (ix2 p q)
      = Gcn.mlp (Gcn.toMat (V c main_v161)) (Gcn.toMat (V c main_arg8)) (Gcn.rowOf (V c main_v162))
          (Gcn.toMat (V c main_arg10)) (Gcn.rowOf (V c main_v163)) (Gcn.toMat (V c main_arg12))
          (Gcn.rowOf (V c main_v164)) p q := by
  rw [(dat9 (F := Ideal) V c).arrAt_eq_of_cover 7 (Gcn.ofMat (readout V c)) (fun t _ => flushed_readout V c t) cover]
  rfl

end Cert.KernelIdeal.ReadoutRegion

end
-- ==== Proof.KTail.lean ====
/-
  The end of the kernel program's chain: from the last layer's node features to the program's result.  The host
  operations after the last layer sum the features per graph, count each graph's nodes and clamp the count at one,
  divide the sums by the counts, and reshape the three bias vectors of the read-out to rows; the read-out region then
  applies its three dense layers to the per-graph means.
-/
import proofs.«138442_j46162308497633_2_alg».proof.Proof.KChainBase
import proofs.«138442_j46162308497633_2_alg».proof.Proof.KTermsReal
import proofs.«138442_j46162308497633_2_alg».proof.Proof.ReadoutRegion

set_option maxRecDepth 16384
set_option maxHeartbeats 200000

noncomputable section

namespace Cert.KernelIdeal.Chain

open Idealize.ShloMosaic Idealize.ShloMosaic.TcCoe Idealize.ShloMosaic.Tactic Idealize.ShloMosaic.StableHlo Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

/-! ## What the read-out region finds in its input arrays -/

/-- The per-graph means of the last layer's features. -/
theorem entry_means : V25 m ρ c main_v161 = Terms.hgArr (W22 m ρ c (Proc.devRef .tc main_v150_0)) (a16 m c) := by
  show W25 m ρ c (Proc.devRef .tc main_v161) = _
  walk_back
  rfl

/-- The three weight matrices are the arguments as launched. -/
theorem entry_w1 : V25 m ρ c main_arg8 = a8 m c := by
  show W25 m ρ c (Proc.devRef .tc main_arg8) = _
  walk_back <;> rfl
theorem entry_w2 : V25 m ρ c main_arg10 = a10 m c := by
  show W25 m ρ c (Proc.devRef .tc main_arg10) = _
  walk_back <;> rfl
theorem entry_w3 : V25 m ρ c main_arg12 = a12 m c := by
  show W25 m ρ c (Proc.devRef .tc main_arg12) = _
  walk_back <;> rfl

/-- The three bias rows are the bias vectors as launched, reshaped to one row. -/
theorem entry_b1 : V25 m ρ c main_v162 = shapeCast S1x64 (a9 m c) shapeCasts_S64_S1x64 := by
  show W25 m ρ c (Proc.devRef .tc main_v162) = _
  walk_back <;> rfl
theorem entry_b2 : V25 m ρ c main_v163 = shapeCast S1x32 (a11 m c) shapeCasts_S32_S1x32 := by
  show W25 m ρ c (Proc.devRef .tc main_v163) = _
  walk_back <;> rfl
theorem entry_b3 : V25 m ρ c main_v164 = shapeCast S1x10 (a13 m c) shapeCasts_S10_S1x10 := by
  show W25 m ρ c (Proc.devRef .tc main_v164) = _
  walk_back <;> rfl

/-- The one row of a vector reshaped to [1, b] is the vector. -/
theorem rowOf_reshape {b : Nat} (v : (⟨1, ![b]⟩ : Shape).Idx → EReal)
    (h : (⟨1, ![b]⟩ : Shape).ShapeCasts ⟨2, ![1, b]⟩) :
    Gcn.rowOf (shapeCast (⟨2, ![1, b]⟩ : Shape) v h) = Gcn.vecOf v := by
  funext q
  unfold Gcn.rowOf Gcn.vecOf
  refine (shapeCast_addUnit_apply ![b] v h (ix2 0 q)).trans (congrArg v ?_)
  funext a
  match a with
  | ⟨0, _⟩ => rfl

/-! ## The program's result -/

/-- The result array after the last region: the read-out of the per-graph means of the last layer's features. -/
theorem tail_out (X4 : Gcn.Mat 100000 128)
    (hx : ∀ p q, W22 m ρ c (Proc.devRef .tc main_v150_0) (ix2 p q) = X4 p q) (p : Fin 128) (q : Fin 10) :
    W26 m ρ c (Proc.devRef .tc main_v165) (ix2 p q)
      = Gcn.mlp (Gcn.graphMean (Terms.pool (a16 m c) X4) (Terms.cnt (a16 m c))) (Gcn.toMat (a8 m c)) (Gcn.vecOf (a9 m c))
          (Gcn.toMat (a10 m c)) (Gcn.vecOf (a11 m c)) (Gcn.toMat (a12 m c)) (Gcn.vecOf (a13 m c)) p q := by
  have hX : Gcn.toMat (W22 m ρ c (Proc.devRef .tc main_v150_0)) = X4 := funext fun p => funext fun q => hx p q
  rw [show W26 m ρ c (Proc.devRef .tc main_v165) = (dat9 (V25 m ρ) c).arrAt 7 cfg9.N from W26_arr m ρ c 7]
  refine (ReadoutRegion.readout_out (V25 m ρ) c p q).trans ?_
  rw [entry_means, entry_w1, entry_w2, entry_w3, entry_b1, entry_b2, entry_b3, TermsReal.hg_eq, hX,
    rowOf_reshape, rowOf_reshape, rowOf_reshape]

end Cert.KernelIdeal.Chain

end
-- ==== Proof.ArgsReal.lean ====
/-
  From the precondition to real-number entries.

  The precondition says that `all (|x| < +∞)` holds of each float argument `x`, the fourteen facts and-ed together into one
  bit, and that this bit is 1. An `and` that is 1 has both sides 1; an `all` that is 1 had a 1 at every index; and
  `|x| < +∞` on the extended reals, `max x (−x) < ⊤`, excludes `⊤` and `⊥`, so `x` is a real number. Hence every entry of
  every float argument is real; stated here for the node features, the embedding's weight and bias, and the layers'
  weights, biases, scales and shifts.
-/
import proofs.«138442_j46162308497633_2_alg».proof.Defs
import proofs.«138442_j46162308497633_2_alg».proof.Proof.Gen.Pre_finite_inputs
import proofs.«138442_j46162308497633_2_alg».proof.Proof.GcnSpec
import Idealize.ShloMosaic.Lib.ReduceAll

set_option maxRecDepth 16384

noncomputable section

namespace Gcn.ArgsReal

open Idealize.ShloMosaic Idealize.ShloMosaic.ValueIdx Idealize.SL.Sem

/-- The float pattern 0x7F800000 is `+∞`. -/
theorem inf_eq_top : Ideal.ofBits .f32 0x7F800000#32 = (⊤ : EReal) := by
  simp [Ideal.ofBits, Ideal.ieee]

/-- `|x| < +∞` holds only of a real number. -/
theorem isReal_of_abs_lt_inf (x : EReal)
    (h : FloatOps.cmpf (F := Ideal) (φ := .f32) .olt (FloatOps.hostAbsf (F := Ideal) (φ := .f32) x)
      (Ideal.ofBits .f32 0x7F800000#32) = 1#1) :
    IsReal x := by
  rw [inf_eq_top] at h
  have h' : max x (-x) < ⊤ := by
    by_contra hn
    have : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [this] at h
    exact absurd h (by decide)
  induction x using EReal.rec with
  | bot => simp at h'
  | top => simp at h'
  | coe r => exact ⟨r, rfl⟩

/-- The rank-0 shape has one index. -/
instance subsingleton_scalar_idx : Subsingleton Cert.Pre_finite_inputs.S_.Idx := ⟨fun a b => funext fun d => d.elim0⟩

open Cert.Pre_finite_inputs in
/-- An `all (|x| < +∞)` that is 1 says every entry of `x` is a real number. -/
theorem all_real {s : Shape} {axes : List (Fin s.rank)} (hb : S_.BroadcastsInDim s (![] : Fin 0 → Fin s.rank))
    (hr : s.ReducesTo axes S_) (hu : 0 < S_.numel) (x : FVec Ideal s .f32) (init : IVec S_ 1) (j : S_.Idx)
    (h : Host.reduce IntOp.andi
      (cmpf .olt (Host.absf x) (broadcastInDim s ![] hb (constant (F := Ideal) S_ .f32 0x7F800000#32))) init hr hu j = 1#1)
    (i : s.Idx) : IsReal (x i) :=
  isReal_of_abs_lt_inf (x i) (Host.reduce_andi_all _ init hr hu j h i)

/-- An `and` of two `i1` arrays that is 1 at an index has both sides 1 there. -/
theorem andi_split {s : Shape} (a b : IVec s 1) (i : s.Idx) (h : andi a b i = 1#1) : a i = 1#1 ∧ b i = 1#1 :=
  IntOp.andi_eq_one.1 h

/-- Under the precondition every entry of the node features (argument 0), of the embedding's weight and bias (2, 3) and of
    the layers' weights, biases, scales and shifts (4, 5, 6, 7) is a real number. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, Gcn.IsReal (m ((c.tc : Thread Cert.KernelIdeal.nD Cert.KernelIdeal.τ).loc Cert.KernelIdeal.main_arg0) i))
    ∧ (∀ i, Gcn.IsReal (m ((c.tc : Thread Cert.KernelIdeal.nD Cert.KernelIdeal.τ).loc Cert.KernelIdeal.main_arg2) i))
    ∧ (∀ i, Gcn.IsReal (m ((c.tc : Thread Cert.KernelIdeal.nD Cert.KernelIdeal.τ).loc Cert.KernelIdeal.main_arg3) i))
    ∧ (∀ i, Gcn.IsReal (m ((c.tc : Thread Cert.KernelIdeal.nD Cert.KernelIdeal.τ).loc Cert.KernelIdeal.main_arg4) i))
    ∧ (∀ i, Gcn.IsReal (m ((c.tc : Thread Cert.KernelIdeal.nD Cert.KernelIdeal.τ).loc Cert.KernelIdeal.main_arg5) i))
    ∧ (∀ i, Gcn.IsReal (m ((c.tc : Thread Cert.KernelIdeal.nD Cert.KernelIdeal.τ).loc Cert.KernelIdeal.main_arg6) i))
    ∧ (∀ i, Gcn.IsReal (m ((c.tc : Thread Cert.KernelIdeal.nD Cert.KernelIdeal.τ).loc Cert.KernelIdeal.main_arg7) i)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  -- the conjunction is nested to the left: the fact of argument 13 is outermost, those of arguments 0 and 1 innermost
  have h12 := (andi_split _ _ _ h0).1
  have h11 := (andi_split _ _ _ h12).1
  have h10 := (andi_split _ _ _ h11).1
  have h9 := (andi_split _ _ _ h10).1
  have h8 := (andi_split _ _ _ h9).1
  have h7 := (andi_split _ _ _ h8).1
  have a7 := (andi_split _ _ _ h7).2
  have h6 := (andi_split _ _ _ h7).1
  have a6 := (andi_split _ _ _ h6).2
  have h5 := (andi_split _ _ _ h6).1
  have a5 := (andi_split _ _ _ h5).2
  have h4 := (andi_split _ _ _ h5).1
  have a4 := (andi_split _ _ _ h4).2
  have h3 := (andi_split _ _ _ h4).1
  have a3 := (andi_split _ _ _ h3).2
  have h2 := (andi_split _ _ _ h3).1
  have a2 := (andi_split _ _ _ h2).2
  have h1 := (andi_split _ _ _ h2).1
  have a0 := (andi_split _ _ _ h1).1
  exact ⟨all_real _ _ _ _ _ _ a0, all_real _ _ _ _ _ _ a2, all_real _ _ _ _ _ _ a3, all_real _ _ _ _ _ _ a4,
    all_real _ _ _ _ _ _ a5, all_real _ _ _ _ _ _ a6, all_real _ _ _ _ _ _ a7⟩

end Gcn.ArgsReal

end
-- ==== Proof.RefTerms.lean ====
/-
  The reference program's opaque pieces, named: the two degree normalisers, the edge aggregation (gather the source
  rows, add them into the destination rows), one layer's weights and rows, and the per-graph pooling with its clamped
  graph sizes.
-/
import proofs.«138442_j46162308497633_2_alg».proof.Proof.RefReadP
import proofs.«138442_j46162308497633_2_alg».proof.Proof.GcnSpec

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

/-- The out-degree normaliser, one number per node. -/
def sOut (a14 : (⟨S1600000, .i32⟩ : BufTy).Contents (Elt Ideal)) : Gcn.Col 100000 :=
  Gcn.vecOf (Read.val_main_v9 (F := Ideal) a14)

/-- The in-degree normaliser, one number per node. -/
def sIn (a15 : (⟨S1600000, .i32⟩ : BufTy).Contents (Elt Ideal)) : Gcn.Col 100000 :=
  Gcn.vecOf (Read.val_main_v10 (F := Ideal) a15)

/-- The edge aggregation: the rows of `hs` at the edges' sources, added into the rows at the edges' destinations. -/
def agg (a14 : (⟨S1600000, .i32⟩ : BufTy).Contents (Elt Ideal)) (a15 : (⟨S1600000, .i32⟩ : BufTy).Contents (Elt Ideal)) (hs : Gcn.Mat 100000 128) : Gcn.Mat 100000 128 :=
  Gcn.toMat (Host.scatterAdd (F := Ideal) (φ := .f32) scatter_S100000x128_S1600000x1_S1600000x128_1_0_0_1
    (Read.val_main_v33 (F := Ideal)) (Read.val_main_v34 (F := Ideal) a15)
    (Host.gather gather_S100000x128_S1600000x1_S1600000x128_1_0_n_n_0_1_1128 (Gcn.ofMat hs) (Read.val_main_v31 (F := Ideal) a14)))

/-- Layer `l`'s weight matrix, and row `l` of a [4, 128] parameter array. -/
def wL (a4 : (⟨S4x128x128, .f32⟩ : BufTy).Contents (Elt Ideal)) (l : Fin 4) : Gcn.Mat 128 128 := fun k q => a4 (ix3 l k q)
def rowL (a : (⟨S4x128, .f32⟩ : BufTy).Contents (Elt Ideal)) (l : Fin 4) : Gcn.Col 128 := fun q => a (ix2 l q)

/-- The pooled sums: the rows of `x` added into their graph's row. -/
def pool (a16 : (⟨S100000, .i32⟩ : BufTy).Contents (Elt Ideal)) (x : Gcn.Mat 100000 128) : Gcn.Mat 128 128 :=
  Gcn.toMat (Host.scatterAdd (F := Ideal) (φ := .f32) scatter_S128x128_S100000x1_S100000x128_1_0_0_1
    (Read.val_main_v235 (F := Ideal)) (Read.val_main_v236 (F := Ideal) a16) (Gcn.ofMat x))

/-- The graph sizes, clamped below by one. -/
def cnt (a16 : (⟨S100000, .i32⟩ : BufTy).Contents (Elt Ideal)) : Gcn.Col 128 := Gcn.vecOf (Read.val_main_v242 (F := Ideal) a16)

/-- A matrix read back from its array is the matrix. -/
theorem ofMat_toMat {a b : Nat} (f : (⟨2, ![a, b]⟩ : Shape).Idx → EReal) : Gcn.ofMat (Gcn.toMat f) = f := by
  funext i
  exact (congrArg f (eq_ix2 i)).symm

/-- The out-degree normaliser is `rsqrt (max 1 ·)` of the out-degrees. -/
theorem sOut_eq (a14 : (⟨S1600000, .i32⟩ : BufTy).Contents (Elt Ideal)) :
    sOut a14 = Gcn.invSqrtDeg (Gcn.vecOf (Read.val_main_v3 (F := Ideal) a14)) := by
  funext p
  show Read.val_main_v9 (F := Ideal) a14 (ix1 p) = _
  rw [Read.val_main_v9_apply, Read.val_main_v4_apply, Read.val_main_call0_v1_apply, Read.val_main_call0_v0_apply,
    Read.val_main_cst_1_apply]
  simp only [Ideal.hostUnary_rsqrt_def, Ideal.maximumf_def, Ideal.ofBits_def]
  rfl

/-- The in-degree normaliser is `rsqrt (max 1 ·)` of the in-degrees. -/
theorem sIn_eq (a15 : (⟨S1600000, .i32⟩ : BufTy).Contents (Elt Ideal)) :
    sIn a15 = Gcn.invSqrtDeg (Gcn.vecOf (Read.val_main_v7 (F := Ideal) a15)) := by
  funext p
  show Read.val_main_v10 (F := Ideal) a15 (ix1 p) = _
  rw [Read.val_main_v10_apply, Read.val_main_v8_apply, Read.val_main_call1_v1_apply, Read.val_main_call1_v0_apply,
    Read.val_main_cst_3_apply]
  simp only [Ideal.hostUnary_rsqrt_def, Ideal.maximumf_def, Ideal.ofBits_def]
  rfl

end Cert.ReferenceIdeal.RefValue

end
-- ==== Proof.RefEmbed.lean ====
/-
  The embedding: the node features times the embedding matrix, the bias added to every row.
-/
import proofs.«138442_j46162308497633_2_alg».proof.Proof.RefTerms

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

theorem x0_eq (a0 : (⟨S100000x128, .f32⟩ : BufTy).Contents (Elt Ideal)) (a2 : (⟨S128x128, .f32⟩ : BufTy).Contents (Elt Ideal)) (a3 : (⟨S128, .f32⟩ : BufTy).Contents (Elt Ideal)) :
    Gcn.toMat (Read.val_main_v14 (F := Ideal) a0 a2 a3) = Gcn.affine (Gcn.toMat a0) (Gcn.toMat a2) (Gcn.vecOf a3) := by
  funext p q
  show Read.val_main_v14 (F := Ideal) a0 a2 a3 (ix2 p q) = _
  rw [Read.val_main_v14_apply, Read.val_main_v11_apply, Read.val_main_v13_apply, Read.val_main_v12_apply]
  have el : ∀ k : Fin 128, Read.lidx_main_v11 (ix2 p q) k = ix2 p k := fun k =>
    funext fun a => Fin.ext (by match a with | ⟨0, _⟩ => rfl | ⟨1, _⟩ => rfl)
  have er : ∀ k : Fin 128, Read.ridx_main_v11 (ix2 p q) k = ix2 k q := fun k =>
    funext fun a => Fin.ext (by match a with | ⟨0, _⟩ => rfl | ⟨1, _⟩ => rfl)
  have eb : Read.idx_main_v12 (Read.idx_main_v13 (ix2 p q)) = ix1 q :=
    funext fun a => Fin.ext (by match a with | ⟨0, _⟩ => rfl)
  simp only [el, er, eb, Ideal.addf_def]
  rfl

end Cert.ReferenceIdeal.RefValue

end
-- ==== Proof.RefLayer0.lean ====
/-
  Layer 0 of the reference program is the layer of the specification with whole-column statistics, at the reference's
  aggregation, degree normalisers and layer-0 parameters.
-/
import proofs.«138442_j46162308497633_2_alg».proof.Proof.RefTerms

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

/-- The rows the edges gather are the input features scaled by the out-degree normaliser. -/
theorem scaled0_eq (a0 : (⟨S100000x128, .f32⟩ : BufTy).Contents (Elt Ideal)) (a2 : (⟨S128x128, .f32⟩ : BufTy).Contents (Elt Ideal)) (a3 : (⟨S128, .f32⟩ : BufTy).Contents (Elt Ideal)) (a14 : (⟨S1600000, .i32⟩ : BufTy).Contents (Elt Ideal)) :
    (Read.val_main_v25 (F := Ideal) a0 a2 a3 a14) = Gcn.ofMat (Gcn.scaleRows (Gcn.toMat (Read.val_main_v14 (F := Ideal) a0 a2 a3)) (sOut a14)) := by
  funext i
  obtain ⟨p, q, rfl⟩ : ∃ (p : Fin 100000) (q : Fin 128), i = ix2 p q := ⟨i 0, i 1, eq_ix2 i⟩
  show _ = (Read.val_main_v14 (F := Ideal) a0 a2 a3) (ix2 p q) * Read.val_main_v9 (F := Ideal) a14 (ix1 p)
  have e : Read.idx_main_v23 (Read.idx_main_v24 (ix2 p q)) = ix1 p :=
    funext fun a => Fin.ext (by match a with | ⟨0, _⟩ => rfl)
  rw [Read.val_main_v25_apply, Read.val_main_v24_apply, Read.val_main_v23_apply, e]
  try rfl

/-- The aggregated rows are the aggregation of the scaled features. -/
theorem agg0_eq (a0 : (⟨S100000x128, .f32⟩ : BufTy).Contents (Elt Ideal)) (a2 : (⟨S128x128, .f32⟩ : BufTy).Contents (Elt Ideal)) (a3 : (⟨S128, .f32⟩ : BufTy).Contents (Elt Ideal)) (a14 : (⟨S1600000, .i32⟩ : BufTy).Contents (Elt Ideal)) (a15 : (⟨S1600000, .i32⟩ : BufTy).Contents (Elt Ideal)) :
    Gcn.toMat (Read.val_main_v35 (F := Ideal) a0 a2 a3 a14 a15) = agg a14 a15 (Gcn.scaleRows (Gcn.toMat (Read.val_main_v14 (F := Ideal) a0 a2 a3)) (sOut a14)) := by
  unfold agg Read.val_main_v35 Read.val_main_v32
  rw [scaled0_eq]

/-- What the layer normalises. -/
theorem hn0_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a14 : (⟨S1600000, .i32⟩ : BufTy).Contents (Elt Ideal)) (a15 : (⟨S1600000, .i32⟩ : BufTy).Contents (Elt Ideal)) :
    Gcn.toMat (Read.val_main_v42 (F := Ideal) a0 a2 a3 a4 a5 a14 a15) =
      Gcn.preNorm (agg a14 a15) (sOut a14) (sIn a15) (wL a4 0) (rowL a5 0) (Gcn.toMat (Read.val_main_v14 (F := Ideal) a0 a2 a3)) := by
  funext p q
  show (Read.val_main_v42 (F := Ideal) a0 a2 a3 a4 a5 a14 a15) (ix2 p q) =
    (∑ k : Fin 128, (agg a14 a15 (Gcn.scaleRows (Gcn.toMat (Read.val_main_v14 (F := Ideal) a0 a2 a3)) (sOut a14)) p k * Read.val_main_v10 (F := Ideal) a15 (ix1 p)) * a4 (ix3 0 k q)) + a5 (ix2 0 q)
  have eb : Read.idx_main_v17 (Read.idx_main_v18 (Read.idx_main_v40 (Read.idx_main_v41 (ix2 p q)))) = ix2 0 q :=
    funext fun a => Fin.ext (by
      match a with
      | ⟨0, _⟩ => rfl
      | ⟨1, _⟩ => (show q.val % 128 = q.val; have := q.isLt; omega))
  rw [Read.val_main_v42_apply, Read.val_main_v39_apply, Read.val_main_v41_apply, Read.val_main_v40_apply, Read.val_main_v18_apply, Read.val_main_v17_apply, eb]
  simp only [Ideal.addf_def]
  refine congrArg₂ (· + ·) (Finset.sum_congr rfl fun k _ => ?_) rfl
  have el : Read.lidx_main_v39 (ix2 p q) k = ix2 p k :=
    funext fun a => Fin.ext (by match a with | ⟨0, _⟩ => rfl | ⟨1, _⟩ => rfl)
  have er : Read.ridx_main_v39 (ix2 p q) k = ix2 k q :=
    funext fun a => Fin.ext (by match a with | ⟨0, _⟩ => rfl | ⟨1, _⟩ => rfl)
  have es : Read.idx_main_v36 (Read.idx_main_v37 (ix2 p k)) = ix1 p :=
    funext fun a => Fin.ext (by match a with | ⟨0, _⟩ => rfl)
  have ew : Read.idx_main_v15 (Read.idx_main_v16 (ix2 k q)) = ix3 0 k q :=
    funext fun a => Fin.ext (by
      match a with
      | ⟨0, _⟩ => rfl
      | ⟨1, _⟩ => (show (k.val * 128 + q.val) / 128 % 128 = k.val; have := k.isLt; have := q.isLt; omega)
      | ⟨2, _⟩ => (show (k.val * 128 + q.val) % 128 = q.val; have := k.isLt; have := q.isLt; omega))
  have ha : (Read.val_main_v35 (F := Ideal) a0 a2 a3 a14 a15) (ix2 p k) = agg a14 a15 (Gcn.scaleRows (Gcn.toMat (Read.val_main_v14 (F := Ideal) a0 a2 a3)) (sOut a14)) p k :=
    congrFun (congrFun (agg0_eq a0 a2 a3 a14 a15) p) k
  rw [el, er, Read.val_main_v38_apply, Read.val_main_v37_apply, Read.val_main_v36_apply, Read.val_main_v16_apply, Read.val_main_v15_apply, es, ew]
  simp only [Ideal.mulf_def]
  rw [ha]

/-- The column means. -/
theorem mean0_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a14 : (⟨S1600000, .i32⟩ : BufTy).Contents (Elt Ideal)) (a15 : (⟨S1600000, .i32⟩ : BufTy).Contents (Elt Ideal)) (j : Fin 128) :
    (Read.val_main_v45 (F := Ideal) a0 a2 a3 a4 a5 a14 a15) (ix1 j) = Gcn.meanOf (Gcn.fullSum (Gcn.toMat (Read.val_main_v42 (F := Ideal) a0 a2 a3 a4 a5 a14 a15))) j := by
  show _ = Ideal.div (0 + ∑ k : Fin 100000, (Read.val_main_v42 (F := Ideal) a0 a2 a3 a4 a5 a14 a15) (ix2 k j)) Gcn.nodes
  have hs : (∑ k : Fin 100000, (Read.val_main_v42 (F := Ideal) a0 a2 a3 a4 a5 a14 a15) (Read.idx_main_v43 (ix1 j) k)) = ∑ k : Fin 100000, (Read.val_main_v42 (F := Ideal) a0 a2 a3 a4 a5 a14 a15) (ix2 k j) :=
    Finset.sum_congr rfl fun k _ => congrArg (Read.val_main_v42 (F := Ideal) a0 a2 a3 a4 a5 a14 a15)
      (funext fun a => Fin.ext (by match a with | ⟨0, _⟩ => rfl | ⟨1, _⟩ => rfl))
  rw [Read.val_main_v45_apply, Read.val_main_v43_apply, Read.val_main_v44_apply, Read.val_main_cst_7_apply, Read.val_main_cst_6_apply, hs]
  simp only [Ideal.hostDivf_def, Ideal.ofBits_def, Ideal.ofBits_zero_f32]
  rfl

/-- The column variances, centred. -/
theorem var0_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a14 : (⟨S1600000, .i32⟩ : BufTy).Contents (Elt Ideal)) (a15 : (⟨S1600000, .i32⟩ : BufTy).Contents (Elt Ideal)) (j : Fin 128) :
    (Read.val_main_v52 (F := Ideal) a0 a2 a3 a4 a5 a14 a15) (ix1 j) = Gcn.varCentred (Gcn.toMat (Read.val_main_v42 (F := Ideal) a0 a2 a3 a4 a5 a14 a15)) j := by
  show _ = Ideal.div (0 + ∑ k : Fin 100000,
    ((Read.val_main_v42 (F := Ideal) a0 a2 a3 a4 a5 a14 a15) (ix2 k j) - Gcn.meanOf (Gcn.fullSum (Gcn.toMat (Read.val_main_v42 (F := Ideal) a0 a2 a3 a4 a5 a14 a15))) j) * ((Read.val_main_v42 (F := Ideal) a0 a2 a3 a4 a5 a14 a15) (ix2 k j) - Gcn.meanOf (Gcn.fullSum (Gcn.toMat (Read.val_main_v42 (F := Ideal) a0 a2 a3 a4 a5 a14 a15))) j)) Gcn.nodes
  have hs : (∑ k : Fin 100000, (Read.val_main_v49 (F := Ideal) a0 a2 a3 a4 a5 a14 a15) (Read.idx_main_v50 (ix1 j) k)) = ∑ k : Fin 100000,
      ((Read.val_main_v42 (F := Ideal) a0 a2 a3 a4 a5 a14 a15) (ix2 k j) - Gcn.meanOf (Gcn.fullSum (Gcn.toMat (Read.val_main_v42 (F := Ideal) a0 a2 a3 a4 a5 a14 a15))) j) * ((Read.val_main_v42 (F := Ideal) a0 a2 a3 a4 a5 a14 a15) (ix2 k j) - Gcn.meanOf (Gcn.fullSum (Gcn.toMat (Read.val_main_v42 (F := Ideal) a0 a2 a3 a4 a5 a14 a15))) j) :=
    Finset.sum_congr rfl fun k _ => by
      have e : Read.idx_main_v50 (ix1 j) k = ix2 k j :=
        funext fun a => Fin.ext (by match a with | ⟨0, _⟩ => rfl | ⟨1, _⟩ => rfl)
      have em : Read.idx_main_v46 (Read.idx_main_v47 (ix2 k j)) = ix1 j :=
        funext fun a => Fin.ext (by match a with | ⟨0, _⟩ => rfl)
      rw [e, Read.val_main_v49_apply, Read.val_main_v48_apply, Read.val_main_v47_apply, Read.val_main_v46_apply, em]
      simp only [Ideal.mulf_def, Ideal.subf_def]
      rw [mean0_eq]
  rw [Read.val_main_v52_apply, Read.val_main_v50_apply, Read.val_main_v51_apply, Read.val_main_cst_9_apply, Read.val_main_cst_8_apply, hs]
  simp only [Ideal.hostDivf_def, Ideal.ofBits_def, Ideal.ofBits_zero_f32]
  rfl

/-- The layer. -/
theorem x1_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) :
    Gcn.toMat (Read.val_main_v69 (F := Ideal) a0 a2 a3 a4 a5 a6 a7 a14 a15) =
      Gcn.layerWhole (agg a14 a15) (sOut a14) (sIn a15) (wL a4 0) (rowL a5 0) (rowL a6 0) (rowL a7 0)
        (Gcn.toMat (Read.val_main_v14 (F := Ideal) a0 a2 a3)) := by
  funext p q
  unfold Gcn.layerWhole
  rw [← hn0_eq a0 a2 a3 a4 a5 a14 a15]
  show (Read.val_main_v69 (F := Ideal) a0 a2 a3 a4 a5 a6 a7 a14 a15) (ix2 p q) = (Read.val_main_v14 (F := Ideal) a0 a2 a3) (ix2 p q) + max (((Read.val_main_v42 (F := Ideal) a0 a2 a3 a4 a5 a14 a15) (ix2 p q) - Gcn.meanOf (Gcn.fullSum (Gcn.toMat (Read.val_main_v42 (F := Ideal) a0 a2 a3 a4 a5 a14 a15))) q)
    * Ideal.rsqrt (Gcn.varCentred (Gcn.toMat (Read.val_main_v42 (F := Ideal) a0 a2 a3 a4 a5 a14 a15)) q + Gcn.eps) * a6 (ix2 0 q) + a7 (ix2 0 q)) 0
  have eg : Read.idx_main_v19 (Read.idx_main_v20 (Read.idx_main_v62 (Read.idx_main_v63 (ix2 p q)))) = ix2 0 q :=
    funext fun a => Fin.ext (by
      match a with
      | ⟨0, _⟩ => rfl
      | ⟨1, _⟩ => (show q.val % 128 = q.val; have := q.isLt; omega))
  have et : Read.idx_main_v21 (Read.idx_main_v22 (Read.idx_main_v65 (Read.idx_main_v66 (ix2 p q)))) = ix2 0 q :=
    funext fun a => Fin.ext (by
      match a with
      | ⟨0, _⟩ => rfl
      | ⟨1, _⟩ => (show q.val % 128 = q.val; have := q.isLt; omega))
  have ev : Read.idx_main_v59 (Read.idx_main_v60 (ix2 p q)) = ix1 q :=
    funext fun a => Fin.ext (by match a with | ⟨0, _⟩ => rfl)
  have em : Read.idx_main_v53 (Read.idx_main_v54 (ix2 p q)) = ix1 q :=
    funext fun a => Fin.ext (by match a with | ⟨0, _⟩ => rfl)
  rw [Read.val_main_v69_apply, Read.val_main_v68_apply, Read.val_main_call2_v0_apply, Read.val_main_call2_cst_apply, Read.val_main_v67_apply, Read.val_main_v66_apply, Read.val_main_v65_apply, Read.val_main_v22_apply, Read.val_main_v21_apply, Read.val_main_v64_apply, Read.val_main_v63_apply, Read.val_main_v62_apply, Read.val_main_v20_apply, Read.val_main_v19_apply, Read.val_main_v61_apply, Read.val_main_v60_apply, Read.val_main_v59_apply, Read.val_main_v58_apply, Read.val_main_v57_apply, Read.val_main_v56_apply, Read.val_main_cst_10_apply, Read.val_main_v55_apply, Read.val_main_v54_apply, Read.val_main_v53_apply,
    eg, et, ev, em, var0_eq, mean0_eq]
  simp only [Ideal.addf_def, Ideal.subf_def, Ideal.mulf_def, Ideal.maximumf_def, Ideal.hostUnary_rsqrt_def, Ideal.ofBits_def,
    Ideal.ofBits_zero_f32]
  rfl

end Cert.ReferenceIdeal.RefValue

end
-- ==== Proof.RefLayer1.lean ====
/-
  Layer 1 of the reference program is the layer of the specification with whole-column statistics, at the reference's
  aggregation, degree normalisers and layer-1 parameters.
-/
import proofs.«138442_j46162308497633_2_alg».proof.Proof.RefTerms

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

/-- The rows the edges gather are the input features scaled by the out-degree normaliser. -/
theorem scaled1_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) :
    (Read.val_main_v80 (F := Ideal) a0 a2 a3 a4 a5 a6 a7 a14 a15) = Gcn.ofMat (Gcn.scaleRows (Gcn.toMat (Read.val_main_v69 (F := Ideal) a0 a2 a3 a4 a5 a6 a7 a14 a15)) (sOut a14)) := by
  funext i
  obtain ⟨p, q, rfl⟩ : ∃ (p : Fin 100000) (q : Fin 128), i = ix2 p q := ⟨i 0, i 1, eq_ix2 i⟩
  show _ = (Read.val_main_v69 (F := Ideal) a0 a2 a3 a4 a5 a6 a7 a14 a15) (ix2 p q) * Read.val_main_v9 (F := Ideal) a14 (ix1 p)
  have e : Read.idx_main_v78 (Read.idx_main_v79 (ix2 p q)) = ix1 p :=
    funext fun a => Fin.ext (by match a with | ⟨0, _⟩ => rfl)
  rw [Read.val_main_v80_apply, Read.val_main_v79_apply, Read.val_main_v78_apply, e]
  try rfl

/-- This layer's index buffers and zero buffer are the first layer's. -/
theorem aggBuf1_eq (a14 : (⟨S1600000, .i32⟩ : BufTy).Contents (Elt Ideal)) (a15 : (⟨S1600000, .i32⟩ : BufTy).Contents (Elt Ideal)) :
    Read.val_main_v88 (F := Ideal) = Read.val_main_v33 (F := Ideal) ∧
    Read.val_main_v89 (F := Ideal) a15 = Read.val_main_v34 (F := Ideal) a15 ∧
    Read.val_main_v86 (F := Ideal) a14 = Read.val_main_v31 (F := Ideal) a14 := ⟨rfl, rfl, rfl⟩

/-- The aggregated rows are the aggregation of the scaled features. -/
theorem agg1_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) :
    Gcn.toMat (Read.val_main_v90 (F := Ideal) a0 a2 a3 a4 a5 a6 a7 a14 a15) = agg a14 a15 (Gcn.scaleRows (Gcn.toMat (Read.val_main_v69 (F := Ideal) a0 a2 a3 a4 a5 a6 a7 a14 a15)) (sOut a14)) := by
  unfold agg Read.val_main_v90 Read.val_main_v87
  rw [scaled1_eq, (aggBuf1_eq a14 a15).1, (aggBuf1_eq a14 a15).2.1, (aggBuf1_eq a14 a15).2.2]

/-- What the layer normalises. -/
theorem hn1_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) :
    Gcn.toMat (Read.val_main_v97 (F := Ideal) a0 a2 a3 a4 a5 a6 a7 a14 a15) =
      Gcn.preNorm (agg a14 a15) (sOut a14) (sIn a15) (wL a4 1) (rowL a5 1) (Gcn.toMat (Read.val_main_v69 (F := Ideal) a0 a2 a3 a4 a5 a6 a7 a14 a15)) := by
  funext p q
  show (Read.val_main_v97 (F := Ideal) a0 a2 a3 a4 a5 a6 a7 a14 a15) (ix2 p q) =
    (∑ k : Fin 128, (agg a14 a15 (Gcn.scaleRows (Gcn.toMat (Read.val_main_v69 (F := Ideal) a0 a2 a3 a4 a5 a6 a7 a14 a15)) (sOut a14)) p k * Read.val_main_v10 (F := Ideal) a15 (ix1 p)) * a4 (ix3 1 k q)) + a5 (ix2 1 q)
  have eb : Read.idx_main_v72 (Read.idx_main_v73 (Read.idx_main_v95 (Read.idx_main_v96 (ix2 p q)))) = ix2 1 q :=
    funext fun a => Fin.ext (by
      match a with
      | ⟨0, _⟩ => rfl
      | ⟨1, _⟩ => (show q.val % 128 = q.val; have := q.isLt; omega))
  rw [Read.val_main_v97_apply, Read.val_main_v94_apply, Read.val_main_v96_apply, Read.val_main_v95_apply, Read.val_main_v73_apply, Read.val_main_v72_apply, eb]
  simp only [Ideal.addf_def]
  refine congrArg₂ (· + ·) (Finset.sum_congr rfl fun k _ => ?_) rfl
  have el : Read.lidx_main_v94 (ix2 p q) k = ix2 p k :=
    funext fun a => Fin.ext (by match a with | ⟨0, _⟩ => rfl | ⟨1, _⟩ => rfl)
  have er : Read.ridx_main_v94 (ix2 p q) k = ix2 k q :=
    funext fun a => Fin.ext (by match a with | ⟨0, _⟩ => rfl | ⟨1, _⟩ => rfl)
  have es : Read.idx_main_v91 (Read.idx_main_v92 (ix2 p k)) = ix1 p :=
    funext fun a => Fin.ext (by match a with | ⟨0, _⟩ => rfl)
  have ew : Read.idx_main_v70 (Read.idx_main_v71 (ix2 k q)) = ix3 1 k q :=
    funext fun a => Fin.ext (by
      match a with
      | ⟨0, _⟩ => rfl
      | ⟨1, _⟩ => (show (k.val * 128 + q.val) / 128 % 128 = k.val; have := k.isLt; have := q.isLt; omega)
      | ⟨2, _⟩ => (show (k.val * 128 + q.val) % 128 = q.val; have := k.isLt; have := q.isLt; omega))
  have ha : (Read.val_main_v90 (F := Ideal) a0 a2 a3 a4 a5 a6 a7 a14 a15) (ix2 p k) = agg a14 a15 (Gcn.scaleRows (Gcn.toMat (Read.val_main_v69 (F := Ideal) a0 a2 a3 a4 a5 a6 a7 a14 a15)) (sOut a14)) p k :=
    congrFun (congrFun (agg1_eq a0 a2 a3 a4 a5 a6 a7 a14 a15) p) k
  rw [el, er, Read.val_main_v93_apply, Read.val_main_v92_apply, Read.val_main_v91_apply, Read.val_main_v71_apply, Read.val_main_v70_apply, es, ew]
  simp only [Ideal.mulf_def]
  rw [ha]

/-- The column means. -/
theorem mean1_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) (j : Fin 128) :
    (Read.val_main_v100 (F := Ideal) a0 a2 a3 a4 a5 a6 a7 a14 a15) (ix1 j) = Gcn.meanOf (Gcn.fullSum (Gcn.toMat (Read.val_main_v97 (F := Ideal) a0 a2 a3 a4 a5 a6 a7 a14 a15))) j := by
  show _ = Ideal.div (0 + ∑ k : Fin 100000, (Read.val_main_v97 (F := Ideal) a0 a2 a3 a4 a5 a6 a7 a14 a15) (ix2 k j)) Gcn.nodes
  have hs : (∑ k : Fin 100000, (Read.val_main_v97 (F := Ideal) a0 a2 a3 a4 a5 a6 a7 a14 a15) (Read.idx_main_v98 (ix1 j) k)) = ∑ k : Fin 100000, (Read.val_main_v97 (F := Ideal) a0 a2 a3 a4 a5 a6 a7 a14 a15) (ix2 k j) :=
    Finset.sum_congr rfl fun k _ => congrArg (Read.val_main_v97 (F := Ideal) a0 a2 a3 a4 a5 a6 a7 a14 a15)
      (funext fun a => Fin.ext (by match a with | ⟨0, _⟩ => rfl | ⟨1, _⟩ => rfl))
  rw [Read.val_main_v100_apply, Read.val_main_v98_apply, Read.val_main_v99_apply, Read.val_main_cst_15_apply, Read.val_main_cst_14_apply, hs]
  simp only [Ideal.hostDivf_def, Ideal.ofBits_def, Ideal.ofBits_zero_f32]
  rfl

/-- The column variances, centred. -/
theorem var1_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) (j : Fin 128) :
    (Read.val_main_v107 (F := Ideal) a0 a2 a3 a4 a5 a6 a7 a14 a15) (ix1 j) = Gcn.varCentred (Gcn.toMat (Read.val_main_v97 (F := Ideal) a0 a2 a3 a4 a5 a6 a7 a14 a15)) j := by
  show _ = Ideal.div (0 + ∑ k : Fin 100000,
    ((Read.val_main_v97 (F := Ideal) a0 a2 a3 a4 a5 a6 a7 a14 a15) (ix2 k j) - Gcn.meanOf (Gcn.fullSum (Gcn.toMat (Read.val_main_v97 (F := Ideal) a0 a2 a3 a4 a5 a6 a7 a14 a15))) j) * ((Read.val_main_v97 (F := Ideal) a0 a2 a3 a4 a5 a6 a7 a14 a15) (ix2 k j) - Gcn.meanOf (Gcn.fullSum (Gcn.toMat (Read.val_main_v97 (F := Ideal) a0 a2 a3 a4 a5 a6 a7 a14 a15))) j)) Gcn.nodes
  have hs : (∑ k : Fin 100000, (Read.val_main_v104 (F := Ideal) a0 a2 a3 a4 a5 a6 a7 a14 a15) (Read.idx_main_v105 (ix1 j) k)) = ∑ k : Fin 100000,
      ((Read.val_main_v97 (F := Ideal) a0 a2 a3 a4 a5 a6 a7 a14 a15) (ix2 k j) - Gcn.meanOf (Gcn.fullSum (Gcn.toMat (Read.val_main_v97 (F := Ideal) a0 a2 a3 a4 a5 a6 a7 a14 a15))) j) * ((Read.val_main_v97 (F := Ideal) a0 a2 a3 a4 a5 a6 a7 a14 a15) (ix2 k j) - Gcn.meanOf (Gcn.fullSum (Gcn.toMat (Read.val_main_v97 (F := Ideal) a0 a2 a3 a4 a5 a6 a7 a14 a15))) j) :=
    Finset.sum_congr rfl fun k _ => by
      have e : Read.idx_main_v105 (ix1 j) k = ix2 k j :=
        funext fun a => Fin.ext (by match a with | ⟨0, _⟩ => rfl | ⟨1, _⟩ => rfl)
      have em : Read.idx_main_v101 (Read.idx_main_v102 (ix2 k j)) = ix1 j :=
        funext fun a => Fin.ext (by match a with | ⟨0, _⟩ => rfl)
      rw [e, Read.val_main_v104_apply, Read.val_main_v103_apply, Read.val_main_v102_apply, Read.val_main_v101_apply, em]
      simp only [Ideal.mulf_def, Ideal.subf_def]
      rw [mean1_eq]
  rw [Read.val_main_v107_apply, Read.val_main_v105_apply, Read.val_main_v106_apply, Read.val_main_cst_17_apply, Read.val_main_cst_16_apply, hs]
  simp only [Ideal.hostDivf_def, Ideal.ofBits_def, Ideal.ofBits_zero_f32]
  rfl

/-- The layer. -/
theorem x2_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) :
    Gcn.toMat (Read.val_main_v124 (F := Ideal) a0 a2 a3 a4 a5 a6 a7 a14 a15) =
      Gcn.layerWhole (agg a14 a15) (sOut a14) (sIn a15) (wL a4 1) (rowL a5 1) (rowL a6 1) (rowL a7 1)
        (Gcn.toMat (Read.val_main_v69 (F := Ideal) a0 a2 a3 a4 a5 a6 a7 a14 a15)) := by
  funext p q
  unfold Gcn.layerWhole
  rw [← hn1_eq a0 a2 a3 a4 a5 a6 a7 a14 a15]
  show (Read.val_main_v124 (F := Ideal) a0 a2 a3 a4 a5 a6 a7 a14 a15) (ix2 p q) = (Read.val_main_v69 (F := Ideal) a0 a2 a3 a4 a5 a6 a7 a14 a15) (ix2 p q) + max (((Read.val_main_v97 (F := Ideal) a0 a2 a3 a4 a5 a6 a7 a14 a15) (ix2 p q) - Gcn.meanOf (Gcn.fullSum (Gcn.toMat (Read.val_main_v97 (F := Ideal) a0 a2 a3 a4 a5 a6 a7 a14 a15))) q)
    * Ideal.rsqrt (Gcn.varCentred (Gcn.toMat (Read.val_main_v97 (F := Ideal) a0 a2 a3 a4 a5 a6 a7 a14 a15)) q + Gcn.eps) * a6 (ix2 1 q) + a7 (ix2 1 q)) 0
  have eg : Read.idx_main_v74 (Read.idx_main_v75 (Read.idx_main_v117 (Read.idx_main_v118 (ix2 p q)))) = ix2 1 q :=
    funext fun a => Fin.ext (by
      match a with
      | ⟨0, _⟩ => rfl
      | ⟨1, _⟩ => (show q.val % 128 = q.val; have := q.isLt; omega))
  have et : Read.idx_main_v76 (Read.idx_main_v77 (Read.idx_main_v120 (Read.idx_main_v121 (ix2 p q)))) = ix2 1 q :=
    funext fun a => Fin.ext (by
      match a with
      | ⟨0, _⟩ => rfl
      | ⟨1, _⟩ => (show q.val % 128 = q.val; have := q.isLt; omega))
  have ev : Read.idx_main_v114 (Read.idx_main_v115 (ix2 p q)) = ix1 q :=
    funext fun a => Fin.ext (by match a with | ⟨0, _⟩ => rfl)
  have em : Read.idx_main_v108 (Read.idx_main_v109 (ix2 p q)) = ix1 q :=
    funext fun a => Fin.ext (by match a with | ⟨0, _⟩ => rfl)
  rw [Read.val_main_v124_apply, Read.val_main_v123_apply, Read.val_main_call3_v0_apply, Read.val_main_call3_cst_apply, Read.val_main_v122_apply, Read.val_main_v121_apply, Read.val_main_v120_apply, Read.val_main_v77_apply, Read.val_main_v76_apply, Read.val_main_v119_apply, Read.val_main_v118_apply, Read.val_main_v117_apply, Read.val_main_v75_apply, Read.val_main_v74_apply, Read.val_main_v116_apply, Read.val_main_v115_apply, Read.val_main_v114_apply, Read.val_main_v113_apply, Read.val_main_v112_apply, Read.val_main_v111_apply, Read.val_main_cst_18_apply, Read.val_main_v110_apply, Read.val_main_v109_apply, Read.val_main_v108_apply,
    eg, et, ev, em, var1_eq, mean1_eq]
  simp only [Ideal.addf_def, Ideal.subf_def, Ideal.mulf_def, Ideal.maximumf_def, Ideal.hostUnary_rsqrt_def, Ideal.ofBits_def,
    Ideal.ofBits_zero_f32]
  rfl

end Cert.ReferenceIdeal.RefValue

end
-- ==== Proof.RefLayer2.lean ====
/-
  Layer 2 of the reference program is the layer of the specification with whole-column statistics, at the reference's
  aggregation, degree normalisers and layer-2 parameters.
-/
import proofs.«138442_j46162308497633_2_alg».proof.Proof.RefTerms

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

/-- The rows the edges gather are the input features scaled by the out-degree normaliser. -/
theorem scaled2_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) :
    (Read.val_main_v135 (F := Ideal) a0 a2 a3 a4 a5 a6 a7 a14 a15) = Gcn.ofMat (Gcn.scaleRows (Gcn.toMat (Read.val_main_v124 (F := Ideal) a0 a2 a3 a4 a5 a6 a7 a14 a15)) (sOut a14)) := by
  funext i
  obtain ⟨p, q, rfl⟩ : ∃ (p : Fin 100000) (q : Fin 128), i = ix2 p q := ⟨i 0, i 1, eq_ix2 i⟩
  show _ = (Read.val_main_v124 (F := Ideal) a0 a2 a3 a4 a5 a6 a7 a14 a15) (ix2 p q) * Read.val_main_v9 (F := Ideal) a14 (ix1 p)
  have e : Read.idx_main_v133 (Read.idx_main_v134 (ix2 p q)) = ix1 p :=
    funext fun a => Fin.ext (by match a with | ⟨0, _⟩ => rfl)
  rw [Read.val_main_v135_apply, Read.val_main_v134_apply, Read.val_main_v133_apply, e]
  try rfl

/-- This layer's index buffers and zero buffer are the first layer's. -/
theorem aggBuf2_eq (a14 : (⟨S1600000, .i32⟩ : BufTy).Contents (Elt Ideal)) (a15 : (⟨S1600000, .i32⟩ : BufTy).Contents (Elt Ideal)) :
    Read.val_main_v143 (F := Ideal) = Read.val_main_v33 (F := Ideal) ∧
    Read.val_main_v144 (F := Ideal) a15 = Read.val_main_v34 (F := Ideal) a15 ∧
    Read.val_main_v141 (F := Ideal) a14 = Read.val_main_v31 (F := Ideal) a14 := ⟨rfl, rfl, rfl⟩

/-- The aggregated rows are the aggregation of the scaled features. -/
theorem agg2_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) :
    Gcn.toMat (Read.val_main_v145 (F := Ideal) a0 a2 a3 a4 a5 a6 a7 a14 a15) = agg a14 a15 (Gcn.scaleRows (Gcn.toMat (Read.val_main_v124 (F := Ideal) a0 a2 a3 a4 a5 a6 a7 a14 a15)) (sOut a14)) := by
  unfold agg Read.val_main_v145 Read.val_main_v142
  rw [scaled2_eq, (aggBuf2_eq a14 a15).1, (aggBuf2_eq a14 a15).2.1, (aggBuf2_eq a14 a15).2.2]

/-- What the layer normalises. -/
theorem hn2_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) :
    Gcn.toMat (Read.val_main_v152 (F := Ideal) a0 a2 a3 a4 a5 a6 a7 a14 a15) =
      Gcn.preNorm (agg a14 a15) (sOut a14) (sIn a15) (wL a4 2) (rowL a5 2) (Gcn.toMat (Read.val_main_v124 (F := Ideal) a0 a2 a3 a4 a5 a6 a7 a14 a15)) := by
  funext p q
  show (Read.val_main_v152 (F := Ideal) a0 a2 a3 a4 a5 a6 a7 a14 a15) (ix2 p q) =
    (∑ k : Fin 128, (agg a14 a15 (Gcn.scaleRows (Gcn.toMat (Read.val_main_v124 (F := Ideal) a0 a2 a3 a4 a5 a6 a7 a14 a15)) (sOut a14)) p k * Read.val_main_v10 (F := Ideal) a15 (ix1 p)) * a4 (ix3 2 k q)) + a5 (ix2 2 q)
  have eb : Read.idx_main_v127 (Read.idx_main_v128 (Read.idx_main_v150 (Read.idx_main_v151 (ix2 p q)))) = ix2 2 q :=
    funext fun a => Fin.ext (by
      match a with
      | ⟨0, _⟩ => rfl
      | ⟨1, _⟩ => (show q.val % 128 = q.val; have := q.isLt; omega))
  rw [Read.val_main_v152_apply, Read.val_main_v149_apply, Read.val_main_v151_apply, Read.val_main_v150_apply, Read.val_main_v128_apply, Read.val_main_v127_apply, eb]
  simp only [Ideal.addf_def]
  refine congrArg₂ (· + ·) (Finset.sum_congr rfl fun k _ => ?_) rfl
  have el : Read.lidx_main_v149 (ix2 p q) k = ix2 p k :=
    funext fun a => Fin.ext (by match a with | ⟨0, _⟩ => rfl | ⟨1, _⟩ => rfl)
  have er : Read.ridx_main_v149 (ix2 p q) k = ix2 k q :=
    funext fun a => Fin.ext (by match a with | ⟨0, _⟩ => rfl | ⟨1, _⟩ => rfl)
  have es : Read.idx_main_v146 (Read.idx_main_v147 (ix2 p k)) = ix1 p :=
    funext fun a => Fin.ext (by match a with | ⟨0, _⟩ => rfl)
  have ew : Read.idx_main_v125 (Read.idx_main_v126 (ix2 k q)) = ix3 2 k q :=
    funext fun a => Fin.ext (by
      match a with
      | ⟨0, _⟩ => rfl
      | ⟨1, _⟩ => (show (k.val * 128 + q.val) / 128 % 128 = k.val; have := k.isLt; have := q.isLt; omega)
      | ⟨2, _⟩ => (show (k.val * 128 + q.val) % 128 = q.val; have := k.isLt; have := q.isLt; omega))
  have ha : (Read.val_main_v145 (F := Ideal) a0 a2 a3 a4 a5 a6 a7 a14 a15) (ix2 p k) = agg a14 a15 (Gcn.scaleRows (Gcn.toMat (Read.val_main_v124 (F := Ideal) a0 a2 a3 a4 a5 a6 a7 a14 a15)) (sOut a14)) p k :=
    congrFun (congrFun (agg2_eq a0 a2 a3 a4 a5 a6 a7 a14 a15) p) k
  rw [el, er, Read.val_main_v148_apply, Read.val_main_v147_apply, Read.val_main_v146_apply, Read.val_main_v126_apply, Read.val_main_v125_apply, es, ew]
  simp only [Ideal.mulf_def]
  rw [ha]

/-- The column means. -/
theorem mean2_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) (j : Fin 128) :
    (Read.val_main_v155 (F := Ideal) a0 a2 a3 a4 a5 a6 a7 a14 a15) (ix1 j) = Gcn.meanOf (Gcn.fullSum (Gcn.toMat (Read.val_main_v152 (F := Ideal) a0 a2 a3 a4 a5 a6 a7 a14 a15))) j := by
  show _ = Ideal.div (0 + ∑ k : Fin 100000, (Read.val_main_v152 (F := Ideal) a0 a2 a3 a4 a5 a6 a7 a14 a15) (ix2 k j)) Gcn.nodes
  have hs : (∑ k : Fin 100000, (Read.val_main_v152 (F := Ideal) a0 a2 a3 a4 a5 a6 a7 a14 a15) (Read.idx_main_v153 (ix1 j) k)) = ∑ k : Fin 100000, (Read.val_main_v152 (F := Ideal) a0 a2 a3 a4 a5 a6 a7 a14 a15) (ix2 k j) :=
    Finset.sum_congr rfl fun k _ => congrArg (Read.val_main_v152 (F := Ideal) a0 a2 a3 a4 a5 a6 a7 a14 a15)
      (funext fun a => Fin.ext (by match a with | ⟨0, _⟩ => rfl | ⟨1, _⟩ => rfl))
  rw [Read.val_main_v155_apply, Read.val_main_v153_apply, Read.val_main_v154_apply, Read.val_main_cst_23_apply, Read.val_main_cst_22_apply, hs]
  simp only [Ideal.hostDivf_def, Ideal.ofBits_def, Ideal.ofBits_zero_f32]
  rfl

/-- The column variances, centred. -/
theorem var2_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) (j : Fin 128) :
    (Read.val_main_v162 (F := Ideal) a0 a2 a3 a4 a5 a6 a7 a14 a15) (ix1 j) = Gcn.varCentred (Gcn.toMat (Read.val_main_v152 (F := Ideal) a0 a2 a3 a4 a5 a6 a7 a14 a15)) j := by
  show _ = Ideal.div (0 + ∑ k : Fin 100000,
    ((Read.val_main_v152 (F := Ideal) a0 a2 a3 a4 a5 a6 a7 a14 a15) (ix2 k j) - Gcn.meanOf (Gcn.fullSum (Gcn.toMat (Read.val_main_v152 (F := Ideal) a0 a2 a3 a4 a5 a6 a7 a14 a15))) j) * ((Read.val_main_v152 (F := Ideal) a0 a2 a3 a4 a5 a6 a7 a14 a15) (ix2 k j) - Gcn.meanOf (Gcn.fullSum (Gcn.toMat (Read.val_main_v152 (F := Ideal) a0 a2 a3 a4 a5 a6 a7 a14 a15))) j)) Gcn.nodes
  have hs : (∑ k : Fin 100000, (Read.val_main_v159 (F := Ideal) a0 a2 a3 a4 a5 a6 a7 a14 a15) (Read.idx_main_v160 (ix1 j) k)) = ∑ k : Fin 100000,
      ((Read.val_main_v152 (F := Ideal) a0 a2 a3 a4 a5 a6 a7 a14 a15) (ix2 k j) - Gcn.meanOf (Gcn.fullSum (Gcn.toMat (Read.val_main_v152 (F := Ideal) a0 a2 a3 a4 a5 a6 a7 a14 a15))) j) * ((Read.val_main_v152 (F := Ideal) a0 a2 a3 a4 a5 a6 a7 a14 a15) (ix2 k j) - Gcn.meanOf (Gcn.fullSum (Gcn.toMat (Read.val_main_v152 (F := Ideal) a0 a2 a3 a4 a5 a6 a7 a14 a15))) j) :=
    Finset.sum_congr rfl fun k _ => by
      have e : Read.idx_main_v160 (ix1 j) k = ix2 k j :=
        funext fun a => Fin.ext (by match a with | ⟨0, _⟩ => rfl | ⟨1, _⟩ => rfl)
      have em : Read.idx_main_v156 (Read.idx_main_v157 (ix2 k j)) = ix1 j :=
        funext fun a => Fin.ext (by match a with | ⟨0, _⟩ => rfl)
      rw [e, Read.val_main_v159_apply, Read.val_main_v158_apply, Read.val_main_v157_apply, Read.val_main_v156_apply, em]
      simp only [Ideal.mulf_def, Ideal.subf_def]
      rw [mean2_eq]
  rw [Read.val_main_v162_apply, Read.val_main_v160_apply, Read.val_main_v161_apply, Read.val_main_cst_25_apply, Read.val_main_cst_24_apply, hs]
  simp only [Ideal.hostDivf_def, Ideal.ofBits_def, Ideal.ofBits_zero_f32]
  rfl

/-- The layer. -/
theorem x3_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) :
    Gcn.toMat (Read.val_main_v179 (F := Ideal) a0 a2 a3 a4 a5 a6 a7 a14 a15) =
      Gcn.layerWhole (agg a14 a15) (sOut a14) (sIn a15) (wL a4 2) (rowL a5 2) (rowL a6 2) (rowL a7 2)
        (Gcn.toMat (Read.val_main_v124 (F := Ideal) a0 a2 a3 a4 a5 a6 a7 a14 a15)) := by
  funext p q
  unfold Gcn.layerWhole
  rw [← hn2_eq a0 a2 a3 a4 a5 a6 a7 a14 a15]
  show (Read.val_main_v179 (F := Ideal) a0 a2 a3 a4 a5 a6 a7 a14 a15) (ix2 p q) = (Read.val_main_v124 (F := Ideal) a0 a2 a3 a4 a5 a6 a7 a14 a15) (ix2 p q) + max (((Read.val_main_v152 (F := Ideal) a0 a2 a3 a4 a5 a6 a7 a14 a15) (ix2 p q) - Gcn.meanOf (Gcn.fullSum (Gcn.toMat (Read.val_main_v152 (F := Ideal) a0 a2 a3 a4 a5 a6 a7 a14 a15))) q)
    * Ideal.rsqrt (Gcn.varCentred (Gcn.toMat (Read.val_main_v152 (F := Ideal) a0 a2 a3 a4 a5 a6 a7 a14 a15)) q + Gcn.eps) * a6 (ix2 2 q) + a7 (ix2 2 q)) 0
  have eg : Read.idx_main_v129 (Read.idx_main_v130 (Read.idx_main_v172 (Read.idx_main_v173 (ix2 p q)))) = ix2 2 q :=
    funext fun a => Fin.ext (by
      match a with
      | ⟨0, _⟩ => rfl
      | ⟨1, _⟩ => (show q.val % 128 = q.val; have := q.isLt; omega))
  have et : Read.idx_main_v131 (Read.idx_main_v132 (Read.idx_main_v175 (Read.idx_main_v176 (ix2 p q)))) = ix2 2 q :=
    funext fun a => Fin.ext (by
      match a with
      | ⟨0, _⟩ => rfl
      | ⟨1, _⟩ => (show q.val % 128 = q.val; have := q.isLt; omega))
  have ev : Read.idx_main_v169 (Read.idx_main_v170 (ix2 p q)) = ix1 q :=
    funext fun a => Fin.ext (by match a with | ⟨0, _⟩ => rfl)
  have em : Read.idx_main_v163 (Read.idx_main_v164 (ix2 p q)) = ix1 q :=
    funext fun a => Fin.ext (by match a with | ⟨0, _⟩ => rfl)
  rw [Read.val_main_v179_apply, Read.val_main_v178_apply, Read.val_main_call4_v0_apply, Read.val_main_call4_cst_apply, Read.val_main_v177_apply, Read.val_main_v176_apply, Read.val_main_v175_apply, Read.val_main_v132_apply, Read.val_main_v131_apply, Read.val_main_v174_apply, Read.val_main_v173_apply, Read.val_main_v172_apply, Read.val_main_v130_apply, Read.val_main_v129_apply, Read.val_main_v171_apply, Read.val_main_v170_apply, Read.val_main_v169_apply, Read.val_main_v168_apply, Read.val_main_v167_apply, Read.val_main_v166_apply, Read.val_main_cst_26_apply, Read.val_main_v165_apply, Read.val_main_v164_apply, Read.val_main_v163_apply,
    eg, et, ev, em, var2_eq, mean2_eq]
  simp only [Ideal.addf_def, Ideal.subf_def, Ideal.mulf_def, Ideal.maximumf_def, Ideal.hostUnary_rsqrt_def, Ideal.ofBits_def,
    Ideal.ofBits_zero_f32]
  rfl

end Cert.ReferenceIdeal.RefValue

end
-- ==== Proof.RefLayer3.lean ====
/-
  Layer 3 of the reference program is the layer of the specification with whole-column statistics, at the reference's
  aggregation, degree normalisers and layer-3 parameters.
-/
import proofs.«138442_j46162308497633_2_alg».proof.Proof.RefTerms

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

/-- The rows the edges gather are the input features scaled by the out-degree normaliser. -/
theorem scaled3_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) :
    (Read.val_main_v190 (F := Ideal) a0 a2 a3 a4 a5 a6 a7 a14 a15) = Gcn.ofMat (Gcn.scaleRows (Gcn.toMat (Read.val_main_v179 (F := Ideal) a0 a2 a3 a4 a5 a6 a7 a14 a15)) (sOut a14)) := by
  funext i
  obtain ⟨p, q, rfl⟩ : ∃ (p : Fin 100000) (q : Fin 128), i = ix2 p q := ⟨i 0, i 1, eq_ix2 i⟩
  show _ = (Read.val_main_v179 (F := Ideal) a0 a2 a3 a4 a5 a6 a7 a14 a15) (ix2 p q) * Read.val_main_v9 (F := Ideal) a14 (ix1 p)
  have e : Read.idx_main_v188 (Read.idx_main_v189 (ix2 p q)) = ix1 p :=
    funext fun a => Fin.ext (by match a with | ⟨0, _⟩ => rfl)
  rw [Read.val_main_v190_apply, Read.val_main_v189_apply, Read.val_main_v188_apply, e]
  try rfl

/-- This layer's index buffers and zero buffer are the first layer's. -/
theorem aggBuf3_eq (a14 : (⟨S1600000, .i32⟩ : BufTy).Contents (Elt Ideal)) (a15 : (⟨S1600000, .i32⟩ : BufTy).Contents (Elt Ideal)) :
    Read.val_main_v198 (F := Ideal) = Read.val_main_v33 (F := Ideal) ∧
    Read.val_main_v199 (F := Ideal) a15 = Read.val_main_v34 (F := Ideal) a15 ∧
    Read.val_main_v196 (F := Ideal) a14 = Read.val_main_v31 (F := Ideal) a14 := ⟨rfl, rfl, rfl⟩

/-- The aggregated rows are the aggregation of the scaled features. -/
theorem agg3_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) :
    Gcn.toMat (Read.val_main_v200 (F := Ideal) a0 a2 a3 a4 a5 a6 a7 a14 a15) = agg a14 a15 (Gcn.scaleRows (Gcn.toMat (Read.val_main_v179 (F := Ideal) a0 a2 a3 a4 a5 a6 a7 a14 a15)) (sOut a14)) := by
  unfold agg Read.val_main_v200 Read.val_main_v197
  rw [scaled3_eq, (aggBuf3_eq a14 a15).1, (aggBuf3_eq a14 a15).2.1, (aggBuf3_eq a14 a15).2.2]

/-- What the layer normalises. -/
theorem hn3_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) :
    Gcn.toMat (Read.val_main_v207 (F := Ideal) a0 a2 a3 a4 a5 a6 a7 a14 a15) =
      Gcn.preNorm (agg a14 a15) (sOut a14) (sIn a15) (wL a4 3) (rowL a5 3) (Gcn.toMat (Read.val_main_v179 (F := Ideal) a0 a2 a3 a4 a5 a6 a7 a14 a15)) := by
  funext p q
  show (Read.val_main_v207 (F := Ideal) a0 a2 a3 a4 a5 a6 a7 a14 a15) (ix2 p q) =
    (∑ k : Fin 128, (agg a14 a15 (Gcn.scaleRows (Gcn.toMat (Read.val_main_v179 (F := Ideal) a0 a2 a3 a4 a5 a6 a7 a14 a15)) (sOut a14)) p k * Read.val_main_v10 (F := Ideal) a15 (ix1 p)) * a4 (ix3 3 k q)) + a5 (ix2 3 q)
  have eb : Read.idx_main_v182 (Read.idx_main_v183 (Read.idx_main_v205 (Read.idx_main_v206 (ix2 p q)))) = ix2 3 q :=
    funext fun a => Fin.ext (by
      match a with
      | ⟨0, _⟩ => rfl
      | ⟨1, _⟩ => (show q.val % 128 = q.val; have := q.isLt; omega))
  rw [Read.val_main_v207_apply, Read.val_main_v204_apply, Read.val_main_v206_apply, Read.val_main_v205_apply, Read.val_main_v183_apply, Read.val_main_v182_apply, eb]
  simp only [Ideal.addf_def]
  refine congrArg₂ (· + ·) (Finset.sum_congr rfl fun k _ => ?_) rfl
  have el : Read.lidx_main_v204 (ix2 p q) k = ix2 p k :=
    funext fun a => Fin.ext (by match a with | ⟨0, _⟩ => rfl | ⟨1, _⟩ => rfl)
  have er : Read.ridx_main_v204 (ix2 p q) k = ix2 k q :=
    funext fun a => Fin.ext (by match a with | ⟨0, _⟩ => rfl | ⟨1, _⟩ => rfl)
  have es : Read.idx_main_v201 (Read.idx_main_v202 (ix2 p k)) = ix1 p :=
    funext fun a => Fin.ext (by match a with | ⟨0, _⟩ => rfl)
  have ew : Read.idx_main_v180 (Read.idx_main_v181 (ix2 k q)) = ix3 3 k q :=
    funext fun a => Fin.ext (by
      match a with
      | ⟨0, _⟩ => rfl
      | ⟨1, _⟩ => (show (k.val * 128 + q.val) / 128 % 128 = k.val; have := k.isLt; have := q.isLt; omega)
      | ⟨2, _⟩ => (show (k.val * 128 + q.val) % 128 = q.val; have := k.isLt; have := q.isLt; omega))
  have ha : (Read.val_main_v200 (F := Ideal) a0 a2 a3 a4 a5 a6 a7 a14 a15) (ix2 p k) = agg a14 a15 (Gcn.scaleRows (Gcn.toMat (Read.val_main_v179 (F := Ideal) a0 a2 a3 a4 a5 a6 a7 a14 a15)) (sOut a14)) p k :=
    congrFun (congrFun (agg3_eq a0 a2 a3 a4 a5 a6 a7 a14 a15) p) k
  rw [el, er, Read.val_main_v203_apply, Read.val_main_v202_apply, Read.val_main_v201_apply, Read.val_main_v181_apply, Read.val_main_v180_apply, es, ew]
  simp only [Ideal.mulf_def]
  rw [ha]

/-- The column means. -/
theorem mean3_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) (j : Fin 128) :
    (Read.val_main_v210 (F := Ideal) a0 a2 a3 a4 a5 a6 a7 a14 a15) (ix1 j) = Gcn.meanOf (Gcn.fullSum (Gcn.toMat (Read.val_main_v207 (F := Ideal) a0 a2 a3 a4 a5 a6 a7 a14 a15))) j := by
  show _ = Ideal.div (0 + ∑ k : Fin 100000, (Read.val_main_v207 (F := Ideal) a0 a2 a3 a4 a5 a6 a7 a14 a15) (ix2 k j)) Gcn.nodes
  have hs : (∑ k : Fin 100000, (Read.val_main_v207 (F := Ideal) a0 a2 a3 a4 a5 a6 a7 a14 a15) (Read.idx_main_v208 (ix1 j) k)) = ∑ k : Fin 100000, (Read.val_main_v207 (F := Ideal) a0 a2 a3 a4 a5 a6 a7 a14 a15) (ix2 k j) :=
    Finset.sum_congr rfl fun k _ => congrArg (Read.val_main_v207 (F := Ideal) a0 a2 a3 a4 a5 a6 a7 a14 a15)
      (funext fun a => Fin.ext (by match a with | ⟨0, _⟩ => rfl | ⟨1, _⟩ => rfl))
  rw [Read.val_main_v210_apply, Read.val_main_v208_apply, Read.val_main_v209_apply, Read.val_main_cst_31_apply, Read.val_main_cst_30_apply, hs]
  simp only [Ideal.hostDivf_def, Ideal.ofBits_def, Ideal.ofBits_zero_f32]
  rfl

/-- The column variances, centred. -/
theorem var3_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) (j : Fin 128) :
    (Read.val_main_v217 (F := Ideal) a0 a2 a3 a4 a5 a6 a7 a14 a15) (ix1 j) = Gcn.varCentred (Gcn.toMat (Read.val_main_v207 (F := Ideal) a0 a2 a3 a4 a5 a6 a7 a14 a15)) j := by
  show _ = Ideal.div (0 + ∑ k : Fin 100000,
    ((Read.val_main_v207 (F := Ideal) a0 a2 a3 a4 a5 a6 a7 a14 a15) (ix2 k j) - Gcn.meanOf (Gcn.fullSum (Gcn.toMat (Read.val_main_v207 (F := Ideal) a0 a2 a3 a4 a5 a6 a7 a14 a15))) j) * ((Read.val_main_v207 (F := Ideal) a0 a2 a3 a4 a5 a6 a7 a14 a15) (ix2 k j) - Gcn.meanOf (Gcn.fullSum (Gcn.toMat (Read.val_main_v207 (F := Ideal) a0 a2 a3 a4 a5 a6 a7 a14 a15))) j)) Gcn.nodes
  have hs : (∑ k : Fin 100000, (Read.val_main_v214 (F := Ideal) a0 a2 a3 a4 a5 a6 a7 a14 a15) (Read.idx_main_v215 (ix1 j) k)) = ∑ k : Fin 100000,
      ((Read.val_main_v207 (F := Ideal) a0 a2 a3 a4 a5 a6 a7 a14 a15) (ix2 k j) - Gcn.meanOf (Gcn.fullSum (Gcn.toMat (Read.val_main_v207 (F := Ideal) a0 a2 a3 a4 a5 a6 a7 a14 a15))) j) * ((Read.val_main_v207 (F := Ideal) a0 a2 a3 a4 a5 a6 a7 a14 a15) (ix2 k j) - Gcn.meanOf (Gcn.fullSum (Gcn.toMat (Read.val_main_v207 (F := Ideal) a0 a2 a3 a4 a5 a6 a7 a14 a15))) j) :=
    Finset.sum_congr rfl fun k _ => by
      have e : Read.idx_main_v215 (ix1 j) k = ix2 k j :=
        funext fun a => Fin.ext (by match a with | ⟨0, _⟩ => rfl | ⟨1, _⟩ => rfl)
      have em : Read.idx_main_v211 (Read.idx_main_v212 (ix2 k j)) = ix1 j :=
        funext fun a => Fin.ext (by match a with | ⟨0, _⟩ => rfl)
      rw [e, Read.val_main_v214_apply, Read.val_main_v213_apply, Read.val_main_v212_apply, Read.val_main_v211_apply, em]
      simp only [Ideal.mulf_def, Ideal.subf_def]
      rw [mean3_eq]
  rw [Read.val_main_v217_apply, Read.val_main_v215_apply, Read.val_main_v216_apply, Read.val_main_cst_33_apply, Read.val_main_cst_32_apply, hs]
  simp only [Ideal.hostDivf_def, Ideal.ofBits_def, Ideal.ofBits_zero_f32]
  rfl

/-- The layer. -/
theorem x4_eq (a0 : (⟨S100000x128, .f32⟩ : BufTy).Contents (Elt Ideal)) (a2 : (⟨S128x128, .f32⟩ : BufTy).Contents (Elt Ideal)) (a3 : (⟨S128, .f32⟩ : BufTy).Contents (Elt Ideal)) (a4 : (⟨S4x128x128, .f32⟩ : BufTy).Contents (Elt Ideal)) (a5 : (⟨S4x128, .f32⟩ : BufTy).Contents (Elt Ideal)) (a6 : (⟨S4x128, .f32⟩ : BufTy).Contents (Elt Ideal)) (a7 : (⟨S4x128, .f32⟩ : BufTy).Contents (Elt Ideal)) (a14 : (⟨S1600000, .i32⟩ : BufTy).Contents (Elt Ideal)) (a15 : (⟨S1600000, .i32⟩ : BufTy).Contents (Elt Ideal)) :
    Gcn.toMat (Read.val_main_v234 (F := Ideal) a0 a2 a3 a4 a5 a6 a7 a14 a15) =
      Gcn.layerWhole (agg a14 a15) (sOut a14) (sIn a15) (wL a4 3) (rowL a5 3) (rowL a6 3) (rowL a7 3)
        (Gcn.toMat (Read.val_main_v179 (F := Ideal) a0 a2 a3 a4 a5 a6 a7 a14 a15)) := by
  funext p q
  unfold Gcn.layerWhole
  rw [← hn3_eq a0 a2 a3 a4 a5 a6 a7 a14 a15]
  show (Read.val_main_v234 (F := Ideal) a0 a2 a3 a4 a5 a6 a7 a14 a15) (ix2 p q) = (Read.val_main_v179 (F := Ideal) a0 a2 a3 a4 a5 a6 a7 a14 a15) (ix2 p q) + max (((Read.val_main_v207 (F := Ideal) a0 a2 a3 a4 a5 a6 a7 a14 a15) (ix2 p q) - Gcn.meanOf (Gcn.fullSum (Gcn.toMat (Read.val_main_v207 (F := Ideal) a0 a2 a3 a4 a5 a6 a7 a14 a15))) q)
    * Ideal.rsqrt (Gcn.varCentred (Gcn.toMat (Read.val_main_v207 (F := Ideal) a0 a2 a3 a4 a5 a6 a7 a14 a15)) q + Gcn.eps) * a6 (ix2 3 q) + a7 (ix2 3 q)) 0
  have eg : Read.idx_main_v184 (Read.idx_main_v185 (Read.idx_main_v227 (Read.idx_main_v228 (ix2 p q)))) = ix2 3 q :=
    funext fun a => Fin.ext (by
      match a with
      | ⟨0, _⟩ => rfl
      | ⟨1, _⟩ => (show q.val % 128 = q.val; have := q.isLt; omega))
  have et : Read.idx_main_v186 (Read.idx_main_v187 (Read.idx_main_v230 (Read.idx_main_v231 (ix2 p q)))) = ix2 3 q :=
    funext fun a => Fin.ext (by
      match a with
      | ⟨0, _⟩ => rfl
      | ⟨1, _⟩ => (show q.val % 128 = q.val; have := q.isLt; omega))
  have ev : Read.idx_main_v224 (Read.idx_main_v225 (ix2 p q)) = ix1 q :=
    funext fun a => Fin.ext (by match a with | ⟨0, _⟩ => rfl)
  have em : Read.idx_main_v218 (Read.idx_main_v219 (ix2 p q)) = ix1 q :=
    funext fun a => Fin.ext (by match a with | ⟨0, _⟩ => rfl)
  rw [Read.val_main_v234_apply, Read.val_main_v233_apply, Read.val_main_call5_v0_apply, Read.val_main_call5_cst_apply, Read.val_main_v232_apply, Read.val_main_v231_apply, Read.val_main_v230_apply, Read.val_main_v187_apply, Read.val_main_v186_apply, Read.val_main_v229_apply, Read.val_main_v228_apply, Read.val_main_v227_apply, Read.val_main_v185_apply, Read.val_main_v184_apply, Read.val_main_v226_apply, Read.val_main_v225_apply, Read.val_main_v224_apply, Read.val_main_v223_apply, Read.val_main_v222_apply, Read.val_main_v221_apply, Read.val_main_cst_34_apply, Read.val_main_v220_apply, Read.val_main_v219_apply, Read.val_main_v218_apply,
    eg, et, ev, em, var3_eq, mean3_eq]
  simp only [Ideal.addf_def, Ideal.subf_def, Ideal.mulf_def, Ideal.maximumf_def, Ideal.hostUnary_rsqrt_def, Ideal.ofBits_def,
    Ideal.ofBits_zero_f32]
  rfl

end Cert.ReferenceIdeal.RefValue

end
-- ==== Proof.RefReadout.lean ====
/-
  The read-out: the node features are pooled per graph and divided by the clamped graph sizes, and the per-graph means go
  through three affine maps with a rectifier after the first two.

  Stage by stage: the mean is the pooled sum over the graph size (`hg_eq`); each hidden stage is `max 0` of an affine map
  of the stage before (`h1_eq`, `h2_eq`); the result is an affine map of the second hidden stage (`h3_eq`). Together they
  are the three-layer perceptron of the per-graph means (`out_eq`).
-/
import proofs.«138442_j46162308497633_2_alg».proof.Proof.RefTerms

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

variable (a0 : (⟨S100000x128, .f32⟩ : BufTy).Contents (Elt Ideal)) (a2 : (⟨S128x128, .f32⟩ : BufTy).Contents (Elt Ideal)) (a3 : (⟨S128, .f32⟩ : BufTy).Contents (Elt Ideal))
  (a4 : (⟨S4x128x128, .f32⟩ : BufTy).Contents (Elt Ideal)) (a5 a6 a7 : (⟨S4x128, .f32⟩ : BufTy).Contents (Elt Ideal))
  (a8 : (⟨S128x64, .f32⟩ : BufTy).Contents (Elt Ideal)) (a9 : (⟨S64, .f32⟩ : BufTy).Contents (Elt Ideal))
  (a10 : (⟨S64x32, .f32⟩ : BufTy).Contents (Elt Ideal)) (a11 : (⟨S32, .f32⟩ : BufTy).Contents (Elt Ideal))
  (a12 : (⟨S32x10, .f32⟩ : BufTy).Contents (Elt Ideal)) (a13 : (⟨S10, .f32⟩ : BufTy).Contents (Elt Ideal))
  (a14 a15 : (⟨S1600000, .i32⟩ : BufTy).Contents (Elt Ideal)) (a16 : (⟨S100000, .i32⟩ : BufTy).Contents (Elt Ideal))

/-- Pooling a matrix read from an array adds the array's rows. -/
theorem pool_toMat (A : (⟨S100000x128, .f32⟩ : BufTy).Contents (Elt Ideal)) :
    pool a16 (Gcn.toMat A) = Gcn.toMat (Host.scatterAdd (F := Ideal) (φ := .f32) scatter_S128x128_S100000x1_S100000x128_1_0_0_1
      (Read.val_main_v235 (F := Ideal)) (Read.val_main_v236 (F := Ideal) a16) A) := by
  unfold pool
  rw [ofMat_toMat]

/-- The per-graph means: the pooled sums over the clamped graph sizes. -/
theorem hg_eq :
    Gcn.toMat (Read.val_main_v245 (F := Ideal) a0 a2 a3 a4 a5 a6 a7 a14 a15 a16)
      = Gcn.graphMean (pool a16 (Gcn.toMat (Read.val_main_v234 (F := Ideal) a0 a2 a3 a4 a5 a6 a7 a14 a15))) (cnt a16) := by
  rw [pool_toMat]
  funext p q
  show Read.val_main_v245 (F := Ideal) a0 a2 a3 a4 a5 a6 a7 a14 a15 a16 (ix2 p q) = _
  rw [Read.val_main_v245_apply, Read.val_main_v244_apply, Read.val_main_v243_apply]
  have e : Read.idx_main_v243 (Read.idx_main_v244 (ix2 p q)) = ix1 p :=
    funext fun a => Fin.ext (by match a with | ⟨0, _⟩ => rfl)
  simp only [e, Ideal.hostDivf_def]
  rfl

/-- The first hidden stage. -/
theorem h1_eq :
    Gcn.toMat (Read.val_main_v250 (F := Ideal) a0 a2 a3 a4 a5 a6 a7 a8 a9 a14 a15 a16)
      = Gcn.relu (Gcn.affine (Gcn.toMat (Read.val_main_v245 (F := Ideal) a0 a2 a3 a4 a5 a6 a7 a14 a15 a16))
          (Gcn.toMat a8) (Gcn.vecOf a9)) := by
  funext p q
  show Read.val_main_v250 (F := Ideal) a0 a2 a3 a4 a5 a6 a7 a8 a9 a14 a15 a16 (ix2 p q) = _
  rw [Read.val_main_v250_apply, Read.val_main_v249_apply, Read.val_main_v246_apply, Read.val_main_v248_apply,
    Read.val_main_v247_apply, Read.val_main_call7_v0_apply, Read.val_main_call7_cst_apply]
  have el : ∀ k : Fin 128, Read.lidx_main_v246 (ix2 p q) k = ix2 p k := fun k =>
    funext fun a => Fin.ext (by match a with | ⟨0, _⟩ => rfl | ⟨1, _⟩ => rfl)
  have er : ∀ k : Fin 128, Read.ridx_main_v246 (ix2 p q) k = ix2 k q := fun k =>
    funext fun a => Fin.ext (by match a with | ⟨0, _⟩ => rfl | ⟨1, _⟩ => rfl)
  have eb : Read.idx_main_v247 (Read.idx_main_v248 (ix2 p q)) = ix1 q :=
    funext fun a => Fin.ext (by match a with | ⟨0, _⟩ => rfl)
  simp only [el, er, eb, Ideal.addf_def, Ideal.maximumf_def, Ideal.ofBits_def, Ideal.ofBits_zero_f32]
  rfl

/-- The second hidden stage. -/
theorem h2_eq :
    Gcn.toMat (Read.val_main_v255 (F := Ideal) a0 a2 a3 a4 a5 a6 a7 a8 a9 a10 a11 a14 a15 a16)
      = Gcn.relu (Gcn.affine (Gcn.toMat (Read.val_main_v250 (F := Ideal) a0 a2 a3 a4 a5 a6 a7 a8 a9 a14 a15 a16))
          (Gcn.toMat a10) (Gcn.vecOf a11)) := by
  funext p q
  show Read.val_main_v255 (F := Ideal) a0 a2 a3 a4 a5 a6 a7 a8 a9 a10 a11 a14 a15 a16 (ix2 p q) = _
  rw [Read.val_main_v255_apply, Read.val_main_v254_apply, Read.val_main_v251_apply, Read.val_main_v253_apply,
    Read.val_main_v252_apply, Read.val_main_call8_v0_apply, Read.val_main_call8_cst_apply]
  have el : ∀ k : Fin 64, Read.lidx_main_v251 (ix2 p q) k = ix2 p k := fun k =>
    funext fun a => Fin.ext (by match a with | ⟨0, _⟩ => rfl | ⟨1, _⟩ => rfl)
  have er : ∀ k : Fin 64, Read.ridx_main_v251 (ix2 p q) k = ix2 k q := fun k =>
    funext fun a => Fin.ext (by match a with | ⟨0, _⟩ => rfl | ⟨1, _⟩ => rfl)
  have eb : Read.idx_main_v252 (Read.idx_main_v253 (ix2 p q)) = ix1 q :=
    funext fun a => Fin.ext (by match a with | ⟨0, _⟩ => rfl)
  simp only [el, er, eb, Ideal.addf_def, Ideal.maximumf_def, Ideal.ofBits_def, Ideal.ofBits_zero_f32]
  rfl

/-- The result: an affine map of the second hidden stage. -/
theorem h3_eq :
    Gcn.toMat (Read.val_main_v259 (F := Ideal) a0 a2 a3 a4 a5 a6 a7 a8 a9 a10 a11 a12 a13 a14 a15 a16)
      = Gcn.affine (Gcn.toMat (Read.val_main_v255 (F := Ideal) a0 a2 a3 a4 a5 a6 a7 a8 a9 a10 a11 a14 a15 a16))
          (Gcn.toMat a12) (Gcn.vecOf a13) := by
  funext p q
  show Read.val_main_v259 (F := Ideal) a0 a2 a3 a4 a5 a6 a7 a8 a9 a10 a11 a12 a13 a14 a15 a16 (ix2 p q) = _
  rw [Read.val_main_v259_apply, Read.val_main_v256_apply, Read.val_main_v258_apply, Read.val_main_v257_apply]
  have el : ∀ k : Fin 32, Read.lidx_main_v256 (ix2 p q) k = ix2 p k := fun k =>
    funext fun a => Fin.ext (by match a with | ⟨0, _⟩ => rfl | ⟨1, _⟩ => rfl)
  have er : ∀ k : Fin 32, Read.ridx_main_v256 (ix2 p q) k = ix2 k q := fun k =>
    funext fun a => Fin.ext (by match a with | ⟨0, _⟩ => rfl | ⟨1, _⟩ => rfl)
  have eb : Read.idx_main_v257 (Read.idx_main_v258 (ix2 p q)) = ix1 q :=
    funext fun a => Fin.ext (by match a with | ⟨0, _⟩ => rfl)
  simp only [el, er, eb, Ideal.addf_def]
  rfl

/-- The read-out: the result is the three-layer perceptron of the per-graph means of the last layer's features. -/
theorem out_eq :
    Gcn.toMat (Read.val_main_v259 (F := Ideal) a0 a2 a3 a4 a5 a6 a7 a8 a9 a10 a11 a12 a13 a14 a15 a16)
      = Gcn.mlp (Gcn.graphMean (pool a16 (Gcn.toMat (Read.val_main_v234 (F := Ideal) a0 a2 a3 a4 a5 a6 a7 a14 a15))) (cnt a16))
          (Gcn.toMat a8) (Gcn.vecOf a9) (Gcn.toMat a10) (Gcn.vecOf a11) (Gcn.toMat a12) (Gcn.vecOf a13) := by
  rw [h3_eq, h2_eq, h1_eq, hg_eq]
  rfl

end Cert.ReferenceIdeal.RefValue

end
-- ==== Proof.TermsBridge.lean ====
/-
  The two programs' host-side terms are the same terms.

  Each program spells its degree counts, row numbers, zero arrays, pooling and graph sizes with its own copy of the same
  shapes and dimension records; spelled out, the two sides are one expression. Widening a float array is the identity on
  the extended reals, so the kernel's widened gather is the reference's gather.
-/
import proofs.«138442_j46162308497633_2_alg».proof.Proof.KTerms
import proofs.«138442_j46162308497633_2_alg».proof.Proof.KTermsReal
import proofs.«138442_j46162308497633_2_alg».proof.Proof.RefTerms

set_option maxRecDepth 16384

noncomputable section

namespace Cert.Proof.TermsBridge

open Idealize.ShloMosaic Idealize.ShloMosaic.ValueIdx Idealize.SL.Sem

/-- Widening a float array is the identity on the extended reals. -/
theorem extf_ideal {s : Shape} {φ ψ : FTy} (a : FVec Ideal s φ) (h : φ.bits < ψ.bits) :
    (extf ψ a h : FVec Ideal s ψ) = a := rfl

/-! ### The degree counts -/

theorem deg_bridge_out (a14 : Cert.KernelIdeal.Terms.IArr Cert.KernelIdeal.S1600000) :
    Cert.KernelIdeal.Terms.deg a14 = Cert.ReferenceIdeal.Read.val_main_v3 (F := Ideal) a14 := by
  unfold Cert.KernelIdeal.Terms.deg Cert.KernelIdeal.Terms.colE Cert.KernelIdeal.Terms.onesE Cert.KernelIdeal.Terms.zeroS
    Cert.KernelIdeal.Terms.oneS Cert.ReferenceIdeal.Read.val_main_v3 Cert.ReferenceIdeal.Read.val_main_v2
    Cert.ReferenceIdeal.Read.val_main_v1 Cert.ReferenceIdeal.Read.val_main_v0 Cert.ReferenceIdeal.Read.val_main_cst_0
    Cert.ReferenceIdeal.Read.val_main_cst
  rfl

theorem deg_bridge_in (a15 : Cert.KernelIdeal.Terms.IArr Cert.KernelIdeal.S1600000) :
    Cert.KernelIdeal.Terms.deg a15 = Cert.ReferenceIdeal.Read.val_main_v7 (F := Ideal) a15 := by
  unfold Cert.KernelIdeal.Terms.deg Cert.KernelIdeal.Terms.colE Cert.KernelIdeal.Terms.onesE Cert.KernelIdeal.Terms.zeroS
    Cert.KernelIdeal.Terms.oneS Cert.ReferenceIdeal.Read.val_main_v7 Cert.ReferenceIdeal.Read.val_main_v6
    Cert.ReferenceIdeal.Read.val_main_v5 Cert.ReferenceIdeal.Read.val_main_v0 Cert.ReferenceIdeal.Read.val_main_cst_2
    Cert.ReferenceIdeal.Read.val_main_cst
  rfl

/-! ### The degree normalisers -/

theorem sOut_bridge (a14 : Cert.KernelIdeal.Terms.IArr Cert.KernelIdeal.S1600000) :
    Cert.KernelIdeal.Terms.sOut a14 = Cert.ReferenceIdeal.RefValue.sOut a14 := by
  rw [Cert.KernelIdeal.TermsReal.sOut_eq, Cert.ReferenceIdeal.RefValue.sOut_eq, deg_bridge_out]

theorem sIn_bridge (a15 : Cert.KernelIdeal.Terms.IArr Cert.KernelIdeal.S1600000) :
    Cert.KernelIdeal.Terms.sIn a15 = Cert.ReferenceIdeal.RefValue.sIn a15 := by
  rw [Cert.KernelIdeal.TermsReal.sIn_eq, Cert.ReferenceIdeal.RefValue.sIn_eq, deg_bridge_in]

/-! ### The edge aggregation -/

theorem srcIdx_bridge (a14 : Cert.KernelIdeal.Terms.IArr Cert.KernelIdeal.S1600000) :
    Cert.KernelIdeal.Terms.srcIdx a14 = Cert.ReferenceIdeal.Read.val_main_v31 (F := Ideal) a14 := by
  unfold Cert.KernelIdeal.Terms.srcIdx Cert.KernelIdeal.Terms.colE Cert.ReferenceIdeal.Read.val_main_v31
    Cert.ReferenceIdeal.Read.val_main_v30 Cert.ReferenceIdeal.Read.val_main_v29 Cert.ReferenceIdeal.Read.val_main_v28
    Cert.ReferenceIdeal.Read.val_main_v27 Cert.ReferenceIdeal.Read.val_main_v26 Cert.ReferenceIdeal.Read.val_main_c_4
    Cert.ReferenceIdeal.Read.val_main_c
  rfl

theorem dstIdx_bridge (a15 : Cert.KernelIdeal.Terms.IArr Cert.KernelIdeal.S1600000) :
    Cert.KernelIdeal.Terms.colE a15 = Cert.ReferenceIdeal.Read.val_main_v34 (F := Ideal) a15 := by
  unfold Cert.KernelIdeal.Terms.colE Cert.ReferenceIdeal.Read.val_main_v34
  rfl

theorem zeros_bridge :
    broadcastInDim Cert.KernelIdeal.S100000x128 ![] Cert.KernelIdeal.Gen.bcast_S_S100000x128 Cert.KernelIdeal.Terms.zeroS
      = Cert.ReferenceIdeal.Read.val_main_v33 (F := Ideal) := by
  unfold Cert.KernelIdeal.Terms.zeroS Cert.ReferenceIdeal.Read.val_main_v33 Cert.ReferenceIdeal.Read.val_main_cst_5
  rfl

theorem agg_bridge (a14 a15 : Cert.KernelIdeal.Terms.IArr Cert.KernelIdeal.S1600000) :
    Cert.KernelIdeal.Terms.agg a14 a15 = Cert.ReferenceIdeal.RefValue.agg a14 a15 := by
  funext hs
  unfold Cert.KernelIdeal.Terms.agg Cert.ReferenceIdeal.RefValue.agg Cert.KernelIdeal.Terms.aggArr
  rw [extf_ideal, srcIdx_bridge, dstIdx_bridge, zeros_bridge]
  rfl

/-! ### The pooling, the graph sizes, the layer parameters -/

theorem pool_bridge (a16 : Cert.KernelIdeal.Terms.IArr Cert.KernelIdeal.S100000) :
    Cert.KernelIdeal.Terms.pool a16 = Cert.ReferenceIdeal.RefValue.pool a16 := by
  funext x
  unfold Cert.KernelIdeal.Terms.pool Cert.ReferenceIdeal.RefValue.pool Cert.KernelIdeal.Terms.poolArr
    Cert.KernelIdeal.Terms.zeroS Cert.ReferenceIdeal.Read.val_main_v235 Cert.ReferenceIdeal.Read.val_main_v236
    Cert.ReferenceIdeal.Read.val_main_cst_35
  rfl

theorem cnt_bridge (a16 : Cert.KernelIdeal.Terms.IArr Cert.KernelIdeal.S100000) :
    Cert.KernelIdeal.Terms.cnt a16 = Cert.ReferenceIdeal.RefValue.cnt a16 := by
  unfold Cert.KernelIdeal.Terms.cnt Cert.ReferenceIdeal.RefValue.cnt Cert.KernelIdeal.Terms.cntArr
    Cert.KernelIdeal.Terms.zeroS Cert.KernelIdeal.Terms.oneS Cert.ReferenceIdeal.Read.val_main_v242
    Cert.ReferenceIdeal.Read.val_main_v241 Cert.ReferenceIdeal.Read.val_main_v240 Cert.ReferenceIdeal.Read.val_main_v239
    Cert.ReferenceIdeal.Read.val_main_v238 Cert.ReferenceIdeal.Read.val_main_call6_v1 Cert.ReferenceIdeal.Read.val_main_call6_v0
    Cert.ReferenceIdeal.Read.val_main_cst_38 Cert.ReferenceIdeal.Read.val_main_cst_37 Cert.ReferenceIdeal.Read.val_main_cst_36
  rfl

theorem wL_bridge (a4 : Cert.KernelIdeal.Terms.FArr Cert.KernelIdeal.S4x128x128) (l : Fin 4) :
    Cert.KernelIdeal.Terms.wL a4 l = Cert.ReferenceIdeal.RefValue.wL a4 l := rfl

theorem rowL_bridge (a : Cert.KernelIdeal.Terms.FArr Cert.KernelIdeal.S4x128) (l : Fin 4) :
    Cert.KernelIdeal.Terms.rowL a l = Cert.ReferenceIdeal.RefValue.rowL a l := rfl

end Cert.Proof.TermsBridge

end
-- ==== Proof.Final.lean ====
/-
  The two idealized programs compute one function. The kernel program's result is followed from the launch memory through
  its ten regions and the host stretches between them: the embedding, four graph-convolution layers whose batch statistics
  are taken tile by tile with the variance `max (E[x²] − mean²) 0`, the per-graph mean, and the read-out. The reference's
  result is the same composition with the statistics taken over whole columns and the variance `E[(x − mean)²]`. The host
  computations the two share (degree normalisers, edge aggregation, pooling) are the same terms of the arguments, and
  where the float arguments are finite every layer's pre-normalisation features are real numbers, on which the two forms
  of the statistics agree.
-/
import proofs.«138442_j46162308497633_2_alg».proof.Proof.Gen.KernelIdeal.Frame
import proofs.«138442_j46162308497633_2_alg».proof.Proof.KRun
import proofs.«138442_j46162308497633_2_alg».proof.Proof.KChainBase
import proofs.«138442_j46162308497633_2_alg».proof.Proof.KHead
import proofs.«138442_j46162308497633_2_alg».proof.Proof.KLayer0
import proofs.«138442_j46162308497633_2_alg».proof.Proof.KLayer1
import proofs.«138442_j46162308497633_2_alg».proof.Proof.KLayer2
import proofs.«138442_j46162308497633_2_alg».proof.Proof.KLayer3
import proofs.«138442_j46162308497633_2_alg».proof.Proof.KTail
import proofs.«138442_j46162308497633_2_alg».proof.Proof.KTermsReal
import proofs.«138442_j46162308497633_2_alg».proof.Proof.GcnLaws
import proofs.«138442_j46162308497633_2_alg».proof.Proof.ArgsReal
import proofs.«138442_j46162308497633_2_alg».proof.Proof.RefReadP
import proofs.«138442_j46162308497633_2_alg».proof.Proof.RefTerms
import proofs.«138442_j46162308497633_2_alg».proof.Proof.RefEmbed
import proofs.«138442_j46162308497633_2_alg».proof.Proof.RefLayer0
import proofs.«138442_j46162308497633_2_alg».proof.Proof.RefLayer1
import proofs.«138442_j46162308497633_2_alg».proof.Proof.RefLayer2
import proofs.«138442_j46162308497633_2_alg».proof.Proof.RefLayer3
import proofs.«138442_j46162308497633_2_alg».proof.Proof.RefReadout
import proofs.«138442_j46162308497633_2_alg».proof.Proof.TermsBridge
import proofs.«138442_j46162308497633_2_alg».proof.Proof.Gen.ReferenceIdeal
import proofs.«138442_j46162308497633_2_alg».proof.Proof.Gen.Pre_finite_inputs
import proofs.«138442_j46162308497633_2_alg».proof.Defs

set_option maxRecDepth 16384

noncomputable section

namespace Cert.Proof.Final

open Idealize.ShloMosaic Idealize.ShloMosaic.TcCoe Idealize.ShloMosaic.ValueIdx Idealize.SL Idealize.SL.Sem
open Cert.KernelIdeal Cert.KernelIdeal.Gen Cert.KernelIdeal.Chain

section KernelSide

variable (m : (ℓ : Loc nD τ sig) → Buf (Elt Ideal) ℓ) (ρ : Dev nD → PrngReg) (c : Dev nD)

/-- The embedded features, and the features after each layer with the statistics taken tile by tile. -/
def x0 : Gcn.Mat 100000 128 := Gcn.affine (Gcn.toMat (a0 m c)) (Gcn.toMat (a2 m c)) (Gcn.vecOf (a3 m c))
def stepT (l : Fin 4) (x : Gcn.Mat 100000 128) : Gcn.Mat 100000 128 :=
  Gcn.layerTiled (Terms.agg (a14 m c) (a15 m c)) (Terms.sOut (a14 m c)) (Terms.sIn (a15 m c)) (Terms.wL (a4 m c) l)
    (Terms.rowL (a5 m c) l) (Terms.rowL (a6 m c) l) (Terms.rowL (a7 m c) l) x
def stepW (l : Fin 4) (x : Gcn.Mat 100000 128) : Gcn.Mat 100000 128 :=
  Gcn.layerWhole (Terms.agg (a14 m c) (a15 m c)) (Terms.sOut (a14 m c)) (Terms.sIn (a15 m c)) (Terms.wL (a4 m c) l)
    (Terms.rowL (a5 m c) l) (Terms.rowL (a6 m c) l) (Terms.rowL (a7 m c) l) x

/-- The kernel program's result, entry by entry: the read-out of the per-graph mean of the fourth layer's features. -/
theorem kernel_value (p : Fin 128) (q : Fin 10) :
    W26 m ρ c (Proc.devRef .tc main_v165) (ix2 p q)
      = Gcn.mlp (Gcn.graphMean (Terms.pool (a16 m c) (stepT m c 3 (stepT m c 2 (stepT m c 1 (stepT m c 0 (x0 m c))))))
          (Terms.cnt (a16 m c))) (Gcn.toMat (a8 m c)) (Gcn.vecOf (a9 m c)) (Gcn.toMat (a10 m c)) (Gcn.vecOf (a11 m c))
          (Gcn.toMat (a12 m c)) (Gcn.vecOf (a13 m c)) p q := by
  obtain ⟨h1x, h1s⟩ := layer0 m ρ c (x0 m c) (head_x m ρ c) (head_hs m ρ c)
  obtain ⟨h2x, h2s⟩ := layer1 m ρ c _ h1x h1s
  obtain ⟨h3x, h3s⟩ := layer2 m ρ c _ h2x h2s
  obtain ⟨h4x, _⟩ := layer3 m ρ c _ h3x h3s
  exact tail_out m ρ c _ h4x p q

/-- Where the float arguments are real numbers, the tiled layers are the whole-column layers. -/
theorem layers_eq (hr : (∀ i, Gcn.IsReal (a0 m c i)) ∧ (∀ i, Gcn.IsReal (a2 m c i)) ∧ (∀ i, Gcn.IsReal (a3 m c i))
      ∧ (∀ i, Gcn.IsReal (a4 m c i)) ∧ (∀ i, Gcn.IsReal (a5 m c i)) ∧ (∀ i, Gcn.IsReal (a6 m c i)) ∧ (∀ i, Gcn.IsReal (a7 m c i))) :
    stepT m c 3 (stepT m c 2 (stepT m c 1 (stepT m c 0 (x0 m c))))
      = stepW m c 3 (stepW m c 2 (stepW m c 1 (stepW m c 0 (x0 m c)))) := by
  obtain ⟨r0, r2, r3, r4, r5, r6, r7⟩ := hr
  exact Gcn.four_layers (Terms.agg (a14 m c) (a15 m c)) (Cert.KernelIdeal.TermsReal.real_agg (a14 m c) (a15 m c))
    (Terms.sOut (a14 m c)) (Terms.sIn (a15 m c)) (Cert.KernelIdeal.TermsReal.real_sOut (a14 m c)) (Cert.KernelIdeal.TermsReal.real_sIn (a15 m c))
    (Terms.wL (a4 m c)) (Terms.rowL (a5 m c)) (Terms.rowL (a6 m c)) (Terms.rowL (a7 m c))
    (fun l k q => r4 _) (fun l q => r5 _) (fun l q => r6 _) (fun l q => r7 _) (x0 m c)
    (Gcn.real_affine (fun p k => r0 _) (fun k q => r2 _) (fun q => r3 _))

end KernelSide

section ReferenceSide

variable (b0 : Terms.FArr S100000x128) (b2 : Terms.FArr S128x128) (b3 : Terms.FArr S128) (b4 : Terms.FArr S4x128x128)
  (b5 b6 b7 : Terms.FArr S4x128) (b8 : Terms.FArr S128x64) (b9 : Terms.FArr S64) (b10 : Terms.FArr S64x32) (b11 : Terms.FArr S32)
  (b12 : Terms.FArr S32x10) (b13 : Terms.FArr S10) (b14 b15 : Terms.IArr S1600000) (b16 : Terms.IArr S100000)

/-- A layer of the reference, over its own host terms. -/
def stepR (l : Fin 4) (x : Gcn.Mat 100000 128) : Gcn.Mat 100000 128 :=
  Gcn.layerWhole (Cert.ReferenceIdeal.RefValue.agg b14 b15) (Cert.ReferenceIdeal.RefValue.sOut b14) (Cert.ReferenceIdeal.RefValue.sIn b15) (Cert.ReferenceIdeal.RefValue.wL b4 l) (Cert.ReferenceIdeal.RefValue.rowL b5 l) (Cert.ReferenceIdeal.RefValue.rowL b6 l)
    (Cert.ReferenceIdeal.RefValue.rowL b7 l) x

/-- The reference's result, entry by entry. -/
theorem reference_value (p : Fin 128) (q : Fin 10) :
    Cert.ReferenceIdeal.Read.val_main_v259 (F := Ideal) b0 b2 b3 b4 b5 b6 b7 b8 b9 b10 b11 b12 b13 b14 b15 b16 (ix2 p q)
      = Gcn.mlp (Gcn.graphMean (Cert.ReferenceIdeal.RefValue.pool b16 (stepR b4 b5 b6 b7 b14 b15 3 (stepR b4 b5 b6 b7 b14 b15 2 (stepR b4 b5 b6 b7 b14 b15 1
          (stepR b4 b5 b6 b7 b14 b15 0 (Gcn.affine (Gcn.toMat b0) (Gcn.toMat b2) (Gcn.vecOf b3))))))) (Cert.ReferenceIdeal.RefValue.cnt b16))
          (Gcn.toMat b8) (Gcn.vecOf b9) (Gcn.toMat b10) (Gcn.vecOf b11) (Gcn.toMat b12) (Gcn.vecOf b13) p q := by
  have h := congrFun (congrFun (Cert.ReferenceIdeal.RefValue.out_eq b0 b2 b3 b4 b5 b6 b7 b8 b9 b10 b11 b12 b13 b14 b15 b16) p) q
  rw [Cert.ReferenceIdeal.RefValue.x4_eq, Cert.ReferenceIdeal.RefValue.x3_eq, Cert.ReferenceIdeal.RefValue.x2_eq, Cert.ReferenceIdeal.RefValue.x1_eq, Cert.ReferenceIdeal.RefValue.x0_eq] at h
  exact h

end ReferenceSide

/-- The algebraic claim: from memories agreeing on the arguments the two idealized programs end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => W26 m ρ c (Proc.devRef .tc main_v165), run_result m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12, e13, e14, e15, e16⟩ := hagree c
  rw [Cert.ReferenceIdeal.Read.val_main_v259_eq, e0, e2, e3, e4, e5, e6, e7, e8, e9, e10, e11, e12, e13, e14, e15, e16]
  funext i
  obtain ⟨p, q, rfl⟩ : ∃ (p : Fin 128) (q : Fin 10), i = ix2 p q := ⟨i 0, i 1, eq_ix2 i⟩
  refine (reference_value (a0 m c) (a2 m c) (a3 m c) (a4 m c) (a5 m c) (a6 m c) (a7 m c) (a8 m c) (a9 m c) (a10 m c) (a11 m c)
    (a12 m c) (a13 m c) (a14 m c) (a15 m c) (a16 m c) p q).trans ?_
  refine Eq.trans ?_ (kernel_value m ρ c p q).symm
  rw [layers_eq m c (Gcn.ArgsReal.args_real m hpre c)]
  unfold stepW stepR x0
  rw [Cert.Proof.TermsBridge.agg_bridge, Cert.Proof.TermsBridge.sOut_bridge, Cert.Proof.TermsBridge.sIn_bridge, Cert.Proof.TermsBridge.pool_bridge, Cert.Proof.TermsBridge.cnt_bridge]
  rfl

end Cert.Proof.Final

end
-- ==== Proof.lean ====
/-
  The certificate's five claims. The three frames: both kernel programs' are the generated launch proofs over their ten
  regions, and the reference's is its run with the result dropped. The idealization rewrote nothing, so that claim is
  trivial. The algebraic claim is `Cert.Proof.Final.algebraic`: the kernel program's result, followed through its regions
  and host stretches, and the reference's are one function of the arguments wherever the float arguments are finite.
-/
import proofs.«138442_j46162308497633_2_alg».proof.Proof.Gen.Kernel
import proofs.«138442_j46162308497633_2_alg».proof.Proof.Gen.Kernel.Skeleton
import proofs.«138442_j46162308497633_2_alg».proof.Proof.Gen.Kernel.Launch
import proofs.«138442_j46162308497633_2_alg».proof.Proof.Gen.Kernel.Points
import proofs.«138442_j46162308497633_2_alg».proof.Proof.Gen.Kernel.Frame
import proofs.«138442_j46162308497633_2_alg».proof.Proof.Gen.KernelIdeal
import proofs.«138442_j46162308497633_2_alg».proof.Proof.Gen.KernelIdeal.Skeleton
import proofs.«138442_j46162308497633_2_alg».proof.Proof.Gen.KernelIdeal.Launch
import proofs.«138442_j46162308497633_2_alg».proof.Proof.Gen.KernelIdeal.Points
import proofs.«138442_j46162308497633_2_alg».proof.Proof.Gen.KernelIdeal.Frame
import proofs.«138442_j46162308497633_2_alg».proof.Proof.Gen.ReferenceIdeal
import proofs.«138442_j46162308497633_2_alg».proof.Proof.Gen.Pre_finite_inputs
import proofs.«138442_j46162308497633_2_alg».proof.Proof.RefRunP
import proofs.«138442_j46162308497633_2_alg».proof.Proof.Final
import proofs.«138442_j46162308497633_2_alg».proof.Defs
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts)
    (hPre_finite_inputs := Cert.Pre_finite_inputs.Gen.facts) :=
  fun m ρ _ => Cert.KernelIdeal.Gen.frame m ρ

theorem frame_reference_ideal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, Cert.Proof.Final.algebraic⟩

end Cert.Proof

end
